-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x32 .f32) (main_arg11 : FVec F S32 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x32 .f32 := Host.absf main_arg10
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x32 .f32) (main_arg11 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x32 .f32) (main_arg11 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩
abbrev S50000x32 : Shape := ⟨2, ![50000, 32]⟩
abbrev S2000x32 : Shape := ⟨2, ![2000, 32]⟩
abbrev S800000x32 : Shape := ⟨2, ![800000, 32]⟩
abbrev S1x32 : Shape := ⟨2, ![1, 32]⟩
abbrev S2000 : Shape := ⟨1, ![2000]⟩

abbrev nBuf : Space → Nat
  | .hbm => 101
  | .vmem => 72
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x32, .f32⟩
  | .hbm, ⟨11, _⟩ => ⟨S32, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S50000x128, .f32⟩
  | .hbm, ⟨85, _⟩ => ⟨S50000x32, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x32, .f32⟩
  | .hbm, ⟨95, _⟩ => ⟨S_, .f32⟩
  | .hbm, ⟨96, _⟩ => ⟨S50000x32, .f32⟩
  | .hbm, ⟨97, _⟩ => ⟨S800000x1, .i32⟩
  | .hbm, ⟨98, _⟩ => ⟨S50000x32, .f32⟩
  | .hbm, ⟨99, _⟩ => ⟨S1x32, .f32⟩
  | .hbm, ⟨100, _⟩ => ⟨S50000x32, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x128, .f32⟩
  | .local _ .vmem, ⟨29, _⟩ => ⟨S2000x1, .f32⟩
  | .local _ .vmem, ⟨30, _⟩ => ⟨S2000x1, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x1, .f32⟩
  | .local _ .vmem, ⟨40, _⟩ => ⟨S2000x1, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S128x32, .f32⟩
  | .local _ .vmem, ⟨57, _⟩ => ⟨S2000x1, .f32⟩
  | .local _ .vmem, ⟨58, _⟩ => ⟨S2000x1, .f32⟩
  | .local _ .vmem, ⟨59, _⟩ => ⟨S2000x128, .f32⟩
  | .local _ .vmem, ⟨60, _⟩ => ⟨S2000x128, .f32⟩
  | .local _ .vmem, ⟨61, _⟩ => ⟨S2000x32, .f32⟩
  | .local _ .vmem, ⟨62, _⟩ => ⟨S2000x32, .f32⟩
  | .local _ .vmem, ⟨63, _⟩ => ⟨S2000x32, .f32⟩
  | .local _ .vmem, ⟨64, _⟩ => ⟨S2000x32, .f32⟩
  | .local _ .vmem, ⟨65, _⟩ => ⟨S2000x32, .f32⟩
  | .local _ .vmem, ⟨66, _⟩ => ⟨S2000x32, .f32⟩
  | .local _ .vmem, ⟨67, _⟩ => ⟨S2000x1, .f32⟩
  | .local _ .vmem, ⟨68, _⟩ => ⟨S2000x1, .f32⟩
  | .local _ .vmem, ⟨69, _⟩ => ⟨S1x32, .f32⟩
  | .local _ .vmem, ⟨70, _⟩ => ⟨S2000x32, .f32⟩
  | .local _ .vmem, ⟨71, _⟩ => ⟨S2000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33_0 : Ref sig .tc := ⟨.hbm, 55, rfl⟩
abbrev main_v33_1 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45_0 : Ref sig .tc := ⟨.hbm, 71, rfl⟩
abbrev main_v45_1 : Ref sig .tc := ⟨.hbm, 72, rfl⟩
abbrev main_v45_2 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54_0 : Ref sig .tc := ⟨.hbm, 84, rfl⟩
abbrev main_v54_1 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_c_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg8_1 : Ref sig .tc := ⟨.vmem, 32, rfl⟩
abbrev cc2_stg9_0 : Ref sig .tc := ⟨.vmem, 33, rfl⟩
abbrev cc2_stg9_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg6_0 : Ref sig .tc := ⟨.vmem, 45, rfl⟩
abbrev cc3_scratch0 : Ref sig .tc := ⟨.vmem, 46, rfl⟩
abbrev cc3_scratch1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_stg7_0 : Ref sig .tc := ⟨.vmem, 57, rfl⟩
abbrev cc4_stg7_1 : Ref sig .tc := ⟨.vmem, 58, rfl⟩
abbrev cc4_stg8_0 : Ref sig .tc := ⟨.vmem, 59, rfl⟩
abbrev cc4_stg8_1 : Ref sig .tc := ⟨.vmem, 60, rfl⟩
abbrev cc4_stg9_0 : Ref sig .tc := ⟨.vmem, 61, rfl⟩
abbrev cc4_stg9_1 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg1_1 : Ref sig .tc := ⟨.vmem, 66, rfl⟩
abbrev cc5_stg2_0 : Ref sig .tc := ⟨.vmem, 67, rfl⟩
abbrev cc5_stg2_1 : Ref sig .tc := ⟨.vmem, 68, rfl⟩
abbrev cc5_stg3_0 : Ref sig .tc := ⟨.vmem, 69, rfl⟩
abbrev cc5_stg4_0 : Ref sig .tc := ⟨.vmem, 70, rfl⟩
abbrev cc5_stg4_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28
abbrev cc2_sem8_0 : DmaSem sig := 29
abbrev cc2_sem8_1 : DmaSem sig := 30
abbrev cc2_sem9_0 : DmaSem sig := 31
abbrev cc2_sem9_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem4_1 : DmaSem sig := 41
abbrev cc3_sem5_0 : DmaSem sig := 42
abbrev cc3_sem6_0 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54
abbrev cc4_sem8_0 : DmaSem sig := 55
abbrev cc4_sem8_1 : DmaSem sig := 56
abbrev cc4_sem9_0 : DmaSem sig := 57
abbrev cc4_sem9_1 : DmaSem sig := 58
abbrev cc5_sem0_0 : DmaSem sig := 59
abbrev cc5_sem0_1 : DmaSem sig := 60
abbrev cc5_sem1_0 : DmaSem sig := 61
abbrev cc5_sem1_1 : DmaSem sig := 62
abbrev cc5_sem2_0 : DmaSem sig := 63
abbrev cc5_sem2_1 : DmaSem sig := 64
abbrev cc5_sem3_0 : DmaSem sig := 65
abbrev cc5_sem4_0 : DmaSem sig := 66
abbrev cc5_sem4_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v33 : BitVec 1 := Scalar.cmpi .eq arg0 c24_i32
  let v34 : BitVec 32 := Scalar.extui v33
  let c0_i32_19 : BitVec 32 := 0#32
  let v35 : BitVec 1 := Scalar.cmpi .ne v34 c0_i32_19
  v35

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v33 : BitVec 1 := Scalar.cmpi .eq arg0 c24_i32
  let v34 : BitVec 32 := Scalar.extui v33
  let c0_i32_19 : BitVec 32 := 0#32
  let v35 : BitVec 1 := Scalar.cmpi .ne v34 c0_i32_19
  v35

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S2000x32 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  reduces_S2000x128_S128 : S2000x128.Reduces [0] S128
  bcast_S_S1x128 : S_.BroadcastsInDim S1x128 (![] : Fin 0 → Fin S1x128.rank)
  inb_S128x32_S128x32_0_0 : ∀ a, (![0, 0] : Fin 2 → Nat) a + S128x32.size a ≤ S128x32.size a
  h_S128x32 : 0 < S128x32.numel
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  bcast_S_S50000x32 : S_.BroadcastsInDim S50000x32 (![] : Fin 0 → Fin S50000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  shapeCasts_S2000x32_S2000x32 : S2000x32.ShapeCasts S2000x32
  reduces_S2000x32_S2000 : S2000x32.Reduces [1] S2000
  shapeCasts_S2000_S2000x1 : S2000.ShapeCasts S2000x1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x32_S2000x32_1_0_0_1_n_n_wf : DotDims.WF S2000x128 S128x32 S2000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S50000x1.size a
  hwx2_7 : ∀ i : grid2.Coords, EltTy.bits .f32 = 32 ∨ (Rect.block (s := S50000x1) S2000x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .f32 = 32 ∨ (Rect.block (s := S50000x128) S2000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x32.size a ≤ S128x32.size a
  hwx4_6 : ∀ i : grid4.Coords, EltTy.bits .f32 = 32 ∨ (Rect.block (s := S128x32) S128x32.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x1.size a ≤ S50000x1.size a
  hwx4_7 : ∀ i : grid4.Coords, EltTy.bits .f32 = 32 ∨ (Rect.block (s := S50000x1) S2000x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x128.size a ≤ S50000x128.size a
  hwx4_8 : ∀ i : grid4.Coords, EltTy.bits .f32 = 32 ∨ (Rect.block (s := S50000x128) S2000x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x32.size a ≤ S50000x32.size a
  hwx4_9 : ∀ i : grid4.Coords, EltTy.bits .f32 = 32 ∨ (Rect.block (s := S50000x32) S2000x32.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S50000x32.size a
  hwx5_0 : ∀ i : grid5.Coords, EltTy.bits .f32 = 32 ∨ (Rect.block (s := S50000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x32.size a ≤ S50000x32.size a
  hwx5_1 : ∀ i : grid5.Coords, EltTy.bits .f32 = 32 ∨ (Rect.block (s := S50000x32) S2000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x32.size a ≤ S50000x32.size a
  hwx5_4 : ∀ i : grid5.Coords, EltTy.bits .f32 = 32 ∨ (Rect.block (s := S50000x32) S2000x32.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v24_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v24_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v11) S2000x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v33_0) S2000x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v33_1) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v43) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33_1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45_0) S2000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v45_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v45_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33_0) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v47) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v52) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v53) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg10) S128x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v11) S2000x1.size cc4_transform_7 reads4_7 false false 2 stage4_7 sem4_7
    hrank4 hreads4_7 hinb4_7 nbuf4_7 (Memref.isWhole_whole _) hwx4_7 hstage4_7

abbrev win4_8 : Pipeline.Window sig grid4 :=
  Pipeline.Window.ofSpec (Memref.whole main_v54_0) S2000x128.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v54_1) S2000x32.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v64) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54_1) S2000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v65) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v66) S2000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 261
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x32, .f32⟩
  | 11 => ⟨S32, .f32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000, .f32⟩
  | 63 => ⟨S50000x1, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S50000x128, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S50000, .f32⟩
  | 113 => ⟨S50000, .f32⟩
  | 114 => ⟨S50000, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000, .f32⟩
  | 5 => ⟨S800000, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x128, .f32⟩
  | 15 => ⟨S800000x1, .f32⟩
  | 16 => ⟨S800000x128, .f32⟩
  | 17 => ⟨S800000x128, .f32⟩
  | 18 => ⟨S_, .f32⟩
  | 19 => ⟨S50000x128, .f32⟩
  | 20 => ⟨S800000x1, .i32⟩
  | 21 => ⟨S50000x128, .f32⟩
  | 22 => ⟨S50000, .f32⟩
  | 23 => ⟨S50000x1, .f32⟩
  | 24 => ⟨S50000x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S128, .f32⟩
  | 32 => ⟨S_, .f32⟩
  | 33 => ⟨S128, .f32⟩
  | 34 => ⟨S128, .f32⟩
  | 35 => ⟨S1x128, .f32⟩
  | 36 => ⟨S50000x128, .f32⟩
  | 37 => ⟨S50000x128, .f32⟩
  | 38 => ⟨S50000x128, .f32⟩
  | 39 => ⟨S_, .f32⟩
  | 40 => ⟨S128, .f32⟩
  | 41 => ⟨S_, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S_, .f32⟩
  | 48 => ⟨S128, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S50000x32, .f32⟩
  | 65 => ⟨S_, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000, .f32⟩
  | 73 => ⟨S50000, .f32⟩
  | 74 => ⟨S50000, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x32, .f32⟩
  | 103 => ⟨S800000x1, .f32⟩
  | 104 => ⟨S800000x32, .f32⟩
  | 105 => ⟨S800000x32, .f32⟩
  | 106 => ⟨S_, .f32⟩
  | 107 => ⟨S50000x32, .f32⟩
  | 108 => ⟨S800000x1, .i32⟩
  | 109 => ⟨S50000x32, .f32⟩
  | 110 => ⟨S50000, .f32⟩
  | 111 => ⟨S50000x1, .f32⟩
  | 112 => ⟨S50000x32, .f32⟩
  | 113 => ⟨S50000x32, .f32⟩
  | 114 => ⟨S50000x32, .f32⟩
  | 115 => ⟨S1x32, .f32⟩
  | 116 => ⟨S50000x32, .f32⟩
  | 117 => ⟨S50000x32, .f32⟩
  | 118 => ⟨S_, .f32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x32, .f32⟩
  | 125 => ⟨S50000x32, .f32⟩
  | 126 => ⟨S50000x32, .f32⟩
  | 127 => ⟨S_, .f32⟩
  | _ => ⟨S50000x128, .f32⟩

abbrev hbmTy0_2 (i : Nat) : BufTy := match i % 128 with
  | 0 => ⟨S50000, .f32⟩
  | 1 => ⟨S50000x1, .f32⟩
  | 2 => ⟨S50000x1, .f32⟩
  | 3 => ⟨S50000x32, .f32⟩
  | 4 => ⟨S50000x32, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call0_cst : Ref sig .tc := ⟨.hbm, 100, rfl⟩
abbrev main_call0_v0 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_13 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_16 : Ref sig .tc := ⟨.hbm, 115, rfl⟩
abbrev main_v83 : Ref sig .tc := ⟨.hbm, 116, rfl⟩
abbrev main_v84 : Ref sig .tc := ⟨.hbm, 117, rfl⟩
abbrev main_c_17 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_18 : Ref sig .tc := ⟨.hbm, 124, rfl⟩
abbrev main_v90 : Ref sig .tc := ⟨.hbm, 125, rfl⟩
abbrev main_v91 : Ref sig .tc := ⟨.hbm, 126, rfl⟩
abbrev main_c_19 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_20 : Ref sig .tc := ⟨.hbm, 134, rfl⟩
abbrev main_v98 : Ref sig .tc := ⟨.hbm, 135, rfl⟩
abbrev main_v99 : Ref sig .tc := ⟨.hbm, 136, rfl⟩
abbrev main_c_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_22 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_23 : Ref sig .tc := ⟨.hbm, 158, rfl⟩
abbrev main_v119 : Ref sig .tc := ⟨.hbm, 159, rfl⟩
abbrev main_cst_24 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_25 : Ref sig .tc := ⟨.hbm, 167, rfl⟩
abbrev main_v126 : Ref sig .tc := ⟨.hbm, 168, rfl⟩
abbrev main_cst_26 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_27 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_call1_cst : Ref sig .tc := ⟨.hbm, 188, rfl⟩
abbrev main_call1_v0 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_28 : Ref sig .tc := ⟨.hbm, 193, rfl⟩
abbrev main_v147 : Ref sig .tc := ⟨.hbm, 194, rfl⟩
abbrev main_cst_29 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_30 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_c_31 : Ref sig .tc := ⟨.hbm, 203, rfl⟩
abbrev main_v154 : Ref sig .tc := ⟨.hbm, 204, rfl⟩
abbrev main_v155 : Ref sig .tc := ⟨.hbm, 205, rfl⟩
abbrev main_c_32 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_c_33 : Ref sig .tc := ⟨.hbm, 212, rfl⟩
abbrev main_v161 : Ref sig .tc := ⟨.hbm, 213, rfl⟩
abbrev main_v162 : Ref sig .tc := ⟨.hbm, 214, rfl⟩
abbrev main_c_34 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_c_35 : Ref sig .tc := ⟨.hbm, 222, rfl⟩
abbrev main_v169 : Ref sig .tc := ⟨.hbm, 223, rfl⟩
abbrev main_v170 : Ref sig .tc := ⟨.hbm, 224, rfl⟩
abbrev main_c_36 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_37 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_call2_cst : Ref sig .tc := ⟨.hbm, 246, rfl⟩
abbrev main_call2_v0 : Ref sig .tc := ⟨.hbm, 247, rfl⟩
abbrev main_call2_cst_0 : Ref sig .tc := ⟨.hbm, 248, rfl⟩
abbrev main_call2_v1 : Ref sig .tc := ⟨.hbm, 249, rfl⟩
abbrev main_call2_v2 : Ref sig .tc := ⟨.hbm, 250, rfl⟩
abbrev main_call2_v3 : Ref sig .tc := ⟨.hbm, 251, rfl⟩
abbrev main_call2_v4 : Ref sig .tc := ⟨.hbm, 252, rfl⟩
abbrev main_call2_v5 : Ref sig .tc := ⟨.hbm, 253, rfl⟩
abbrev main_call2_v6 : Ref sig .tc := ⟨.hbm, 254, rfl⟩
abbrev main_call2_cst_1 : Ref sig .tc := ⟨.hbm, 255, rfl⟩
abbrev main_call2_v7 : Ref sig .tc := ⟨.hbm, 256, rfl⟩
abbrev main_call2_v8 : Ref sig .tc := ⟨.hbm, 257, rfl⟩
abbrev main_call2_v9 : Ref sig .tc := ⟨.hbm, 258, rfl⟩
abbrev main_call2_v10 : Ref sig .tc := ⟨.hbm, 259, rfl⟩
abbrev main_v190 : Ref sig .tc := ⟨.hbm, 260, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x32_S50000x32_1_0_0_1_n_n_wf : DotDims.WF S50000x128 S128x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.K.R0.lean ====
import proofs.«182147_j31610959298973_2_alg».proof.Proof.Gen.Kernel
import proofs.«182147_j31610959298973_2_alg».proof.Proof.Gen.Kernel.Skeleton
import proofs.«182147_j31610959298973_2_alg».proof.Proof.Gen.Kernel.Launch
import proofs.«182147_j31610959298973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 of the main program, at a parameter `V` (the buffer contents when the region is entered):
each window's block at a grid point, what the body leaves in each output block as a function of the
input blocks, the body's triple, the proof data of the pipeline and its body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not
    fetched the block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1 (the weight matrix: one block, the same at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S2000x1 := Rect.unit (s := S2000x1) ![0, 0] S2000x1.size inb_S2000x1_S2000x1_0_0

/-! ## What the body leaves in the output window's buffer -/

/-- Window 3's buffer after the body, from the input windows' blocks `x0` (rows of x), `x1` (the weight
    matrix) and `x2` (the rows' scale factors): its one store, (x0 · x1) scaled row by row by x2. -/
def out0_3 (x0 : Vec F S2000x128 .f32) (x1 : Vec F S128x128 .f32) (x2 : Vec F S2000x1 .f32) : Vec F S2000x128 .f32 :=
  View.canon [⟨r0_0, k0_pay1 (View.ld x0 r0_0) (View.ld x1 r0_1) (View.ld x2 r0_2)⟩]

/-- The store covers the buffer. -/
theorem cover0_3 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The body on whole buffers, the inputs' at read contents `x0 x1 x2` and the output's at anything, runs to the
    continuation holding the inputs' as they were and the output's at `out0_3` of the inputs'. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .f32) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
import proofs.«182147_j31610959298973_2_alg».proof.Proof.Gen.Kernel
import proofs.«182147_j31610959298973_2_alg».proof.Proof.Gen.Kernel.Skeleton
import proofs.«182147_j31610959298973_2_alg».proof.Proof.Gen.Kernel.Launch
import proofs.«182147_j31610959298973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1 (the convolution epilogue with column sums): what its three control cases share

The body adds the aggregated and the self term, scales by the degree factor, adds the bias, stores that block,
and accumulates the block's column sums and column sums of squares in two scratch rows: reset at the first grid
point, copied to the two row outputs at the last. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The zero offsets of a whole-buffer access, however spelt. -/
theorem hz1 : (![0, 0] : Fin 2 → Nat) = fun _ => 0 := funext fun a => by fin_cases a <;> rfl

/-- The condition of the body's first `scf.if` (the reset of the two accumulators), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition of the body's second `scf.if` (the copy of the accumulators to the row outputs). -/
abbrev cond1_1 (i : grid1.Coords) : Prop := k1_cond2 i = 1#1
/-- It holds at the last point only. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last point row output 5 is idle and is not written back; at the last point it is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
/-- Away from the last point row output 6 is idle and is not written back; at the last point it is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The staging and scratch memrefs -/

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
/-- The two scratch rows: whole scoped buffers of the kernel's own, passed beside the windows. -/
abbrev scM1_0 : Memref sig .tc .vmem S1x128 .f32 := Memref.whole cc1_scratch0
abbrev scM1_1 : Memref sig .tc .vmem S1x128 .f32 := Memref.whole cc1_scratch1

/-- The scoped buffers of the core that are neither a staging buffer of this region nor its two scratch rows. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The class invariant with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 (F := F) c) ∗ (∃ r, prngReg c r)) := by
  unfold Pipeline.ΦA; rw [scopedRest1_split]; simp only [scM1_0, scM1_1, owns_whole]; rfl

end Cert.Kernel.Hand

end
-- ==== Proof.K.R1A.lean ====
import proofs.«182147_j31610959298973_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1, the first grid point: the body's run -/

set_option maxHeartbeats 1000000 in
/-- The body at the first point: the two scratch rows at anything (the body resets them before it reads them). -/
noncomputable def kernelRun1_A (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) :
    Σ' (L4 : List (View.Piece (Elt F) S2000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.R1B.lean ====
import proofs.«182147_j31610959298973_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1, a middle grid point: the body's run -/

set_option maxHeartbeats 1000000 in
/-- The body at a point that is neither the first nor the last: on whole staging memrefs — the inputs' at their
    blocks, the block output's at anything, the two row outputs' (idle here) at contents handed back untouched, the two
    scratch rows at what the point before left — it runs to the continuation holding the inputs' as they were, the
    block output's and the two scratch rows' with the found pieces written. -/
noncomputable def kernelRun1_B (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.R1C.lean ====
import proofs.«182147_j31610959298973_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1, the last grid point: the body's run -/

set_option maxHeartbeats 1000000 in
/-- The body at the last point: as at a middle point, and then the two scratch rows are copied into the two row
    outputs, whose buffers are taken at anything. -/
noncomputable def kernelRun1_C (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.R1.lean ====
import proofs.«182147_j31610959298973_2_alg».proof.Proof.K.R1A
import proofs.«182147_j31610959298973_2_alg».proof.Proof.K.R1B
import proofs.«182147_j31610959298973_2_alg».proof.Proof.K.R1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1: the proof data, the body obligation, and what the region leaves

## Reading back what the runs leave -/

/-- A store through the whole-shape rectangle at zero offsets, last, leaves its payload, whatever the buffer held
    and whatever the earlier stores were. -/
theorem read_writes_unit_zero1 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-! ### A middle point -/

theorem valB1_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S2000x128 .f32) (f : v.ty.Contents (Elt F)) :
    v.read (Elt F) (v.writes (Elt F) f (kernelRun1_B c i arg1 harg1 arg2 harg2 arg3 harg3 arg4 harg4 arg5 harg5 arg6 harg6 arg7 harg7 arg8 harg8 arg9 harg9 hc0 hc1 x0 x1 x2 x3 xs0 xs1).1) = k1_pay3 x3 x2 x0 x1 := by
  unfold kernelRun1_B
  dsimp only
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1]

theorem valB1_S0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun1_B c i arg1 harg1 arg2 harg2 arg3 harg3 arg4 harg4 arg5 harg5 arg6 harg6 arg7 harg7 arg8 harg8 arg9 harg9 hc0 hc1 x0 x1 x2 x3 xs0 xs1).2.1) = k1_pay4 x3 x2 x0 x1 xs0 := by
  unfold kernelRun1_B
  dsimp only
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1]

theorem valB1_S1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun1_B c i arg1 harg1 arg2 harg2 arg3 harg3 arg4 harg4 arg5 harg5 arg6 harg6 arg7 harg7 arg8 harg8 arg9 harg9 hc0 hc1 x0 x1 x2 x3 xs0 xs1).2.2.1) = k1_pay5 x3 x2 x0 x1 xs1 := by
  unfold kernelRun1_B
  dsimp only
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1]

/-! ### The first point -/

theorem valA1_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32)
    (v : View sig .tc .vmem S2000x128 .f32) (f : v.ty.Contents (Elt F)) :
    v.read (Elt F) (v.writes (Elt F) f (kernelRun1_A c i arg1 harg1 arg2 harg2 arg3 harg3 arg4 harg4 arg5 harg5 arg6 harg6 arg7 harg7 arg8 harg8 arg9 harg9 hc0 hc1 x0 x1 x2 x3).1) = k1_pay3 x3 x2 x0 x1 := by
  unfold kernelRun1_A
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

theorem valA1_S0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32)
    (v : View sig .tc .vmem S1x128 .f32) (f : v.ty.Contents (Elt F)) :
    v.read (Elt F) (v.writes (Elt F) f (kernelRun1_A c i arg1 harg1 arg2 harg2 arg3 harg3 arg4 harg4 arg5 harg5 arg6 harg6 arg7 harg7 arg8 harg8 arg9 harg9 hc0 hc1 x0 x1 x2 x3).2.1) = k1_pay4 x3 x2 x0 x1 k1_pay1 := by
  unfold kernelRun1_A
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

theorem valA1_S1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32)
    (v : View sig .tc .vmem S1x128 .f32) (f : v.ty.Contents (Elt F)) :
    v.read (Elt F) (v.writes (Elt F) f (kernelRun1_A c i arg1 harg1 arg2 harg2 arg3 harg3 arg4 harg4 arg5 harg5 arg6 harg6 arg7 harg7 arg8 harg8 arg9 harg9 hc0 hc1 x0 x1 x2 x3).2.2.1) = k1_pay5 x3 x2 x0 x1 k1_pay2 := by
  unfold kernelRun1_A
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

/-! ### The last point -/

theorem valC1_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S2000x128 .f32) (f : v.ty.Contents (Elt F)) :
    v.read (Elt F) (v.writes (Elt F) f (kernelRun1_C c i arg1 harg1 arg2 harg2 arg3 harg3 arg4 harg4 arg5 harg5 arg6 harg6 arg7 harg7 arg8 harg8 arg9 harg9 hc0 hc1 x0 x1 x2 x3 xs0 xs1).1) = k1_pay3 x3 x2 x0 x1 := by
  unfold kernelRun1_C
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

theorem valC1_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun1_C c i arg1 harg1 arg2 harg2 arg3 harg3 arg4 harg4 arg5 harg5 arg6 harg6 arg7 harg7 arg8 harg8 arg9 harg9 hc0 hc1 x0 x1 x2 x3 xs0 xs1).2.1) = k1_pay4 x3 x2 x0 x1 xs0 := by
  unfold kernelRun1_C
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

theorem valC1_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun1_C c i arg1 harg1 arg2 harg2 arg3 harg3 arg4 harg4 arg5 harg5 arg6 harg6 arg7 harg7 arg8 harg8 arg9 harg9 hc0 hc1 x0 x1 x2 x3 xs0 xs1).2.2.1) = k1_pay5 x3 x2 x0 x1 xs1 := by
  unfold kernelRun1_C
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

theorem valC1_S0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun1_C c i arg1 harg1 arg2 harg2 arg3 harg3 arg4 harg4 arg5 harg5 arg6 harg6 arg7 harg7 arg8 harg8 arg9 harg9 hc0 hc1 x0 x1 x2 x3 xs0 xs1).2.2.2.1) = k1_pay4 x3 x2 x0 x1 xs0 := by
  unfold kernelRun1_C
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

theorem valC1_S1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun1_C c i arg1 harg1 arg2 harg2 arg3 harg3 arg4 harg4 arg5 harg5 arg6 harg6 arg7 harg7 arg8 harg8 arg9 harg9 hc0 hc1 x0 x1 x2 x3 xs0 xs1).2.2.2.2.1) = k1_pay5 x3 x2 x0 x1 xs1 := by
  unfold kernelRun1_C
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

/-! ## The two accumulators, point by point -/

/-- The column-sum row after the body at point `n`: reset to zero at the first point, then each point adds its block's column sums. -/
def sumAcc1 (c : Dev nD) : (n : ℕ) → n < cfg1.N → Vec F S1x128 .f32
  | 0, h => k1_pay4 (iblk1 V c 3 ⟨0, h⟩) (iblk1 V c 2 ⟨0, h⟩) (iblk1 V c 0 ⟨0, h⟩) (iblk1 V c 1 ⟨0, h⟩) k1_pay1
  | n + 1, h => k1_pay4 (iblk1 V c 3 ⟨n + 1, h⟩) (iblk1 V c 2 ⟨n + 1, h⟩) (iblk1 V c 0 ⟨n + 1, h⟩) (iblk1 V c 1 ⟨n + 1, h⟩) (sumAcc1 c n (Nat.lt_of_succ_lt h))

/-- At the first point: the reset row, then this point's contribution. -/
theorem sumAcc1_zero (c : Dev nD) (t : Fin cfg1.N) (h0 : t.val = 0) :
    sumAcc1 V c t.val t.isLt = k1_pay4 (iblk1 V c 3 t) (iblk1 V c 2 t) (iblk1 V c 0 t) (iblk1 V c 1 t) k1_pay1 := by
  obtain ⟨n, hn⟩ := t
  cases n with
  | zero => rfl
  | succ n => exact absurd h0 (Nat.succ_ne_zero n)

/-- At a later point: what the point before left, then this point's contribution. -/
theorem sumAcc1_pos (c : Dev nD) (t : Fin cfg1.N) (h0 : t.val ≠ 0) :
    sumAcc1 V c t.val t.isLt = k1_pay4 (iblk1 V c 3 t) (iblk1 V c 2 t) (iblk1 V c 0 t) (iblk1 V c 1 t) (sumAcc1 V c (t.val - 1) (Nat.lt_of_le_of_lt (Nat.sub_le _ _) t.isLt)) := by
  obtain ⟨n, hn⟩ := t
  cases n with
  | zero => exact absurd rfl h0
  | succ n => rfl

/-- The column-sum-of-squares row after the body at point `n`, likewise. -/
def sqAcc1 (c : Dev nD) : (n : ℕ) → n < cfg1.N → Vec F S1x128 .f32
  | 0, h => k1_pay5 (iblk1 V c 3 ⟨0, h⟩) (iblk1 V c 2 ⟨0, h⟩) (iblk1 V c 0 ⟨0, h⟩) (iblk1 V c 1 ⟨0, h⟩) k1_pay2
  | n + 1, h => k1_pay5 (iblk1 V c 3 ⟨n + 1, h⟩) (iblk1 V c 2 ⟨n + 1, h⟩) (iblk1 V c 0 ⟨n + 1, h⟩) (iblk1 V c 1 ⟨n + 1, h⟩) (sqAcc1 c n (Nat.lt_of_succ_lt h))

/-- At the first point: the reset row, then this point's contribution. -/
theorem sqAcc1_zero (c : Dev nD) (t : Fin cfg1.N) (h0 : t.val = 0) :
    sqAcc1 V c t.val t.isLt = k1_pay5 (iblk1 V c 3 t) (iblk1 V c 2 t) (iblk1 V c 0 t) (iblk1 V c 1 t) k1_pay2 := by
  obtain ⟨n, hn⟩ := t
  cases n with
  | zero => rfl
  | succ n => exact absurd h0 (Nat.succ_ne_zero n)

/-- At a later point: what the point before left, then this point's contribution. -/
theorem sqAcc1_pos (c : Dev nD) (t : Fin cfg1.N) (h0 : t.val ≠ 0) :
    sqAcc1 V c t.val t.isLt = k1_pay5 (iblk1 V c 3 t) (iblk1 V c 2 t) (iblk1 V c 0 t) (iblk1 V c 1 t) (sqAcc1 V c (t.val - 1) (Nat.lt_of_le_of_lt (Nat.sub_le _ _) t.isLt)) := by
  obtain ⟨n, hn⟩ := t
  cases n with
  | zero => exact absurd rfl h0
  | succ n => rfl

/-! ## The region invariant -/

/-- Before point `n`: at the first point the class invariant (every scoped buffer that is no staging buffer at
    anything, the generator register at some state); afterwards the two scratch rows at what the point before left in
    them, the other such buffers at anything, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (sumAcc1 V c n hn) ∗ owns (c : Thread nD τ) scM1_1 fullShare (sqAcc1 V c n hn)) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (sumAcc1 V c n hn) ∗ owns (c : Thread nD τ) scM1_1 fullShare (sqAcc1 V c n hn)) ∗ restBut1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (sumAcc1 V c (n - 1) (by omega)) ∗ owns (c : Thread nD τ) scM1_1 fullShare (sqAcc1 V c (n - 1) (by omega))) ∗ restBut1 (F := F) c) ∗ (∃ r, prngReg c r)) := by
  cases n with
  | zero => exact absurd rfl hz
  | succ n => rfl

/-! ## The pipeline's proof data -/

/-- The proof data of region 1 on core `c`: the arrays as the region finds them (`V`); after the body at point `t`
    each input's buffer at its block, the block output's at the epilogue of the input blocks, the two row outputs' at
    the two accumulators (read only at the last point: elsewhere the windows are idle); the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (iblk1 V c 3 t) (iblk1 V c 2 t) (iblk1 V c 0 t) (iblk1 V c 1 t)
    | ⟨5, _⟩ => sumAcc1 V c t.val t.isLt
    | ⟨6, _⟩ => sqAcc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- The block output after the body: the epilogue of the bias, the degree factor, the aggregated and the self block. -/
theorem after1_4 (c : Dev nD) (t : Fin cfg1.N) : (dat1 V c).after 4 t = k1_pay3 (iblk1 V c 3 t) (iblk1 V c 2 t) (iblk1 V c 0 t) (iblk1 V c 1 t) := by dsimp only [dat1]
theorem after1_5 (c : Dev nD) (t : Fin cfg1.N) : (dat1 V c).after 5 t = sumAcc1 V c t.val t.isLt := by dsimp only [dat1]
theorem after1_6 (c : Dev nD) (t : Fin cfg1.N) : (dat1 V c).after 6 t = sqAcc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the grid coordinate says which of the three control
    cases the point is in; the invariant hands the body the two scratch rows (at anything at the first point, at what
    the point before left afterwards) and takes them back at this point's contents; a row output is handed back
    untouched where it is idle and holds the accumulator's copy at the last point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 25 = 0
  · have hz : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 5 t (idleAt1_5 t hc1) (noFlush1_5 t hc1),
      Dat.leavesExact_idle (dat1 V c) 6 t (idleAt1_6 t hc1) (noFlush1_6 t hc1)]
    rw [sumAcc1_zero V c t hz, sqAcc1_zero V c t hz]
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ hc0 hc1 (iblk1 V c 0 t) (iblk1 V c 1 t) (iblk1 V c 2 t) (iblk1 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact valA1_S0 ..
          · unfold owns; iexists _; isplitr
            swap; · iexact HS1
            ipureintro; exact valA1_S1 ..
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact valA1_4 ..
    isplitl [H5]; · iexists _; iexact H5
    iexists _; iexact H6
  · have hpos : t.val ≠ 0 := by omega
    have hc0 : ¬cond1_0 (grid1.coords t) := fun h => h0 ((hcond1_0 t).mp h)
    by_cases h1 : t.val % 25 = 24
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      rw [show (dat1 V c).leavesExact 6 t = owns (c : Thread nD τ) (ms1_6 t) fullShare ((dat1 V c).after 6 t) from by
        unfold Dat.leavesExact; rw [liveAt1_6 t hc1], after1_6]
      rw [sumAcc1_pos V c t hpos, sqAcc1_pos V c t hpos]
      rw [PhiS1_castSucc V c t, PhiS1_pos V c _ _ hpos]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ hc0 hc1 (iblk1 V c 0 t) (iblk1 V c 1 t) (iblk1 V c 2 t) (iblk1 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact valC1_S0 ..
            · unfold owns; iexists _; isplitr
              swap; · iexact HS1
              ipureintro; exact valC1_S1 ..
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact valC1_4 ..
      isplitl [H5]
      · unfold owns; iexists _; isplitr
        swap; · iexact H5
        ipureintro; exact valC1_5 ..
      · unfold owns; iexists _; isplitr
        swap; · iexact H6
        ipureintro; exact valC1_6 ..
    · have hc1 : ¬cond1_1 (grid1.coords t) := fun h => h1 ((hcond1_1 t).mp h)
      rw [Dat.leavesExact_idle (dat1 V c) 5 t (idleAt1_5 t hc1) (noFlush1_5 t hc1),
        Dat.leavesExact_idle (dat1 V c) 6 t (idleAt1_6 t hc1) (noFlush1_6 t hc1)]
      rw [sumAcc1_pos V c t hpos, sqAcc1_pos V c t hpos]
      rw [PhiS1_castSucc V c t, PhiS1_pos V c _ _ hpos]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ hc0 hc1 (iblk1 V c 0 t) (iblk1 V c 1 t) (iblk1 V c 2 t) (iblk1 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact valB1_S0 ..
            · unfold owns; iexists _; isplitr
              swap; · iexact HS1
              ipureintro; exact valB1_S1 ..
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact valB1_4 ..
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the region and out of it -/

/-- What the region is entered with — the generator register at some state, no prefetched table, and the scoped buffers
    no window stages — is the invariant before the first point. -/
theorem hin1 (c : Dev nD) :
    (iprop((∃ r, prngReg c r) ∗ Pipeline.prefHeld (pcfgs (F := F) 1).pre c (fun _ => fullShare) ((cfgs 1).toPCfg_adm).1 ∗ Pipeline.scopedRest spec1 c) : sProp 𝕄)
      ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

/-- After the last point the invariant gives them back: the two scratch rows' named contents are forgotten. -/
theorem hout1 (c : Dev nD) :
    (dat1 V c).Φ (Fin.last cfg1.N)
      ⊢ (iprop((∃ r, prngReg c r) ∗ Pipeline.ownSems0 (fun k : PEmpty => k.elim) c ∗ Pipeline.scopedRest spec1 c) : sProp 𝕄) := by
  rw [Pipeline.ownSems0_none, scopedRest1_split,
    show (dat1 V c).Φ (Fin.last cfg1.N) = PhiS1 V c (Fin.last cfg1.N).val (Nat.le_of_lt_succ (Fin.last cfg1.N).isLt) from rfl,
    PhiS1_pos V c _ _ (by rw [Fin.val_last]; have : cfg1.N = 25 := N_1; omega)]
  simp only [scM1_0, scM1_1, owns_whole]
  iintro ⟨⟨⟨HS0, HS1⟩, Hrest⟩, Hg⟩
  isplitl [Hg]; · iexact Hg
  isplitr; · iempintro
  isplitl [HS0 HS1]
  · isplitl [HS0]
    · iexists _; iexact HS0
    iexists _; iexact HS1
  iexact Hrest

/-! ## What the two row outputs hold after the last point -/

theorem after1_5_last (c : Dev nD) (h : 24 < cfg1.N) : (dat1 V c).after 5 ⟨24, h⟩ = sumAcc1 V c 24 h := after1_5 V c ⟨24, h⟩
theorem after1_6_last (c : Dev nD) (h : 24 < cfg1.N) : (dat1 V c).after 6 ⟨24, h⟩ = sqAcc1 V c 24 h := after1_6 V c ⟨24, h⟩

end Cert.Kernel.Hand

end
-- ==== Proof.K.R2.lean ====
import proofs.«182147_j31610959298973_2_alg».proof.Proof.Gen.Kernel
import proofs.«182147_j31610959298973_2_alg».proof.Proof.Gen.Kernel.Skeleton
import proofs.«182147_j31610959298973_2_alg».proof.Proof.Gen.Kernel.Launch
import proofs.«182147_j31610959298973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2 of the main program, at a parameter `V` (the buffer contents when the region is entered):
each window's block at a grid point, what the body leaves in each output block as a function of the
input blocks, the body's triple, the proof data of the pipeline and its body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: where it is not
    fetched the block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same of input window 2 (a statistics row: one block, the same at every point). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The same of input window 3 (one block). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The same of input window 4 (one block). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The same of input window 5 (one block). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The same of input window 6 (the weight matrix: one block). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The same of input window 7. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0
abbrev r2_2 : Rect S128x128 := Rect.unit (s := S128x128) ![0, 0] S128x128.size inb_S128x128_S128x128_0_0
abbrev r2_3 : Rect S2000x1 := Rect.unit (s := S2000x1) ![0, 0] S2000x1.size inb_S2000x1_S2000x1_0_0

/-! ## What the body leaves in each output window's buffer -/

/-- Window 8's buffer after the body, from the input windows' blocks (`x0` the rows to normalise, `x1` the
    residual rows, `x2 … x5` the mean, variance, scale and shift rows, `x6` the weight matrix, `x7` the rows'
    scale factors): its one store, relu of the normalised rows plus the residual. -/
def out2_8 (x0 : Vec F S2000x128 .f32) (x1 : Vec F S2000x128 .f32) (x2 : Vec F S1x128 .f32) (x3 : Vec F S1x128 .f32)
    (x4 : Vec F S1x128 .f32) (x5 : Vec F S1x128 .f32) (x6 : Vec F S128x128 .f32) (x7 : Vec F S2000x1 .f32) : Vec F S2000x128 .f32 :=
  View.canon [⟨r2_0, k2_pay2 (View.ld x2 r2_1) (View.ld x3 r2_1) (View.ld x4 r2_1) (View.ld x5 r2_1) (View.ld x0 r2_0) (View.ld x1 r2_0)⟩]

/-- Window 9's buffer after the body: its one store, that value times the weight matrix, scaled row by row. -/
def out2_9 (x0 : Vec F S2000x128 .f32) (x1 : Vec F S2000x128 .f32) (x2 : Vec F S1x128 .f32) (x3 : Vec F S1x128 .f32)
    (x4 : Vec F S1x128 .f32) (x5 : Vec F S1x128 .f32) (x6 : Vec F S128x128 .f32) (x7 : Vec F S2000x1 .f32) : Vec F S2000x128 .f32 :=
  View.canon [⟨r2_0, k2_pay1 (k2_pay3 (View.ld x2 r2_1) (View.ld x3 r2_1) (View.ld x4 r2_1) (View.ld x5 r2_1) (View.ld x0 r2_0) (View.ld x1 r2_0) (View.ld x6 r2_2)) (k2_pay4 (View.ld x7 r2_3))⟩]

/-- Each store covers its buffer. -/
theorem cover2_8 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

theorem cover2_9 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The body on whole buffers, the inputs' at read contents `x0 … x7` and the outputs' at anything, runs to the
    continuation holding the inputs' as they were and each output's at `out2_W` of the inputs'. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S128x128 .f32) (harg7 : arg7.IsWhole) (arg8 : Memref sig .tc .vmem S2000x1 .f32) (harg8 : arg8.IsWhole)
    (arg9 : Memref sig .tc .vmem S2000x128 .f32) (harg9 : arg9.IsWhole) (arg10 : Memref sig .tc .vmem S2000x128 .f32) (harg10 : arg10.IsWhole)
    (x0 : Vec F S2000x128 .f32) (x1 : Vec F S2000x128 .f32) (x2 : Vec F S1x128 .f32) (x3 : Vec F S1x128 .f32)
    (x4 : Vec F S1x128 .f32) (x5 : Vec F S1x128 .f32) (x6 : Vec F S128x128 .f32) (x7 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)
            ∗ owns (c : Thread nD τ) arg10 fullShare (out2_9 x0 x1 x2 x3 x4 x5 x6 x7)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8 arg9 harg9 arg10 harg10) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover2_8 _)
  iexists _; isplitr
  swap; · iexact H9
  ipureintro
  try dsimp only
  exact View.read_writes_eq_canon _ _ _ (cover2_9 _)

/-! ## The pipeline's proof data -/

/-- The proof data of pipeline 2 on core `c`: the arrays as the region finds them; after the body at point `t`
    each input's buffer at its block and each output's at `out2_W` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
    | ⟨9, _⟩ => out2_9 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by
  dsimp only [dat2]
theorem after2_9 (c : Dev nD) (t : Fin cfg2.N) :
    (dat2 V c).after 9 t = out2_9 (iblk2 V c 0 t) (iblk2 V c 1 t) (iblk2 V c 2 t) (iblk2 V c 3 t) (iblk2 V c 4 t) (iblk2 V c 5 t) (iblk2 V c 6 t) (iblk2 V c 7 t) := by
  dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so `sound_kernel2` applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3Runs.lean ====
import proofs.«182147_j31610959298973_2_alg».proof.Proof.Gen.Kernel
import proofs.«182147_j31610959298973_2_alg».proof.Proof.Gen.Kernel.Skeleton
import proofs.«182147_j31610959298973_2_alg».proof.Proof.Gen.Kernel.Launch
import proofs.«182147_j31610959298973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3 (the convolution epilogue with column sums): what its three control cases share

The body adds the aggregated and the self term, scales by the degree factor, adds the bias, stores that block,
and accumulates the block's column sums and column sums of squares in two scratch rows: reset at the first grid
point, copied to the two row outputs at the last. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The zero offsets of a whole-buffer access, however spelt. -/
theorem hz3 : (![0, 0] : Fin 2 → Nat) = fun _ => 0 := funext fun a => by fin_cases a <;> rfl

/-- The condition of the body's first `scf.if` (the reset of the two accumulators), from the grid coordinate. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 25 = 0 :=
  (by decide +kernel : ∀ t : Fin grid3.N, cond3_0 (grid3.coords t) ↔ t.val % 25 = 0)

/-- The condition of the body's second `scf.if` (the copy of the accumulators to the row outputs). -/
abbrev cond3_1 (i : grid3.Coords) : Prop := k3_cond2 i = 1#1
/-- It holds at the last point only. -/
theorem hcond3_1 : ∀ t : Fin cfg3.N, cond3_1 (grid3.coords t) ↔ t.val % 25 = 24 :=
  (by decide +kernel : ∀ t : Fin grid3.N, cond3_1 (grid3.coords t) ↔ t.val % 25 = 24)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Away from the last point row output 5 is idle and is not written back; at the last point it is live. -/
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel
/-- Away from the last point row output 6 is idle and is not written back; at the last point it is live. -/
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
theorem liveAt3_6 : ∀ t : Fin cfg3.N, cond3_1 (grid3.coords t) → cfg3.idle 6 (grid3.coords t) = false := by decide +kernel

/-! ## The staging and scratch memrefs -/

abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2000x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
/-- The two scratch rows: whole scoped buffers of the kernel's own, passed beside the windows. -/
abbrev scM3_0 : Memref sig .tc .vmem S1x128 .f32 := Memref.whole cc3_scratch0
abbrev scM3_1 : Memref sig .tc .vmem S1x128 .f32 := Memref.whole cc3_scratch1

/-- The scoped buffers of the core that are neither a staging buffer of this region nor its two scratch rows. -/
abbrev restBut3 (c : Dev nD) : sProp 𝕄 :=
  Pipeline.scopedRestBut (Ix := Unit) (Name := ℕ) (U := UR sig nD τ) (Lvl := ℕ) (Val := Elt F) spec3 c [cc3_scratch0, cc3_scratch1]

/-- The class invariant with the two scratch rows as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ restBut3 (F := F) c) ∗ (∃ r, prngReg c r)) := by
  unfold Pipeline.ΦA; rw [scopedRest3_split]; simp only [scM3_0, scM3_1, owns_whole]; rfl

end Cert.Kernel.Hand

end
-- ==== Proof.K.R3A.lean ====
import proofs.«182147_j31610959298973_2_alg».proof.Proof.K.R3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3, the first grid point: the body's run -/

set_option maxHeartbeats 1000000 in
/-- The body at the first point: the two scratch rows at anything (the body resets them before it reads them). -/
noncomputable def kernelRun3_A (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) :
    Σ' (L4 : List (View.Piece (Elt F) S2000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.R3B.lean ====
import proofs.«182147_j31610959298973_2_alg».proof.Proof.K.R3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3, a middle grid point: the body's run -/

set_option maxHeartbeats 1000000 in
/-- The body at a point that is neither the first nor the last: on whole staging memrefs — the inputs' at their
    blocks, the block output's at anything, the two row outputs' (idle here) at contents handed back untouched, the two
    scratch rows at what the point before left — it runs to the continuation holding the inputs' as they were, the
    block output's and the two scratch rows' with the found pieces written. -/
noncomputable def kernelRun3_B (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.R3C.lean ====
import proofs.«182147_j31610959298973_2_alg».proof.Proof.K.R3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3, the last grid point: the body's run -/

set_option maxHeartbeats 1000000 in
/-- The body at the last point: as at a middle point, and then the two scratch rows are copied into the two row
    outputs, whose buffers are taken at anything. -/
noncomputable def kernelRun3_C (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.R3.lean ====
import proofs.«182147_j31610959298973_2_alg».proof.Proof.K.R3A
import proofs.«182147_j31610959298973_2_alg».proof.Proof.K.R3B
import proofs.«182147_j31610959298973_2_alg».proof.Proof.K.R3C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3: the proof data, the body obligation, and what the region leaves

## Reading back what the runs leave -/

/-- A store through the whole-shape rectangle at zero offsets, last, leaves its payload, whatever the buffer held
    and whatever the earlier stores were. -/
theorem read_writes_unit_zero3 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-! ### A middle point -/

theorem valB3_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S2000x128 .f32) (f : v.ty.Contents (Elt F)) :
    v.read (Elt F) (v.writes (Elt F) f (kernelRun3_B c i arg1 harg1 arg2 harg2 arg3 harg3 arg4 harg4 arg5 harg5 arg6 harg6 arg7 harg7 arg8 harg8 arg9 harg9 hc0 hc1 x0 x1 x2 x3 xs0 xs1).1) = k3_pay3 x3 x2 x0 x1 := by
  unfold kernelRun3_B
  dsimp only
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3]

theorem valB3_S0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun3_B c i arg1 harg1 arg2 harg2 arg3 harg3 arg4 harg4 arg5 harg5 arg6 harg6 arg7 harg7 arg8 harg8 arg9 harg9 hc0 hc1 x0 x1 x2 x3 xs0 xs1).2.1) = k3_pay4 x3 x2 x0 x1 xs0 := by
  unfold kernelRun3_B
  dsimp only
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3]

theorem valB3_S1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun3_B c i arg1 harg1 arg2 harg2 arg3 harg3 arg4 harg4 arg5 harg5 arg6 harg6 arg7 harg7 arg8 harg8 arg9 harg9 hc0 hc1 x0 x1 x2 x3 xs0 xs1).2.2.1) = k3_pay5 x3 x2 x0 x1 xs1 := by
  unfold kernelRun3_B
  dsimp only
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3]

/-! ### The first point -/

theorem valA3_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32)
    (v : View sig .tc .vmem S2000x128 .f32) (f : v.ty.Contents (Elt F)) :
    v.read (Elt F) (v.writes (Elt F) f (kernelRun3_A c i arg1 harg1 arg2 harg2 arg3 harg3 arg4 harg4 arg5 harg5 arg6 harg6 arg7 harg7 arg8 harg8 arg9 harg9 hc0 hc1 x0 x1 x2 x3).1) = k3_pay3 x3 x2 x0 x1 := by
  unfold kernelRun3_A
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

theorem valA3_S0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32)
    (v : View sig .tc .vmem S1x128 .f32) (f : v.ty.Contents (Elt F)) :
    v.read (Elt F) (v.writes (Elt F) f (kernelRun3_A c i arg1 harg1 arg2 harg2 arg3 harg3 arg4 harg4 arg5 harg5 arg6 harg6 arg7 harg7 arg8 harg8 arg9 harg9 hc0 hc1 x0 x1 x2 x3).2.1) = k3_pay4 x3 x2 x0 x1 k3_pay1 := by
  unfold kernelRun3_A
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

theorem valA3_S1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32)
    (v : View sig .tc .vmem S1x128 .f32) (f : v.ty.Contents (Elt F)) :
    v.read (Elt F) (v.writes (Elt F) f (kernelRun3_A c i arg1 harg1 arg2 harg2 arg3 harg3 arg4 harg4 arg5 harg5 arg6 harg6 arg7 harg7 arg8 harg8 arg9 harg9 hc0 hc1 x0 x1 x2 x3).2.2.1) = k3_pay5 x3 x2 x0 x1 k3_pay2 := by
  unfold kernelRun3_A
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

/-! ### The last point -/

theorem valC3_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S2000x128 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 hc0 hc1 x0 x1 x2 x3 xs0 xs1).1) = k3_pay3 x3 x2 x0 x1 := by
  unfold kernelRun3_C
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

theorem valC3_5 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 hc0 hc1 x0 x1 x2 x3 xs0 xs1).2.1) = k3_pay4 x3 x2 x0 x1 xs0 := by
  unfold kernelRun3_C
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

theorem valC3_6 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 hc0 hc1 x0 x1 x2 x3 xs0 xs1).2.2.1) = k3_pay5 x3 x2 x0 x1 xs1 := by
  unfold kernelRun3_C
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

theorem valC3_S0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 hc0 hc1 x0 x1 x2 x3 xs0 xs1).2.2.2.1) = k3_pay4 x3 x2 x0 x1 xs0 := by
  unfold kernelRun3_C
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

theorem valC3_S1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 hc0 hc1 x0 x1 x2 x3 xs0 xs1).2.2.2.2.1) = k3_pay5 x3 x2 x0 x1 xs1 := by
  unfold kernelRun3_C
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

/-! ## The two accumulators, point by point -/

/-- The column-sum row after the body at point `n`: reset to zero at the first point, then each point adds its block's column sums. -/
def sumAcc3 (c : Dev nD) : (n : ℕ) → n < cfg3.N → Vec F S1x128 .f32
  | 0, h => k3_pay4 (iblk3 V c 3 ⟨0, h⟩) (iblk3 V c 2 ⟨0, h⟩) (iblk3 V c 0 ⟨0, h⟩) (iblk3 V c 1 ⟨0, h⟩) k3_pay1
  | n + 1, h => k3_pay4 (iblk3 V c 3 ⟨n + 1, h⟩) (iblk3 V c 2 ⟨n + 1, h⟩) (iblk3 V c 0 ⟨n + 1, h⟩) (iblk3 V c 1 ⟨n + 1, h⟩) (sumAcc3 c n (Nat.lt_of_succ_lt h))

/-- At the first point: the reset row, then this point's contribution. -/
theorem sumAcc3_zero (c : Dev nD) (t : Fin cfg3.N) (h0 : t.val = 0) :
    sumAcc3 V c t.val t.isLt = k3_pay4 (iblk3 V c 3 t) (iblk3 V c 2 t) (iblk3 V c 0 t) (iblk3 V c 1 t) k3_pay1 := by
  obtain ⟨n, hn⟩ := t
  cases n with
  | zero => rfl
  | succ n => exact absurd h0 (Nat.succ_ne_zero n)

/-- At a later point: what the point before left, then this point's contribution. -/
theorem sumAcc3_pos (c : Dev nD) (t : Fin cfg3.N) (h0 : t.val ≠ 0) :
    sumAcc3 V c t.val t.isLt = k3_pay4 (iblk3 V c 3 t) (iblk3 V c 2 t) (iblk3 V c 0 t) (iblk3 V c 1 t) (sumAcc3 V c (t.val - 1) (Nat.lt_of_le_of_lt (Nat.sub_le _ _) t.isLt)) := by
  obtain ⟨n, hn⟩ := t
  cases n with
  | zero => exact absurd rfl h0
  | succ n => rfl

/-- The column-sum-of-squares row after the body at point `n`, likewise. -/
def sqAcc3 (c : Dev nD) : (n : ℕ) → n < cfg3.N → Vec F S1x128 .f32
  | 0, h => k3_pay5 (iblk3 V c 3 ⟨0, h⟩) (iblk3 V c 2 ⟨0, h⟩) (iblk3 V c 0 ⟨0, h⟩) (iblk3 V c 1 ⟨0, h⟩) k3_pay2
  | n + 1, h => k3_pay5 (iblk3 V c 3 ⟨n + 1, h⟩) (iblk3 V c 2 ⟨n + 1, h⟩) (iblk3 V c 0 ⟨n + 1, h⟩) (iblk3 V c 1 ⟨n + 1, h⟩) (sqAcc3 c n (Nat.lt_of_succ_lt h))

/-- At the first point: the reset row, then this point's contribution. -/
theorem sqAcc3_zero (c : Dev nD) (t : Fin cfg3.N) (h0 : t.val = 0) :
    sqAcc3 V c t.val t.isLt = k3_pay5 (iblk3 V c 3 t) (iblk3 V c 2 t) (iblk3 V c 0 t) (iblk3 V c 1 t) k3_pay2 := by
  obtain ⟨n, hn⟩ := t
  cases n with
  | zero => rfl
  | succ n => exact absurd h0 (Nat.succ_ne_zero n)

/-- At a later point: what the point before left, then this point's contribution. -/
theorem sqAcc3_pos (c : Dev nD) (t : Fin cfg3.N) (h0 : t.val ≠ 0) :
    sqAcc3 V c t.val t.isLt = k3_pay5 (iblk3 V c 3 t) (iblk3 V c 2 t) (iblk3 V c 0 t) (iblk3 V c 1 t) (sqAcc3 V c (t.val - 1) (Nat.lt_of_le_of_lt (Nat.sub_le _ _) t.isLt)) := by
  obtain ⟨n, hn⟩ := t
  cases n with
  | zero => exact absurd rfl h0
  | succ n => rfl

/-! ## The region invariant -/

/-- Before point `n`: at the first point the class invariant (every scoped buffer that is no staging buffer at
    anything, the generator register at some state); afterwards the two scratch rows at what the point before left in
    them, the other such buffers at anything, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (sumAcc3 V c n hn) ∗ owns (c : Thread nD τ) scM3_1 fullShare (sqAcc3 V c n hn)) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (sumAcc3 V c n hn) ∗ owns (c : Thread nD τ) scM3_1 fullShare (sqAcc3 V c n hn)) ∗ restBut3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (sumAcc3 V c (n - 1) (by omega)) ∗ owns (c : Thread nD τ) scM3_1 fullShare (sqAcc3 V c (n - 1) (by omega))) ∗ restBut3 (F := F) c) ∗ (∃ r, prngReg c r)) := by
  cases n with
  | zero => exact absurd rfl hz
  | succ n => rfl

/-! ## The pipeline's proof data -/

/-- The proof data of region 3 on core `c`: the arrays as the region finds them (`V`); after the body at point `t`
    each input's buffer at its block, the block output's at the epilogue of the input blocks, the two row outputs' at
    the two accumulators (read only at the last point: elsewhere the windows are idle); the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (iblk3 V c 3 t) (iblk3 V c 2 t) (iblk3 V c 0 t) (iblk3 V c 1 t)
    | ⟨5, _⟩ => sumAcc3 V c t.val t.isLt
    | ⟨6, _⟩ => sqAcc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
/-- The block output after the body: the epilogue of the bias, the degree factor, the aggregated and the self block. -/
theorem after3_4 (c : Dev nD) (t : Fin cfg3.N) : (dat3 V c).after 4 t = k3_pay3 (iblk3 V c 3 t) (iblk3 V c 2 t) (iblk3 V c 0 t) (iblk3 V c 1 t) := by dsimp only [dat3]
theorem after3_5 (c : Dev nD) (t : Fin cfg3.N) : (dat3 V c).after 5 t = sumAcc3 V c t.val t.isLt := by dsimp only [dat3]
theorem after3_6 (c : Dev nD) (t : Fin cfg3.N) : (dat3 V c).after 6 t = sqAcc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point. The inputs' memrefs hold their blocks; the grid coordinate says which of the three control
    cases the point is in; the invariant hands the body the two scratch rows (at anything at the first point, at what
    the point before left afterwards) and takes them back at this point's contents; a row output is handed back
    untouched where it is idle and holds the accumulator's copy at the last point; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases h0 : t.val % 25 = 0
  · have hz : t.val = 0 := by omega
    have hc0 : cond3_0 (grid3.coords t) := (hcond3_0 t).mpr h0
    have hc1 : ¬cond3_1 (grid3.coords t) := fun h => by have := (hcond3_1 t).mp h; omega
    rw [Dat.leavesExact_idle (dat3 V c) 5 t (idleAt3_5 t hc1) (noFlush3_5 t hc1),
      Dat.leavesExact_idle (dat3 V c) 6 t (idleAt3_6 t hc1) (noFlush3_6 t hc1)]
    rw [sumAcc3_zero V c t hz, sqAcc3_zero V c t hz]
    rw [PhiS3_castSucc V c t, PhiS3_zero V c _ _ hz, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ _ _ _ _ hc0 hc1 (iblk3 V c 0 t) (iblk3 V c 1 t) (iblk3 V c 2 t) (iblk3 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact valA3_S0 ..
          · unfold owns; iexists _; isplitr
            swap; · iexact HS1
            ipureintro; exact valA3_S1 ..
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact valA3_4 ..
    isplitl [H5]; · iexists _; iexact H5
    iexists _; iexact H6
  · have hpos : t.val ≠ 0 := by omega
    have hc0 : ¬cond3_0 (grid3.coords t) := fun h => h0 ((hcond3_0 t).mp h)
    by_cases h1 : t.val % 25 = 24
    · have hc1 : cond3_1 (grid3.coords t) := (hcond3_1 t).mpr h1
      rw [show (dat3 V c).leavesExact 5 t = owns (c : Thread nD τ) (ms3_5 t) fullShare ((dat3 V c).after 5 t) from by
        unfold Dat.leavesExact; rw [liveAt3_5 t hc1], after3_5]
      rw [show (dat3 V c).leavesExact 6 t = owns (c : Thread nD τ) (ms3_6 t) fullShare ((dat3 V c).after 6 t) from by
        unfold Dat.leavesExact; rw [liveAt3_6 t hc1], after3_6]
      rw [sumAcc3_pos V c t hpos, sqAcc3_pos V c t hpos]
      rw [PhiS3_castSucc V c t, PhiS3_pos V c _ _ hpos]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ _ _ hc0 hc1 (iblk3 V c 0 t) (iblk3 V c 1 t) (iblk3 V c 2 t) (iblk3 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact valC3_S0 ..
            · unfold owns; iexists _; isplitr
              swap; · iexact HS1
              ipureintro; exact valC3_S1 ..
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact valC3_4 ..
      isplitl [H5]
      · unfold owns; iexists _; isplitr
        swap; · iexact H5
        ipureintro; exact valC3_5 ..
      · unfold owns; iexists _; isplitr
        swap; · iexact H6
        ipureintro; exact valC3_6 ..
    · have hc1 : ¬cond3_1 (grid3.coords t) := fun h => h1 ((hcond3_1 t).mp h)
      rw [Dat.leavesExact_idle (dat3 V c) 5 t (idleAt3_5 t hc1) (noFlush3_5 t hc1),
        Dat.leavesExact_idle (dat3 V c) 6 t (idleAt3_6 t hc1) (noFlush3_6 t hc1)]
      rw [sumAcc3_pos V c t hpos, sqAcc3_pos V c t hpos]
      rw [PhiS3_castSucc V c t, PhiS3_pos V c _ _ hpos]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ _ _ hc0 hc1 (iblk3 V c 0 t) (iblk3 V c 1 t) (iblk3 V c 2 t) (iblk3 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact valB3_S0 ..
            · unfold owns; iexists _; isplitr
              swap; · iexact HS1
              ipureintro; exact valB3_S1 ..
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact valB3_4 ..
      isplitl [H5]; · iexists _; iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the region and out of it -/

/-- What the region is entered with — the generator register at some state, no prefetched table, and the scoped buffers
    no window stages — is the invariant before the first point. -/
theorem hin3 (c : Dev nD) :
    (iprop((∃ r, prngReg c r) ∗ Pipeline.prefHeld (pcfgs (F := F) 3).pre c (fun _ => fullShare) ((cfgs 3).toPCfg_adm).1 ∗ Pipeline.scopedRest spec3 c) : sProp 𝕄)
      ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

/-- After the last point the invariant gives them back: the two scratch rows' named contents are forgotten. -/
theorem hout3 (c : Dev nD) :
    (dat3 V c).Φ (Fin.last cfg3.N)
      ⊢ (iprop((∃ r, prngReg c r) ∗ Pipeline.ownSems0 (fun k : PEmpty => k.elim) c ∗ Pipeline.scopedRest spec3 c) : sProp 𝕄) := by
  rw [Pipeline.ownSems0_none, scopedRest3_split,
    show (dat3 V c).Φ (Fin.last cfg3.N) = PhiS3 V c (Fin.last cfg3.N).val (Nat.le_of_lt_succ (Fin.last cfg3.N).isLt) from rfl,
    PhiS3_pos V c _ _ (by rw [Fin.val_last]; have : cfg3.N = 25 := N_3; omega)]
  simp only [scM3_0, scM3_1, owns_whole]
  iintro ⟨⟨⟨HS0, HS1⟩, Hrest⟩, Hg⟩
  isplitl [Hg]; · iexact Hg
  isplitr; · iempintro
  isplitl [HS0 HS1]
  · isplitl [HS0]
    · iexists _; iexact HS0
    iexists _; iexact HS1
  iexact Hrest

/-! ## What the two row outputs hold after the last point -/

theorem after3_5_last (c : Dev nD) (h : 24 < cfg3.N) : (dat3 V c).after 5 ⟨24, h⟩ = sumAcc3 V c 24 h := after3_5 V c ⟨24, h⟩
theorem after3_6_last (c : Dev nD) (h : 24 < cfg3.N) : (dat3 V c).after 6 ⟨24, h⟩ = sqAcc3 V c 24 h := after3_6 V c ⟨24, h⟩

end Cert.Kernel.Hand

end
-- ==== Proof.K.R4.lean ====
import proofs.«182147_j31610959298973_2_alg».proof.Proof.Gen.Kernel
import proofs.«182147_j31610959298973_2_alg».proof.Proof.Gen.Kernel.Skeleton
import proofs.«182147_j31610959298973_2_alg».proof.Proof.Gen.Kernel.Launch
import proofs.«182147_j31610959298973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4 of the main program, at a parameter `V` (the buffer contents when the region is entered):
each window's block at a grid point, what the body leaves in each output block as a function of the
input blocks, the body's triple, the proof data of the pipeline and its body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current buffer holds its block at every point, fetched there or not: where it is not
    fetched the block index has not moved, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same of input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same of input window 2 (a statistics row: one block, the same at every point). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The same of input window 3 (one block). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The same of input window 4 (one block). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The same of input window 5 (one block). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The same of input window 6 (the weight matrix: one block). -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- The same of input window 7. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S2000x128 := Rect.unit (s := S2000x128) ![0, 0] S2000x128.size inb_S2000x128_S2000x128_0_0
abbrev r4_1 : Rect S1x128 := Rect.unit (s := S1x128) ![0, 0] S1x128.size inb_S1x128_S1x128_0_0
abbrev r4_2 : Rect S128x32 := Rect.unit (s := S128x32) ![0, 0] S128x32.size inb_S128x32_S128x32_0_0
abbrev r4_3 : Rect S2000x1 := Rect.unit (s := S2000x1) ![0, 0] S2000x1.size inb_S2000x1_S2000x1_0_0
abbrev r4_4 : Rect S2000x32 := Rect.unit (s := S2000x32) ![0, 0] S2000x32.size inb_S2000x32_S2000x32_0_0

/-! ## What the body leaves in each output window's buffer -/

/-- Window 8's buffer after the body, from the input windows' blocks (`x0` the rows to normalise, `x1` the
    residual rows, `x2 … x5` the mean, variance, scale and shift rows, `x6` the weight matrix, `x7` the rows'
    scale factors): its one store, relu of the normalised rows plus the residual. -/
def out4_8 (x0 : Vec F S2000x128 .f32) (x1 : Vec F S2000x128 .f32) (x2 : Vec F S1x128 .f32) (x3 : Vec F S1x128 .f32)
    (x4 : Vec F S1x128 .f32) (x5 : Vec F S1x128 .f32) (x6 : Vec F S128x32 .f32) (x7 : Vec F S2000x1 .f32) : Vec F S2000x128 .f32 :=
  View.canon [⟨r4_0, k4_pay2 (View.ld x2 r4_1) (View.ld x3 r4_1) (View.ld x4 r4_1) (View.ld x5 r4_1) (View.ld x0 r4_0) (View.ld x1 r4_0)⟩]

/-- Window 9's buffer after the body: its one store, that value times the weight matrix, scaled row by row. -/
def out4_9 (x0 : Vec F S2000x128 .f32) (x1 : Vec F S2000x128 .f32) (x2 : Vec F S1x128 .f32) (x3 : Vec F S1x128 .f32)
    (x4 : Vec F S1x128 .f32) (x5 : Vec F S1x128 .f32) (x6 : Vec F S128x32 .f32) (x7 : Vec F S2000x1 .f32) : Vec F S2000x32 .f32 :=
  View.canon [⟨r4_4, k4_pay1 (k4_pay3 (View.ld x2 r4_1) (View.ld x3 r4_1) (View.ld x4 r4_1) (View.ld x5 r4_1) (View.ld x0 r4_0) (View.ld x1 r4_0) (View.ld x6 r4_2)) (k4_pay4 (View.ld x7 r4_3))⟩]

/-- Each store covers its buffer. -/
theorem cover4_8 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

theorem cover4_9 (p0 : Vec F S2000x32 .f32) (y : S2000x32.Idx) :
    ∃ pc ∈ ([⟨r4_4, p0⟩] : List (View.Piece (Elt F) S2000x32 .f32)), y ∈ pc.1.set :=
  View.cover_of_tiled [⟨r4_4, p0⟩] S2000x32.size (by rfl) y

/-! ## The body's triple -/

set_option maxHeartbeats 1000000 in
/-- The body on whole buffers, the inputs' at read contents `x0 … x7` and the outputs' at anything, runs to the
    continuation holding the inputs' as they were and each output's at `out4_W` of the inputs'. -/
theorem sound_kernel4 (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S128x32 .f32) (harg7 : arg7.IsWhole) (arg8 : Memref sig .tc .vmem S2000x1 .f32) (harg8 : arg8.IsWhole)
    (arg9 : Memref sig .tc .vmem S2000x128 .f32) (harg9 : arg9.IsWhole) (arg10 : Memref sig .tc .vmem S2000x32 .f32) (harg10 : arg10.IsWhole)
    (x0 : Vec F S2000x128 .f32) (x1 : Vec F S2000x128 .f32) (x2 : Vec F S1x128 .f32) (x3 : Vec F S1x128 .f32)
    (x4 : Vec F S1x128 .f32) (x5 : Vec F S1x128 .f32) (x6 : Vec F S128x32 .f32) (x7 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out4_8 x0 x1 x2 x3 x4 x5 x6 x7)
            ∗ owns (c : Thread nD τ) arg10 fullShare (out4_9 x0 x1 x2 x3 x4 x5 x6 x7)) -∗ K ⟨⟩))
      ⊢ wp frame (wpE (defs₀ (F := F)) Variants.none c none) E
          (cc4_kernel i arg1 harg1 arg2 harg2 arg3 harg3 arg4 harg4 arg5 harg5 arg6 harg6 arg7 harg7 arg8 harg8 arg9 harg9 arg10 harg10) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover4_8 _)
  iexists _; isplitr
  swap; · iexact H9
  ipureintro
  try dsimp only
  exact View.read_writes_eq_canon _ _ _ (cover4_9 _)

/-! ## The pipeline's proof data -/

/-- The proof data of pipeline 4 on core `c`: the arrays as the region finds them; after the body at point `t`
    each input's buffer at its block and each output's at `out4_W` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t) (iblk4 V c 6 t) (iblk4 V c 7 t)
    | ⟨9, _⟩ => out4_9 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) :
    (dat4 V c).after 8 t = out4_8 (iblk4 V c 0 t) (iblk4 V c 1 t) (iblk4 V c 2 t) (iblk4 V c 3 t) (iblk4 V c 4 t) (iblk4 V c 5 t) (iblk4 V c 6 t) (iblk4 V c 7 t) := by
  dsimp only [dat4]
theorem after4_9 (c : Dev nD) (t : Fin cfg4.N) :
    (dat4 V c).after 9 t = out4_9 (iblk4 V c 0 t) (iblk4 V c 1 t) (iblk4 V c 2 t) (iblk4 V c 3 t) (iblk4 V c 4 t) (iblk4 V c 5 t) (iblk4 V c 6 t) (iblk4 V c 7 t) := by
  dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' buffers hold their blocks, so `sound_kernel4` applies; the invariant and
    what is owed pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of pipeline 4, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
import proofs.«182147_j31610959298973_2_alg».proof.Proof.Gen.Kernel
import proofs.«182147_j31610959298973_2_alg».proof.Proof.Gen.Kernel.Skeleton
import proofs.«182147_j31610959298973_2_alg».proof.Proof.Gen.Kernel.Launch
import proofs.«182147_j31610959298973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 5 of the main program, at a parameter `V` (the buffer contents when the region is entered):
each window's block at a grid point, what the body leaves in each output block as a function of the
input blocks, the body's triple, the proof data of the pipeline and its body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current buffer holds its block at every point, fetched there or not: where it is not
    fetched the block index has not moved, and the body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The same of input window 2. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The same of input window 3 (the bias row: one block, the same at every point). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_0 : Rect S2000x32 := Rect.unit (s := S2000x32) ![0, 0] S2000x32.size inb_S2000x32_S2000x32_0_0
abbrev r5_2 : Rect S2000x1 := Rect.unit (s := S2000x1) ![0, 0] S2000x1.size inb_S2000x1_S2000x1_0_0
abbrev r5_3 : Rect S1x32 := Rect.unit (s := S1x32) ![0, 0] S1x32.size inb_S1x32_S1x32_0_0

/-! ## What the body leaves in the output window's buffer -/

/-- Window 4's buffer after the body, from the input windows' blocks `x0` (aggregated rows), `x1` (the rows'
    own features), `x2` (the rows' scale factors) and `x3` (the bias row): its one store, the row-wise
    log-softmax of x2 · (x0 + x1) + x3. -/
def out5_4 (x0 : Vec F S2000x32 .f32) (x1 : Vec F S2000x32 .f32) (x2 : Vec F S2000x1 .f32) (x3 : Vec F S1x32 .f32) : Vec F S2000x32 .f32 :=
  View.canon [⟨r5_0, k5_pay1 (View.ld x3 r5_3) (View.ld x2 r5_2) (View.ld x0 r5_0) (View.ld x1 r5_0)⟩]

/-- The store covers the buffer. -/
theorem cover5_4 (p0 : Vec F S2000x32 .f32) (y : S2000x32.Idx) :
    ∃ pc ∈ ([⟨r5_0, p0⟩] : List (View.Piece (Elt F) S2000x32 .f32)), y ∈ pc.1.set :=
  View.cover_of_tiled [⟨r5_0, p0⟩] S2000x32.size (by rfl) y

/-! ## The body's triple -/

set_option maxHeartbeats 1000000 in
/-- The body on whole buffers, the inputs' at read contents `x0 x1 x2 x3` and the output's at anything, runs to the
    continuation holding the inputs' as they were and the output's at `out5_4` of the inputs'. -/
theorem sound_kernel5 (c : Dev nD) (E : Set ℕ) (i : grid5.Coords)
    (arg1 : Memref sig .tc .vmem S2000x32 .f32) (harg1 : arg1.IsWhole) (arg2 : Memref sig .tc .vmem S2000x32 .f32) (harg2 : arg2.IsWhole)
    (arg3 : Memref sig .tc .vmem S2000x1 .f32) (harg3 : arg3.IsWhole) (arg4 : Memref sig .tc .vmem S1x32 .f32) (harg4 : arg4.IsWhole)
    (arg5 : Memref sig .tc .vmem S2000x32 .f32) (harg5 : arg5.IsWhole)
    (x0 : Vec F S2000x32 .f32) (x1 : Vec F S2000x32 .f32) (x2 : Vec F S2000x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out5_4 x0 x1 x2 x3)) -∗ K ⟨⟩))
      ⊢ wp frame (wpE (defs₀ (F := F)) Variants.none c none) E (cc5_kernel i arg1 harg1 arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them; after the body at point `t`
    each input's buffer at its block and the output's at `out5_4` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so `sound_kernel5` applies; the invariant and
    what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 5, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Run.lean ====
/-
  The run of the six kernel regions of the program, one after the other, among the host stretches of @main:
  the contents of every unscoped buffer at each boundary (the launch memory, then each host stretch applied, then
  each region's arrays at what its write-backs leave), each region as a segment record over those contents, and the
  launch over the list of segments: every weakly fair execution terminates and every unscoped buffer ends at the
  last boundary's contents.
-/
import proofs.«182147_j31610959298973_2_alg».proof.Proof.K.R0
import proofs.«182147_j31610959298973_2_alg».proof.Proof.K.R1
import proofs.«182147_j31610959298973_2_alg».proof.Proof.K.R2
import proofs.«182147_j31610959298973_2_alg».proof.Proof.K.R3
import proofs.«182147_j31610959298973_2_alg».proof.Proof.K.R4
import proofs.«182147_j31610959298973_2_alg».proof.Proof.K.R5
import proofs.«182147_j31610959298973_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0`: what region 0 is entered from. -/
abbrev W1 : Dev nD → Valuation τ sig (Elt F) := fun c => StableHlo.after hostOps0 (W0 m ρ c)
abbrev B1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)

/-- After `hostOps1`: what region 1 is entered from. -/
abbrev W3 : Dev nD → Valuation τ sig (Elt F) := fun c => StableHlo.after hostOps1 (W2 m ρ c)
abbrev B3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (B3 m ρ) c).arrAt w cfg1.N
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev B4 : (c : Dev nD) → (b : Ref sig .tc) → Buf (Elt F) ((c : Thread nD τ).loc b) := fun c b => W4 m ρ c b
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)

/-- After `hostOps2`: what region 2 is entered from. -/
abbrev W5 : Dev nD → Valuation τ sig (Elt F) := fun c => StableHlo.after hostOps2 (W4 m ρ c)
abbrev B5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (B5 m ρ) c).arrAt w cfg2.N
theorem W6_arr (c : Dev nD) (w : Fin cfg2.W) :
    W6 m ρ c (Proc.devRef .tc (Pipeline.arrRef spec2 w)) = (dat2 (B5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev B6 : (c : Dev nD) → (b : Ref sig .tc) → Buf (Elt F) ((c : Thread nD τ).loc b) := fun c b => W6 m ρ c b
theorem hF2 (c : Dev nD) (w : Fin cfg2.W) : (dat2 (B5 m ρ) c).arrAt w cfg2.N = B6 m ρ c (Pipeline.arrRef spec2 w) :=
  (W6_arr m ρ c w).symm
theorem hrest2 (c : Dev nD) : ∀ b, b ∉ Finset.univ.image (Pipeline.arrRef spec2) → B6 m ρ c b = B5 m ρ c b :=
  fun b hb => W6_of_ne m ρ c b fun w e => hb (Finset.mem_image.mpr ⟨w, Finset.mem_univ _, e⟩)

/-- After `hostOps3`: what region 3 is entered from. -/
abbrev W7 : Dev nD → Valuation τ sig (Elt F) := fun c => StableHlo.after hostOps3 (W6 m ρ c)
abbrev B7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (B7 m ρ) c).arrAt w cfg3.N
theorem W8_arr (c : Dev nD) (w : Fin cfg3.W) :
    W8 m ρ c (Proc.devRef .tc (Pipeline.arrRef spec3 w)) = (dat3 (B7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev B8 : (c : Dev nD) → (b : Ref sig .tc) → Buf (Elt F) ((c : Thread nD τ).loc b) := fun c b => W8 m ρ c b
theorem hF3 (c : Dev nD) (w : Fin cfg3.W) : (dat3 (B7 m ρ) c).arrAt w cfg3.N = B8 m ρ c (Pipeline.arrRef spec3 w) :=
  (W8_arr m ρ c w).symm
theorem hrest3 (c : Dev nD) : ∀ b, b ∉ Finset.univ.image (Pipeline.arrRef spec3) → B8 m ρ c b = B7 m ρ c b :=
  fun b hb => W8_of_ne m ρ c b fun w e => hb (Finset.mem_image.mpr ⟨w, Finset.mem_univ _, e⟩)

/-- After `hostOps4`: what region 4 is entered from. -/
abbrev W9 : Dev nD → Valuation τ sig (Elt F) := fun c => StableHlo.after hostOps4 (W8 m ρ c)
abbrev B9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (B9 m ρ) c).arrAt w cfg4.N
theorem W10_arr (c : Dev nD) (w : Fin cfg4.W) :
    W10 m ρ c (Proc.devRef .tc (Pipeline.arrRef spec4 w)) = (dat4 (B9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev B10 : (c : Dev nD) → (b : Ref sig .tc) → Buf (Elt F) ((c : Thread nD τ).loc b) := fun c b => W10 m ρ c b
theorem hF4 (c : Dev nD) (w : Fin cfg4.W) : (dat4 (B9 m ρ) c).arrAt w cfg4.N = B10 m ρ c (Pipeline.arrRef spec4 w) :=
  (W10_arr m ρ c w).symm
theorem hrest4 (c : Dev nD) : ∀ b, b ∉ Finset.univ.image (Pipeline.arrRef spec4) → B10 m ρ c b = B9 m ρ c b :=
  fun b hb => W10_of_ne m ρ c b fun w e => hb (Finset.mem_image.mpr ⟨w, Finset.mem_univ _, e⟩)

/-- After `hostOps5`: what region 5 is entered from. -/
abbrev W11 : Dev nD → Valuation τ sig (Elt F) := fun c => StableHlo.after hostOps5 (W10 m ρ c)
abbrev B11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (B11 m ρ) c).arrAt w cfg5.N
theorem W12_arr (c : Dev nD) (w : Fin cfg5.W) :
    W12 m ρ c (Proc.devRef .tc (Pipeline.arrRef spec5 w)) = (dat5 (B11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev B12 : (c : Dev nD) → (b : Ref sig .tc) → Buf (Elt F) ((c : Thread nD τ).loc b) := fun c b => W12 m ρ c b
theorem hF5 (c : Dev nD) (w : Fin cfg5.W) : (dat5 (B11 m ρ) c).arrAt w cfg5.N = B12 m ρ c (Pipeline.arrRef spec5 w) :=
  (W12_arr m ρ c w).symm
theorem hrest5 (c : Dev nD) : ∀ b, b ∉ Finset.univ.image (Pipeline.arrRef spec5) → B12 m ρ c b = B11 m ρ c b :=
  fun b hb => W12_of_ne m ρ c b fun w e => hb (Finset.mem_image.mpr ⟨w, Finset.mem_univ _, e⟩)

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (B1 m ρ) c
  | ⟨1, _⟩ => fun c => dat1 (B3 m ρ) c
  | ⟨2, _⟩ => fun c => dat2 (B5 m ρ) c
  | ⟨3, _⟩ => fun c => dat3 (B7 m ρ) c
  | ⟨4, _⟩ => fun c => dat4 (B9 m ρ) c
  | ⟨5, _⟩ => fun c => dat5 (B11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the region's
    invariant and comes back; nothing is owed; the kernel has no semaphore of its own. -/
def rg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the region's
    invariant and comes back; nothing is owed; the kernel has no semaphore of its own. -/
def rg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (B3 m ρ) c
  hout c := hout1 (B3 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B3 m ρ c) (B4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the region's
    invariant and comes back; nothing is owed; the kernel has no semaphore of its own. -/
def rg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (B5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (B5 m ρ c) (B6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the region's
    invariant and comes back; nothing is owed; the kernel has no semaphore of its own. -/
def rg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (B7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (B7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (B7 m ρ) c
  hout c := hout3 (B7 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (B7 m ρ c) (B8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split
    out of the unscoped buffers and put back at the exit contents; the generator register goes into the region's
    invariant and comes back; nothing is owed; the kernel has no semaphore of its own. -/
def rg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (B9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (B9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (B9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (B9 m ρ c) (B10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split
    out of the unscoped buffers and put back at the exit contents; the generator register goes into the region's
    invariant and comes back; nothing is owed; the kernel has no semaphore of its own. -/
def rg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (B11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (B11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (B11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (B11 m ρ c) (B12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve segments in order: a host segment per stretch from its boundary's contents, a region per pallas_call. -/
abbrev sgs : List (Pipeline.Seg (pcfgs (F := F)) adm (pdats m ρ) () defs₀ 𝒱₀ L lv) :=
  [ .host (hseg hostOps0 hostOps0_sub hostOps0_fresh (W0 m ρ)),
    .region (rg0 m ρ),
    .host (hseg hostOps1 hostOps1_sub hostOps1_fresh (W2 m ρ)),
    .region (rg1 m ρ),
    .host (hseg hostOps2 hostOps2_sub hostOps2_fresh (W4 m ρ)),
    .region (rg2 m ρ),
    .host (hseg hostOps3 hostOps3_sub hostOps3_fresh (W6 m ρ)),
    .region (rg3 m ρ),
    .host (hseg hostOps4 hostOps4_sub hostOps4_fresh (W8 m ρ)),
    .region (rg4 m ρ),
    .host (hseg hostOps5 hostOps5_sub hostOps5_fresh (W10 m ρ)),
    .region (rg5 m ρ) ]
/-- @main is the run of the segments. -/
theorem main_run (c : Dev nD) : main (F := F) c = Pipeline.Seg.run (sgs m ρ) := (main_chain c).trans (by chain_rfl)

set_option backward.isDefEq.respectTransparency.types false in
/-- The run: from any memory with zero counters every weakly fair execution of @main terminates, nothing faulting, and
    every unscoped buffer ends at the last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (sgs m ρ)
    (fun c Q => by rw [main_run m ρ c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Hand

end
-- ==== Proof.K.Carry.lean ====
/-
  What the run carries from boundary to boundary: a buffer no host stretch writes and no region changes holds at a
  later boundary what it held at an earlier one. A host stretch leaves every buffer outside its write list as it
  was; a region leaves every buffer that is none of its windows' arrays as it was, and an INPUT window's array too
  (it is never written back). From these single steps: each argument of the program read at the boundaries where
  it is used and at the end, and each intermediate buffer read at the later boundaries where it is used.
-/
import proofs.«182147_j31610959298973_2_alg».proof.Proof.K.Run
import proofs.«182147_j31610959298973_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## Single steps -/

/-- Host stretch 0 leaves a buffer outside its write list as it was. -/
theorem W1_step (c : Dev nD) (r : Ref sig .tc) (h : r ∉ hostOps0_W) :
    W1 m ρ c (Proc.devRef .tc r) = W0 m ρ c (Proc.devRef .tc r) :=
  StableHlo.after_of_writes_sub hostOps0 _ hostOps0_writes h
/-- Host stretch 1 leaves a buffer outside its write list as it was. -/
theorem W3_step (c : Dev nD) (r : Ref sig .tc) (h : r ∉ hostOps1_W) :
    W3 m ρ c (Proc.devRef .tc r) = W2 m ρ c (Proc.devRef .tc r) :=
  StableHlo.after_of_writes_sub hostOps1 _ hostOps1_writes h
/-- Host stretch 2 leaves a buffer outside its write list as it was. -/
theorem W5_step (c : Dev nD) (r : Ref sig .tc) (h : r ∉ hostOps2_W) :
    W5 m ρ c (Proc.devRef .tc r) = W4 m ρ c (Proc.devRef .tc r) :=
  StableHlo.after_of_writes_sub hostOps2 _ hostOps2_writes h
/-- Host stretch 3 leaves a buffer outside its write list as it was. -/
theorem W7_step (c : Dev nD) (r : Ref sig .tc) (h : r ∉ hostOps3_W) :
    W7 m ρ c (Proc.devRef .tc r) = W6 m ρ c (Proc.devRef .tc r) :=
  StableHlo.after_of_writes_sub hostOps3 _ hostOps3_writes h
/-- Host stretch 4 leaves a buffer outside its write list as it was. -/
theorem W9_step (c : Dev nD) (r : Ref sig .tc) (h : r ∉ hostOps4_W) :
    W9 m ρ c (Proc.devRef .tc r) = W8 m ρ c (Proc.devRef .tc r) :=
  StableHlo.after_of_writes_sub hostOps4 _ hostOps4_writes h
/-- Host stretch 5 leaves a buffer outside its write list as it was. -/
theorem W11_step (c : Dev nD) (r : Ref sig .tc) (h : r ∉ hostOps5_W) :
    W11 m ρ c (Proc.devRef .tc r) = W10 m ρ c (Proc.devRef .tc r) :=
  StableHlo.after_of_writes_sub hostOps5 _ hostOps5_writes h

/-- Region 0 leaves an input window's array as entered: it is never written back. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (B1 m ρ) c).arrAt_in w hin _).trans (A_eq0 (B1 m ρ) c w))
/-- Region 1 leaves an input window's array as entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (B3 m ρ) c).arrAt_in w hin _).trans (A_eq1 (B3 m ρ) c w))
/-- Region 2 leaves an input window's array as entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (B5 m ρ) c).arrAt_in w hin _).trans (A_eq2 (B5 m ρ) c w))
/-- Region 3 leaves an input window's array as entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (B7 m ρ) c).arrAt_in w hin _).trans (A_eq3 (B7 m ρ) c w))
/-- Region 4 leaves an input window's array as entered. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (B9 m ρ) c).arrAt_in w hin _).trans (A_eq4 (B9 m ρ) c w))
/-- Region 5 leaves an input window's array as entered. -/
theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (B11 m ρ) c).arrAt_in w hin _).trans (A_eq5 (B11 m ρ) c w))

/-- Region 0 leaves a buffer that is no OUTPUT window's array as entered: an input window's array is never written
    back, and a buffer that is no window's array is not touched. -/
theorem W2_step (c : Dev nD) (r : Ref sig .tc) (h : ∀ w, (cfg0.win w).isOut = true → Pipeline.arrRef spec0 w ≠ r) :
    W2 m ρ c (Proc.devRef .tc r) = W1 m ρ c (Proc.devRef .tc r) := by
  by_cases hw : ∃ w, Pipeline.arrRef spec0 w = r
  · obtain ⟨w, rfl⟩ := hw
    exact W2_in m ρ c w (Bool.eq_false_iff.mpr fun ht => h w ht rfl)
  · exact W2_of_ne m ρ c r fun w e => hw ⟨w, e⟩
/-- The same of region 1. -/
theorem W4_step (c : Dev nD) (r : Ref sig .tc) (h : ∀ w, (cfg1.win w).isOut = true → Pipeline.arrRef spec1 w ≠ r) :
    W4 m ρ c (Proc.devRef .tc r) = W3 m ρ c (Proc.devRef .tc r) := by
  by_cases hw : ∃ w, Pipeline.arrRef spec1 w = r
  · obtain ⟨w, rfl⟩ := hw
    exact W4_in m ρ c w (Bool.eq_false_iff.mpr fun ht => h w ht rfl)
  · exact W4_of_ne m ρ c r fun w e => hw ⟨w, e⟩
/-- The same of region 2. -/
theorem W6_step (c : Dev nD) (r : Ref sig .tc) (h : ∀ w, (cfg2.win w).isOut = true → Pipeline.arrRef spec2 w ≠ r) :
    W6 m ρ c (Proc.devRef .tc r) = W5 m ρ c (Proc.devRef .tc r) := by
  by_cases hw : ∃ w, Pipeline.arrRef spec2 w = r
  · obtain ⟨w, rfl⟩ := hw
    exact W6_in m ρ c w (Bool.eq_false_iff.mpr fun ht => h w ht rfl)
  · exact W6_of_ne m ρ c r fun w e => hw ⟨w, e⟩
/-- The same of region 3. -/
theorem W8_step (c : Dev nD) (r : Ref sig .tc) (h : ∀ w, (cfg3.win w).isOut = true → Pipeline.arrRef spec3 w ≠ r) :
    W8 m ρ c (Proc.devRef .tc r) = W7 m ρ c (Proc.devRef .tc r) := by
  by_cases hw : ∃ w, Pipeline.arrRef spec3 w = r
  · obtain ⟨w, rfl⟩ := hw
    exact W8_in m ρ c w (Bool.eq_false_iff.mpr fun ht => h w ht rfl)
  · exact W8_of_ne m ρ c r fun w e => hw ⟨w, e⟩
/-- The same of region 4. -/
theorem W10_step (c : Dev nD) (r : Ref sig .tc) (h : ∀ w, (cfg4.win w).isOut = true → Pipeline.arrRef spec4 w ≠ r) :
    W10 m ρ c (Proc.devRef .tc r) = W9 m ρ c (Proc.devRef .tc r) := by
  by_cases hw : ∃ w, Pipeline.arrRef spec4 w = r
  · obtain ⟨w, rfl⟩ := hw
    exact W10_in m ρ c w (Bool.eq_false_iff.mpr fun ht => h w ht rfl)
  · exact W10_of_ne m ρ c r fun w e => hw ⟨w, e⟩
/-- The same of region 5. -/
theorem W12_step (c : Dev nD) (r : Ref sig .tc) (h : ∀ w, (cfg5.win w).isOut = true → Pipeline.arrRef spec5 w ≠ r) :
    W12 m ρ c (Proc.devRef .tc r) = W11 m ρ c (Proc.devRef .tc r) := by
  by_cases hw : ∃ w, Pipeline.arrRef spec5 w = r
  · obtain ⟨w, rfl⟩ := hw
    exact W12_in m ρ c w (Bool.eq_false_iff.mpr fun ht => h w ht rfl)
  · exact W12_of_ne m ρ c r fun w e => hw ⟨w, e⟩

/-! ## Each region's input windows' arrays, one by one -/

theorem W2_in_0 (c : Dev nD) : W2 m ρ c (Proc.devRef .tc (Pipeline.arrRef spec0 0)) = W1 m ρ c (Proc.devRef .tc (Pipeline.arrRef spec0 0)) := W2_in m ρ c 0 rfl
theorem W2_in_1 (c : Dev nD) : W2 m ρ c (Proc.devRef .tc (Pipeline.arrRef spec0 1)) = W1 m ρ c (Proc.devRef .tc (Pipeline.arrRef spec0 1)) := W2_in m ρ c 1 rfl
theorem W2_in_2 (c : Dev nD) : W2 m ρ c (Proc.devRef .tc (Pipeline.arrRef spec0 2)) = W1 m ρ c (Proc.devRef .tc (Pipeline.arrRef spec0 2)) := W2_in m ρ c 2 rfl

theorem W4_in_0 (c : Dev nD) : W4 m ρ c (Proc.devRef .tc (Pipeline.arrRef spec1 0)) = W3 m ρ c (Proc.devRef .tc (Pipeline.arrRef spec1 0)) := W4_in m ρ c 0 rfl
theorem W4_in_1 (c : Dev nD) : W4 m ρ c (Proc.devRef .tc (Pipeline.arrRef spec1 1)) = W3 m ρ c (Proc.devRef .tc (Pipeline.arrRef spec1 1)) := W4_in m ρ c 1 rfl
theorem W4_in_2 (c : Dev nD) : W4 m ρ c (Proc.devRef .tc (Pipeline.arrRef spec1 2)) = W3 m ρ c (Proc.devRef .tc (Pipeline.arrRef spec1 2)) := W4_in m ρ c 2 rfl
theorem W4_in_3 (c : Dev nD) : W4 m ρ c (Proc.devRef .tc (Pipeline.arrRef spec1 3)) = W3 m ρ c (Proc.devRef .tc (Pipeline.arrRef spec1 3)) := W4_in m ρ c 3 rfl

theorem W6_in_0 (c : Dev nD) : W6 m ρ c (Proc.devRef .tc (Pipeline.arrRef spec2 0)) = W5 m ρ c (Proc.devRef .tc (Pipeline.arrRef spec2 0)) := W6_in m ρ c 0 rfl
theorem W6_in_1 (c : Dev nD) : W6 m ρ c (Proc.devRef .tc (Pipeline.arrRef spec2 1)) = W5 m ρ c (Proc.devRef .tc (Pipeline.arrRef spec2 1)) := W6_in m ρ c 1 rfl
theorem W6_in_2 (c : Dev nD) : W6 m ρ c (Proc.devRef .tc (Pipeline.arrRef spec2 2)) = W5 m ρ c (Proc.devRef .tc (Pipeline.arrRef spec2 2)) := W6_in m ρ c 2 rfl
theorem W6_in_3 (c : Dev nD) : W6 m ρ c (Proc.devRef .tc (Pipeline.arrRef spec2 3)) = W5 m ρ c (Proc.devRef .tc (Pipeline.arrRef spec2 3)) := W6_in m ρ c 3 rfl
theorem W6_in_4 (c : Dev nD) : W6 m ρ c (Proc.devRef .tc (Pipeline.arrRef spec2 4)) = W5 m ρ c (Proc.devRef .tc (Pipeline.arrRef spec2 4)) := W6_in m ρ c 4 rfl
theorem W6_in_5 (c : Dev nD) : W6 m ρ c (Proc.devRef .tc (Pipeline.arrRef spec2 5)) = W5 m ρ c (Proc.devRef .tc (Pipeline.arrRef spec2 5)) := W6_in m ρ c 5 rfl
theorem W6_in_6 (c : Dev nD) : W6 m ρ c (Proc.devRef .tc (Pipeline.arrRef spec2 6)) = W5 m ρ c (Proc.devRef .tc (Pipeline.arrRef spec2 6)) := W6_in m ρ c 6 rfl
theorem W6_in_7 (c : Dev nD) : W6 m ρ c (Proc.devRef .tc (Pipeline.arrRef spec2 7)) = W5 m ρ c (Proc.devRef .tc (Pipeline.arrRef spec2 7)) := W6_in m ρ c 7 rfl

theorem W8_in_0 (c : Dev nD) : W8 m ρ c (Proc.devRef .tc (Pipeline.arrRef spec3 0)) = W7 m ρ c (Proc.devRef .tc (Pipeline.arrRef spec3 0)) := W8_in m ρ c 0 rfl
theorem W8_in_1 (c : Dev nD) : W8 m ρ c (Proc.devRef .tc (Pipeline.arrRef spec3 1)) = W7 m ρ c (Proc.devRef .tc (Pipeline.arrRef spec3 1)) := W8_in m ρ c 1 rfl
theorem W8_in_2 (c : Dev nD) : W8 m ρ c (Proc.devRef .tc (Pipeline.arrRef spec3 2)) = W7 m ρ c (Proc.devRef .tc (Pipeline.arrRef spec3 2)) := W8_in m ρ c 2 rfl
theorem W8_in_3 (c : Dev nD) : W8 m ρ c (Proc.devRef .tc (Pipeline.arrRef spec3 3)) = W7 m ρ c (Proc.devRef .tc (Pipeline.arrRef spec3 3)) := W8_in m ρ c 3 rfl

theorem W10_in_0 (c : Dev nD) : W10 m ρ c (Proc.devRef .tc (Pipeline.arrRef spec4 0)) = W9 m ρ c (Proc.devRef .tc (Pipeline.arrRef spec4 0)) := W10_in m ρ c 0 rfl
theorem W10_in_1 (c : Dev nD) : W10 m ρ c (Proc.devRef .tc (Pipeline.arrRef spec4 1)) = W9 m ρ c (Proc.devRef .tc (Pipeline.arrRef spec4 1)) := W10_in m ρ c 1 rfl
theorem W10_in_2 (c : Dev nD) : W10 m ρ c (Proc.devRef .tc (Pipeline.arrRef spec4 2)) = W9 m ρ c (Proc.devRef .tc (Pipeline.arrRef spec4 2)) := W10_in m ρ c 2 rfl
theorem W10_in_3 (c : Dev nD) : W10 m ρ c (Proc.devRef .tc (Pipeline.arrRef spec4 3)) = W9 m ρ c (Proc.devRef .tc (Pipeline.arrRef spec4 3)) := W10_in m ρ c 3 rfl
theorem W10_in_4 (c : Dev nD) : W10 m ρ c (Proc.devRef .tc (Pipeline.arrRef spec4 4)) = W9 m ρ c (Proc.devRef .tc (Pipeline.arrRef spec4 4)) := W10_in m ρ c 4 rfl
theorem W10_in_5 (c : Dev nD) : W10 m ρ c (Proc.devRef .tc (Pipeline.arrRef spec4 5)) = W9 m ρ c (Proc.devRef .tc (Pipeline.arrRef spec4 5)) := W10_in m ρ c 5 rfl
theorem W10_in_6 (c : Dev nD) : W10 m ρ c (Proc.devRef .tc (Pipeline.arrRef spec4 6)) = W9 m ρ c (Proc.devRef .tc (Pipeline.arrRef spec4 6)) := W10_in m ρ c 6 rfl
theorem W10_in_7 (c : Dev nD) : W10 m ρ c (Proc.devRef .tc (Pipeline.arrRef spec4 7)) = W9 m ρ c (Proc.devRef .tc (Pipeline.arrRef spec4 7)) := W10_in m ρ c 7 rfl

theorem W12_in_0 (c : Dev nD) : W12 m ρ c (Proc.devRef .tc (Pipeline.arrRef spec5 0)) = W11 m ρ c (Proc.devRef .tc (Pipeline.arrRef spec5 0)) := W12_in m ρ c 0 rfl
theorem W12_in_1 (c : Dev nD) : W12 m ρ c (Proc.devRef .tc (Pipeline.arrRef spec5 1)) = W11 m ρ c (Proc.devRef .tc (Pipeline.arrRef spec5 1)) := W12_in m ρ c 1 rfl
theorem W12_in_2 (c : Dev nD) : W12 m ρ c (Proc.devRef .tc (Pipeline.arrRef spec5 2)) = W11 m ρ c (Proc.devRef .tc (Pipeline.arrRef spec5 2)) := W12_in m ρ c 2 rfl
theorem W12_in_3 (c : Dev nD) : W12 m ρ c (Proc.devRef .tc (Pipeline.arrRef spec5 3)) = W11 m ρ c (Proc.devRef .tc (Pipeline.arrRef spec5 3)) := W12_in m ρ c 3 rfl

/-! ## From the launch: a buffer no stretch writes and no region changes -/

theorem W2_keep (c : Dev nD) (r : Ref sig .tc) (h0 : r ∉ hostOps0_W)
    (k0 : ∀ w, (cfg0.win w).isOut = true → Pipeline.arrRef spec0 w ≠ r) :
    W2 m ρ c (Proc.devRef .tc r) = W0 m ρ c (Proc.devRef .tc r) :=
  (W2_step m ρ c r k0).trans (W1_step m ρ c r h0)
theorem W3_keep (c : Dev nD) (r : Ref sig .tc) (h0 : r ∉ hostOps0_W)
    (k0 : ∀ w, (cfg0.win w).isOut = true → Pipeline.arrRef spec0 w ≠ r) (h1 : r ∉ hostOps1_W) :
    W3 m ρ c (Proc.devRef .tc r) = W0 m ρ c (Proc.devRef .tc r) :=
  (W3_step m ρ c r h1).trans (W2_keep m ρ c r h0 k0)
theorem W4_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) :
    W4 m ρ c (Proc.devRef .tc r) = W0 m ρ c (Proc.devRef .tc r) :=
  (W4_step m ρ c r k1).trans (W3_keep m ρ c r h0 k0 h1)
theorem W5_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W) :
    W5 m ρ c (Proc.devRef .tc r) = W0 m ρ c (Proc.devRef .tc r) :=
  (W5_step m ρ c r h2).trans (W4_keep m ρ c r h0 k0 h1 k1)
theorem W6_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) :
    W6 m ρ c (Proc.devRef .tc r) = W0 m ρ c (Proc.devRef .tc r) :=
  (W6_step m ρ c r k2).trans (W5_keep m ρ c r h0 k0 h1 k1 h2)
theorem W7_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) (h3 : r ∉ hostOps3_W) :
    W7 m ρ c (Proc.devRef .tc r) = W0 m ρ c (Proc.devRef .tc r) :=
  (W7_step m ρ c r h3).trans (W6_keep m ρ c r h0 k0 h1 k1 h2 k2)
theorem W8_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) (h3 : r ∉ hostOps3_W)
    (k3 : ∀ w, (cfg3.win w).isOut = true → Pipeline.arrRef spec3 w ≠ r) :
    W8 m ρ c (Proc.devRef .tc r) = W0 m ρ c (Proc.devRef .tc r) :=
  (W8_step m ρ c r k3).trans (W7_keep m ρ c r h0 k0 h1 k1 h2 k2 h3)
theorem W9_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) (h3 : r ∉ hostOps3_W)
    (k3 : ∀ w, (cfg3.win w).isOut = true → Pipeline.arrRef spec3 w ≠ r) (h4 : r ∉ hostOps4_W) :
    W9 m ρ c (Proc.devRef .tc r) = W0 m ρ c (Proc.devRef .tc r) :=
  (W9_step m ρ c r h4).trans (W8_keep m ρ c r h0 k0 h1 k1 h2 k2 h3 k3)
theorem W10_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) (h3 : r ∉ hostOps3_W)
    (k3 : ∀ w, (cfg3.win w).isOut = true → Pipeline.arrRef spec3 w ≠ r) (h4 : r ∉ hostOps4_W)
    (k4 : ∀ w, (cfg4.win w).isOut = true → Pipeline.arrRef spec4 w ≠ r) :
    W10 m ρ c (Proc.devRef .tc r) = W0 m ρ c (Proc.devRef .tc r) :=
  (W10_step m ρ c r k4).trans (W9_keep m ρ c r h0 k0 h1 k1 h2 k2 h3 k3 h4)
theorem W11_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) (h3 : r ∉ hostOps3_W)
    (k3 : ∀ w, (cfg3.win w).isOut = true → Pipeline.arrRef spec3 w ≠ r) (h4 : r ∉ hostOps4_W)
    (k4 : ∀ w, (cfg4.win w).isOut = true → Pipeline.arrRef spec4 w ≠ r) (h5 : r ∉ hostOps5_W) :
    W11 m ρ c (Proc.devRef .tc r) = W0 m ρ c (Proc.devRef .tc r) :=
  (W11_step m ρ c r h5).trans (W10_keep m ρ c r h0 k0 h1 k1 h2 k2 h3 k3 h4 k4)
theorem W12_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) (h3 : r ∉ hostOps3_W)
    (k3 : ∀ w, (cfg3.win w).isOut = true → Pipeline.arrRef spec3 w ≠ r) (h4 : r ∉ hostOps4_W)
    (k4 : ∀ w, (cfg4.win w).isOut = true → Pipeline.arrRef spec4 w ≠ r) (h5 : r ∉ hostOps5_W)
    (k5 : ∀ w, (cfg5.win w).isOut = true → Pipeline.arrRef spec5 w ≠ r) :
    W12 m ρ c (Proc.devRef .tc r) = W0 m ρ c (Proc.devRef .tc r) :=
  (W12_step m ρ c r k5).trans (W11_keep m ρ c r h0 k0 h1 k1 h2 k2 h3 k3 h4 k4 h5)

/-! ## The arguments end as launched -/

theorem W12_main_arg0 (c : Dev nD) : W12 m ρ c (Proc.devRef .tc main_arg0) = m ((c : Thread nD τ).loc main_arg0) :=
  (W12_keep m ρ c main_arg0 (by decide) (by decide) (by decide) (by decide) (by decide) (by decide) (by decide) (by decide) (by decide) (by decide) (by decide) (by decide)).trans rfl
theorem W12_main_arg1 (c : Dev nD) : W12 m ρ c (Proc.devRef .tc main_arg1) = m ((c : Thread nD τ).loc main_arg1) :=
  (W12_keep m ρ c main_arg1 (by decide) (by decide) (by decide) (by decide) (by decide) (by decide) (by decide) (by decide) (by decide) (by decide) (by decide) (by decide)).trans rfl
theorem W12_main_arg2 (c : Dev nD) : W12 m ρ c (Proc.devRef .tc main_arg2) = m ((c : Thread nD τ).loc main_arg2) :=
  (W12_keep m ρ c main_arg2 (by decide) (by decide) (by decide) (by decide) (by decide) (by decide) (by decide) (by decide) (by decide) (by decide) (by decide) (by decide)).trans rfl
theorem W12_main_arg3 (c : Dev nD) : W12 m ρ c (Proc.devRef .tc main_arg3) = m ((c : Thread nD τ).loc main_arg3) :=
  (W12_keep m ρ c main_arg3 (by decide) (by decide) (by decide) (by decide) (by decide) (by decide) (by decide) (by decide) (by decide) (by decide) (by decide) (by decide)).trans rfl
theorem W12_main_arg4 (c : Dev nD) : W12 m ρ c (Proc.devRef .tc main_arg4) = m ((c : Thread nD τ).loc main_arg4) :=
  (W12_keep m ρ c main_arg4 (by decide) (by decide) (by decide) (by decide) (by decide) (by decide) (by decide) (by decide) (by decide) (by decide) (by decide) (by decide)).trans rfl
theorem W12_main_arg5 (c : Dev nD) : W12 m ρ c (Proc.devRef .tc main_arg5) = m ((c : Thread nD τ).loc main_arg5) :=
  (W12_keep m ρ c main_arg5 (by decide) (by decide) (by decide) (by decide) (by decide) (by decide) (by decide) (by decide) (by decide) (by decide) (by decide) (by decide)).trans rfl
theorem W12_main_arg6 (c : Dev nD) : W12 m ρ c (Proc.devRef .tc main_arg6) = m ((c : Thread nD τ).loc main_arg6) :=
  (W12_keep m ρ c main_arg6 (by decide) (by decide) (by decide) (by decide) (by decide) (by decide) (by decide) (by decide) (by decide) (by decide) (by decide) (by decide)).trans rfl
theorem W12_main_arg7 (c : Dev nD) : W12 m ρ c (Proc.devRef .tc main_arg7) = m ((c : Thread nD τ).loc main_arg7) :=
  (W12_keep m ρ c main_arg7 (by decide) (by decide) (by decide) (by decide) (by decide) (by decide) (by decide) (by decide) (by decide) (by decide) (by decide) (by decide)).trans rfl
theorem W12_main_arg8 (c : Dev nD) : W12 m ρ c (Proc.devRef .tc main_arg8) = m ((c : Thread nD τ).loc main_arg8) :=
  (W12_keep m ρ c main_arg8 (by decide) (by decide) (by decide) (by decide) (by decide) (by decide) (by decide) (by decide) (by decide) (by decide) (by decide) (by decide)).trans rfl
theorem W12_main_arg9 (c : Dev nD) : W12 m ρ c (Proc.devRef .tc main_arg9) = m ((c : Thread nD τ).loc main_arg9) :=
  (W12_keep m ρ c main_arg9 (by decide) (by decide) (by decide) (by decide) (by decide) (by decide) (by decide) (by decide) (by decide) (by decide) (by decide) (by decide)).trans rfl
theorem W12_main_arg10 (c : Dev nD) : W12 m ρ c (Proc.devRef .tc main_arg10) = m ((c : Thread nD τ).loc main_arg10) :=
  (W12_keep m ρ c main_arg10 (by decide) (by decide) (by decide) (by decide) (by decide) (by decide) (by decide) (by decide) (by decide) (by decide) (by decide) (by decide)).trans rfl
theorem W12_main_arg11 (c : Dev nD) : W12 m ρ c (Proc.devRef .tc main_arg11) = m ((c : Thread nD τ).loc main_arg11) :=
  (W12_keep m ρ c main_arg11 (by decide) (by decide) (by decide) (by decide) (by decide) (by decide) (by decide) (by decide) (by decide) (by decide) (by decide) (by decide)).trans rfl

/-! ## The arguments where they are read (each equal to its launch contents `W0`, which is `m` at the buffer) -/

/-- `main_arg1` is read by stretch 0, at the launch contents. -/
theorem W0_main_arg1 (c : Dev nD) : W0 m ρ c (Proc.devRef .tc main_arg1) = m ((c : Thread nD τ).loc main_arg1) := rfl
/-- `main_arg0` where region 0 (window 0) and region 2 (window 1) read it. -/
theorem W1_main_arg0 (c : Dev nD) : W1 m ρ c (Proc.devRef .tc main_arg0) = W0 m ρ c (Proc.devRef .tc main_arg0) :=
  W1_step m ρ c main_arg0 (by decide)
theorem W5_main_arg0 (c : Dev nD) : W5 m ρ c (Proc.devRef .tc main_arg0) = W0 m ρ c (Proc.devRef .tc main_arg0) :=
  W5_keep m ρ c main_arg0 (by decide) (by decide) (by decide) (by decide) (by decide)
/-- `main_arg2` where region 0 (window 1) reads it. -/
theorem W1_main_arg2 (c : Dev nD) : W1 m ρ c (Proc.devRef .tc main_arg2) = W0 m ρ c (Proc.devRef .tc main_arg2) :=
  W1_step m ρ c main_arg2 (by decide)
/-- `main_arg3` where stretch 1 reads it. -/
theorem W2_main_arg3 (c : Dev nD) : W2 m ρ c (Proc.devRef .tc main_arg3) = W0 m ρ c (Proc.devRef .tc main_arg3) :=
  W2_keep m ρ c main_arg3 (by decide) (by decide)
/-- `main_arg4`, `main_arg5` where stretch 2 reads them. -/
theorem W4_main_arg4 (c : Dev nD) : W4 m ρ c (Proc.devRef .tc main_arg4) = W0 m ρ c (Proc.devRef .tc main_arg4) :=
  W4_keep m ρ c main_arg4 (by decide) (by decide) (by decide) (by decide)
theorem W4_main_arg5 (c : Dev nD) : W4 m ρ c (Proc.devRef .tc main_arg5) = W0 m ρ c (Proc.devRef .tc main_arg5) :=
  W4_keep m ρ c main_arg5 (by decide) (by decide) (by decide) (by decide)
/-- `main_arg6` where region 2 (window 6) reads it. -/
theorem W5_main_arg6 (c : Dev nD) : W5 m ρ c (Proc.devRef .tc main_arg6) = W0 m ρ c (Proc.devRef .tc main_arg6) :=
  W5_keep m ρ c main_arg6 (by decide) (by decide) (by decide) (by decide) (by decide)
/-- `main_arg7` where stretch 3 reads it. -/
theorem W6_main_arg7 (c : Dev nD) : W6 m ρ c (Proc.devRef .tc main_arg7) = W0 m ρ c (Proc.devRef .tc main_arg7) :=
  W6_keep m ρ c main_arg7 (by decide) (by decide) (by decide) (by decide) (by decide) (by decide)
/-- `main_arg8`, `main_arg9` where stretch 4 reads them. -/
theorem W8_main_arg8 (c : Dev nD) : W8 m ρ c (Proc.devRef .tc main_arg8) = W0 m ρ c (Proc.devRef .tc main_arg8) :=
  W8_keep m ρ c main_arg8 (by decide) (by decide) (by decide) (by decide) (by decide) (by decide) (by decide) (by decide)
theorem W8_main_arg9 (c : Dev nD) : W8 m ρ c (Proc.devRef .tc main_arg9) = W0 m ρ c (Proc.devRef .tc main_arg9) :=
  W8_keep m ρ c main_arg9 (by decide) (by decide) (by decide) (by decide) (by decide) (by decide) (by decide) (by decide)
/-- `main_arg10` where region 4 (window 6) reads it. -/
theorem W9_main_arg10 (c : Dev nD) : W9 m ρ c (Proc.devRef .tc main_arg10) = W0 m ρ c (Proc.devRef .tc main_arg10) :=
  W9_keep m ρ c main_arg10 (by decide) (by decide) (by decide) (by decide) (by decide) (by decide) (by decide) (by decide) (by decide)
/-- `main_arg11` where stretch 5 reads it. -/
theorem W10_main_arg11 (c : Dev nD) : W10 m ρ c (Proc.devRef .tc main_arg11) = W0 m ρ c (Proc.devRef .tc main_arg11) :=
  W10_keep m ρ c main_arg11 (by decide) (by decide) (by decide) (by decide) (by decide) (by decide) (by decide) (by decide) (by decide) (by decide)

/-! ## What stretch 0 computes, where later stretches and regions read it (each equal to its contents at `W1`) -/

/-- The edge endpoints `main_v1`, `main_v3`, read by stretches 1, 3 and 5. -/
theorem W2_main_v1 (c : Dev nD) : W2 m ρ c (Proc.devRef .tc main_v1) = W1 m ρ c (Proc.devRef .tc main_v1) :=
  W2_step m ρ c main_v1 (by decide)
theorem W6_main_v1 (c : Dev nD) : W6 m ρ c (Proc.devRef .tc main_v1) = W1 m ρ c (Proc.devRef .tc main_v1) :=
  (W6_step m ρ c main_v1 (by decide)).trans <| (W5_step m ρ c main_v1 (by decide)).trans <| (W4_step m ρ c main_v1 (by decide)).trans <|
    (W3_step m ρ c main_v1 (by decide)).trans (W2_main_v1 m ρ c)
theorem W10_main_v1 (c : Dev nD) : W10 m ρ c (Proc.devRef .tc main_v1) = W1 m ρ c (Proc.devRef .tc main_v1) :=
  (W10_step m ρ c main_v1 (by decide)).trans <| (W9_step m ρ c main_v1 (by decide)).trans <| (W8_step m ρ c main_v1 (by decide)).trans <|
    (W7_step m ρ c main_v1 (by decide)).trans (W6_main_v1 m ρ c)
theorem W2_main_v3 (c : Dev nD) : W2 m ρ c (Proc.devRef .tc main_v3) = W1 m ρ c (Proc.devRef .tc main_v3) :=
  W2_step m ρ c main_v3 (by decide)
theorem W6_main_v3 (c : Dev nD) : W6 m ρ c (Proc.devRef .tc main_v3) = W1 m ρ c (Proc.devRef .tc main_v3) :=
  (W6_step m ρ c main_v3 (by decide)).trans <| (W5_step m ρ c main_v3 (by decide)).trans <| (W4_step m ρ c main_v3 (by decide)).trans <|
    (W3_step m ρ c main_v3 (by decide)).trans (W2_main_v3 m ρ c)
theorem W10_main_v3 (c : Dev nD) : W10 m ρ c (Proc.devRef .tc main_v3) = W1 m ρ c (Proc.devRef .tc main_v3) :=
  (W10_step m ρ c main_v3 (by decide)).trans <| (W9_step m ρ c main_v3 (by decide)).trans <| (W8_step m ρ c main_v3 (by decide)).trans <|
    (W7_step m ρ c main_v3 (by decide)).trans (W6_main_v3 m ρ c)

/-- The rows' scale factors `main_v11`, an input window of every region. -/
theorem W3_main_v11 (c : Dev nD) : W3 m ρ c (Proc.devRef .tc main_v11) = W1 m ρ c (Proc.devRef .tc main_v11) :=
  (W3_step m ρ c main_v11 (by decide)).trans (W2_step m ρ c main_v11 (by decide))
theorem W5_main_v11 (c : Dev nD) : W5 m ρ c (Proc.devRef .tc main_v11) = W1 m ρ c (Proc.devRef .tc main_v11) :=
  (W5_step m ρ c main_v11 (by decide)).trans <| (W4_step m ρ c main_v11 (by decide)).trans (W3_main_v11 m ρ c)
theorem W7_main_v11 (c : Dev nD) : W7 m ρ c (Proc.devRef .tc main_v11) = W1 m ρ c (Proc.devRef .tc main_v11) :=
  (W7_step m ρ c main_v11 (by decide)).trans <| (W6_step m ρ c main_v11 (by decide)).trans (W5_main_v11 m ρ c)
theorem W9_main_v11 (c : Dev nD) : W9 m ρ c (Proc.devRef .tc main_v11) = W1 m ρ c (Proc.devRef .tc main_v11) :=
  (W9_step m ρ c main_v11 (by decide)).trans <| (W8_step m ρ c main_v11 (by decide)).trans (W7_main_v11 m ρ c)
theorem W11_main_v11 (c : Dev nD) : W11 m ρ c (Proc.devRef .tc main_v11) = W1 m ρ c (Proc.devRef .tc main_v11) :=
  (W11_step m ρ c main_v11 (by decide)).trans <| (W10_step m ρ c main_v11 (by decide)).trans (W9_main_v11 m ρ c)

/-! ## The regions' outputs, where a later region reads them past a host stretch or another region -/

/-- Region 0's output `main_v12`, window 1 of region 1. -/
theorem W3_main_v12 (c : Dev nD) : W3 m ρ c (Proc.devRef .tc main_v12) = W2 m ρ c (Proc.devRef .tc main_v12) :=
  W3_step m ρ c main_v12 (by decide)
/-- Region 1's first output `main_v24_0`, window 0 of region 2. -/
theorem W5_main_v24_0 (c : Dev nD) : W5 m ρ c (Proc.devRef .tc main_v24_0) = W4 m ρ c (Proc.devRef .tc main_v24_0) :=
  W5_step m ρ c main_v24_0 (by decide)
/-- Region 2's second output `main_v33_1`, window 1 of region 3. -/
theorem W7_main_v33_1 (c : Dev nD) : W7 m ρ c (Proc.devRef .tc main_v33_1) = W6 m ρ c (Proc.devRef .tc main_v33_1) :=
  W7_step m ρ c main_v33_1 (by decide)
/-- Region 2's first output `main_v33_0`, window 1 of region 4. -/
theorem W9_main_v33_0 (c : Dev nD) : W9 m ρ c (Proc.devRef .tc main_v33_0) = W6 m ρ c (Proc.devRef .tc main_v33_0) :=
  (W9_step m ρ c main_v33_0 (by decide)).trans <| (W8_step m ρ c main_v33_0 (by decide)).trans (W7_step m ρ c main_v33_0 (by decide))
/-- Region 3's first output `main_v45_0`, window 0 of region 4. -/
theorem W9_main_v45_0 (c : Dev nD) : W9 m ρ c (Proc.devRef .tc main_v45_0) = W8 m ρ c (Proc.devRef .tc main_v45_0) :=
  W9_step m ρ c main_v45_0 (by decide)
/-- Region 4's second output `main_v54_1`, window 1 of region 5. -/
theorem W11_main_v54_1 (c : Dev nD) : W11 m ρ c (Proc.devRef .tc main_v54_1) = W10 m ρ c (Proc.devRef .tc main_v54_1) :=
  W11_step m ρ c main_v54_1 (by decide)

end Cert.Kernel.Hand

end
-- ==== Proof.KI.R0.lean ====
import proofs.«182147_j31610959298973_2_alg».proof.Proof.Gen.KernelIdeal
import proofs.«182147_j31610959298973_2_alg».proof.Proof.Gen.KernelIdeal.Skeleton
import proofs.«182147_j31610959298973_2_alg».proof.Proof.Gen.KernelIdeal.Launch
import proofs.«182147_j31610959298973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 of the main program, at a parameter `V` (the buffer contents when the region is entered):
each window's block at a grid point, what the body leaves in each output block as a function of the
input blocks, the body's triple, the proof data of the pipeline and its body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not
    fetched the block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1 (the weight matrix: one block, the same at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S2000x1 := Rect.unit (s := S2000x1) ![0, 0] S2000x1.size inb_S2000x1_S2000x1_0_0

/-! ## What the body leaves in the output window's buffer -/

/-- Window 3's buffer after the body, from the input windows' blocks `x0` (rows of x), `x1` (the weight
    matrix) and `x2` (the rows' scale factors): its one store, (x0 · x1) scaled row by row by x2. -/
def out0_3 (x0 : Vec F S2000x128 .f32) (x1 : Vec F S128x128 .f32) (x2 : Vec F S2000x1 .f32) : Vec F S2000x128 .f32 :=
  View.canon [⟨r0_0, k0_pay1 (View.ld x0 r0_0) (View.ld x1 r0_1) (View.ld x2 r0_2)⟩]

/-- The store covers the buffer. -/
theorem cover0_3 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The body on whole buffers, the inputs' at read contents `x0 x1 x2` and the output's at anything, runs to the
    continuation holding the inputs' as they were and the output's at `out0_3` of the inputs'. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .f32) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
import proofs.«182147_j31610959298973_2_alg».proof.Proof.Gen.KernelIdeal
import proofs.«182147_j31610959298973_2_alg».proof.Proof.Gen.KernelIdeal.Skeleton
import proofs.«182147_j31610959298973_2_alg».proof.Proof.Gen.KernelIdeal.Launch
import proofs.«182147_j31610959298973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1 (the convolution epilogue with column sums): what its three control cases share

The body adds the aggregated and the self term, scales by the degree factor, adds the bias, stores that block,
and accumulates the block's column sums and column sums of squares in two scratch rows: reset at the first grid
point, copied to the two row outputs at the last. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The zero offsets of a whole-buffer access, however spelt. -/
theorem hz1 : (![0, 0] : Fin 2 → Nat) = fun _ => 0 := funext fun a => by fin_cases a <;> rfl

/-- The condition of the body's first `scf.if` (the reset of the two accumulators), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition of the body's second `scf.if` (the copy of the accumulators to the row outputs). -/
abbrev cond1_1 (i : grid1.Coords) : Prop := k1_cond2 i = 1#1
/-- It holds at the last point only. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last point row output 5 is idle and is not written back; at the last point it is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
/-- Away from the last point row output 6 is idle and is not written back; at the last point it is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The staging and scratch memrefs -/

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
/-- The two scratch rows: whole scoped buffers of the kernel's own, passed beside the windows. -/
abbrev scM1_0 : Memref sig .tc .vmem S1x128 .f32 := Memref.whole cc1_scratch0
abbrev scM1_1 : Memref sig .tc .vmem S1x128 .f32 := Memref.whole cc1_scratch1

/-- The scoped buffers of the core that are neither a staging buffer of this region nor its two scratch rows. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The class invariant with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 (F := F) c) ∗ (∃ r, prngReg c r)) := by
  unfold Pipeline.ΦA; rw [scopedRest1_split]; simp only [scM1_0, scM1_1, owns_whole]; rfl

end Cert.KernelIdeal.Hand

end
-- ==== Proof.KI.R1A.lean ====
import proofs.«182147_j31610959298973_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1, the first grid point: the body's run -/

set_option maxHeartbeats 1000000 in
/-- The body at the first point: the two scratch rows at anything (the body resets them before it reads them). -/
noncomputable def kernelRun1_A (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32) :
    Σ' (L4 : List (View.Piece (Elt F) S2000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R1B.lean ====
import proofs.«182147_j31610959298973_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1, a middle grid point: the body's run -/

set_option maxHeartbeats 1000000 in
/-- The body at a point that is neither the first nor the last: on whole staging memrefs — the inputs' at their
    blocks, the block output's at anything, the two row outputs' (idle here) at contents handed back untouched, the two
    scratch rows at what the point before left — it runs to the continuation holding the inputs' as they were, the
    block output's and the two scratch rows' with the found pieces written. -/
noncomputable def kernelRun1_B (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R1C.lean ====
import proofs.«182147_j31610959298973_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1, the last grid point: the body's run -/

set_option maxHeartbeats 1000000 in
/-- The body at the last point: as at a middle point, and then the two scratch rows are copied into the two row
    outputs, whose buffers are taken at anything. -/
noncomputable def kernelRun1_C (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.R1.lean ====
import proofs.«182147_j31610959298973_2_alg».proof.Proof.KI.R1A
import proofs.«182147_j31610959298973_2_alg».proof.Proof.KI.R1B
import proofs.«182147_j31610959298973_2_alg».proof.Proof.KI.R1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1: the proof data, the body obligation, and what the region leaves

## Reading back what the runs leave -/

/-- A store through the whole-shape rectangle at zero offsets, last, leaves its payload, whatever the buffer held
    and whatever the earlier stores were. -/
theorem read_writes_unit_zero1 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-! ### A middle point -/

theorem valB1_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S2000x128 .f32) (f : v.ty.Contents (Elt F)) :
    v.read (Elt F) (v.writes (Elt F) f (kernelRun1_B c i arg1 harg1 arg2 harg2 arg3 harg3 arg4 harg4 arg5 harg5 arg6 harg6 arg7 harg7 arg8 harg8 arg9 harg9 hc0 hc1 x0 x1 x2 x3 xs0 xs1).1) = k1_pay3 x3 x2 x0 x1 := by
  unfold kernelRun1_B
  dsimp only
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1]

theorem valB1_S0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun1_B c i arg1 harg1 arg2 harg2 arg3 harg3 arg4 harg4 arg5 harg5 arg6 harg6 arg7 harg7 arg8 harg8 arg9 harg9 hc0 hc1 x0 x1 x2 x3 xs0 xs1).2.1) = k1_pay4 x3 x2 x0 x1 xs0 := by
  unfold kernelRun1_B
  dsimp only
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1]

theorem valB1_S1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun1_B c i arg1 harg1 arg2 harg2 arg3 harg3 arg4 harg4 arg5 harg5 arg6 harg6 arg7 harg7 arg8 harg8 arg9 harg9 hc0 hc1 x0 x1 x2 x3 xs0 xs1).2.2.1) = k1_pay5 x3 x2 x0 x1 xs1 := by
  unfold kernelRun1_B
  dsimp only
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1]

/-! ### The first point -/

theorem valA1_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32)
    (v : View sig .tc .vmem S2000x128 .f32) (f : v.ty.Contents (Elt F)) :
    v.read (Elt F) (v.writes (Elt F) f (kernelRun1_A c i arg1 harg1 arg2 harg2 arg3 harg3 arg4 harg4 arg5 harg5 arg6 harg6 arg7 harg7 arg8 harg8 arg9 harg9 hc0 hc1 x0 x1 x2 x3).1) = k1_pay3 x3 x2 x0 x1 := by
  unfold kernelRun1_A
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

theorem valA1_S0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32)
    (v : View sig .tc .vmem S1x128 .f32) (f : v.ty.Contents (Elt F)) :
    v.read (Elt F) (v.writes (Elt F) f (kernelRun1_A c i arg1 harg1 arg2 harg2 arg3 harg3 arg4 harg4 arg5 harg5 arg6 harg6 arg7 harg7 arg8 harg8 arg9 harg9 hc0 hc1 x0 x1 x2 x3).2.1) = k1_pay4 x3 x2 x0 x1 k1_pay1 := by
  unfold kernelRun1_A
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

theorem valA1_S1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S2000x128 .f32) (x1 : Vec F S2000x128 .f32) (x2 : Vec F S2000x1 .f32) (x3 : Vec F S1x128 .f32)
    (v : View sig .tc .vmem S1x128 .f32) (f : v.ty.Contents (Elt F)) :
    v.read (Elt F) (v.writes (Elt F) f (kernelRun1_A c i arg1 harg1 arg2 harg2 arg3 harg3 arg4 harg4 arg5 harg5 arg6 harg6 arg7 harg7 arg8 harg8 arg9 harg9 hc0 hc1 x0 x1 x2 x3).2.2.1) = k1_pay5 x3 x2 x0 x1 k1_pay2 := by
  unfold kernelRun1_A
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

/-! ### The last point -/

theorem valC1_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S2000x128 .f32) (f : v.ty.Contents (Elt F)) :
    v.read (Elt F) (v.writes (Elt F) f (kernelRun1_C c i arg1 harg1 arg2 harg2 arg3 harg3 arg4 harg4 arg5 harg5 arg6 harg6 arg7 harg7 arg8 harg8 arg9 harg9 hc0 hc1 x0 x1 x2 x3 xs0 xs1).1) = k1_pay3 x3 x2 x0 x1 := by
  unfold kernelRun1_C
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

theorem valC1_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun1_C c i arg1 harg1 arg2 harg2 arg3 harg3 arg4 harg4 arg5 harg5 arg6 harg6 arg7 harg7 arg8 harg8 arg9 harg9 hc0 hc1 x0 x1 x2 x3 xs0 xs1).2.1) = k1_pay4 x3 x2 x0 x1 xs0 := by
  unfold kernelRun1_C
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

theorem valC1_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun1_C c i arg1 harg1 arg2 harg2 arg3 harg3 arg4 harg4 arg5 harg5 arg6 harg6 arg7 harg7 arg8 harg8 arg9 harg9 hc0 hc1 x0 x1 x2 x3 xs0 xs1).2.2.1) = k1_pay5 x3 x2 x0 x1 xs1 := by
  unfold kernelRun1_C
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

theorem valC1_S0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun1_C c i arg1 harg1 arg2 harg2 arg3 harg3 arg4 harg4 arg5 harg5 arg6 harg6 arg7 harg7 arg8 harg8 arg9 harg9 hc0 hc1 x0 x1 x2 x3 xs0 xs1).2.2.2.1) = k1_pay4 x3 x2 x0 x1 xs0 := by
  unfold kernelRun1_C
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

theorem valC1_S1 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun1_C c i arg1 harg1 arg2 harg2 arg3 harg3 arg4 harg4 arg5 harg5 arg6 harg6 arg7 harg7 arg8 harg8 arg9 harg9 hc0 hc1 x0 x1 x2 x3 xs0 xs1).2.2.2.2.1) = k1_pay5 x3 x2 x0 x1 xs1 := by
  unfold kernelRun1_C
  dsimp only
  sl_unfold_words
  rw [read_writes_unit_zero1 v f hz1]
  simp only [View.readAt_eq_ld, harg1.read_unread, harg2.read_unread, harg3.read_unread, harg4.read_unread, harg8.read_unread, harg9.read_unread,
    View.ld_unit_zero (S := S2000x128) hz1, View.ld_unit_zero (S := S2000x1) hz1, View.ld_unit_zero (S := S1x128) hz1,
    View.readCov_unit_zero (S := S1x128) _ hz1]

/-! ## The two accumulators, point by point -/

/-- The column-sum row after the body at point `n`: reset to zero at the first point, then each point adds its block's column sums. -/
def sumAcc1 (c : Dev nD) : (n : ℕ) → n < cfg1.N → Vec F S1x128 .f32
  | 0, h => k1_pay4 (iblk1 V c 3 ⟨0, h⟩) (iblk1 V c 2 ⟨0, h⟩) (iblk1 V c 0 ⟨0, h⟩) (iblk1 V c 1 ⟨0, h⟩) k1_pay1
  | n + 1, h => k1_pay4 (iblk1 V c 3 ⟨n + 1, h⟩) (iblk1 V c 2 ⟨n + 1, h⟩) (iblk1 V c 0 ⟨n + 1, h⟩) (iblk1 V c 1 ⟨n + 1, h⟩) (sumAcc1 c n (Nat.lt_of_succ_lt h))

/-- At the first point: the reset row, then this point's contribution. -/
theorem sumAcc1_zero (c : Dev nD) (t : Fin cfg1.N) (h0 : t.val = 0) :
    sumAcc1 V c t.val t.isLt = k1_pay4 (iblk1 V c 3 t) (iblk1 V c 2 t) (iblk1 V c 0 t) (iblk1 V c 1 t) k1_pay1 := by
  obtain ⟨n, hn⟩ := t
  cases n with
  | zero => rfl
  | succ n => exact absurd h0 (Nat.succ_ne_zero n)

/-- At a later point: what the point before left, then this point's contribution. -/
theorem sumAcc1_pos (c : Dev nD) (t : Fin cfg1.N) (h0 : t.val ≠ 0) :
    sumAcc1 V c t.val t.isLt = k1_pay4 (iblk1 V c 3 t) (iblk1 V c 2 t) (iblk1 V c 0 t) (iblk1 V c 1 t) (sumAcc1 V c (t.val - 1) (Nat.lt_of_le_of_lt (Nat.sub_le _ _) t.isLt)) := by
  obtain ⟨n, hn⟩ := t
  cases n with
  | zero => exact absurd rfl h0
  | succ n => rfl

/-- The column-sum-of-squares row after the body at point `n`, likewise. -/
def sqAcc1 (c : Dev nD) : (n : ℕ) → n < cfg1.N → Vec F S1x128 .f32
  | 0, h => k1_pay5 (iblk1 V c 3 ⟨0, h⟩) (iblk1 V c 2 ⟨0, h⟩) (iblk1 V c 0 ⟨0, h⟩) (iblk1 V c 1 ⟨0, h⟩) k1_pay2
  | n + 1, h => k1_pay5 (iblk1 V c 3 ⟨n + 1, h⟩) (iblk1 V c 2 ⟨n + 1, h⟩) (iblk1 V c 0 ⟨n + 1, h⟩) (iblk1 V c 1 ⟨n + 1, h⟩) (sqAcc1 c n (Nat.lt_of_succ_lt h))

/-- At the first point: the reset row, then this point's contribution. -/
theorem sqAcc1_zero (c : Dev nD) (t : Fin cfg1.N) (h0 : t.val = 0) :
    sqAcc1 V c t.val t.isLt = k1_pay5 (iblk1 V c 3 t) (iblk1 V c 2 t) (iblk1 V c 0 t) (iblk1 V c 1 t) k1_pay2 := by
  obtain ⟨n, hn⟩ := t
  cases n with
  | zero => rfl
  | succ n => exact absurd h0 (Nat.succ_ne_zero n)

/-- At a later point: what the point before left, then this point's contribution. -/
theorem sqAcc1_pos (c : Dev nD) (t : Fin cfg1.N) (h0 : t.val ≠ 0) :
    sqAcc1 V c t.val t.isLt = k1_pay5 (iblk1 V c 3 t) (iblk1 V c 2 t) (iblk1 V c 0 t) (iblk1 V c 1 t) (sqAcc1 V c (t.val - 1) (Nat.lt_of_le_of_lt (Nat.sub_le _ _) t.isLt)) := by
  obtain ⟨n, hn⟩ := t
  cases n with
  | zero => exact absurd rfl h0
  | succ n => rfl

/-! ## The region invariant -/

/-- Before point `n`: at the first point the class invariant (every scoped buffer that is no staging buffer at
    anything, the generator register at some state); afterwards the two scratch rows at what the point before left in
    them, the other such buffers at anything, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (sumAcc1 V c n hn) ∗ owns (c : Thread nD τ) scM1_1 fullShare (sqAcc1 V c n hn)) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (sumAcc1 V c n hn) ∗ owns (c : Thread nD τ) scM1_1 fullShare (sqAcc1 V c n hn)) ∗ restBut1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (sumAcc1 V c (n - 1) (by omega)) ∗ owns (c : Thread nD τ) scM1_1 fullShare (sqAcc1 V c (n - 1) (by omega))) ∗ restBut1 (F := F) c) ∗ (∃ r, prngReg c r)) := by
  cases n with
  | zero => exact absurd rfl hz
  | succ n => rfl

/-! ## The pipeline's proof data -/

/-- The proof data of region 1 on core `c`: the arrays as the region finds them (`V`); after the body at point `t`
    each input's buffer at its block, the block output's at the epilogue of the input blocks, the two row outputs' at
    the two accumulators (read only at the last point: elsewhere the windows are idle); the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (iblk1 V c 3 t) (iblk1 V c 2 t) (iblk1 V c 0 t) (iblk1 V c 1 t)
    | ⟨5, _⟩ => sumAcc1 V c t.val t.isLt
    | ⟨6, _⟩ => sqAcc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- The block output after the body: the epilogue of the bias, the degree factor, the aggregated and the self block. -/
theorem after1_4 (c : Dev nD) (t : Fin cfg1.N) : (dat1 V c).after 4 t = k1_pay3 (iblk1 V c 3 t) (iblk1 V c 2 t) (iblk1 V c 0 t) (iblk1 V c 1 t) := by dsimp only [dat1]
theorem after1_5 (c : Dev nD) (t : Fin cfg1.N) : (dat1 V c).after 5 t = sumAcc1 V c t.val t.isLt := by dsimp only [dat1]
theorem after1_6 (c : Dev nD) (t : Fin cfg1.N) : (dat1 V c).after 6 t = sqAcc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the grid coordinate says which of the three control
    cases the point is in; the invariant hands the body the two scratch rows (at anything at the first point, at what
    the point before left afterwards) and takes them back at this point's contents; a row output is handed back
    untouched where it is idle and holds the accumulator's copy at the last point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 25 = 0
  · have hz : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 5 t (idleAt1_5 t hc1) (noFlush1_5 t hc1),
      Dat.leavesExact_idle (dat1 V c) 6 t (idleAt1_6 t hc1) (noFlush1_6 t hc1)]
    rw [sumAcc1_zero V c t hz, sqAcc1_zero V c t hz]
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ hc0 hc1 (iblk1 V c 0 t) (iblk1 V c 1 t) (iblk1 V c 2 t) (iblk1 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact valA1_S0 ..
          · unfold owns; iexists _; isplitr
            swap; · iexact HS1
            ipureintro; exact valA1_S1 ..
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact valA1_4 ..
    isplitl [H5]; · iexists _; iexact H5
    iexists _; iexact H6
  · have hpos : t.val ≠ 0 := by omega
    have hc0 : ¬cond1_0 (grid1.coords t) := fun h => h0 ((hcond1_0 t).mp h)
    by_cases h1 : t.val % 25 = 24
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      rw [show (dat1 V c).leavesExact 6 t = owns (c : Thread nD τ) (ms1_6 t) fullShare ((dat1 V c).after 6 t) from by
        unfold Dat.leavesExact; rw [liveAt1_6 t hc1], after1_6]
      rw [sumAcc1_pos V c t hpos, sqAcc1_pos V c t hpos]
      rw [PhiS1_castSucc V c t, PhiS1_pos V c _ _ hpos]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ hc0 hc1 (iblk1 V c 0 t) (iblk1 V c 1 t) (iblk1 V c 2 t) (iblk1 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact valC1_S0 ..
            · unfold owns; iexists _; isplitr
              swap; · iexact HS1
              ipureintro; exact valC1_S1 ..
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact valC1_4 ..
      isplitl [H5]
      · unfold owns; iexists _; isplitr
        swap; · iexact H5
        ipureintro; exact valC1_5 ..
      · unfold owns; iexists _; isplitr
        swap; · iexact H6
        ipureintro; exact valC1_6 ..
    · have hc1 : ¬cond1_1 (grid1.coords t) := fun h => h1 ((hcond1_1 t).mp h)
      rw [Dat.leavesExact_idle (dat1 V c) 5 t (idleAt1_5 t hc1) (noFlush1_5 t hc1),
        Dat.leavesExact_idle (dat1 V c) 6 t (idleAt1_6 t hc1) (noFlush1_6 t hc1)]
      rw [sumAcc1_pos V c t hpos, sqAcc1_pos V c t hpos]
      rw [PhiS1_castSucc V c t, PhiS1_pos V c _ _ hpos]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ hc0 hc1 (iblk1 V c 0 t) (iblk1 V c 1 t) (iblk1 V c 2 t) (iblk1 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact valB1_S0 ..
            · unfold owns; iexists _; isplitr
              swap; · iexact HS1
              ipureintro; exact valB1_S1 ..
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact valB1_4 ..
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the region and out of it -/

/-- What the region is entered with — the generator register at some state, no prefetched table, and the scoped buffers
    no window stages — is the invariant before the first point. -/
theorem hin1 (c : Dev nD) :
    (iprop((∃ r, prngReg c r) ∗ Pipeline.prefHeld (pcfgs (F := F) 1).pre c (fun _ => fullShare) ((cfgs 1).toPCfg_adm).1 ∗ Pipeline.scopedRest spec1 c) : sProp 𝕄)
      ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

/-- After the last point the invariant gives them back: the two scratch rows' named contents are forgotten. -/
theorem hout1 (c : Dev nD) :
    (dat1 V c).Φ (Fin.last cfg1.N)
      ⊢ (iprop((∃ r, prngReg c r) ∗ Pipeline.ownSems0 (fun k : PEmpty => k.elim) c ∗ Pipeline.scopedRest spec1 c) : sProp 𝕄) := by
  rw [Pipeline.ownSems0_none, scopedRest1_split,
    show (dat1 V c).Φ (Fin.last cfg1.N) = PhiS1 V c (Fin.last cfg1.N).val (Nat.le_of_lt_succ (Fin.last cfg1.N).isLt) from rfl,
    PhiS1_pos V c _ _ (by rw [Fin.val_last]; have : cfg1.N = 25 := N_1; omega)]
  simp only [scM1_0, scM1_1, owns_whole]
  iintro ⟨⟨⟨HS0, HS1⟩, Hrest⟩, Hg⟩
  isplitl [Hg]; · iexact Hg
  isplitr; · iempintro
  isplitl [HS0 HS1]
  · isplitl [HS0]
    · iexists _; iexact HS0
    iexists _; iexact HS1
  iexact Hrest

/-! ## What the two row outputs hold after the last point -/

theorem after1_5_last (c : Dev nD) (h : 24 < cfg1.N) : (dat1 V c).after 5 ⟨24, h⟩ = sumAcc1 V c 24 h := after1_5 V c ⟨24, h⟩
theorem after1_6_last (c : Dev nD) (h : 24 < cfg1.N) : (dat1 V c).after 6 ⟨24, h⟩ = sqAcc1 V c 24 h := after1_6 V c ⟨24, h⟩

end Cert.KernelIdeal.Hand

end
-- ==== Proof.KI.R2.lean ====
import proofs.«182147_j31610959298973_2_alg».proof.Proof.Gen.KernelIdeal
import proofs.«182147_j31610959298973_2_alg».proof.Proof.Gen.KernelIdeal.Skeleton
import proofs.«182147_j31610959298973_2_alg».proof.Proof.Gen.KernelIdeal.Launch
import proofs.«182147_j31610959298973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2 of the main program, at a parameter `V` (the buffer contents when the region is entered):
each window's block at a grid point, what the body leaves in each output block as a function of the
input blocks, the body's triple, the proof data of the pipeline and its body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: where it is not
    fetched the block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same of input window 2 (a statistics row: one block, the same at every point). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The same of input window 3 (one block). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The same of input window 4 (one block). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The same of input window 5 (one block). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The same of input window 6 (the weight matrix: one block). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The same of input window 7. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0
abbrev r2_2 : Rect S128x128 := Rect.unit (s := S128x128) ![0, 0] S128x128.size inb_S128x128_S128x128_0_0
abbrev r2_3 : Rect S2000x1 := Rect.unit (s := S2000x1) ![0, 0] S2000x1.size inb_S2000x1_S2000x1_0_0

/-! ## What the body leaves in each output window's buffer -/

/-- Window 8's buffer after the body, from the input windows' blocks (`x0` the rows to normalise, `x1` the
    residual rows, `x2 … x5` the mean, variance, scale and shift rows, `x6` the weight matrix, `x7` the rows'
    scale factors): its one store, relu of the normalised rows plus the residual. -/
def out2_8 (x0 : Vec F S2000x128 .f32) (x1 : Vec F S2000x128 .f32) (x2 : Vec F S1x128 .f32) (x3 : Vec F S1x128 .f32)
    (x4 : Vec F S1x128 .f32) (x5 : Vec F S1x128 .f32) (x6 : Vec F S128x128 .f32) (x7 : Vec F S2000x1 .f32) : Vec F S2000x128 .f32 :=
  View.canon [⟨r2_0, k2_pay2 (View.ld x2 r2_1) (View.ld x3 r2_1) (View.ld x4 r2_1) (View.ld x5 r2_1) (View.ld x0 r2_0) (View.ld x1 r2_0)⟩]

/-- Window 9's buffer after the body: its one store, that value times the weight matrix, scaled row by row. -/
def out2_9 (x0 : Vec F S2000x128 .f32) (x1 : Vec F S2000x128 .f32) (x2 : Vec F S1x128 .f32) (x3 : Vec F S1x128 .f32)
    (x4 : Vec F S1x128 .f32) (x5 : Vec F S1x128 .f32) (x6 : Vec F S128x128 .f32) (x7 : Vec F S2000x1 .f32) : Vec F S2000x128 .f32 :=
  View.canon [⟨r2_0, k2_pay1 (k2_pay3 (View.ld x2 r2_1) (View.ld x3 r2_1) (View.ld x4 r2_1) (View.ld x5 r2_1) (View.ld x0 r2_0) (View.ld x1 r2_0) (View.ld x6 r2_2)) (k2_pay4 (View.ld x7 r2_3))⟩]

/-- Each store covers its buffer. -/
theorem cover2_8 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

theorem cover2_9 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The body on whole buffers, the inputs' at read contents `x0 … x7` and the outputs' at anything, runs to the
    continuation holding the inputs' as they were and each output's at `out2_W` of the inputs'. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S128x128 .f32) (harg7 : arg7.IsWhole) (arg8 : Memref sig .tc .vmem S2000x1 .f32) (harg8 : arg8.IsWhole)
    (arg9 : Memref sig .tc .vmem S2000x128 .f32) (harg9 : arg9.IsWhole) (arg10 : Memref sig .tc .vmem S2000x128 .f32) (harg10 : arg10.IsWhole)
    (x0 : Vec F S2000x128 .f32) (x1 : Vec F S2000x128 .f32) (x2 : Vec F S1x128 .f32) (x3 : Vec F S1x128 .f32)
    (x4 : Vec F S1x128 .f32) (x5 : Vec F S1x128 .f32) (x6 : Vec F S128x128 .f32) (x7 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)
            ∗ owns (c : Thread nD τ) arg10 fullShare (out2_9 x0 x1 x2 x3 x4 x5 x6 x7)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8 arg9 harg9 arg10 harg10) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover2_8 _)
  iexists _; isplitr
  swap; · iexact H9
  ipureintro
  try dsimp only
  exact View.read_writes_eq_canon _ _ _ (cover2_9 _)

/-! ## The pipeline's proof data -/

/-- The proof data of pipeline 2 on core `c`: the arrays as the region finds them; after the body at point `t`
    each input's buffer at its block and each output's at `out2_W` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
    | ⟨9, _⟩ => out2_9 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by
  dsimp only [dat2]
theorem after2_9 (c : Dev nD) (t : Fin cfg2.N) :
    (dat2 V c).after 9 t = out2_9 (iblk2 V c 0 t) (iblk2 V c 1 t) (iblk2 V c 2 t) (iblk2 V c 3 t) (iblk2 V c 4 t) (iblk2 V c 5 t) (iblk2 V c 6 t) (iblk2 V c 7 t) := by
  dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so `sound_kernel2` applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3Runs.lean ====
import proofs.«182147_j31610959298973_2_alg».proof.Proof.Gen.KernelIdeal
import proofs.«182147_j31610959298973_2_alg».proof.Proof.Gen.KernelIdeal.Skeleton
import proofs.«182147_j31610959298973_2_alg».proof.Proof.Gen.KernelIdeal.Launch
import proofs.«182147_j31610959298973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3 (the convolution epilogue with column sums): what its three control cases share

The body adds the aggregated and the self term, scales by the degree factor, adds the bias, stores that block,
and accumulates the block's column sums and column sums of squares in two scratch rows: reset at the first grid
point, copied to the two row outputs at the last. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The zero offsets of a whole-buffer access, however spelt. -/
theorem hz3 : (![0, 0] : Fin 2 → Nat) = fun _ => 0 := funext fun a => by fin_cases a <;> rfl

/-- The condition of the body's first `scf.if` (the reset of the two accumulators), from the grid coordinate. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 25 = 0 :=
  (by decide +kernel : ∀ t : Fin grid3.N, cond3_0 (grid3.coords t) ↔ t.val % 25 = 0)

/-- The condition of the body's second `scf.if` (the copy of the accumulators to the row outputs). -/
abbrev cond3_1 (i : grid3.Coords) : Prop := k3_cond2 i = 1#1
/-- It holds at the last point only. -/
theorem hcond3_1 : ∀ t : Fin cfg3.N, cond3_1 (grid3.coords t) ↔ t.val % 25 = 24 :=
  (by decide +kernel : ∀ t : Fin grid3.N, cond3_1 (grid3.coords t) ↔ t.val % 25 = 24)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Away from the last point row output 5 is idle and is not written back; at the last point it is live. -/
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel
/-- Away from the last point row output 6 is idle and is not written back; at the last point it is live. -/
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
theorem liveAt3_6 : ∀ t : Fin cfg3.N, cond3_1 (grid3.coords t) → cfg3.idle 6 (grid3.coords t) = false := by decide +kernel

/-! ## The staging and scratch memrefs -/

abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2000x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
/-- The two scratch rows: whole scoped buffers of the kernel's own, passed beside the windows. -/
abbrev scM3_0 : Memref sig .tc .vmem S1x128 .f32 := Memref.whole cc3_scratch0
abbrev scM3_1 : Memref sig .tc .vmem S1x128 .f32 := Memref.whole cc3_scratch1

/-- The scoped buffers of the core that are neither a staging buffer of this region nor its two scratch rows. -/
abbrev restBut3 (c : Dev nD) : sProp 𝕄 :=
  Pipeline.scopedRestBut (Ix := Unit) (Name := ℕ) (U := UR sig nD τ) (Lvl := ℕ) (Val := Elt F) spec3 c [cc3_scratch0, cc3_scratch1]

/-- The class invariant with the two scratch rows as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ restBut3 (F := F) c) ∗ (∃ r, prngReg c r)) := by
  unfold Pipeline.ΦA; rw [scopedRest3_split]; simp only [scM3_0, scM3_1, owns_whole]; rfl

end Cert.KernelIdeal.Hand

end
-- ==== Proof.KI.R3A.lean ====
import proofs.«182147_j31610959298973_2_alg».proof.Proof.KI.R3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3, the first grid point: the body's run -/

set_option maxHeartbeats 1000000 in
/-- The body at the first point: the two scratch rows at anything (the body resets them before it reads them). -/
noncomputable def kernelRun3_A (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32) :
    Σ' (L4 : List (View.Piece (Elt F) S2000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R3B.lean ====
import proofs.«182147_j31610959298973_2_alg».proof.Proof.KI.R3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3, a middle grid point: the body's run -/

set_option maxHeartbeats 1000000 in
/-- The body at a point that is neither the first nor the last: on whole staging memrefs — the inputs' at their
    blocks, the block output's at anything, the two row outputs' (idle here) at contents handed back untouched, the two
    scratch rows at what the point before left — it runs to the continuation holding the inputs' as they were, the
    block output's and the two scratch rows' with the found pieces written. -/
noncomputable def kernelRun3_B (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R3C.lean ====
import proofs.«182147_j31610959298973_2_alg».proof.Proof.KI.R3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3, the last grid point: the body's run -/

set_option maxHeartbeats 1000000 in
/-- The body at the last point: as at a middle point, and then the two scratch rows are copied into the two row
    outputs, whose buffers are taken at anything. -/
noncomputable def kernelRun3_C (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32) :
    Σ' (L4 : List (View.Piece (Elt F) S2000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.R3.lean ====
import proofs.«182147_j31610959298973_2_alg».proof.Proof.KI.R3A
import proofs.«182147_j31610959298973_2_alg».proof.Proof.KI.R3B
import proofs.«182147_j31610959298973_2_alg».proof.Proof.KI.R3C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3: the proof data, the body obligation, and what the region leaves

## Reading back what the runs leave -/

/-- A store through the whole-shape rectangle at zero offsets, last, leaves its payload, whatever the buffer held
    and whatever the earlier stores were. -/
theorem read_writes_unit_zero3 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-! ### A middle point -/

theorem valB3_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S2000x128 .f32) (f : v.ty.Contents (Elt F)) :
    v.read (Elt F) (v.writes (Elt F) f (kernelRun3_B c i arg1 harg1 arg2 harg2 arg3 harg3 arg4 harg4 arg5 harg5 arg6 harg6 arg7 harg7 arg8 harg8 arg9 harg9 hc0 hc1 x0 x1 x2 x3 xs0 xs1).1) = k3_pay3 x3 x2 x0 x1 := by
  unfold kernelRun3_B
  dsimp only
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3]

theorem valB3_S0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun3_B c i arg1 harg1 arg2 harg2 arg3 harg3 arg4 harg4 arg5 harg5 arg6 harg6 arg7 harg7 arg8 harg8 arg9 harg9 hc0 hc1 x0 x1 x2 x3 xs0 xs1).2.1) = k3_pay4 x3 x2 x0 x1 xs0 := by
  unfold kernelRun3_B
  dsimp only
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3]

theorem valB3_S1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun3_B c i arg1 harg1 arg2 harg2 arg3 harg3 arg4 harg4 arg5 harg5 arg6 harg6 arg7 harg7 arg8 harg8 arg9 harg9 hc0 hc1 x0 x1 x2 x3 xs0 xs1).2.2.1) = k3_pay5 x3 x2 x0 x1 xs1 := by
  unfold kernelRun3_B
  dsimp only
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3]

/-! ### The first point -/

theorem valA3_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32)
    (v : View sig .tc .vmem S2000x128 .f32) (f : v.ty.Contents (Elt F)) :
    v.read (Elt F) (v.writes (Elt F) f (kernelRun3_A c i arg1 harg1 arg2 harg2 arg3 harg3 arg4 harg4 arg5 harg5 arg6 harg6 arg7 harg7 arg8 harg8 arg9 harg9 hc0 hc1 x0 x1 x2 x3).1) = k3_pay3 x3 x2 x0 x1 := by
  unfold kernelRun3_A
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

theorem valA3_S0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32)
    (v : View sig .tc .vmem S1x128 .f32) (f : v.ty.Contents (Elt F)) :
    v.read (Elt F) (v.writes (Elt F) f (kernelRun3_A c i arg1 harg1 arg2 harg2 arg3 harg3 arg4 harg4 arg5 harg5 arg6 harg6 arg7 harg7 arg8 harg8 arg9 harg9 hc0 hc1 x0 x1 x2 x3).2.1) = k3_pay4 x3 x2 x0 x1 k3_pay1 := by
  unfold kernelRun3_A
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

theorem valA3_S1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S2000x128 .f32) (x1 : Vec F S2000x128 .f32) (x2 : Vec F S2000x1 .f32) (x3 : Vec F S1x128 .f32)
    (v : View sig .tc .vmem S1x128 .f32) (f : v.ty.Contents (Elt F)) :
    v.read (Elt F) (v.writes (Elt F) f (kernelRun3_A c i arg1 harg1 arg2 harg2 arg3 harg3 arg4 harg4 arg5 harg5 arg6 harg6 arg7 harg7 arg8 harg8 arg9 harg9 hc0 hc1 x0 x1 x2 x3).2.2.1) = k3_pay5 x3 x2 x0 x1 k3_pay2 := by
  unfold kernelRun3_A
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

/-! ### The last point -/

theorem valC3_4 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S2000x128 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 hc0 hc1 x0 x1 x2 x3 xs0 xs1).1) = k3_pay3 x3 x2 x0 x1 := by
  unfold kernelRun3_C
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

theorem valC3_5 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 hc0 hc1 x0 x1 x2 x3 xs0 xs1).2.1) = k3_pay4 x3 x2 x0 x1 xs0 := by
  unfold kernelRun3_C
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

theorem valC3_6 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 hc0 hc1 x0 x1 x2 x3 xs0 xs1).2.2.1) = k3_pay5 x3 x2 x0 x1 xs1 := by
  unfold kernelRun3_C
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

theorem valC3_S0 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 hc0 hc1 x0 x1 x2 x3 xs0 xs1).2.2.2.1) = k3_pay4 x3 x2 x0 x1 xs0 := by
  unfold kernelRun3_C
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

theorem valC3_S1 (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S2000x128 .f32) (x1 : Vec F S2000x128 .f32) (x2 : Vec F S2000x1 .f32) (x3 : Vec F S1x128 .f32) (xs0 : Vec F S1x128 .f32) (xs1 : Vec F S1x128 .f32)
    (v : View sig .tc .vmem S1x128 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 hc0 hc1 x0 x1 x2 x3 xs0 xs1).2.2.2.2.1) = k3_pay5 x3 x2 x0 x1 xs1 := by
  unfold kernelRun3_C
  dsimp only
  sl_unfold_words
  rw [read_writes_unit_zero3 v f hz3]
  simp only [View.readAt_eq_ld, harg1.read_unread, harg2.read_unread, harg3.read_unread, harg4.read_unread, harg8.read_unread, harg9.read_unread,
    View.ld_unit_zero (S := S2000x128) hz3, View.ld_unit_zero (S := S2000x1) hz3, View.ld_unit_zero (S := S1x128) hz3,
    View.readCov_unit_zero (S := S1x128) _ hz3]

/-! ## The two accumulators, point by point -/

/-- The column-sum row after the body at point `n`: reset to zero at the first point, then each point adds its block's column sums. -/
def sumAcc3 (c : Dev nD) : (n : ℕ) → n < cfg3.N → Vec F S1x128 .f32
  | 0, h => k3_pay4 (iblk3 V c 3 ⟨0, h⟩) (iblk3 V c 2 ⟨0, h⟩) (iblk3 V c 0 ⟨0, h⟩) (iblk3 V c 1 ⟨0, h⟩) k3_pay1
  | n + 1, h => k3_pay4 (iblk3 V c 3 ⟨n + 1, h⟩) (iblk3 V c 2 ⟨n + 1, h⟩) (iblk3 V c 0 ⟨n + 1, h⟩) (iblk3 V c 1 ⟨n + 1, h⟩) (sumAcc3 c n (Nat.lt_of_succ_lt h))

/-- At the first point: the reset row, then this point's contribution. -/
theorem sumAcc3_zero (c : Dev nD) (t : Fin cfg3.N) (h0 : t.val = 0) :
    sumAcc3 V c t.val t.isLt = k3_pay4 (iblk3 V c 3 t) (iblk3 V c 2 t) (iblk3 V c 0 t) (iblk3 V c 1 t) k3_pay1 := by
  obtain ⟨n, hn⟩ := t
  cases n with
  | zero => rfl
  | succ n => exact absurd h0 (Nat.succ_ne_zero n)

/-- At a later point: what the point before left, then this point's contribution. -/
theorem sumAcc3_pos (c : Dev nD) (t : Fin cfg3.N) (h0 : t.val ≠ 0) :
    sumAcc3 V c t.val t.isLt = k3_pay4 (iblk3 V c 3 t) (iblk3 V c 2 t) (iblk3 V c 0 t) (iblk3 V c 1 t) (sumAcc3 V c (t.val - 1) (Nat.lt_of_le_of_lt (Nat.sub_le _ _) t.isLt)) := by
  obtain ⟨n, hn⟩ := t
  cases n with
  | zero => exact absurd rfl h0
  | succ n => rfl

/-- The column-sum-of-squares row after the body at point `n`, likewise. -/
def sqAcc3 (c : Dev nD) : (n : ℕ) → n < cfg3.N → Vec F S1x128 .f32
  | 0, h => k3_pay5 (iblk3 V c 3 ⟨0, h⟩) (iblk3 V c 2 ⟨0, h⟩) (iblk3 V c 0 ⟨0, h⟩) (iblk3 V c 1 ⟨0, h⟩) k3_pay2
  | n + 1, h => k3_pay5 (iblk3 V c 3 ⟨n + 1, h⟩) (iblk3 V c 2 ⟨n + 1, h⟩) (iblk3 V c 0 ⟨n + 1, h⟩) (iblk3 V c 1 ⟨n + 1, h⟩) (sqAcc3 c n (Nat.lt_of_succ_lt h))

/-- At the first point: the reset row, then this point's contribution. -/
theorem sqAcc3_zero (c : Dev nD) (t : Fin cfg3.N) (h0 : t.val = 0) :
    sqAcc3 V c t.val t.isLt = k3_pay5 (iblk3 V c 3 t) (iblk3 V c 2 t) (iblk3 V c 0 t) (iblk3 V c 1 t) k3_pay2 := by
  obtain ⟨n, hn⟩ := t
  cases n with
  | zero => rfl
  | succ n => exact absurd h0 (Nat.succ_ne_zero n)

/-- At a later point: what the point before left, then this point's contribution. -/
theorem sqAcc3_pos (c : Dev nD) (t : Fin cfg3.N) (h0 : t.val ≠ 0) :
    sqAcc3 V c t.val t.isLt = k3_pay5 (iblk3 V c 3 t) (iblk3 V c 2 t) (iblk3 V c 0 t) (iblk3 V c 1 t) (sqAcc3 V c (t.val - 1) (Nat.lt_of_le_of_lt (Nat.sub_le _ _) t.isLt)) := by
  obtain ⟨n, hn⟩ := t
  cases n with
  | zero => exact absurd rfl h0
  | succ n => rfl

/-! ## The region invariant -/

/-- Before point `n`: at the first point the class invariant (every scoped buffer that is no staging buffer at
    anything, the generator register at some state); afterwards the two scratch rows at what the point before left in
    them, the other such buffers at anything, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (sumAcc3 V c n hn) ∗ owns (c : Thread nD τ) scM3_1 fullShare (sqAcc3 V c n hn)) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (sumAcc3 V c n hn) ∗ owns (c : Thread nD τ) scM3_1 fullShare (sqAcc3 V c n hn)) ∗ restBut3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (sumAcc3 V c (n - 1) (by omega)) ∗ owns (c : Thread nD τ) scM3_1 fullShare (sqAcc3 V c (n - 1) (by omega))) ∗ restBut3 (F := F) c) ∗ (∃ r, prngReg c r)) := by
  cases n with
  | zero => exact absurd rfl hz
  | succ n => rfl

/-! ## The pipeline's proof data -/

/-- The proof data of region 3 on core `c`: the arrays as the region finds them (`V`); after the body at point `t`
    each input's buffer at its block, the block output's at the epilogue of the input blocks, the two row outputs' at
    the two accumulators (read only at the last point: elsewhere the windows are idle); the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (iblk3 V c 3 t) (iblk3 V c 2 t) (iblk3 V c 0 t) (iblk3 V c 1 t)
    | ⟨5, _⟩ => sumAcc3 V c t.val t.isLt
    | ⟨6, _⟩ => sqAcc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
/-- The block output after the body: the epilogue of the bias, the degree factor, the aggregated and the self block. -/
theorem after3_4 (c : Dev nD) (t : Fin cfg3.N) : (dat3 V c).after 4 t = k3_pay3 (iblk3 V c 3 t) (iblk3 V c 2 t) (iblk3 V c 0 t) (iblk3 V c 1 t) := by dsimp only [dat3]
theorem after3_5 (c : Dev nD) (t : Fin cfg3.N) : (dat3 V c).after 5 t = sumAcc3 V c t.val t.isLt := by dsimp only [dat3]
theorem after3_6 (c : Dev nD) (t : Fin cfg3.N) : (dat3 V c).after 6 t = sqAcc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point. The inputs' memrefs hold their blocks; the grid coordinate says which of the three control
    cases the point is in; the invariant hands the body the two scratch rows (at anything at the first point, at what
    the point before left afterwards) and takes them back at this point's contents; a row output is handed back
    untouched where it is idle and holds the accumulator's copy at the last point; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases h0 : t.val % 25 = 0
  · have hz : t.val = 0 := by omega
    have hc0 : cond3_0 (grid3.coords t) := (hcond3_0 t).mpr h0
    have hc1 : ¬cond3_1 (grid3.coords t) := fun h => by have := (hcond3_1 t).mp h; omega
    rw [Dat.leavesExact_idle (dat3 V c) 5 t (idleAt3_5 t hc1) (noFlush3_5 t hc1),
      Dat.leavesExact_idle (dat3 V c) 6 t (idleAt3_6 t hc1) (noFlush3_6 t hc1)]
    rw [sumAcc3_zero V c t hz, sqAcc3_zero V c t hz]
    rw [PhiS3_castSucc V c t, PhiS3_zero V c _ _ hz, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ _ _ _ _ hc0 hc1 (iblk3 V c 0 t) (iblk3 V c 1 t) (iblk3 V c 2 t) (iblk3 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact valA3_S0 ..
          · unfold owns; iexists _; isplitr
            swap; · iexact HS1
            ipureintro; exact valA3_S1 ..
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact valA3_4 ..
    isplitl [H5]; · iexists _; iexact H5
    iexists _; iexact H6
  · have hpos : t.val ≠ 0 := by omega
    have hc0 : ¬cond3_0 (grid3.coords t) := fun h => h0 ((hcond3_0 t).mp h)
    by_cases h1 : t.val % 25 = 24
    · have hc1 : cond3_1 (grid3.coords t) := (hcond3_1 t).mpr h1
      rw [show (dat3 V c).leavesExact 5 t = owns (c : Thread nD τ) (ms3_5 t) fullShare ((dat3 V c).after 5 t) from by
        unfold Dat.leavesExact; rw [liveAt3_5 t hc1], after3_5]
      rw [show (dat3 V c).leavesExact 6 t = owns (c : Thread nD τ) (ms3_6 t) fullShare ((dat3 V c).after 6 t) from by
        unfold Dat.leavesExact; rw [liveAt3_6 t hc1], after3_6]
      rw [sumAcc3_pos V c t hpos, sqAcc3_pos V c t hpos]
      rw [PhiS3_castSucc V c t, PhiS3_pos V c _ _ hpos]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ _ _ hc0 hc1 (iblk3 V c 0 t) (iblk3 V c 1 t) (iblk3 V c 2 t) (iblk3 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact valC3_S0 ..
            · unfold owns; iexists _; isplitr
              swap; · iexact HS1
              ipureintro; exact valC3_S1 ..
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact valC3_4 ..
      isplitl [H5]
      · unfold owns; iexists _; isplitr
        swap; · iexact H5
        ipureintro; exact valC3_5 ..
      · unfold owns; iexists _; isplitr
        swap; · iexact H6
        ipureintro; exact valC3_6 ..
    · have hc1 : ¬cond3_1 (grid3.coords t) := fun h => h1 ((hcond3_1 t).mp h)
      rw [Dat.leavesExact_idle (dat3 V c) 5 t (idleAt3_5 t hc1) (noFlush3_5 t hc1),
        Dat.leavesExact_idle (dat3 V c) 6 t (idleAt3_6 t hc1) (noFlush3_6 t hc1)]
      rw [sumAcc3_pos V c t hpos, sqAcc3_pos V c t hpos]
      rw [PhiS3_castSucc V c t, PhiS3_pos V c _ _ hpos]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ _ _ hc0 hc1 (iblk3 V c 0 t) (iblk3 V c 1 t) (iblk3 V c 2 t) (iblk3 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact valB3_S0 ..
            · unfold owns; iexists _; isplitr
              swap; · iexact HS1
              ipureintro; exact valB3_S1 ..
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact valB3_4 ..
      isplitl [H5]; · iexists _; iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the region and out of it -/

/-- What the region is entered with — the generator register at some state, no prefetched table, and the scoped buffers
    no window stages — is the invariant before the first point. -/
theorem hin3 (c : Dev nD) :
    (iprop((∃ r, prngReg c r) ∗ Pipeline.prefHeld (pcfgs (F := F) 3).pre c (fun _ => fullShare) ((cfgs 3).toPCfg_adm).1 ∗ Pipeline.scopedRest spec3 c) : sProp 𝕄)
      ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

/-- After the last point the invariant gives them back: the two scratch rows' named contents are forgotten. -/
theorem hout3 (c : Dev nD) :
    (dat3 V c).Φ (Fin.last cfg3.N)
      ⊢ (iprop((∃ r, prngReg c r) ∗ Pipeline.ownSems0 (fun k : PEmpty => k.elim) c ∗ Pipeline.scopedRest spec3 c) : sProp 𝕄) := by
  rw [Pipeline.ownSems0_none, scopedRest3_split,
    show (dat3 V c).Φ (Fin.last cfg3.N) = PhiS3 V c (Fin.last cfg3.N).val (Nat.le_of_lt_succ (Fin.last cfg3.N).isLt) from rfl,
    PhiS3_pos V c _ _ (by rw [Fin.val_last]; have : cfg3.N = 25 := N_3; omega)]
  simp only [scM3_0, scM3_1, owns_whole]
  iintro ⟨⟨⟨HS0, HS1⟩, Hrest⟩, Hg⟩
  isplitl [Hg]; · iexact Hg
  isplitr; · iempintro
  isplitl [HS0 HS1]
  · isplitl [HS0]
    · iexists _; iexact HS0
    iexists _; iexact HS1
  iexact Hrest

/-! ## What the two row outputs hold after the last point -/

theorem after3_5_last (c : Dev nD) (h : 24 < cfg3.N) : (dat3 V c).after 5 ⟨24, h⟩ = sumAcc3 V c 24 h := after3_5 V c ⟨24, h⟩
theorem after3_6_last (c : Dev nD) (h : 24 < cfg3.N) : (dat3 V c).after 6 ⟨24, h⟩ = sqAcc3 V c 24 h := after3_6 V c ⟨24, h⟩

end Cert.KernelIdeal.Hand

end
-- ==== Proof.KI.R4.lean ====
import proofs.«182147_j31610959298973_2_alg».proof.Proof.Gen.KernelIdeal
import proofs.«182147_j31610959298973_2_alg».proof.Proof.Gen.KernelIdeal.Skeleton
import proofs.«182147_j31610959298973_2_alg».proof.Proof.Gen.KernelIdeal.Launch
import proofs.«182147_j31610959298973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4 of the main program, at a parameter `V` (the buffer contents when the region is entered):
each window's block at a grid point, what the body leaves in each output block as a function of the
input blocks, the body's triple, the proof data of the pipeline and its body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current buffer holds its block at every point, fetched there or not: where it is not
    fetched the block index has not moved, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same of input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same of input window 2 (a statistics row: one block, the same at every point). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The same of input window 3 (one block). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The same of input window 4 (one block). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The same of input window 5 (one block). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The same of input window 6 (the weight matrix: one block). -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- The same of input window 7. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S2000x128 := Rect.unit (s := S2000x128) ![0, 0] S2000x128.size inb_S2000x128_S2000x128_0_0
abbrev r4_1 : Rect S1x128 := Rect.unit (s := S1x128) ![0, 0] S1x128.size inb_S1x128_S1x128_0_0
abbrev r4_2 : Rect S128x32 := Rect.unit (s := S128x32) ![0, 0] S128x32.size inb_S128x32_S128x32_0_0
abbrev r4_3 : Rect S2000x1 := Rect.unit (s := S2000x1) ![0, 0] S2000x1.size inb_S2000x1_S2000x1_0_0
abbrev r4_4 : Rect S2000x32 := Rect.unit (s := S2000x32) ![0, 0] S2000x32.size inb_S2000x32_S2000x32_0_0

/-! ## What the body leaves in each output window's buffer -/

/-- Window 8's buffer after the body, from the input windows' blocks (`x0` the rows to normalise, `x1` the
    residual rows, `x2 … x5` the mean, variance, scale and shift rows, `x6` the weight matrix, `x7` the rows'
    scale factors): its one store, relu of the normalised rows plus the residual. -/
def out4_8 (x0 : Vec F S2000x128 .f32) (x1 : Vec F S2000x128 .f32) (x2 : Vec F S1x128 .f32) (x3 : Vec F S1x128 .f32)
    (x4 : Vec F S1x128 .f32) (x5 : Vec F S1x128 .f32) (x6 : Vec F S128x32 .f32) (x7 : Vec F S2000x1 .f32) : Vec F S2000x128 .f32 :=
  View.canon [⟨r4_0, k4_pay2 (View.ld x2 r4_1) (View.ld x3 r4_1) (View.ld x4 r4_1) (View.ld x5 r4_1) (View.ld x0 r4_0) (View.ld x1 r4_0)⟩]

/-- Window 9's buffer after the body: its one store, that value times the weight matrix, scaled row by row. -/
def out4_9 (x0 : Vec F S2000x128 .f32) (x1 : Vec F S2000x128 .f32) (x2 : Vec F S1x128 .f32) (x3 : Vec F S1x128 .f32)
    (x4 : Vec F S1x128 .f32) (x5 : Vec F S1x128 .f32) (x6 : Vec F S128x32 .f32) (x7 : Vec F S2000x1 .f32) : Vec F S2000x32 .f32 :=
  View.canon [⟨r4_4, k4_pay1 (k4_pay3 (View.ld x2 r4_1) (View.ld x3 r4_1) (View.ld x4 r4_1) (View.ld x5 r4_1) (View.ld x0 r4_0) (View.ld x1 r4_0) (View.ld x6 r4_2)) (k4_pay4 (View.ld x7 r4_3))⟩]

/-- Each store covers its buffer. -/
theorem cover4_8 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

theorem cover4_9 (p0 : Vec F S2000x32 .f32) (y : S2000x32.Idx) :
    ∃ pc ∈ ([⟨r4_4, p0⟩] : List (View.Piece (Elt F) S2000x32 .f32)), y ∈ pc.1.set :=
  View.cover_of_tiled [⟨r4_4, p0⟩] S2000x32.size (by rfl) y

/-! ## The body's triple -/

set_option maxHeartbeats 1000000 in
/-- The body on whole buffers, the inputs' at read contents `x0 … x7` and the outputs' at anything, runs to the
    continuation holding the inputs' as they were and each output's at `out4_W` of the inputs'. -/
theorem sound_kernel4 (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S128x32 .f32) (harg7 : arg7.IsWhole) (arg8 : Memref sig .tc .vmem S2000x1 .f32) (harg8 : arg8.IsWhole)
    (arg9 : Memref sig .tc .vmem S2000x128 .f32) (harg9 : arg9.IsWhole) (arg10 : Memref sig .tc .vmem S2000x32 .f32) (harg10 : arg10.IsWhole)
    (x0 : Vec F S2000x128 .f32) (x1 : Vec F S2000x128 .f32) (x2 : Vec F S1x128 .f32) (x3 : Vec F S1x128 .f32)
    (x4 : Vec F S1x128 .f32) (x5 : Vec F S1x128 .f32) (x6 : Vec F S128x32 .f32) (x7 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out4_8 x0 x1 x2 x3 x4 x5 x6 x7)
            ∗ owns (c : Thread nD τ) arg10 fullShare (out4_9 x0 x1 x2 x3 x4 x5 x6 x7)) -∗ K ⟨⟩))
      ⊢ wp frame (wpE (defs₀ (F := F)) Variants.none c none) E
          (cc4_kernel i arg1 harg1 arg2 harg2 arg3 harg3 arg4 harg4 arg5 harg5 arg6 harg6 arg7 harg7 arg8 harg8 arg9 harg9 arg10 harg10) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover4_8 _)
  iexists _; isplitr
  swap; · iexact H9
  ipureintro
  try dsimp only
  exact View.read_writes_eq_canon _ _ _ (cover4_9 _)

/-! ## The pipeline's proof data -/

/-- The proof data of pipeline 4 on core `c`: the arrays as the region finds them; after the body at point `t`
    each input's buffer at its block and each output's at `out4_W` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t) (iblk4 V c 6 t) (iblk4 V c 7 t)
    | ⟨9, _⟩ => out4_9 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) :
    (dat4 V c).after 8 t = out4_8 (iblk4 V c 0 t) (iblk4 V c 1 t) (iblk4 V c 2 t) (iblk4 V c 3 t) (iblk4 V c 4 t) (iblk4 V c 5 t) (iblk4 V c 6 t) (iblk4 V c 7 t) := by
  dsimp only [dat4]
theorem after4_9 (c : Dev nD) (t : Fin cfg4.N) :
    (dat4 V c).after 9 t = out4_9 (iblk4 V c 0 t) (iblk4 V c 1 t) (iblk4 V c 2 t) (iblk4 V c 3 t) (iblk4 V c 4 t) (iblk4 V c 5 t) (iblk4 V c 6 t) (iblk4 V c 7 t) := by
  dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' buffers hold their blocks, so `sound_kernel4` applies; the invariant and
    what is owed pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of pipeline 4, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
import proofs.«182147_j31610959298973_2_alg».proof.Proof.Gen.KernelIdeal
import proofs.«182147_j31610959298973_2_alg».proof.Proof.Gen.KernelIdeal.Skeleton
import proofs.«182147_j31610959298973_2_alg».proof.Proof.Gen.KernelIdeal.Launch
import proofs.«182147_j31610959298973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 5 of the main program, at a parameter `V` (the buffer contents when the region is entered):
each window's block at a grid point, what the body leaves in each output block as a function of the
input blocks, the body's triple, the proof data of the pipeline and its body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current buffer holds its block at every point, fetched there or not: where it is not
    fetched the block index has not moved, and the body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The same of input window 2. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The same of input window 3 (the bias row: one block, the same at every point). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_0 : Rect S2000x32 := Rect.unit (s := S2000x32) ![0, 0] S2000x32.size inb_S2000x32_S2000x32_0_0
abbrev r5_2 : Rect S2000x1 := Rect.unit (s := S2000x1) ![0, 0] S2000x1.size inb_S2000x1_S2000x1_0_0
abbrev r5_3 : Rect S1x32 := Rect.unit (s := S1x32) ![0, 0] S1x32.size inb_S1x32_S1x32_0_0

/-! ## What the body leaves in the output window's buffer -/

/-- Window 4's buffer after the body, from the input windows' blocks `x0` (aggregated rows), `x1` (the rows'
    own features), `x2` (the rows' scale factors) and `x3` (the bias row): its one store, the row-wise
    log-softmax of x2 · (x0 + x1) + x3. -/
def out5_4 (x0 : Vec F S2000x32 .f32) (x1 : Vec F S2000x32 .f32) (x2 : Vec F S2000x1 .f32) (x3 : Vec F S1x32 .f32) : Vec F S2000x32 .f32 :=
  View.canon [⟨r5_0, k5_pay1 (View.ld x3 r5_3) (View.ld x2 r5_2) (View.ld x0 r5_0) (View.ld x1 r5_0)⟩]

/-- The store covers the buffer. -/
theorem cover5_4 (p0 : Vec F S2000x32 .f32) (y : S2000x32.Idx) :
    ∃ pc ∈ ([⟨r5_0, p0⟩] : List (View.Piece (Elt F) S2000x32 .f32)), y ∈ pc.1.set :=
  View.cover_of_tiled [⟨r5_0, p0⟩] S2000x32.size (by rfl) y

/-! ## The body's triple -/

set_option maxHeartbeats 1000000 in
/-- The body on whole buffers, the inputs' at read contents `x0 x1 x2 x3` and the output's at anything, runs to the
    continuation holding the inputs' as they were and the output's at `out5_4` of the inputs'. -/
theorem sound_kernel5 (c : Dev nD) (E : Set ℕ) (i : grid5.Coords)
    (arg1 : Memref sig .tc .vmem S2000x32 .f32) (harg1 : arg1.IsWhole) (arg2 : Memref sig .tc .vmem S2000x32 .f32) (harg2 : arg2.IsWhole)
    (arg3 : Memref sig .tc .vmem S2000x1 .f32) (harg3 : arg3.IsWhole) (arg4 : Memref sig .tc .vmem S1x32 .f32) (harg4 : arg4.IsWhole)
    (arg5 : Memref sig .tc .vmem S2000x32 .f32) (harg5 : arg5.IsWhole)
    (x0 : Vec F S2000x32 .f32) (x1 : Vec F S2000x32 .f32) (x2 : Vec F S2000x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out5_4 x0 x1 x2 x3)) -∗ K ⟨⟩))
      ⊢ wp frame (wpE (defs₀ (F := F)) Variants.none c none) E (cc5_kernel i arg1 harg1 arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them; after the body at point `t`
    each input's buffer at its block and the output's at `out5_4` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so `sound_kernel5` applies; the invariant and
    what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 5, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
/-
  The run of the six kernel regions of the program, one after the other, among the host stretches of @main:
  the contents of every unscoped buffer at each boundary (the launch memory, then each host stretch applied, then
  each region's arrays at what its write-backs leave), each region as a segment record over those contents, and the
  launch over the list of segments: every weakly fair execution terminates and every unscoped buffer ends at the
  last boundary's contents.
-/
import proofs.«182147_j31610959298973_2_alg».proof.Proof.KI.R0
import proofs.«182147_j31610959298973_2_alg».proof.Proof.KI.R1
import proofs.«182147_j31610959298973_2_alg».proof.Proof.KI.R2
import proofs.«182147_j31610959298973_2_alg».proof.Proof.KI.R3
import proofs.«182147_j31610959298973_2_alg».proof.Proof.KI.R4
import proofs.«182147_j31610959298973_2_alg».proof.Proof.KI.R5
import proofs.«182147_j31610959298973_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0`: what region 0 is entered from. -/
abbrev W1 : Dev nD → Valuation τ sig (Elt F) := fun c => StableHlo.after hostOps0 (W0 m ρ c)
abbrev B1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)

/-- After `hostOps1`: what region 1 is entered from. -/
abbrev W3 : Dev nD → Valuation τ sig (Elt F) := fun c => StableHlo.after hostOps1 (W2 m ρ c)
abbrev B3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (B3 m ρ) c).arrAt w cfg1.N
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev B4 : (c : Dev nD) → (b : Ref sig .tc) → Buf (Elt F) ((c : Thread nD τ).loc b) := fun c b => W4 m ρ c b
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)

/-- After `hostOps2`: what region 2 is entered from. -/
abbrev W5 : Dev nD → Valuation τ sig (Elt F) := fun c => StableHlo.after hostOps2 (W4 m ρ c)
abbrev B5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (B5 m ρ) c).arrAt w cfg2.N
theorem W6_arr (c : Dev nD) (w : Fin cfg2.W) :
    W6 m ρ c (Proc.devRef .tc (Pipeline.arrRef spec2 w)) = (dat2 (B5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev B6 : (c : Dev nD) → (b : Ref sig .tc) → Buf (Elt F) ((c : Thread nD τ).loc b) := fun c b => W6 m ρ c b
theorem hF2 (c : Dev nD) (w : Fin cfg2.W) : (dat2 (B5 m ρ) c).arrAt w cfg2.N = B6 m ρ c (Pipeline.arrRef spec2 w) :=
  (W6_arr m ρ c w).symm
theorem hrest2 (c : Dev nD) : ∀ b, b ∉ Finset.univ.image (Pipeline.arrRef spec2) → B6 m ρ c b = B5 m ρ c b :=
  fun b hb => W6_of_ne m ρ c b fun w e => hb (Finset.mem_image.mpr ⟨w, Finset.mem_univ _, e⟩)

/-- After `hostOps3`: what region 3 is entered from. -/
abbrev W7 : Dev nD → Valuation τ sig (Elt F) := fun c => StableHlo.after hostOps3 (W6 m ρ c)
abbrev B7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (B7 m ρ) c).arrAt w cfg3.N
theorem W8_arr (c : Dev nD) (w : Fin cfg3.W) :
    W8 m ρ c (Proc.devRef .tc (Pipeline.arrRef spec3 w)) = (dat3 (B7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev B8 : (c : Dev nD) → (b : Ref sig .tc) → Buf (Elt F) ((c : Thread nD τ).loc b) := fun c b => W8 m ρ c b
theorem hF3 (c : Dev nD) (w : Fin cfg3.W) : (dat3 (B7 m ρ) c).arrAt w cfg3.N = B8 m ρ c (Pipeline.arrRef spec3 w) :=
  (W8_arr m ρ c w).symm
theorem hrest3 (c : Dev nD) : ∀ b, b ∉ Finset.univ.image (Pipeline.arrRef spec3) → B8 m ρ c b = B7 m ρ c b :=
  fun b hb => W8_of_ne m ρ c b fun w e => hb (Finset.mem_image.mpr ⟨w, Finset.mem_univ _, e⟩)

/-- After `hostOps4`: what region 4 is entered from. -/
abbrev W9 : Dev nD → Valuation τ sig (Elt F) := fun c => StableHlo.after hostOps4 (W8 m ρ c)
abbrev B9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (B9 m ρ) c).arrAt w cfg4.N
theorem W10_arr (c : Dev nD) (w : Fin cfg4.W) :
    W10 m ρ c (Proc.devRef .tc (Pipeline.arrRef spec4 w)) = (dat4 (B9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev B10 : (c : Dev nD) → (b : Ref sig .tc) → Buf (Elt F) ((c : Thread nD τ).loc b) := fun c b => W10 m ρ c b
theorem hF4 (c : Dev nD) (w : Fin cfg4.W) : (dat4 (B9 m ρ) c).arrAt w cfg4.N = B10 m ρ c (Pipeline.arrRef spec4 w) :=
  (W10_arr m ρ c w).symm
theorem hrest4 (c : Dev nD) : ∀ b, b ∉ Finset.univ.image (Pipeline.arrRef spec4) → B10 m ρ c b = B9 m ρ c b :=
  fun b hb => W10_of_ne m ρ c b fun w e => hb (Finset.mem_image.mpr ⟨w, Finset.mem_univ _, e⟩)

/-- After `hostOps5`: what region 5 is entered from. -/
abbrev W11 : Dev nD → Valuation τ sig (Elt F) := fun c => StableHlo.after hostOps5 (W10 m ρ c)
abbrev B11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (B11 m ρ) c).arrAt w cfg5.N
theorem W12_arr (c : Dev nD) (w : Fin cfg5.W) :
    W12 m ρ c (Proc.devRef .tc (Pipeline.arrRef spec5 w)) = (dat5 (B11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev B12 : (c : Dev nD) → (b : Ref sig .tc) → Buf (Elt F) ((c : Thread nD τ).loc b) := fun c b => W12 m ρ c b
theorem hF5 (c : Dev nD) (w : Fin cfg5.W) : (dat5 (B11 m ρ) c).arrAt w cfg5.N = B12 m ρ c (Pipeline.arrRef spec5 w) :=
  (W12_arr m ρ c w).symm
theorem hrest5 (c : Dev nD) : ∀ b, b ∉ Finset.univ.image (Pipeline.arrRef spec5) → B12 m ρ c b = B11 m ρ c b :=
  fun b hb => W12_of_ne m ρ c b fun w e => hb (Finset.mem_image.mpr ⟨w, Finset.mem_univ _, e⟩)

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (B1 m ρ) c
  | ⟨1, _⟩ => fun c => dat1 (B3 m ρ) c
  | ⟨2, _⟩ => fun c => dat2 (B5 m ρ) c
  | ⟨3, _⟩ => fun c => dat3 (B7 m ρ) c
  | ⟨4, _⟩ => fun c => dat4 (B9 m ρ) c
  | ⟨5, _⟩ => fun c => dat5 (B11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the region's
    invariant and comes back; nothing is owed; the kernel has no semaphore of its own. -/
def rg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the region's
    invariant and comes back; nothing is owed; the kernel has no semaphore of its own. -/
def rg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (B3 m ρ) c
  hout c := hout1 (B3 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B3 m ρ c) (B4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the region's
    invariant and comes back; nothing is owed; the kernel has no semaphore of its own. -/
def rg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (B5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (B5 m ρ c) (B6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the region's
    invariant and comes back; nothing is owed; the kernel has no semaphore of its own. -/
def rg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (B7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (B7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (B7 m ρ) c
  hout c := hout3 (B7 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (B7 m ρ c) (B8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split
    out of the unscoped buffers and put back at the exit contents; the generator register goes into the region's
    invariant and comes back; nothing is owed; the kernel has no semaphore of its own. -/
def rg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (B9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (B9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (B9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (B9 m ρ c) (B10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split
    out of the unscoped buffers and put back at the exit contents; the generator register goes into the region's
    invariant and comes back; nothing is owed; the kernel has no semaphore of its own. -/
def rg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (B11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (B11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (B11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (B11 m ρ c) (B12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve segments in order: a host segment per stretch from its boundary's contents, a region per pallas_call. -/
abbrev sgs : List (Pipeline.Seg (pcfgs (F := F)) adm (pdats m ρ) () defs₀ 𝒱₀ L lv) :=
  [ .host (hseg hostOps0 hostOps0_sub hostOps0_fresh (W0 m ρ)),
    .region (rg0 m ρ),
    .host (hseg hostOps1 hostOps1_sub hostOps1_fresh (W2 m ρ)),
    .region (rg1 m ρ),
    .host (hseg hostOps2 hostOps2_sub hostOps2_fresh (W4 m ρ)),
    .region (rg2 m ρ),
    .host (hseg hostOps3 hostOps3_sub hostOps3_fresh (W6 m ρ)),
    .region (rg3 m ρ),
    .host (hseg hostOps4 hostOps4_sub hostOps4_fresh (W8 m ρ)),
    .region (rg4 m ρ),
    .host (hseg hostOps5 hostOps5_sub hostOps5_fresh (W10 m ρ)),
    .region (rg5 m ρ) ]
/-- @main is the run of the segments. -/
theorem main_run (c : Dev nD) : main (F := F) c = Pipeline.Seg.run (sgs m ρ) := (main_chain c).trans (by chain_rfl)

set_option backward.isDefEq.respectTransparency.types false in
/-- The run: from any memory with zero counters every weakly fair execution of @main terminates, nothing faulting, and
    every unscoped buffer ends at the last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (sgs m ρ)
    (fun c Q => by rw [main_run m ρ c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Hand

end
-- ==== Proof.KI.Carry.lean ====
/-
  What the run carries from boundary to boundary: a buffer no host stretch writes and no region changes holds at a
  later boundary what it held at an earlier one. A host stretch leaves every buffer outside its write list as it
  was; a region leaves every buffer that is none of its windows' arrays as it was, and an INPUT window's array too
  (it is never written back). From these single steps: each argument of the program read at the boundaries where
  it is used and at the end, and each intermediate buffer read at the later boundaries where it is used.
-/
import proofs.«182147_j31610959298973_2_alg».proof.Proof.KI.Run
import proofs.«182147_j31610959298973_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## Single steps -/

/-- Host stretch 0 leaves a buffer outside its write list as it was. -/
theorem W1_step (c : Dev nD) (r : Ref sig .tc) (h : r ∉ hostOps0_W) :
    W1 m ρ c (Proc.devRef .tc r) = W0 m ρ c (Proc.devRef .tc r) :=
  StableHlo.after_of_writes_sub hostOps0 _ hostOps0_writes h
/-- Host stretch 1 leaves a buffer outside its write list as it was. -/
theorem W3_step (c : Dev nD) (r : Ref sig .tc) (h : r ∉ hostOps1_W) :
    W3 m ρ c (Proc.devRef .tc r) = W2 m ρ c (Proc.devRef .tc r) :=
  StableHlo.after_of_writes_sub hostOps1 _ hostOps1_writes h
/-- Host stretch 2 leaves a buffer outside its write list as it was. -/
theorem W5_step (c : Dev nD) (r : Ref sig .tc) (h : r ∉ hostOps2_W) :
    W5 m ρ c (Proc.devRef .tc r) = W4 m ρ c (Proc.devRef .tc r) :=
  StableHlo.after_of_writes_sub hostOps2 _ hostOps2_writes h
/-- Host stretch 3 leaves a buffer outside its write list as it was. -/
theorem W7_step (c : Dev nD) (r : Ref sig .tc) (h : r ∉ hostOps3_W) :
    W7 m ρ c (Proc.devRef .tc r) = W6 m ρ c (Proc.devRef .tc r) :=
  StableHlo.after_of_writes_sub hostOps3 _ hostOps3_writes h
/-- Host stretch 4 leaves a buffer outside its write list as it was. -/
theorem W9_step (c : Dev nD) (r : Ref sig .tc) (h : r ∉ hostOps4_W) :
    W9 m ρ c (Proc.devRef .tc r) = W8 m ρ c (Proc.devRef .tc r) :=
  StableHlo.after_of_writes_sub hostOps4 _ hostOps4_writes h
/-- Host stretch 5 leaves a buffer outside its write list as it was. -/
theorem W11_step (c : Dev nD) (r : Ref sig .tc) (h : r ∉ hostOps5_W) :
    W11 m ρ c (Proc.devRef .tc r) = W10 m ρ c (Proc.devRef .tc r) :=
  StableHlo.after_of_writes_sub hostOps5 _ hostOps5_writes h

/-- Region 0 leaves an input window's array as entered: it is never written back. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (B1 m ρ) c).arrAt_in w hin _).trans (A_eq0 (B1 m ρ) c w))
/-- Region 1 leaves an input window's array as entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (B3 m ρ) c).arrAt_in w hin _).trans (A_eq1 (B3 m ρ) c w))
/-- Region 2 leaves an input window's array as entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (B5 m ρ) c).arrAt_in w hin _).trans (A_eq2 (B5 m ρ) c w))
/-- Region 3 leaves an input window's array as entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (B7 m ρ) c).arrAt_in w hin _).trans (A_eq3 (B7 m ρ) c w))
/-- Region 4 leaves an input window's array as entered. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (B9 m ρ) c).arrAt_in w hin _).trans (A_eq4 (B9 m ρ) c w))
/-- Region 5 leaves an input window's array as entered. -/
theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (B11 m ρ) c).arrAt_in w hin _).trans (A_eq5 (B11 m ρ) c w))

/-- Region 0 leaves a buffer that is no OUTPUT window's array as entered: an input window's array is never written
    back, and a buffer that is no window's array is not touched. -/
theorem W2_step (c : Dev nD) (r : Ref sig .tc) (h : ∀ w, (cfg0.win w).isOut = true → Pipeline.arrRef spec0 w ≠ r) :
    W2 m ρ c (Proc.devRef .tc r) = W1 m ρ c (Proc.devRef .tc r) := by
  by_cases hw : ∃ w, Pipeline.arrRef spec0 w = r
  · obtain ⟨w, rfl⟩ := hw
    exact W2_in m ρ c w (Bool.eq_false_iff.mpr fun ht => h w ht rfl)
  · exact W2_of_ne m ρ c r fun w e => hw ⟨w, e⟩
/-- The same of region 1. -/
theorem W4_step (c : Dev nD) (r : Ref sig .tc) (h : ∀ w, (cfg1.win w).isOut = true → Pipeline.arrRef spec1 w ≠ r) :
    W4 m ρ c (Proc.devRef .tc r) = W3 m ρ c (Proc.devRef .tc r) := by
  by_cases hw : ∃ w, Pipeline.arrRef spec1 w = r
  · obtain ⟨w, rfl⟩ := hw
    exact W4_in m ρ c w (Bool.eq_false_iff.mpr fun ht => h w ht rfl)
  · exact W4_of_ne m ρ c r fun w e => hw ⟨w, e⟩
/-- The same of region 2. -/
theorem W6_step (c : Dev nD) (r : Ref sig .tc) (h : ∀ w, (cfg2.win w).isOut = true → Pipeline.arrRef spec2 w ≠ r) :
    W6 m ρ c (Proc.devRef .tc r) = W5 m ρ c (Proc.devRef .tc r) := by
  by_cases hw : ∃ w, Pipeline.arrRef spec2 w = r
  · obtain ⟨w, rfl⟩ := hw
    exact W6_in m ρ c w (Bool.eq_false_iff.mpr fun ht => h w ht rfl)
  · exact W6_of_ne m ρ c r fun w e => hw ⟨w, e⟩
/-- The same of region 3. -/
theorem W8_step (c : Dev nD) (r : Ref sig .tc) (h : ∀ w, (cfg3.win w).isOut = true → Pipeline.arrRef spec3 w ≠ r) :
    W8 m ρ c (Proc.devRef .tc r) = W7 m ρ c (Proc.devRef .tc r) := by
  by_cases hw : ∃ w, Pipeline.arrRef spec3 w = r
  · obtain ⟨w, rfl⟩ := hw
    exact W8_in m ρ c w (Bool.eq_false_iff.mpr fun ht => h w ht rfl)
  · exact W8_of_ne m ρ c r fun w e => hw ⟨w, e⟩
/-- The same of region 4. -/
theorem W10_step (c : Dev nD) (r : Ref sig .tc) (h : ∀ w, (cfg4.win w).isOut = true → Pipeline.arrRef spec4 w ≠ r) :
    W10 m ρ c (Proc.devRef .tc r) = W9 m ρ c (Proc.devRef .tc r) := by
  by_cases hw : ∃ w, Pipeline.arrRef spec4 w = r
  · obtain ⟨w, rfl⟩ := hw
    exact W10_in m ρ c w (Bool.eq_false_iff.mpr fun ht => h w ht rfl)
  · exact W10_of_ne m ρ c r fun w e => hw ⟨w, e⟩
/-- The same of region 5. -/
theorem W12_step (c : Dev nD) (r : Ref sig .tc) (h : ∀ w, (cfg5.win w).isOut = true → Pipeline.arrRef spec5 w ≠ r) :
    W12 m ρ c (Proc.devRef .tc r) = W11 m ρ c (Proc.devRef .tc r) := by
  by_cases hw : ∃ w, Pipeline.arrRef spec5 w = r
  · obtain ⟨w, rfl⟩ := hw
    exact W12_in m ρ c w (Bool.eq_false_iff.mpr fun ht => h w ht rfl)
  · exact W12_of_ne m ρ c r fun w e => hw ⟨w, e⟩

/-! ## Each region's input windows' arrays, one by one -/

theorem W2_in_0 (c : Dev nD) : W2 m ρ c (Proc.devRef .tc (Pipeline.arrRef spec0 0)) = W1 m ρ c (Proc.devRef .tc (Pipeline.arrRef spec0 0)) := W2_in m ρ c 0 rfl
theorem W2_in_1 (c : Dev nD) : W2 m ρ c (Proc.devRef .tc (Pipeline.arrRef spec0 1)) = W1 m ρ c (Proc.devRef .tc (Pipeline.arrRef spec0 1)) := W2_in m ρ c 1 rfl
theorem W2_in_2 (c : Dev nD) : W2 m ρ c (Proc.devRef .tc (Pipeline.arrRef spec0 2)) = W1 m ρ c (Proc.devRef .tc (Pipeline.arrRef spec0 2)) := W2_in m ρ c 2 rfl

theorem W4_in_0 (c : Dev nD) : W4 m ρ c (Proc.devRef .tc (Pipeline.arrRef spec1 0)) = W3 m ρ c (Proc.devRef .tc (Pipeline.arrRef spec1 0)) := W4_in m ρ c 0 rfl
theorem W4_in_1 (c : Dev nD) : W4 m ρ c (Proc.devRef .tc (Pipeline.arrRef spec1 1)) = W3 m ρ c (Proc.devRef .tc (Pipeline.arrRef spec1 1)) := W4_in m ρ c 1 rfl
theorem W4_in_2 (c : Dev nD) : W4 m ρ c (Proc.devRef .tc (Pipeline.arrRef spec1 2)) = W3 m ρ c (Proc.devRef .tc (Pipeline.arrRef spec1 2)) := W4_in m ρ c 2 rfl
theorem W4_in_3 (c : Dev nD) : W4 m ρ c (Proc.devRef .tc (Pipeline.arrRef spec1 3)) = W3 m ρ c (Proc.devRef .tc (Pipeline.arrRef spec1 3)) := W4_in m ρ c 3 rfl

theorem W6_in_0 (c : Dev nD) : W6 m ρ c (Proc.devRef .tc (Pipeline.arrRef spec2 0)) = W5 m ρ c (Proc.devRef .tc (Pipeline.arrRef spec2 0)) := W6_in m ρ c 0 rfl
theorem W6_in_1 (c : Dev nD) : W6 m ρ c (Proc.devRef .tc (Pipeline.arrRef spec2 1)) = W5 m ρ c (Proc.devRef .tc (Pipeline.arrRef spec2 1)) := W6_in m ρ c 1 rfl
theorem W6_in_2 (c : Dev nD) : W6 m ρ c (Proc.devRef .tc (Pipeline.arrRef spec2 2)) = W5 m ρ c (Proc.devRef .tc (Pipeline.arrRef spec2 2)) := W6_in m ρ c 2 rfl
theorem W6_in_3 (c : Dev nD) : W6 m ρ c (Proc.devRef .tc (Pipeline.arrRef spec2 3)) = W5 m ρ c (Proc.devRef .tc (Pipeline.arrRef spec2 3)) := W6_in m ρ c 3 rfl
theorem W6_in_4 (c : Dev nD) : W6 m ρ c (Proc.devRef .tc (Pipeline.arrRef spec2 4)) = W5 m ρ c (Proc.devRef .tc (Pipeline.arrRef spec2 4)) := W6_in m ρ c 4 rfl
theorem W6_in_5 (c : Dev nD) : W6 m ρ c (Proc.devRef .tc (Pipeline.arrRef spec2 5)) = W5 m ρ c (Proc.devRef .tc (Pipeline.arrRef spec2 5)) := W6_in m ρ c 5 rfl
theorem W6_in_6 (c : Dev nD) : W6 m ρ c (Proc.devRef .tc (Pipeline.arrRef spec2 6)) = W5 m ρ c (Proc.devRef .tc (Pipeline.arrRef spec2 6)) := W6_in m ρ c 6 rfl
theorem W6_in_7 (c : Dev nD) : W6 m ρ c (Proc.devRef .tc (Pipeline.arrRef spec2 7)) = W5 m ρ c (Proc.devRef .tc (Pipeline.arrRef spec2 7)) := W6_in m ρ c 7 rfl

theorem W8_in_0 (c : Dev nD) : W8 m ρ c (Proc.devRef .tc (Pipeline.arrRef spec3 0)) = W7 m ρ c (Proc.devRef .tc (Pipeline.arrRef spec3 0)) := W8_in m ρ c 0 rfl
theorem W8_in_1 (c : Dev nD) : W8 m ρ c (Proc.devRef .tc (Pipeline.arrRef spec3 1)) = W7 m ρ c (Proc.devRef .tc (Pipeline.arrRef spec3 1)) := W8_in m ρ c 1 rfl
theorem W8_in_2 (c : Dev nD) : W8 m ρ c (Proc.devRef .tc (Pipeline.arrRef spec3 2)) = W7 m ρ c (Proc.devRef .tc (Pipeline.arrRef spec3 2)) := W8_in m ρ c 2 rfl
theorem W8_in_3 (c : Dev nD) : W8 m ρ c (Proc.devRef .tc (Pipeline.arrRef spec3 3)) = W7 m ρ c (Proc.devRef .tc (Pipeline.arrRef spec3 3)) := W8_in m ρ c 3 rfl

theorem W10_in_0 (c : Dev nD) : W10 m ρ c (Proc.devRef .tc (Pipeline.arrRef spec4 0)) = W9 m ρ c (Proc.devRef .tc (Pipeline.arrRef spec4 0)) := W10_in m ρ c 0 rfl
theorem W10_in_1 (c : Dev nD) : W10 m ρ c (Proc.devRef .tc (Pipeline.arrRef spec4 1)) = W9 m ρ c (Proc.devRef .tc (Pipeline.arrRef spec4 1)) := W10_in m ρ c 1 rfl
theorem W10_in_2 (c : Dev nD) : W10 m ρ c (Proc.devRef .tc (Pipeline.arrRef spec4 2)) = W9 m ρ c (Proc.devRef .tc (Pipeline.arrRef spec4 2)) := W10_in m ρ c 2 rfl
theorem W10_in_3 (c : Dev nD) : W10 m ρ c (Proc.devRef .tc (Pipeline.arrRef spec4 3)) = W9 m ρ c (Proc.devRef .tc (Pipeline.arrRef spec4 3)) := W10_in m ρ c 3 rfl
theorem W10_in_4 (c : Dev nD) : W10 m ρ c (Proc.devRef .tc (Pipeline.arrRef spec4 4)) = W9 m ρ c (Proc.devRef .tc (Pipeline.arrRef spec4 4)) := W10_in m ρ c 4 rfl
theorem W10_in_5 (c : Dev nD) : W10 m ρ c (Proc.devRef .tc (Pipeline.arrRef spec4 5)) = W9 m ρ c (Proc.devRef .tc (Pipeline.arrRef spec4 5)) := W10_in m ρ c 5 rfl
theorem W10_in_6 (c : Dev nD) : W10 m ρ c (Proc.devRef .tc (Pipeline.arrRef spec4 6)) = W9 m ρ c (Proc.devRef .tc (Pipeline.arrRef spec4 6)) := W10_in m ρ c 6 rfl
theorem W10_in_7 (c : Dev nD) : W10 m ρ c (Proc.devRef .tc (Pipeline.arrRef spec4 7)) = W9 m ρ c (Proc.devRef .tc (Pipeline.arrRef spec4 7)) := W10_in m ρ c 7 rfl

theorem W12_in_0 (c : Dev nD) : W12 m ρ c (Proc.devRef .tc (Pipeline.arrRef spec5 0)) = W11 m ρ c (Proc.devRef .tc (Pipeline.arrRef spec5 0)) := W12_in m ρ c 0 rfl
theorem W12_in_1 (c : Dev nD) : W12 m ρ c (Proc.devRef .tc (Pipeline.arrRef spec5 1)) = W11 m ρ c (Proc.devRef .tc (Pipeline.arrRef spec5 1)) := W12_in m ρ c 1 rfl
theorem W12_in_2 (c : Dev nD) : W12 m ρ c (Proc.devRef .tc (Pipeline.arrRef spec5 2)) = W11 m ρ c (Proc.devRef .tc (Pipeline.arrRef spec5 2)) := W12_in m ρ c 2 rfl
theorem W12_in_3 (c : Dev nD) : W12 m ρ c (Proc.devRef .tc (Pipeline.arrRef spec5 3)) = W11 m ρ c (Proc.devRef .tc (Pipeline.arrRef spec5 3)) := W12_in m ρ c 3 rfl

/-! ## From the launch: a buffer no stretch writes and no region changes -/

theorem W2_keep (c : Dev nD) (r : Ref sig .tc) (h0 : r ∉ hostOps0_W)
    (k0 : ∀ w, (cfg0.win w).isOut = true → Pipeline.arrRef spec0 w ≠ r) :
    W2 m ρ c (Proc.devRef .tc r) = W0 m ρ c (Proc.devRef .tc r) :=
  (W2_step m ρ c r k0).trans (W1_step m ρ c r h0)
theorem W3_keep (c : Dev nD) (r : Ref sig .tc) (h0 : r ∉ hostOps0_W)
    (k0 : ∀ w, (cfg0.win w).isOut = true → Pipeline.arrRef spec0 w ≠ r) (h1 : r ∉ hostOps1_W) :
    W3 m ρ c (Proc.devRef .tc r) = W0 m ρ c (Proc.devRef .tc r) :=
  (W3_step m ρ c r h1).trans (W2_keep m ρ c r h0 k0)
theorem W4_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) :
    W4 m ρ c (Proc.devRef .tc r) = W0 m ρ c (Proc.devRef .tc r) :=
  (W4_step m ρ c r k1).trans (W3_keep m ρ c r h0 k0 h1)
theorem W5_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W) :
    W5 m ρ c (Proc.devRef .tc r) = W0 m ρ c (Proc.devRef .tc r) :=
  (W5_step m ρ c r h2).trans (W4_keep m ρ c r h0 k0 h1 k1)
theorem W6_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) :
    W6 m ρ c (Proc.devRef .tc r) = W0 m ρ c (Proc.devRef .tc r) :=
  (W6_step m ρ c r k2).trans (W5_keep m ρ c r h0 k0 h1 k1 h2)
theorem W7_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) (h3 : r ∉ hostOps3_W) :
    W7 m ρ c (Proc.devRef .tc r) = W0 m ρ c (Proc.devRef .tc r) :=
  (W7_step m ρ c r h3).trans (W6_keep m ρ c r h0 k0 h1 k1 h2 k2)
theorem W8_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) (h3 : r ∉ hostOps3_W)
    (k3 : ∀ w, (cfg3.win w).isOut = true → Pipeline.arrRef spec3 w ≠ r) :
    W8 m ρ c (Proc.devRef .tc r) = W0 m ρ c (Proc.devRef .tc r) :=
  (W8_step m ρ c r k3).trans (W7_keep m ρ c r h0 k0 h1 k1 h2 k2 h3)
theorem W9_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) (h3 : r ∉ hostOps3_W)
    (k3 : ∀ w, (cfg3.win w).isOut = true → Pipeline.arrRef spec3 w ≠ r) (h4 : r ∉ hostOps4_W) :
    W9 m ρ c (Proc.devRef .tc r) = W0 m ρ c (Proc.devRef .tc r) :=
  (W9_step m ρ c r h4).trans (W8_keep m ρ c r h0 k0 h1 k1 h2 k2 h3 k3)
theorem W10_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) (h3 : r ∉ hostOps3_W)
    (k3 : ∀ w, (cfg3.win w).isOut = true → Pipeline.arrRef spec3 w ≠ r) (h4 : r ∉ hostOps4_W)
    (k4 : ∀ w, (cfg4.win w).isOut = true → Pipeline.arrRef spec4 w ≠ r) :
    W10 m ρ c (Proc.devRef .tc r) = W0 m ρ c (Proc.devRef .tc r) :=
  (W10_step m ρ c r k4).trans (W9_keep m ρ c r h0 k0 h1 k1 h2 k2 h3 k3 h4)
theorem W11_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) (h3 : r ∉ hostOps3_W)
    (k3 : ∀ w, (cfg3.win w).isOut = true → Pipeline.arrRef spec3 w ≠ r) (h4 : r ∉ hostOps4_W)
    (k4 : ∀ w, (cfg4.win w).isOut = true → Pipeline.arrRef spec4 w ≠ r) (h5 : r ∉ hostOps5_W) :
    W11 m ρ c (Proc.devRef .tc r) = W0 m ρ c (Proc.devRef .tc r) :=
  (W11_step m ρ c r h5).trans (W10_keep m ρ c r h0 k0 h1 k1 h2 k2 h3 k3 h4 k4)
theorem W12_keep (c : Dev nD) (r : Ref sig .tc) (h0 : r ∉ hostOps0_W)
    (k0 : ∀ w, (cfg0.win w).isOut = true → Pipeline.arrRef spec0 w ≠ r) (h1 : r ∉ hostOps1_W)
    (k1 : ∀ w, (cfg1.win w).isOut = true → Pipeline.arrRef spec1 w ≠ r) (h2 : r ∉ hostOps2_W)
    (k2 : ∀ w, (cfg2.win w).isOut = true → Pipeline.arrRef spec2 w ≠ r) (h3 : r ∉ hostOps3_W)
    (k3 : ∀ w, (cfg3.win w).isOut = true → Pipeline.arrRef spec3 w ≠ r) (h4 : r ∉ hostOps4_W)
    (k4 : ∀ w, (cfg4.win w).isOut = true → Pipeline.arrRef spec4 w ≠ r) (h5 : r ∉ hostOps5_W)
    (k5 : ∀ w, (cfg5.win w).isOut = true → Pipeline.arrRef spec5 w ≠ r) :
    W12 m ρ c (Proc.devRef .tc r) = W0 m ρ c (Proc.devRef .tc r) :=
  (W12_step m ρ c r k5).trans (W11_keep m ρ c r h0 k0 h1 k1 h2 k2 h3 k3 h4 k4 h5)

/-! ## The arguments end as launched -/

theorem W12_main_arg0 (c : Dev nD) : W12 m ρ c (Proc.devRef .tc main_arg0) = m ((c : Thread nD τ).loc main_arg0) :=
  (W12_keep m ρ c main_arg0 (by decide) (by decide) (by decide) (by decide) (by decide) (by decide) (by decide) (by decide) (by decide) (by decide) (by decide) (by decide)).trans rfl
theorem W12_main_arg1 (c : Dev nD) : W12 m ρ c (Proc.devRef .tc main_arg1) = m ((c : Thread nD τ).loc main_arg1) :=
  (W12_keep m ρ c main_arg1 (by decide) (by decide) (by decide) (by decide) (by decide) (by decide) (by decide) (by decide) (by decide) (by decide) (by decide) (by decide)).trans rfl
theorem W12_main_arg2 (c : Dev nD) : W12 m ρ c (Proc.devRef .tc main_arg2) = m ((c : Thread nD τ).loc main_arg2) :=
  (W12_keep m ρ c main_arg2 (by decide) (by decide) (by decide) (by decide) (by decide) (by decide) (by decide) (by decide) (by decide) (by decide) (by decide) (by decide)).trans rfl
theorem W12_main_arg3 (c : Dev nD) : W12 m ρ c (Proc.devRef .tc main_arg3) = m ((c : Thread nD τ).loc main_arg3) :=
  (W12_keep m ρ c main_arg3 (by decide) (by decide) (by decide) (by decide) (by decide) (by decide) (by decide) (by decide) (by decide) (by decide) (by decide) (by decide)).trans rfl
theorem W12_main_arg4 (c : Dev nD) : W12 m ρ c (Proc.devRef .tc main_arg4) = m ((c : Thread nD τ).loc main_arg4) :=
  (W12_keep m ρ c main_arg4 (by decide) (by decide) (by decide) (by decide) (by decide) (by decide) (by decide) (by decide) (by decide) (by decide) (by decide) (by decide)).trans rfl
theorem W12_main_arg5 (c : Dev nD) : W12 m ρ c (Proc.devRef .tc main_arg5) = m ((c : Thread nD τ).loc main_arg5) :=
  (W12_keep m ρ c main_arg5 (by decide) (by decide) (by decide) (by decide) (by decide) (by decide) (by decide) (by decide) (by decide) (by decide) (by decide) (by decide)).trans rfl
theorem W12_main_arg6 (c : Dev nD) : W12 m ρ c (Proc.devRef .tc main_arg6) = m ((c : Thread nD τ).loc main_arg6) :=
  (W12_keep m ρ c main_arg6 (by decide) (by decide) (by decide) (by decide) (by decide) (by decide) (by decide) (by decide) (by decide) (by decide) (by decide) (by decide)).trans rfl
theorem W12_main_arg7 (c : Dev nD) : W12 m ρ c (Proc.devRef .tc main_arg7) = m ((c : Thread nD τ).loc main_arg7) :=
  (W12_keep m ρ c main_arg7 (by decide) (by decide) (by decide) (by decide) (by decide) (by decide) (by decide) (by decide) (by decide) (by decide) (by decide) (by decide)).trans rfl
theorem W12_main_arg8 (c : Dev nD) : W12 m ρ c (Proc.devRef .tc main_arg8) = m ((c : Thread nD τ).loc main_arg8) :=
  (W12_keep m ρ c main_arg8 (by decide) (by decide) (by decide) (by decide) (by decide) (by decide) (by decide) (by decide) (by decide) (by decide) (by decide) (by decide)).trans rfl
theorem W12_main_arg9 (c : Dev nD) : W12 m ρ c (Proc.devRef .tc main_arg9) = m ((c : Thread nD τ).loc main_arg9) :=
  (W12_keep m ρ c main_arg9 (by decide) (by decide) (by decide) (by decide) (by decide) (by decide) (by decide) (by decide) (by decide) (by decide) (by decide) (by decide)).trans rfl
theorem W12_main_arg10 (c : Dev nD) : W12 m ρ c (Proc.devRef .tc main_arg10) = m ((c : Thread nD τ).loc main_arg10) :=
  (W12_keep m ρ c main_arg10 (by decide) (by decide) (by decide) (by decide) (by decide) (by decide) (by decide) (by decide) (by decide) (by decide) (by decide) (by decide)).trans rfl
theorem W12_main_arg11 (c : Dev nD) : W12 m ρ c (Proc.devRef .tc main_arg11) = m ((c : Thread nD τ).loc main_arg11) :=
  (W12_keep m ρ c main_arg11 (by decide) (by decide) (by decide) (by decide) (by decide) (by decide) (by decide) (by decide) (by decide) (by decide) (by decide) (by decide)).trans rfl

/-! ## The arguments where they are read (each equal to its launch contents `W0`, which is `m` at the buffer) -/

/-- `main_arg1` is read by stretch 0, at the launch contents. -/
theorem W0_main_arg1 (c : Dev nD) : W0 m ρ c (Proc.devRef .tc main_arg1) = m ((c : Thread nD τ).loc main_arg1) := rfl
/-- `main_arg0` where region 0 (window 0) and region 2 (window 1) read it. -/
theorem W1_main_arg0 (c : Dev nD) : W1 m ρ c (Proc.devRef .tc main_arg0) = W0 m ρ c (Proc.devRef .tc main_arg0) :=
  W1_step m ρ c main_arg0 (by decide)
theorem W5_main_arg0 (c : Dev nD) : W5 m ρ c (Proc.devRef .tc main_arg0) = W0 m ρ c (Proc.devRef .tc main_arg0) :=
  W5_keep m ρ c main_arg0 (by decide) (by decide) (by decide) (by decide) (by decide)
/-- `main_arg2` where region 0 (window 1) reads it. -/
theorem W1_main_arg2 (c : Dev nD) : W1 m ρ c (Proc.devRef .tc main_arg2) = W0 m ρ c (Proc.devRef .tc main_arg2) :=
  W1_step m ρ c main_arg2 (by decide)
/-- `main_arg3` where stretch 1 reads it. -/
theorem W2_main_arg3 (c : Dev nD) : W2 m ρ c (Proc.devRef .tc main_arg3) = W0 m ρ c (Proc.devRef .tc main_arg3) :=
  W2_keep m ρ c main_arg3 (by decide) (by decide)
/-- `main_arg4`, `main_arg5` where stretch 2 reads them. -/
theorem W4_main_arg4 (c : Dev nD) : W4 m ρ c (Proc.devRef .tc main_arg4) = W0 m ρ c (Proc.devRef .tc main_arg4) :=
  W4_keep m ρ c main_arg4 (by decide) (by decide) (by decide) (by decide)
theorem W4_main_arg5 (c : Dev nD) : W4 m ρ c (Proc.devRef .tc main_arg5) = W0 m ρ c (Proc.devRef .tc main_arg5) :=
  W4_keep m ρ c main_arg5 (by decide) (by decide) (by decide) (by decide)
/-- `main_arg6` where region 2 (window 6) reads it. -/
theorem W5_main_arg6 (c : Dev nD) : W5 m ρ c (Proc.devRef .tc main_arg6) = W0 m ρ c (Proc.devRef .tc main_arg6) :=
  W5_keep m ρ c main_arg6 (by decide) (by decide) (by decide) (by decide) (by decide)
/-- `main_arg7` where stretch 3 reads it. -/
theorem W6_main_arg7 (c : Dev nD) : W6 m ρ c (Proc.devRef .tc main_arg7) = W0 m ρ c (Proc.devRef .tc main_arg7) :=
  W6_keep m ρ c main_arg7 (by decide) (by decide) (by decide) (by decide) (by decide) (by decide)
/-- `main_arg8`, `main_arg9` where stretch 4 reads them. -/
theorem W8_main_arg8 (c : Dev nD) : W8 m ρ c (Proc.devRef .tc main_arg8) = W0 m ρ c (Proc.devRef .tc main_arg8) :=
  W8_keep m ρ c main_arg8 (by decide) (by decide) (by decide) (by decide) (by decide) (by decide) (by decide) (by decide)
theorem W8_main_arg9 (c : Dev nD) : W8 m ρ c (Proc.devRef .tc main_arg9) = W0 m ρ c (Proc.devRef .tc main_arg9) :=
  W8_keep m ρ c main_arg9 (by decide) (by decide) (by decide) (by decide) (by decide) (by decide) (by decide) (by decide)
/-- `main_arg10` where region 4 (window 6) reads it. -/
theorem W9_main_arg10 (c : Dev nD) : W9 m ρ c (Proc.devRef .tc main_arg10) = W0 m ρ c (Proc.devRef .tc main_arg10) :=
  W9_keep m ρ c main_arg10 (by decide) (by decide) (by decide) (by decide) (by decide) (by decide) (by decide) (by decide) (by decide)
/-- `main_arg11` where stretch 5 reads it. -/
theorem W10_main_arg11 (c : Dev nD) : W10 m ρ c (Proc.devRef .tc main_arg11) = W0 m ρ c (Proc.devRef .tc main_arg11) :=
  W10_keep m ρ c main_arg11 (by decide) (by decide) (by decide) (by decide) (by decide) (by decide) (by decide) (by decide) (by decide) (by decide)

/-! ## What stretch 0 computes, where later stretches and regions read it (each equal to its contents at `W1`) -/

/-- The edge endpoints `main_v1`, `main_v3`, read by stretches 1, 3 and 5. -/
theorem W2_main_v1 (c : Dev nD) : W2 m ρ c (Proc.devRef .tc main_v1) = W1 m ρ c (Proc.devRef .tc main_v1) :=
  W2_step m ρ c main_v1 (by decide)
theorem W6_main_v1 (c : Dev nD) : W6 m ρ c (Proc.devRef .tc main_v1) = W1 m ρ c (Proc.devRef .tc main_v1) :=
  (W6_step m ρ c main_v1 (by decide)).trans <| (W5_step m ρ c main_v1 (by decide)).trans <| (W4_step m ρ c main_v1 (by decide)).trans <|
    (W3_step m ρ c main_v1 (by decide)).trans (W2_main_v1 m ρ c)
theorem W10_main_v1 (c : Dev nD) : W10 m ρ c (Proc.devRef .tc main_v1) = W1 m ρ c (Proc.devRef .tc main_v1) :=
  (W10_step m ρ c main_v1 (by decide)).trans <| (W9_step m ρ c main_v1 (by decide)).trans <| (W8_step m ρ c main_v1 (by decide)).trans <|
    (W7_step m ρ c main_v1 (by decide)).trans (W6_main_v1 m ρ c)
theorem W2_main_v3 (c : Dev nD) : W2 m ρ c (Proc.devRef .tc main_v3) = W1 m ρ c (Proc.devRef .tc main_v3) :=
  W2_step m ρ c main_v3 (by decide)
theorem W6_main_v3 (c : Dev nD) : W6 m ρ c (Proc.devRef .tc main_v3) = W1 m ρ c (Proc.devRef .tc main_v3) :=
  (W6_step m ρ c main_v3 (by decide)).trans <| (W5_step m ρ c main_v3 (by decide)).trans <| (W4_step m ρ c main_v3 (by decide)).trans <|
    (W3_step m ρ c main_v3 (by decide)).trans (W2_main_v3 m ρ c)
theorem W10_main_v3 (c : Dev nD) : W10 m ρ c (Proc.devRef .tc main_v3) = W1 m ρ c (Proc.devRef .tc main_v3) :=
  (W10_step m ρ c main_v3 (by decide)).trans <| (W9_step m ρ c main_v3 (by decide)).trans <| (W8_step m ρ c main_v3 (by decide)).trans <|
    (W7_step m ρ c main_v3 (by decide)).trans (W6_main_v3 m ρ c)

/-- The rows' scale factors `main_v11`, an input window of every region. -/
theorem W3_main_v11 (c : Dev nD) : W3 m ρ c (Proc.devRef .tc main_v11) = W1 m ρ c (Proc.devRef .tc main_v11) :=
  (W3_step m ρ c main_v11 (by decide)).trans (W2_step m ρ c main_v11 (by decide))
theorem W5_main_v11 (c : Dev nD) : W5 m ρ c (Proc.devRef .tc main_v11) = W1 m ρ c (Proc.devRef .tc main_v11) :=
  (W5_step m ρ c main_v11 (by decide)).trans <| (W4_step m ρ c main_v11 (by decide)).trans (W3_main_v11 m ρ c)
theorem W7_main_v11 (c : Dev nD) : W7 m ρ c (Proc.devRef .tc main_v11) = W1 m ρ c (Proc.devRef .tc main_v11) :=
  (W7_step m ρ c main_v11 (by decide)).trans <| (W6_step m ρ c main_v11 (by decide)).trans (W5_main_v11 m ρ c)
theorem W9_main_v11 (c : Dev nD) : W9 m ρ c (Proc.devRef .tc main_v11) = W1 m ρ c (Proc.devRef .tc main_v11) :=
  (W9_step m ρ c main_v11 (by decide)).trans <| (W8_step m ρ c main_v11 (by decide)).trans (W7_main_v11 m ρ c)
theorem W11_main_v11 (c : Dev nD) : W11 m ρ c (Proc.devRef .tc main_v11) = W1 m ρ c (Proc.devRef .tc main_v11) :=
  (W11_step m ρ c main_v11 (by decide)).trans <| (W10_step m ρ c main_v11 (by decide)).trans (W9_main_v11 m ρ c)

/-! ## The regions' outputs, where a later region reads them past a host stretch or another region -/

/-- Region 0's output `main_v12`, window 1 of region 1. -/
theorem W3_main_v12 (c : Dev nD) : W3 m ρ c (Proc.devRef .tc main_v12) = W2 m ρ c (Proc.devRef .tc main_v12) :=
  W3_step m ρ c main_v12 (by decide)
/-- Region 1's first output `main_v24_0`, window 0 of region 2. -/
theorem W5_main_v24_0 (c : Dev nD) : W5 m ρ c (Proc.devRef .tc main_v24_0) = W4 m ρ c (Proc.devRef .tc main_v24_0) :=
  W5_step m ρ c main_v24_0 (by decide)
/-- Region 2's second output `main_v33_1`, window 1 of region 3. -/
theorem W7_main_v33_1 (c : Dev nD) : W7 m ρ c (Proc.devRef .tc main_v33_1) = W6 m ρ c (Proc.devRef .tc main_v33_1) :=
  W7_step m ρ c main_v33_1 (by decide)
/-- Region 2's first output `main_v33_0`, window 1 of region 4. -/
theorem W9_main_v33_0 (c : Dev nD) : W9 m ρ c (Proc.devRef .tc main_v33_0) = W6 m ρ c (Proc.devRef .tc main_v33_0) :=
  (W9_step m ρ c main_v33_0 (by decide)).trans <| (W8_step m ρ c main_v33_0 (by decide)).trans (W7_step m ρ c main_v33_0 (by decide))
/-- Region 3's first output `main_v45_0`, window 0 of region 4. -/
theorem W9_main_v45_0 (c : Dev nD) : W9 m ρ c (Proc.devRef .tc main_v45_0) = W8 m ρ c (Proc.devRef .tc main_v45_0) :=
  W9_step m ρ c main_v45_0 (by decide)
/-- Region 4's second output `main_v54_1`, window 1 of region 5. -/
theorem W11_main_v54_1 (c : Dev nD) : W11 m ρ c (Proc.devRef .tc main_v54_1) = W10 m ρ c (Proc.devRef .tc main_v54_1) :=
  W11_step m ρ c main_v54_1 (by decide)

end Cert.KernelIdeal.Hand

end
-- ==== Proof.KI.HostTerms.lean ====
import proofs.«182147_j31610959298973_2_alg».proof.Proof.Gen.KernelIdeal.Launch
import Idealize.ShloMosaic.Lib.StableHlo.Run

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-! The host stretches of the main program as pure terms. For an arbitrary valuation `V` of the
TensorCore's buffers, what each buffer that a later region reads holds after the stretch's operations,
as the composed term of `V`'s buffers. The sub-terms are named so the statements stay readable:
the two rows of the edge list, the inverse square root of the in-degree plus one, the neighbourhood
sum (a gather along the source row followed by a scatter-add along the target row), the column mean and
variance from the column sums, and the row forms of the parameter vectors. -/

/-! ## Named sub-terms -/

/-- Row 0 of the 2×E edge list as a flat vector: the source nodes. -/
def srcOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- Row 1 of the 2×E edge list as a flat vector: the target nodes. -/
def dstOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The in-degree of every node: ones scattered-added along the target row into zeros. -/
def degOf (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The normalisation column from the target row: (in-degree + 1)^(-1/2), as an N×1 column. -/
def disOfDst (dst : (⟨S800000, .i32⟩ : BufTy).Contents (Elt F)) : (⟨S50000x1, .f32⟩ : BufTy).Contents (Elt F) :=
  shapeCast S50000x1
    (Host.rsqrt (addf (degOf dst) (broadcastInDim S50000 ![] bcast_S_S50000 (constant S_ .f32 0x3F800000#32))))
    shapeCasts_S50000_S50000x1

/-- The normalisation column from the edge list. -/
def disOf (ei : (⟨S2x800000, .i32⟩ : BufTy).Contents (Elt F)) : (⟨S50000x1, .f32⟩ : BufTy).Contents (Elt F) :=
  disOfDst (dstOf ei)

/-- A source index made non-negative: `src + N` where `src < 0`, else `src` (N = 50000). -/
def wrapIdx (src : (⟨S800000, .i32⟩ : BufTy).Contents (Elt F)) : (⟨S800000, .i32⟩ : BufTy).Contents (Elt F) :=
  select (cmpi .slt src (broadcastInDim S800000 ![] bcast_S_S800000 (constantI S_ 32 0#32)))
    (addi src (broadcastInDim S800000 ![] bcast_S_S800000 (constantI S_ 32 50000#32))) src

/-- The neighbourhood sum at width 128: the rows of `hs` gathered along the source row and
    scattered-added along the target row into zeros. -/
def aggOf (hs : (⟨S50000x128, .f32⟩ : BufTy).Contents (Elt F))
    (src dst : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 hs
      (broadcastInDim S800000x1 ![0] bcast_S800000_S800000x1_0 (wrapIdx src)))

/-- The neighbourhood sum at width 32. -/
def aggOf32 (hs : (⟨S50000x32, .f32⟩ : BufTy).Contents (Elt F))
    (src dst : (⟨S800000, .i32⟩ : BufTy).Contents (Elt F)) : (⟨S50000x32, .f32⟩ : BufTy).Contents (Elt F) :=
  Host.scatterAdd scatter_S50000x32_S800000x1_S800000x32_1_0_0_1
    (broadcastInDim S50000x32 ![] bcast_S_S50000x32 (constant S_ .f32 0x00000000#32))
    (broadcastInDim S800000x1 ![0] bcast_S800000_S800000x1_0 dst)
    (Host.gather gather_S50000x32_S800000x1_S800000x32_1_0_n_n_0_1_132 hs
      (broadcastInDim S800000x1 ![0] bcast_S800000_S800000x1_0 (wrapIdx src)))

/-- A length-128 vector as a 1×128 row. -/
def rowOf128 (b : (⟨S128, .f32⟩ : BufTy).Contents (Elt F)) : (⟨S1x128, .f32⟩ : BufTy).Contents (Elt F) :=
  shapeCast S1x128 b shapeCasts_S128_S1x128

/-- A length-32 vector as a 1×32 row. -/
def rowOf32 (b : (⟨S32, .f32⟩ : BufTy).Contents (Elt F)) : (⟨S1x32, .f32⟩ : BufTy).Contents (Elt F) :=
  shapeCast S1x32 b shapeCasts_S32_S1x32

/-- A column sum divided by the number of rows (the literal is 50000 in binary32). -/
def meanOf (s : (⟨S1x128, .f32⟩ : BufTy).Contents (Elt F)) : (⟨S1x128, .f32⟩ : BufTy).Contents (Elt F) :=
  Host.divf s (broadcastInDim S1x128 ![] bcast_S_S1x128 (constant S_ .f32 0x47435000#32))

/-- The column variance from the column sum `s` and the column sum of squares `sq`:
    mean of squares minus the squared mean. -/
def varOf (s sq : (⟨S1x128, .f32⟩ : BufTy).Contents (Elt F)) : (⟨S1x128, .f32⟩ : BufTy).Contents (Elt F) :=
  subf (meanOf sq) (mulf (meanOf s) (meanOf s))

variable (V : Valuation τ sig (Elt F))

/-! ## Stretch 0: the edge rows and the normalisation column -/

theorem after0_v1 : StableHlo.after hostOps0 V (Proc.devRef .tc main_v1) = srcOf (V (Proc.devRef .tc main_arg1)) := by
  after_results; rfl
theorem after0_v3 : StableHlo.after hostOps0 V (Proc.devRef .tc main_v3) = dstOf (V (Proc.devRef .tc main_arg1)) := by
  after_results; rfl
theorem after0_v11 : StableHlo.after hostOps0 V (Proc.devRef .tc main_v11) = disOf (V (Proc.devRef .tc main_arg1)) := by
  after_results; rfl

/-! ## Stretch 1: the first neighbourhood sum and the first bias row -/

theorem after1_v22 : StableHlo.after hostOps1 V (Proc.devRef .tc main_v22)
    = aggOf (V (Proc.devRef .tc main_v12)) (V (Proc.devRef .tc main_v1)) (V (Proc.devRef .tc main_v3)) := by
  after_results_simp; rfl
theorem after1_v23 : StableHlo.after hostOps1 V (Proc.devRef .tc main_v23) = rowOf128 (V (Proc.devRef .tc main_arg3)) := by
  after_results; rfl

/-! ## Stretch 2: the first batch statistics and the first scale and shift rows -/

theorem after2_v26 : StableHlo.after hostOps2 V (Proc.devRef .tc main_v26) = meanOf (V (Proc.devRef .tc main_v24_1)) := by
  after_results; rfl
theorem after2_v30 : StableHlo.after hostOps2 V (Proc.devRef .tc main_v30)
    = varOf (V (Proc.devRef .tc main_v24_1)) (V (Proc.devRef .tc main_v24_2)) := by
  after_results; rfl
theorem after2_v31 : StableHlo.after hostOps2 V (Proc.devRef .tc main_v31) = rowOf128 (V (Proc.devRef .tc main_arg4)) := by
  after_results; rfl
theorem after2_v32 : StableHlo.after hostOps2 V (Proc.devRef .tc main_v32) = rowOf128 (V (Proc.devRef .tc main_arg5)) := by
  after_results; rfl

/-! ## Stretch 3: the second neighbourhood sum and the second bias row -/

theorem after3_v43 : StableHlo.after hostOps3 V (Proc.devRef .tc main_v43)
    = aggOf (V (Proc.devRef .tc main_v33_1)) (V (Proc.devRef .tc main_v1)) (V (Proc.devRef .tc main_v3)) := by
  after_results_simp; rfl
theorem after3_v44 : StableHlo.after hostOps3 V (Proc.devRef .tc main_v44) = rowOf128 (V (Proc.devRef .tc main_arg7)) := by
  after_results; rfl

/-! ## Stretch 4: the second batch statistics and the second scale and shift rows -/

theorem after4_v47 : StableHlo.after hostOps4 V (Proc.devRef .tc main_v47) = meanOf (V (Proc.devRef .tc main_v45_1)) := by
  after_results; rfl
theorem after4_v51 : StableHlo.after hostOps4 V (Proc.devRef .tc main_v51)
    = varOf (V (Proc.devRef .tc main_v45_1)) (V (Proc.devRef .tc main_v45_2)) := by
  after_results; rfl
theorem after4_v52 : StableHlo.after hostOps4 V (Proc.devRef .tc main_v52) = rowOf128 (V (Proc.devRef .tc main_arg8)) := by
  after_results; rfl
theorem after4_v53 : StableHlo.after hostOps4 V (Proc.devRef .tc main_v53) = rowOf128 (V (Proc.devRef .tc main_arg9)) := by
  after_results; rfl

/-! ## Stretch 5: the third neighbourhood sum (width 32) and the third bias row -/

theorem after5_v64 : StableHlo.after hostOps5 V (Proc.devRef .tc main_v64)
    = aggOf32 (V (Proc.devRef .tc main_v54_1)) (V (Proc.devRef .tc main_v1)) (V (Proc.devRef .tc main_v3)) := by
  after_results_simp; rfl
theorem after5_v65 : StableHlo.after hostOps5 V (Proc.devRef .tc main_v65) = rowOf32 (V (Proc.devRef .tc main_arg11)) := by
  after_results; rfl

end Cert.KernelIdeal.Host

end
-- ==== Proof.KI.ValDefs.lean ====
import proofs.«182147_j31610959298973_2_alg».proof.Proof.Gen.KernelIdeal
import Idealize.ShloMosaic.Lib.ValueIdx
import Idealize.ShloMosaic.PureOps.Ideal.Laws

/-! The whole-array functions the regions' output arrays are read as, entry by entry: a product of rows with a
weight matrix scaled row by row; batch normalisation, rectification and residual; the convolution's epilogue
and its row-wise log-softmax. -/

noncomputable section

namespace Cert.KernelIdeal.Hand

open Cert.KernelIdeal
open Idealize.ShloMosaic Idealize.ShloMosaic.ValueIdx
open scoped BigOperators

/-- A rectangle at the origin has zero offsets. -/
theorem zero_offsets : (![0, 0] : Fin 2 → Nat) = fun _ => 0 := funext fun a => by fin_cases a <;> rfl

/-- The rows of `x` times the matrix `W`, each row scaled by its entry of the column `dis`: entry (n, j) is
    (∑ₖ x[n,k] · W[k,j]) · dis[n]. -/
def scaledProduct (x : S50000x128.Idx → EReal) (W : S128x128.Idx → EReal) (dis : S50000x1.Idx → EReal) :
    S50000x128.Idx → EReal :=
  fun i => (∑ k : Fin 128, x (ix2 (i 0) k) * W (ix2 k (i 1))) * dis (ix2 (i 0) (0 : Fin 1))

theorem scaledProduct_apply (x : S50000x128.Idx → EReal) (W : S128x128.Idx → EReal) (dis : S50000x1.Idx → EReal)
    (n : Fin 50000) (j : Fin 128) :
    scaledProduct x W dis (ix2 n j) = (∑ k : Fin 128, x (ix2 n k) * W (ix2 k j)) * dis (ix2 n (0 : Fin 1)) := rfl

/-- The same with a weight matrix of 32 columns. -/
def scaledProduct32 (x : S50000x128.Idx → EReal) (W : S128x32.Idx → EReal) (dis : S50000x1.Idx → EReal) :
    S50000x32.Idx → EReal :=
  fun i => (∑ k : Fin 128, x (ix2 (i 0) k) * W (ix2 k (i 1))) * dis (ix2 (i 0) (0 : Fin 1))

theorem scaledProduct32_apply (x : S50000x128.Idx → EReal) (W : S128x32.Idx → EReal) (dis : S50000x1.Idx → EReal)
    (n : Fin 50000) (j : Fin 32) :
    scaledProduct32 x W dis (ix2 n j) = (∑ k : Fin 128, x (ix2 n k) * W (ix2 k j)) * dis (ix2 n (0 : Fin 1)) := rfl

/-- Batch normalisation with the column statistics `mu`, `var`, gain `g` and shift `be`, rectified, plus the
    residual: entry (n, j) is max((conv[n,j] − mu[j]) · rsqrt(var[j] + ε) · g[j] + be[j], 0) + res[n,j]. -/
def bnReluRes (conv res : S50000x128.Idx → EReal) (mu var g be : S1x128.Idx → EReal) : S50000x128.Idx → EReal :=
  fun i => max ((conv (ix2 (i 0) (i 1)) - mu (ix2 (0 : Fin 1) (i 1)))
      * Ideal.rsqrt (var (ix2 (0 : Fin 1) (i 1)) + Ideal.ofBits .f32 0x3727C5AC#32)
      * g (ix2 (0 : Fin 1) (i 1)) + be (ix2 (0 : Fin 1) (i 1))) 0 + res (ix2 (i 0) (i 1))

theorem bnReluRes_apply (conv res : S50000x128.Idx → EReal) (mu var g be : S1x128.Idx → EReal) (n : Fin 50000) (j : Fin 128) :
    bnReluRes conv res mu var g be (ix2 n j)
      = max ((conv (ix2 n j) - mu (ix2 (0 : Fin 1) j)) * Ideal.rsqrt (var (ix2 (0 : Fin 1) j) + Ideal.ofBits .f32 0x3727C5AC#32)
          * g (ix2 (0 : Fin 1) j) + be (ix2 (0 : Fin 1) j)) 0 + res (ix2 n j) := rfl

/-- Row `n` of the convolution's epilogue: the row's scale factor times the sum of the aggregated row and the
    row's own features, plus the bias row. -/
def convRow (dis : S50000x1.Idx → EReal) (agg hs : S50000x32.Idx → EReal) (b : S1x32.Idx → EReal) (n : Fin 50000) :
    Fin 32 → EReal :=
  fun c => dis (ix2 n (0 : Fin 1)) * (agg (ix2 n c) + hs (ix2 n c)) + b (ix2 (0 : Fin 1) c)

/-- The log-softmax of a row of 32 at column `j`: the entry minus the row's maximum (folded from −∞), minus the
    logarithm of the sum of the exponentials of those differences. -/
def logSoftmaxRow (row : Fin 32 → EReal) (j : Fin 32) : EReal :=
  (row j - (Finset.univ : Finset (Fin 32)).fold max (Ideal.ofBits .f32 0xFF800000#32) row)
    - Ideal.log (∑ c : Fin 32, Ideal.exp (row c - (Finset.univ : Finset (Fin 32)).fold max (Ideal.ofBits .f32 0xFF800000#32) row))

/-- The whole output: row by row the log-softmax of the epilogue. -/
def logSoftmaxConv (dis : S50000x1.Idx → EReal) (agg hs : S50000x32.Idx → EReal) (b : S1x32.Idx → EReal) :
    S50000x32.Idx → EReal :=
  fun i => logSoftmaxRow (convRow dis agg hs b (i 0)) (i 1)

theorem logSoftmaxConv_apply (dis : S50000x1.Idx → EReal) (agg hs : S50000x32.Idx → EReal) (b : S1x32.Idx → EReal)
    (n : Fin 50000) (j : Fin 32) :
    logSoftmaxConv dis agg hs b (ix2 n j) = logSoftmaxRow (convRow dis agg hs b n) j := rfl

end Cert.KernelIdeal.Hand

end
-- ==== Proof.KI.ValDefs1.lean ====
import proofs.«182147_j31610959298973_2_alg».proof.Proof.Gen.KernelIdeal
import Idealize.ShloMosaic.Lib.ValueIdx
import Idealize.ShloMosaic.PureOps.Ideal.Laws

/-! The whole-array functions regions 1 and 3's output arrays are read as, entry by entry: the convolution's
epilogue, and the column sums of an array and of its squares, each started from zero. -/

noncomputable section

namespace Cert.KernelIdeal.Hand

open Cert.KernelIdeal
open Idealize.ShloMosaic Idealize.ShloMosaic.ValueIdx
open scoped BigOperators

/-- The convolution's epilogue: entry (n, j) is dis[n] · (agg[n,j] + hs[n,j]) + b[j]. -/
def convEpilogue (agg hs : S50000x128.Idx → EReal) (dis : S50000x1.Idx → EReal) (b : S1x128.Idx → EReal) :
    S50000x128.Idx → EReal :=
  fun i => dis (ix2 (i 0) (0 : Fin 1)) * (agg i + hs i) + b (ix2 (0 : Fin 1) (i 1))

theorem convEpilogue_apply (agg hs : S50000x128.Idx → EReal) (dis : S50000x1.Idx → EReal) (b : S1x128.Idx → EReal)
    (n : Fin 50000) (j : Fin 128) :
    convEpilogue agg hs dis b (ix2 n j)
      = dis (ix2 n (0 : Fin 1)) * (agg (ix2 n j) + hs (ix2 n j)) + b (ix2 (0 : Fin 1) j) := rfl

/-- The column sums of an array of 50000 rows, as a row: entry j is 0 + ∑ₙ a[n,j]. -/
def colSum (a : S50000x128.Idx → EReal) : S1x128.Idx → EReal :=
  fun i => 0 + ∑ n : Fin 50000, a (ix2 n (i 1))

theorem colSum_apply (a : S50000x128.Idx → EReal) (j : Fin 128) :
    colSum a (ix2 (0 : Fin 1) j) = 0 + ∑ n : Fin 50000, a (ix2 n j) := rfl

/-- The column sums of the squares: entry j is 0 + ∑ₙ a[n,j] · a[n,j]. -/
def colSumSq (a : S50000x128.Idx → EReal) : S1x128.Idx → EReal :=
  fun i => 0 + ∑ n : Fin 50000, a (ix2 n (i 1)) * a (ix2 n (i 1))

theorem colSumSq_apply (a : S50000x128.Idx → EReal) (j : Fin 128) :
    colSumSq a (ix2 (0 : Fin 1) j) = 0 + ∑ n : Fin 50000, a (ix2 n j) * a (ix2 n j) := rfl

end Cert.KernelIdeal.Hand

end
-- ==== Proof.KI.StageDefs.lean ====
import proofs.«182147_j31610959298973_2_alg».proof.Proof.KI.HostTerms
import proofs.«182147_j31610959298973_2_alg».proof.Proof.KI.ValDefs
import proofs.«182147_j31610959298973_2_alg».proof.Proof.KI.ValDefs1

/-! The kernel program's intermediate arrays, stage by stage, as functions of the twelve argument arrays:
the degree scale; per layer the scaled feature product, the aggregated convolution with its epilogue, the column
statistics, the normalised, rectified, residual output; at the end the row-wise log-softmax. -/

noncomputable section

namespace Cert.KernelIdeal.Hand

open Cert.KernelIdeal Cert.KernelIdeal.Host
open Idealize.ShloMosaic Idealize.ShloMosaic.ValueIdx

section
variable (X0 : S50000x128.Idx → EReal) (X1 : (⟨S2x800000, .i32⟩ : BufTy).Contents (Elt Ideal)) (X2 : S128x128.Idx → EReal) (X3 X4 X5 : S128.Idx → EReal) (X6 : S128x128.Idx → EReal) (X7 X8 X9 : S128.Idx → EReal) (X10 : S128x32.Idx → EReal) (X11 : S32.Idx → EReal)

/-- The degree scale, one entry per node (a column). -/
def disK : S50000x1.Idx → EReal := disOf (F := Ideal) X1
/-- The edges' source and target words. -/
def srcK : (⟨S800000, .i32⟩ : BufTy).Contents (Elt Ideal) := srcOf (F := Ideal) X1
def dstK : (⟨S800000, .i32⟩ : BufTy).Contents (Elt Ideal) := dstOf (F := Ideal) X1

/-- Layer 1: the features times the first weight matrix, each row scaled. -/
def hs0K : S50000x128.Idx → EReal := scaledProduct X0 X2 (disK X1)
/-- Layer 1's convolution: the scaled rows aggregated along the edges, plus the row's own, scaled again, plus the bias. -/
def conv0K : S50000x128.Idx → EReal :=
  convEpilogue (aggOf (F := Ideal) (hs0K X0 X1 X2) (srcK X1) (dstK X1)) (hs0K X0 X1 X2) (disK X1) (rowOf128 (F := Ideal) X3)
/-- Its column means and variances. -/
def mu0K : S1x128.Idx → EReal := meanOf (F := Ideal) (colSum (conv0K X0 X1 X2 X3))
def var0K : S1x128.Idx → EReal := varOf (F := Ideal) (colSum (conv0K X0 X1 X2 X3)) (colSumSq (conv0K X0 X1 X2 X3))
/-- Layer 1's output: normalised, scaled, shifted, rectified, plus the input features. -/
def x1K : S50000x128.Idx → EReal :=
  bnReluRes (conv0K X0 X1 X2 X3) X0 (mu0K X0 X1 X2 X3) (var0K X0 X1 X2 X3) (rowOf128 (F := Ideal) X4) (rowOf128 (F := Ideal) X5)

/-- Layer 2, the same over layer 1's output. -/
def hs1K : S50000x128.Idx → EReal := scaledProduct (x1K X0 X1 X2 X3 X4 X5) X6 (disK X1)
def conv1K : S50000x128.Idx → EReal :=
  convEpilogue (aggOf (F := Ideal) (hs1K X0 X1 X2 X3 X4 X5 X6) (srcK X1) (dstK X1)) (hs1K X0 X1 X2 X3 X4 X5 X6) (disK X1) (rowOf128 (F := Ideal) X7)
def mu1K : S1x128.Idx → EReal := meanOf (F := Ideal) (colSum (conv1K X0 X1 X2 X3 X4 X5 X6 X7))
def var1K : S1x128.Idx → EReal :=
  varOf (F := Ideal) (colSum (conv1K X0 X1 X2 X3 X4 X5 X6 X7)) (colSumSq (conv1K X0 X1 X2 X3 X4 X5 X6 X7))
def x2K : S50000x128.Idx → EReal :=
  bnReluRes (conv1K X0 X1 X2 X3 X4 X5 X6 X7) (x1K X0 X1 X2 X3 X4 X5) (mu1K X0 X1 X2 X3 X4 X5 X6 X7) (var1K X0 X1 X2 X3 X4 X5 X6 X7)
    (rowOf128 (F := Ideal) X8) (rowOf128 (F := Ideal) X9)

/-- Layer 3: the product with the last weight matrix (32 columns), scaled; then the convolution's epilogue and the
    row-wise log-softmax. -/
def hs2K : S50000x32.Idx → EReal := scaledProduct32 (x2K X0 X1 X2 X3 X4 X5 X6 X7 X8 X9) X10 (disK X1)
def outK : S50000x32.Idx → EReal :=
  logSoftmaxConv (disK X1) (aggOf32 (F := Ideal) (hs2K X0 X1 X2 X3 X4 X5 X6 X7 X8 X9 X10) (srcK X1) (dstK X1))
    (hs2K X0 X1 X2 X3 X4 X5 X6 X7 X8 X9 X10) (rowOf32 (F := Ideal) X11)

end

end Cert.KernelIdeal.Hand

end
-- ==== Proof.LibColumnCasts.lean ====
import Idealize.ShloMosaic.Lib.ValueIdx
import Idealize.ShloMosaic.Lib.ValueLayout
import Idealize.ShloMosaic.Lib.Pipeline.Value

/-! Column forms of the layout operations read at an index given by coordinates: a vector `[a]` viewed
as a column `[a, 1]`, a column `[a, 1]` viewed as a row `[1, a]`, and a column `[a, 1]` broadcast along
its unit axis to `[a, b]`. Each reads the operand at the row's coordinate, whatever the unit coordinate. -/

namespace Cert.LibColumnCasts

open Idealize.ShloMosaic Idealize.ShloMosaic.ValueIdx

variable {α : Type}

/-- A vector `[a]` cast to the column `[a, 1]` reads, at `(i, u)`, the operand at `i`, whatever the unit
coordinate `u`: both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`: both indices sit
at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]` reads, at `(p, c)`, the column's entry in
row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnCasts
-- ==== Proof.KI.Pay0.lean ====
import proofs.«182147_j31610959298973_2_alg».proof.Proof.Gen.KernelIdeal.Skeleton
import proofs.«182147_j31610959298973_2_alg».proof.Proof.LibColumnCasts
import Idealize.ShloMosaic.Lib.ValueIdx
import Idealize.ShloMosaic.Lib.ValueLayout
import Idealize.ShloMosaic.Lib.Pipeline.Value
import Idealize.ShloMosaic.PureOps.Ideal.Laws

/-! What region 0's kernel body stores, read at one index: entry `(r, j)` of `(x · W) * dis`, the product
of the two loaded blocks with each row scaled by that row's entry of the column block. -/

noncomputable section

namespace Cert.KernelIdeal.Pay

open Cert.KernelIdeal Cert.KernelIdeal.Gen
open Idealize.ShloMosaic Idealize.ShloMosaic.ValueIdx
open scoped BigOperators

/-- Left operand index of the product at output `(r, j)` and contraction position `q`: row `r` … -/
theorem k0_mm_lhs0 (r : Fin 2000) (j : Fin 128) (q : dot_S2000x128_S128x128_S2000x128_1_0_0_1_n_n.contr.Idx) :
    (dot_S2000x128_S128x128_S2000x128_1_0_0_1_n_n.lhsIdx (ix2 r j) q 0).val = r.val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … right operand index: column `j`. -/
theorem k0_mm_rhs1 (r : Fin 2000) (j : Fin 128) (q : dot_S2000x128_S128x128_S2000x128_1_0_0_1_n_n.contr.Idx) :
    (dot_S2000x128_S128x128_S2000x128_1_0_0_1_n_n.rhsIdx (ix2 r j) q 1).val = j.val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix product into the zero accumulator, read at row `r` and column `j`: the sum over the 128
contraction positions of the operands' products. -/
theorem k0_mm_apply {φ₁ φ₂ : FTy} (a : FVec Ideal S2000x128 φ₁) (b : FVec Ideal S128x128 φ₂) (r : Fin 2000) (j : Fin 128) :
    matmul (F := Ideal) dot_S2000x128_S128x128_S2000x128_1_0_0_1_n_n none a b (constant (F := Ideal) S2000x128 .f32 0x00000000#32) (ix2 r j)
      = ∑ k : Fin 128, a (ix2 r k) * b (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun ax => Fin.ext (by
    match ax with
    | ⟨0, _⟩ => exact k0_mm_lhs0 r j _
    | ⟨1, _⟩ => exact (dot_S2000x128_S128x128_S2000x128_1_0_0_1_n_n.lhsIdx_val_of_single rfl _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun ax => Fin.ext (by
    match ax with
    | ⟨0, _⟩ => exact (dot_S2000x128_S128x128_S2000x128_1_0_0_1_n_n.rhsIdx_val_of_single rfl _ _).trans hk
    | ⟨1, _⟩ => exact k0_mm_rhs1 r j _)
  rw [el, er]

/-- The product's first payload at row `r`, column `j`: the row of the first block times the column of the
second, summed over the 128 contraction positions, scaled by the row's entry of the column block. -/
theorem k0_pay1_apply (v0 : Vec Ideal S2000x128 .f32) (v2 : Vec Ideal S128x128 .f32) (v5 : Vec Ideal S2000x1 .f32)
    (r : Fin 2000) (j : Fin 128) :
    k0_pay1 (F := Ideal) v0 v2 v5 (ix2 r j) = (∑ k : Fin 128, v0 (ix2 r k) * v2 (ix2 k j)) * v5 (ix2 r 0) := by
  unfold k0_pay1
  rw [mulf_apply, k0_mm_apply, shapeCast_self, Cert.LibColumnCasts.broadcastTo_a1_ab_apply]
  simp only [truncf_apply]

end Cert.KernelIdeal.Pay

end
-- ==== Proof.KI.Val0.lean ====
import proofs.«182147_j31610959298973_2_alg».proof.Proof.KI.R0
import proofs.«182147_j31610959298973_2_alg».proof.Proof.KI.Pay0
import proofs.«182147_j31610959298973_2_alg».proof.Proof.KI.ValDefs
import Idealize.ShloMosaic.Lib.Pipeline.Value
import Idealize.ShloMosaic.Lib.ValueIdx
import Idealize.ShloMosaic.Lib.Tactic

/-! Region 0, from blocks to the array: the output array after the region, as one function of the arrays
the region finds — the rows of x times the weight matrix, each row scaled by its entry of the column of
scale factors — entry by entry. Each point writes back its block of that function; the blocks tile the rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The printed index maps, decided over the grid: the row windows (x, dis, the output) sit at block row `t`,
    column block 0; the weight matrix's one block is block (0, 0). -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point `t` is rows 2000 t … 2000 t + 1999 of x. -/
theorem iblk0_0_apply (c : Dev nD) (t : Fin cfg0.N) (r : Fin 2000) (k : Fin 128) (n : Fin 50000)
    (hn : n.val = t.val * 2000 + r.val) :
    (iblk0 V c 0 t : Vec Ideal S2000x128 .f32) (ix2 r k) = (V c main_arg0 : S50000x128.Idx → EReal) (ix2 n k) := by
  obtain ⟨e0, e1, -⟩ := block_indices0 t
  unfold iblk0
  rw [View.read_apply]
  show V c main_arg0 _ = V c main_arg0 _
  congr 1
  funext a
  apply Fin.ext
  match a with
  | ⟨0, _⟩ => show win0_0.index t (0 : Fin 2) * 2000 + 1 * r.val = n.val; omega
  | ⟨1, _⟩ => show win0_0.index t (1 : Fin 2) * 128 + 1 * k.val = k.val; omega

/-- Window 1's one block is the whole weight matrix. -/
theorem iblk0_1_apply (c : Dev nD) (t : Fin cfg0.N) (k : Fin 128) (j : Fin 128) :
    (iblk0 V c 1 t : Vec Ideal S128x128 .f32) (ix2 k j) = (V c main_arg2 : S128x128.Idx → EReal) (ix2 k j) := by
  obtain ⟨-, -, e0, e1, -⟩ := block_indices0 t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 128 + 1 * j.val = j.val; omega

/-- Window 2's block at point `t` is rows 2000 t … 2000 t + 1999 of the column of scale factors. -/
theorem iblk0_2_apply (c : Dev nD) (t : Fin cfg0.N) (r : Fin 2000) (n : Fin 50000)
    (hn : n.val = t.val * 2000 + r.val) :
    (iblk0 V c 2 t : Vec Ideal S2000x1 .f32) (ix2 r 0) = (V c main_v11 : S50000x1.Idx → EReal) (ix2 n 0) := by
  obtain ⟨-, -, -, -, e0, e1, -⟩ := block_indices0 t
  unfold iblk0
  rw [View.read_apply]
  show V c main_v11 _ = V c main_v11 _
  congr 1
  funext a
  apply Fin.ext
  match a with
  | ⟨0, _⟩ => show win0_2.index t (0 : Fin 2) * 2000 + 1 * r.val = n.val; omega
  | ⟨1, _⟩ => show win0_2.index t (1 : Fin 2) * 1 + 1 * 0 = 0; omega

/-- Where an element of the output's block at point `t` sits in the array. -/
theorem emb0_3 (t : Fin cfg0.N) (r : Fin 2000) (j : Fin 128) (n : Fin 50000) (hn : n.val = t.val * 2000 + r.val) :
    ((cfg0.win 3).blk t).view.emb (ix2 r j) = (ix2 n j : S50000x128.Idx) := by
  obtain ⟨-, -, -, -, -, -, e0, e1⟩ := block_indices0 t
  funext a
  apply Fin.ext
  match a with
  | ⟨0, _⟩ => show win0_3.index t (0 : Fin 2) * 2000 + 1 * r.val = n.val; omega
  | ⟨1, _⟩ => show win0_3.index t (1 : Fin 2) * 128 + 1 * j.val = j.val; omega

/-- WHAT POINT `t` WRITES BACK is block `t` of the scaled product of the arrays as the region finds them. -/
theorem flushed0_3_eq (c : Dev nD) (t : Fin cfg0.N) :
    (dat0 V c).flushed 3 t = ((cfg0.win 3).blk t).view.read (Elt Ideal)
      (scaledProduct (V c main_arg0) (V c main_arg2) (V c main_v11)) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S128x128) zero_offsets,
    View.ld_unit_zero (S := S2000x1) zero_offsets]
  funext y
  obtain ⟨r, j, rfl⟩ : ∃ (r : Fin 2000) (j : Fin 128), y = ix2 r j := ⟨y 0, y 1, eq_ix2 y⟩
  have hN : cfg0.N = 25 := N_0
  have ht : t.val < 25 := by have := t.isLt; omega
  have hr : r.val < 2000 := r.isLt
  obtain ⟨n, hn⟩ : ∃ n : Fin 50000, n.val = t.val * 2000 + r.val := ⟨⟨t.val * 2000 + r.val, by omega⟩, rfl⟩
  show k0_pay1 (F := Ideal) (iblk0 V c 0 t) (iblk0 V c 1 t) (iblk0 V c 2 t) (ix2 r j)
    = scaledProduct (V c main_arg0) (V c main_arg2) (V c main_v11) (((cfg0.win 3).blk t).view.emb (ix2 r j))
  rw [emb0_3 t r j n hn, scaledProduct_apply, Pay.k0_pay1_apply, iblk0_2_apply V c t r n hn]
  refine congrArg (· * _) (Finset.sum_congr rfl fun k _ => ?_)
  rw [iblk0_0_apply V c t r k n hn, iblk0_1_apply V c t k j]

/-- An index of the array is in point `t`'s block iff each coordinate is in the block's range on its axis. -/
theorem mem_blk0_3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v12).slice (win0_3.rect t)).set ↔ _
  rw [View.set_slice_whole, Rect.mem_set_unit]
  exact Iff.rfl

/-- Every row is in some point's block: row n in the block of point n / 2000. -/
theorem cover0_3_arr (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, e0, e1⟩ := block_indices0 t
  have e0' : win0_3.index t (0 : Fin 2) = (i 0).val / 2000 := e0
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE ARRAY after region 0: the scaled product of the arrays the region finds. -/
theorem final0_arr (c : Dev nD) :
    (dat0 V c).arrAt 3 cfg0.N = scaledProduct (V c main_arg0) (V c main_arg2) (V c main_v11) :=
  (dat0 V c).arrAt_eq_of_cover 3 _ (fun t _ => flushed0_3_eq V c t) cover0_3_arr

/-- Entry by entry. -/
theorem final0 (c : Dev nD) (n : Fin 50000) (j : Fin 128) :
    (dat0 (F := Ideal) V c).arrAt 3 cfg0.N (ix2 n j)
      = scaledProduct (V c main_arg0) (V c main_arg2) (V c main_v11) (ix2 n j) := by
  rw [final0_arr V c]

end Cert.KernelIdeal.Hand
end
-- ==== Proof.KI.Pay1.lean ====
import proofs.«182147_j31610959298973_2_alg».proof.Proof.Gen.KernelIdeal.Skeleton
import proofs.«182147_j31610959298973_2_alg».proof.Proof.LibColumnCasts
import Idealize.ShloMosaic.Lib.ValueIdx
import Idealize.ShloMosaic.Lib.ValueLayout
import Idealize.ShloMosaic.Lib.Pipeline.Value
import Idealize.ShloMosaic.PureOps.Ideal.Laws

/-! What region 1's kernel body stores, read at one index: the two scratch buffers' reset values, the
convolution's epilogue `dis * (agg + hs) + b`, and the two running column sums (of the epilogue and of its square)
accumulated in the scratch buffers. -/

noncomputable section

namespace Cert.KernelIdeal.Pay

open Cert.KernelIdeal Cert.KernelIdeal.Gen
open Idealize.ShloMosaic Idealize.ShloMosaic.ValueIdx
open scoped BigOperators

/-- The sum over the 2000 rows into the zero accumulator, read at column `j`. -/
theorem k1_colsum_apply (src : FVec Ideal S2000x128 .f32) (hacc : (0x00000000#32 : BitVec 32) = 0x00000000#32) (j : Fin 128) :
    multiReduction (F := Ideal) .add [0] S128 src 0x00000000#32 reduces_S2000x128_S128 (.inl rfl) hacc (ix1 j)
      = ∑ r : Fin 2000, src (ix2 r j) := by
  refine (Ideal.multiReduction_add_single src 0x00000000#32 reduces_S2000x128_S128 (.inl rfl) hacc (ix1 j)).trans ?_
  exact Finset.sum_congr rfl fun k _ => congrArg src (funext fun ax => Fin.ext (by
    match ax with
    | ⟨0, _⟩ => rfl
    | ⟨1, _⟩ => rfl))

/-- The first scratch buffer's reset value: zero in every column. -/
theorem k1_pay1_apply (j : Fin 128) : k1_pay1 (F := Ideal) (ix2 (0 : Fin 1) j) = 0 := by
  unfold k1_pay1
  rw [shapeCast_self]
  exact Ideal.ofBits_zero_f32

/-- The second scratch buffer's reset value: zero in every column. -/
theorem k1_pay2_apply (j : Fin 128) : k1_pay2 (F := Ideal) (ix2 (0 : Fin 1) j) = 0 := by
  unfold k1_pay2
  rw [shapeCast_self]
  exact Ideal.ofBits_zero_f32

/-- The convolution's epilogue at row `r`, column `j`: the row's scale times the sum of the two blocks'
entries, plus the bias row's entry. -/
theorem k1_pay3_apply (v3 : Vec Ideal S1x128 .f32) (v7 : Vec Ideal S2000x1 .f32) (v9 : Vec Ideal S2000x128 .f32)
    (v11 : Vec Ideal S2000x128 .f32) (r : Fin 2000) (j : Fin 128) :
    k1_pay3 (F := Ideal) v3 v7 v9 v11 (ix2 r j)
      = v7 (ix2 r (0 : Fin 1)) * (v9 (ix2 r j) + v11 (ix2 r j)) + v3 (ix2 (0 : Fin 1) j) := by
  unfold k1_pay3
  rw [addf_apply, mulf_apply, addf_apply]
  simp only [shapeCast_self]
  rw [Cert.LibColumnCasts.broadcastTo_a1_ab_apply, broadcastTo_1b_ab_apply]

/-- The running column sum: what the first scratch buffer held plus the block's column sums of the epilogue. -/
theorem k1_pay4_apply (v3 : Vec Ideal S1x128 .f32) (v7 : Vec Ideal S2000x1 .f32) (v9 : Vec Ideal S2000x128 .f32)
    (v11 : Vec Ideal S2000x128 .f32) (v18 : Vec Ideal S1x128 .f32) (j : Fin 128) :
    k1_pay4 (F := Ideal) v3 v7 v9 v11 v18 (ix2 (0 : Fin 1) j)
      = v18 (ix2 (0 : Fin 1) j) + ∑ r : Fin 2000, k1_pay3 (F := Ideal) v3 v7 v9 v11 (ix2 r j) := by
  unfold k1_pay4
  rw [shapeCast_self, addf_apply, shapeCast_a_1a_apply, k1_colsum_apply]

/-- The running column sum of squares: what the second scratch buffer held plus the block's column sums of the
epilogue's squares. -/
theorem k1_pay5_apply (v3 : Vec Ideal S1x128 .f32) (v7 : Vec Ideal S2000x1 .f32) (v9 : Vec Ideal S2000x128 .f32)
    (v11 : Vec Ideal S2000x128 .f32) (v25 : Vec Ideal S1x128 .f32) (j : Fin 128) :
    k1_pay5 (F := Ideal) v3 v7 v9 v11 v25 (ix2 (0 : Fin 1) j)
      = v25 (ix2 (0 : Fin 1) j) + ∑ r : Fin 2000, k1_pay3 (F := Ideal) v3 v7 v9 v11 (ix2 r j) * k1_pay3 (F := Ideal) v3 v7 v9 v11 (ix2 r j) := by
  unfold k1_pay5
  rw [shapeCast_self, addf_apply, shapeCast_a_1a_apply, k1_colsum_apply]
  rfl

end Cert.KernelIdeal.Pay

end
-- ==== Proof.KI.Val1.lean ====
import proofs.«182147_j31610959298973_2_alg».proof.Proof.KI.R1
import proofs.«182147_j31610959298973_2_alg».proof.Proof.KI.Pay1
import proofs.«182147_j31610959298973_2_alg».proof.Proof.KI.ValDefs1
import Idealize.ShloMosaic.Lib.Pipeline.Value
import Idealize.ShloMosaic.Lib.ValueIdx
import Idealize.ShloMosaic.Lib.Tactic

/-! Region 1, from blocks to the arrays: the three output arrays after the region, each as one function of the
arrays the region finds. The block output is the convolution's epilogue, entry by entry: each point writes back
its block of it and the blocks tile the rows. The two row outputs are written back once, after the last point,
from two rows that every point adds its block's column sums to (of the epilogue, and of its squares), starting
from zero at the first point: by induction on the point they hold zero plus the sums over all the rows so far,
and after the last point over all 50000 rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))
/-! ## A running total that grows by one block of 2000 rows per step -/

/-- Column j of an array of 50000 rows, listed by the natural numbers: zero past the last row. -/
def rowsExt (a : S50000x128.Idx → EReal) (j : Fin 128) (m : ℕ) : EReal :=
  if hm : m < 50000 then a (ix2 (⟨m, hm⟩ : Fin 50000) j) else 0

/-- Summed over the first 50000 naturals it is the column's sum. -/
theorem sum_rowsExt (a : S50000x128.Idx → EReal) (j : Fin 128) :
    ∑ m ∈ Finset.range 50000, rowsExt a j m = ∑ n : Fin 50000, a (ix2 n j) := by
  rw [← Fin.sum_univ_eq_sum_range (fun m => rowsExt a j m) 50000]
  refine Finset.sum_congr rfl fun n _ => ?_
  unfold rowsExt
  rw [dif_pos n.isLt]

/-- A total that starts as zero plus the first block's sum and grows at step n + 1 by the sum of block n + 1 is,
    after step n, zero plus the sum of everything in blocks 0 … n. -/
theorem blockTotal_eq {M : Type*} [AddCommMonoid M] {N : ℕ} (f : ℕ → M) (acc : (n : ℕ) → n < N → M)
    (h0 : ∀ h : 0 < N, acc 0 h = 0 + ∑ r ∈ Finset.range 2000, f (0 * 2000 + r))
    (hs : ∀ (n : ℕ) (h : n + 1 < N),
      acc (n + 1) h = acc n (Nat.lt_of_succ_lt h) + ∑ r ∈ Finset.range 2000, f ((n + 1) * 2000 + r)) :
    ∀ (n : ℕ) (h : n < N), acc n h = 0 + ∑ m ∈ Finset.range ((n + 1) * 2000), f m
  | 0, h => by
    rw [h0 h]
    show 0 + ∑ r ∈ Finset.range 2000, f (0 * 2000 + r) = 0 + ∑ m ∈ Finset.range 2000, f m
    simp only [Nat.zero_mul, Nat.zero_add]
  | n + 1, h => by
    rw [show (n + 1 + 1) * 2000 = (n + 1) * 2000 + 2000 from by omega, Finset.sum_range_add, ← add_assoc,
      hs n h, blockTotal_eq f acc h0 hs n (Nat.lt_of_succ_lt h)]

/-! ## The windows' blocks, entry by entry -/

/-- The printed index maps, decided over the grid: the row windows (the aggregated rows, the rows' own features,
    the column of scale factors, the block output) sit at block row `t`, column block 0; the bias row and the two
    row outputs have one block, block (0, 0). -/
theorem block_indices1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Window 0's block at point `t` is rows 2000 t … 2000 t + 1999 of the aggregated array. -/
theorem iblk1_0_apply (c : Dev nD) (t : Fin cfg1.N) (r : Fin 2000) (k : Fin 128) (n : Fin 50000)
    (hn : n.val = t.val * 2000 + r.val) :
    (iblk1 V c 0 t : Vec Ideal S2000x128 .f32) (ix2 r k) = (V c main_v22 : S50000x128.Idx → EReal) (ix2 n k) := by
  obtain ⟨e0, e1, -⟩ := block_indices1 t
  unfold iblk1
  rw [View.read_apply]
  show V c main_v22 _ = V c main_v22 _
  congr 1
  funext a
  apply Fin.ext
  match a with
  | ⟨0, _⟩ => show win1_0.index t (0 : Fin 2) * 2000 + 1 * r.val = n.val; omega
  | ⟨1, _⟩ => show win1_0.index t (1 : Fin 2) * 128 + 1 * k.val = k.val; omega

/-- Window 1's block at point `t` is rows 2000 t … 2000 t + 1999 of the rows' own features. -/
theorem iblk1_1_apply (c : Dev nD) (t : Fin cfg1.N) (r : Fin 2000) (k : Fin 128) (n : Fin 50000)
    (hn : n.val = t.val * 2000 + r.val) :
    (iblk1 V c 1 t : Vec Ideal S2000x128 .f32) (ix2 r k) = (V c main_v12 : S50000x128.Idx → EReal) (ix2 n k) := by
  obtain ⟨-, -, e0, e1, -⟩ := block_indices1 t
  unfold iblk1
  rw [View.read_apply]
  show V c main_v12 _ = V c main_v12 _
  congr 1
  funext a
  apply Fin.ext
  match a with
  | ⟨0, _⟩ => show win1_1.index t (0 : Fin 2) * 2000 + 1 * r.val = n.val; omega
  | ⟨1, _⟩ => show win1_1.index t (1 : Fin 2) * 128 + 1 * k.val = k.val; omega

/-- Window 2's block at point `t` is rows 2000 t … 2000 t + 1999 of the column of scale factors. -/
theorem iblk1_2_apply (c : Dev nD) (t : Fin cfg1.N) (r : Fin 2000) (n : Fin 50000)
    (hn : n.val = t.val * 2000 + r.val) :
    (iblk1 V c 2 t : Vec Ideal S2000x1 .f32) (ix2 r (0 : Fin 1)) = (V c main_v11 : S50000x1.Idx → EReal) (ix2 n (0 : Fin 1)) := by
  obtain ⟨-, -, -, -, e0, e1, -⟩ := block_indices1 t
  unfold iblk1
  rw [View.read_apply]
  show V c main_v11 _ = V c main_v11 _
  congr 1
  funext a
  apply Fin.ext
  match a with
  | ⟨0, _⟩ => show win1_2.index t (0 : Fin 2) * 2000 + 1 * r.val = n.val; omega
  | ⟨1, _⟩ => show win1_2.index t (1 : Fin 2) * 1 + 1 * 0 = 0; omega

/-- Window 3's one block is the whole bias row. -/
theorem iblk1_3_apply (c : Dev nD) (t : Fin cfg1.N) (j : Fin 128) :
    (iblk1 V c 3 t : Vec Ideal S1x128 .f32) (ix2 (0 : Fin 1) j) = (V c main_v23 : S1x128.Idx → EReal) (ix2 (0 : Fin 1) j) := by
  obtain ⟨-, -, -, -, -, -, e0, e1, -⟩ := block_indices1 t
  unfold iblk1
  rw [View.read_apply]
  show V c main_v23 _ = V c main_v23 _
  congr 1
  funext a
  apply Fin.ext
  match a with
  | ⟨0, _⟩ => show win1_3.index t (0 : Fin 2) * 1 + 1 * 0 = 0; omega
  | ⟨1, _⟩ => show win1_3.index t (1 : Fin 2) * 128 + 1 * j.val = j.val; omega

/-- The epilogue of the four blocks at point `t`, at row `r` of the block, is the epilogue of the four arrays at
    row 2000 t + r. -/
theorem blockEntry1 (c : Dev nD) (t : Fin cfg1.N) (r : Fin 2000) (j : Fin 128) (n : Fin 50000)
    (hn : n.val = t.val * 2000 + r.val) :
    k1_pay3 (F := Ideal) (iblk1 V c 3 t) (iblk1 V c 2 t) (iblk1 V c 0 t) (iblk1 V c 1 t) (ix2 r j)
      = convEpilogue (V c main_v22) (V c main_v12) (V c main_v11) (V c main_v23) (ix2 n j) := by
  rw [Pay.k1_pay3_apply, convEpilogue_apply, iblk1_2_apply V c t r n hn, iblk1_0_apply V c t r j n hn,
    iblk1_1_apply V c t r j n hn, iblk1_3_apply V c t j]

/-- The block's column sum of the epilogue at point `t` is the sum of rows 2000 t … 2000 t + 1999 of the arrays'. -/
theorem blockSum1 (c : Dev nD) (t : Fin cfg1.N) (j : Fin 128) :
    ∑ r : Fin 2000, k1_pay3 (F := Ideal) (iblk1 V c 3 t) (iblk1 V c 2 t) (iblk1 V c 0 t) (iblk1 V c 1 t) (ix2 r j)
      = ∑ r ∈ Finset.range 2000,
          rowsExt (convEpilogue (V c main_v22) (V c main_v12) (V c main_v11) (V c main_v23)) j (t.val * 2000 + r) := by
  have hN : cfg1.N = 25 := N_1
  have ht : t.val < 25 := by have := t.isLt; omega
  rw [← Fin.sum_univ_eq_sum_range (fun r => rowsExt (convEpilogue (V c main_v22) (V c main_v12) (V c main_v11) (V c main_v23)) j (t.val * 2000 + r)) 2000]
  refine Finset.sum_congr rfl fun r _ => ?_
  have hr : r.val < 2000 := r.isLt
  have hlt : t.val * 2000 + r.val < 50000 := by omega
  rw [blockEntry1 V c t r j ⟨t.val * 2000 + r.val, hlt⟩ rfl]
  unfold rowsExt
  rw [dif_pos hlt]

/-- Likewise the block's column sum of the epilogue's squares. -/
theorem blockSumSq1 (c : Dev nD) (t : Fin cfg1.N) (j : Fin 128) :
    ∑ r : Fin 2000, k1_pay3 (F := Ideal) (iblk1 V c 3 t) (iblk1 V c 2 t) (iblk1 V c 0 t) (iblk1 V c 1 t) (ix2 r j)
        * k1_pay3 (F := Ideal) (iblk1 V c 3 t) (iblk1 V c 2 t) (iblk1 V c 0 t) (iblk1 V c 1 t) (ix2 r j)
      = ∑ r ∈ Finset.range 2000,
          rowsExt (fun i => convEpilogue (V c main_v22) (V c main_v12) (V c main_v11) (V c main_v23) i
            * convEpilogue (V c main_v22) (V c main_v12) (V c main_v11) (V c main_v23) i) j (t.val * 2000 + r) := by
  have hN : cfg1.N = 25 := N_1
  have ht : t.val < 25 := by have := t.isLt; omega
  rw [← Fin.sum_univ_eq_sum_range (fun r => rowsExt (fun i => convEpilogue (V c main_v22) (V c main_v12) (V c main_v11) (V c main_v23) i
            * convEpilogue (V c main_v22) (V c main_v12) (V c main_v11) (V c main_v23) i) j (t.val * 2000 + r)) 2000]
  refine Finset.sum_congr rfl fun r _ => ?_
  have hr : r.val < 2000 := r.isLt
  have hlt : t.val * 2000 + r.val < 50000 := by omega
  rw [blockEntry1 V c t r j ⟨t.val * 2000 + r.val, hlt⟩ rfl]
  unfold rowsExt
  rw [dif_pos hlt]

/-! ## The block output -/

/-- Where an element of the block output's block at point `t` sits in the array. -/
theorem emb1_4 (t : Fin cfg1.N) (r : Fin 2000) (j : Fin 128) (n : Fin 50000) (hn : n.val = t.val * 2000 + r.val) :
    ((cfg1.win 4).blk t).view.emb (ix2 r j) = (ix2 n j : S50000x128.Idx) := by
  obtain ⟨-, -, -, -, -, -, -, -, e0, e1, -⟩ := block_indices1 t
  funext a
  apply Fin.ext
  match a with
  | ⟨0, _⟩ => show win1_4.index t (0 : Fin 2) * 2000 + 1 * r.val = n.val; omega
  | ⟨1, _⟩ => show win1_4.index t (1 : Fin 2) * 128 + 1 * j.val = j.val; omega

/-- WHAT POINT `t` WRITES BACK is block `t` of the epilogue of the arrays as the region finds them. -/
theorem flushed1_4_eq (c : Dev nD) (t : Fin cfg1.N) :
    (dat1 V c).flushed 4 t = ((cfg1.win 4).blk t).view.read (Elt Ideal) (convEpilogue (V c main_v22) (V c main_v12) (V c main_v11) (V c main_v23)) := by
  show (cfg1.win 4).cut (grid1.coords t) ((dat1 V c).after 4 t) = _
  rw [after1_4]
  funext y
  obtain ⟨r, j, rfl⟩ : ∃ (r : Fin 2000) (j : Fin 128), y = ix2 r j := ⟨y 0, y 1, eq_ix2 y⟩
  have hN : cfg1.N = 25 := N_1
  have ht : t.val < 25 := by have := t.isLt; omega
  have hr : r.val < 2000 := r.isLt
  obtain ⟨n, hn⟩ : ∃ n : Fin 50000, n.val = t.val * 2000 + r.val := ⟨⟨t.val * 2000 + r.val, by omega⟩, rfl⟩
  show k1_pay3 (F := Ideal) (iblk1 V c 3 t) (iblk1 V c 2 t) (iblk1 V c 0 t) (iblk1 V c 1 t) (ix2 r j)
    = (convEpilogue (V c main_v22) (V c main_v12) (V c main_v11) (V c main_v23)) (((cfg1.win 4).blk t).view.emb (ix2 r j))
  rw [emb1_4 t r j n hn]
  exact blockEntry1 V c t r j n hn

/-- An index of the array is in point `t`'s block iff each coordinate is in the block's range on its axis. -/
theorem mem_blk1_4 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v24_0).slice (win1_4.rect t)).set ↔ _
  rw [View.set_slice_whole, Rect.mem_set_unit]
  exact Iff.rfl

/-- Every row is in some point's block: row n in the block of point n / 2000. -/
theorem cover1_4_arr (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, e0, e1, -⟩ := block_indices1 t
  have e0' : win1_4.index t (0 : Fin 2) = (i 0).val / 2000 := e0
  refine ⟨t, flush1_4 t, ?_⟩
  rw [mem_blk1_4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- THE BLOCK OUTPUT'S ARRAY after the region: the epilogue of the arrays the region finds. -/
theorem final1_4_arr (c : Dev nD) :
    (dat1 (F := Ideal) V c).arrAt 4 cfg1.N = (convEpilogue (V c main_v22) (V c main_v12) (V c main_v11) (V c main_v23)) :=
  (dat1 V c).arrAt_eq_of_cover 4 _ (fun t _ => flushed1_4_eq V c t) cover1_4_arr

/-! ## The two accumulators, in closed form -/

/-- The first scratch row after point `n`, at column `j`: zero plus the epilogue's entries of rows 0 … 2000 (n + 1) − 1. -/
theorem sumAcc1_apply (c : Dev nD) (n : ℕ) (h : n < cfg1.N) (j : Fin 128) :
    (sumAcc1 V c n h (ix2 (0 : Fin 1) j) : EReal)
      = 0 + ∑ m ∈ Finset.range ((n + 1) * 2000), rowsExt (convEpilogue (V c main_v22) (V c main_v12) (V c main_v11) (V c main_v23)) j m :=
  blockTotal_eq (M := EReal) (rowsExt (convEpilogue (V c main_v22) (V c main_v12) (V c main_v11) (V c main_v23)) j)
    (fun n h => sumAcc1 V c n h (ix2 (0 : Fin 1) j))
    (fun h => by
      show (sumAcc1 V c 0 h (ix2 (0 : Fin 1) j) : EReal) = _
      rw [show sumAcc1 V c 0 h = k1_pay4 (iblk1 V c 3 ⟨0, h⟩) (iblk1 V c 2 ⟨0, h⟩) (iblk1 V c 0 ⟨0, h⟩) (iblk1 V c 1 ⟨0, h⟩) (k1_pay1 (F := Ideal)) from rfl,
        Pay.k1_pay4_apply, Pay.k1_pay1_apply, blockSum1 V c ⟨0, h⟩ j])
    (fun n h => by
      show (sumAcc1 V c (n + 1) h (ix2 (0 : Fin 1) j) : EReal) = sumAcc1 V c n (Nat.lt_of_succ_lt h) (ix2 (0 : Fin 1) j) + _
      rw [show sumAcc1 V c (n + 1) h = k1_pay4 (iblk1 V c 3 ⟨n + 1, h⟩) (iblk1 V c 2 ⟨n + 1, h⟩) (iblk1 V c 0 ⟨n + 1, h⟩) (iblk1 V c 1 ⟨n + 1, h⟩) (sumAcc1 V c n (Nat.lt_of_succ_lt h)) from rfl,
        Pay.k1_pay4_apply, blockSum1 V c ⟨n + 1, h⟩ j])
    n h

/-- The second scratch row after point `n`, at column `j`: zero plus the squares of those entries. -/
theorem sqAcc1_apply (c : Dev nD) (n : ℕ) (h : n < cfg1.N) (j : Fin 128) :
    (sqAcc1 V c n h (ix2 (0 : Fin 1) j) : EReal)
      = 0 + ∑ m ∈ Finset.range ((n + 1) * 2000), rowsExt (fun i => (convEpilogue (V c main_v22) (V c main_v12) (V c main_v11) (V c main_v23)) i * (convEpilogue (V c main_v22) (V c main_v12) (V c main_v11) (V c main_v23)) i) j m :=
  blockTotal_eq (M := EReal) (rowsExt (fun i => (convEpilogue (V c main_v22) (V c main_v12) (V c main_v11) (V c main_v23)) i * (convEpilogue (V c main_v22) (V c main_v12) (V c main_v11) (V c main_v23)) i) j)
    (fun n h => sqAcc1 V c n h (ix2 (0 : Fin 1) j))
    (fun h => by
      show (sqAcc1 V c 0 h (ix2 (0 : Fin 1) j) : EReal) = _
      rw [show sqAcc1 V c 0 h = k1_pay5 (iblk1 V c 3 ⟨0, h⟩) (iblk1 V c 2 ⟨0, h⟩) (iblk1 V c 0 ⟨0, h⟩) (iblk1 V c 1 ⟨0, h⟩) (k1_pay2 (F := Ideal)) from rfl,
        Pay.k1_pay5_apply, Pay.k1_pay2_apply, blockSumSq1 V c ⟨0, h⟩ j])
    (fun n h => by
      show (sqAcc1 V c (n + 1) h (ix2 (0 : Fin 1) j) : EReal) = sqAcc1 V c n (Nat.lt_of_succ_lt h) (ix2 (0 : Fin 1) j) + _
      rw [show sqAcc1 V c (n + 1) h = k1_pay5 (iblk1 V c 3 ⟨n + 1, h⟩) (iblk1 V c 2 ⟨n + 1, h⟩) (iblk1 V c 0 ⟨n + 1, h⟩) (iblk1 V c 1 ⟨n + 1, h⟩) (sqAcc1 V c n (Nat.lt_of_succ_lt h)) from rfl,
        Pay.k1_pay5_apply, blockSumSq1 V c ⟨n + 1, h⟩ j])
    n h

/-! ## The two row outputs: written back once, after the last point -/

/-- Row output 5's one block is its whole array. -/
theorem emb1_5 (t : Fin cfg1.N) (j : Fin 128) :
    ((cfg1.win 5).blk t).view.emb (ix2 (0 : Fin 1) j) = (ix2 (0 : Fin 1) j : S1x128.Idx) := by
  obtain ⟨-, -, -, -, -, -, -, -, -, -, e0, e1, -⟩ := block_indices1 t
  funext a
  apply Fin.ext
  match a with
  | ⟨0, _⟩ => show win1_5.index t (0 : Fin 2) * 1 + 1 * 0 = 0; omega
  | ⟨1, _⟩ => show win1_5.index t (1 : Fin 2) * 128 + 1 * j.val = j.val; omega

/-- Row output 6's one block is its whole array. -/
theorem emb1_6 (t : Fin cfg1.N) (j : Fin 128) :
    ((cfg1.win 6).blk t).view.emb (ix2 (0 : Fin 1) j) = (ix2 (0 : Fin 1) j : S1x128.Idx) := by
  obtain ⟨-, -, -, -, -, -, -, -, -, -, -, -, e0, e1⟩ := block_indices1 t
  funext a
  apply Fin.ext
  match a with
  | ⟨0, _⟩ => show win1_6.index t (0 : Fin 2) * 1 + 1 * 0 = 0; omega
  | ⟨1, _⟩ => show win1_6.index t (1 : Fin 2) * 128 + 1 * j.val = j.val; omega

/-- The one write-back of row output 5, at the last point, writes the column sums of the epilogue. -/
theorem flushed1_5_eq (c : Dev nD) (t : Fin cfg1.N) (hf : (cfg1.win 5).flush t = true) :
    (dat1 V c).flushed 5 t = ((cfg1.win 5).blk t).view.read (Elt Ideal) (colSum (convEpilogue (V c main_v22) (V c main_v12) (V c main_v11) (V c main_v23))) := by
  have hN : cfg1.N = 25 := N_1
  have h24 : t.val = 24 := by have := (flush1_5 t).mp hf; have := t.isLt; omega
  show (cfg1.win 5).cut (grid1.coords t) ((dat1 V c).after 5 t) = _
  rw [after1_5]
  funext y
  obtain ⟨r, j, rfl⟩ : ∃ (r : Fin 1) (j : Fin 128), y = ix2 r j := ⟨y 0, y 1, eq_ix2 y⟩
  obtain rfl : r = 0 := Subsingleton.elim r 0
  show (sumAcc1 V c t.val t.isLt (ix2 (0 : Fin 1) j) : EReal)
    = colSum (convEpilogue (V c main_v22) (V c main_v12) (V c main_v11) (V c main_v23)) (((cfg1.win 5).blk t).view.emb (ix2 (0 : Fin 1) j))
  rw [emb1_5 t j, colSum_apply, sumAcc1_apply V c t.val t.isLt j, ← sum_rowsExt,
    show (t.val + 1) * 2000 = 50000 from by omega]

/-- The one write-back of row output 6, at the last point, writes the column sums of the epilogue's squares. -/
theorem flushed1_6_eq (c : Dev nD) (t : Fin cfg1.N) (hf : (cfg1.win 6).flush t = true) :
    (dat1 V c).flushed 6 t = ((cfg1.win 6).blk t).view.read (Elt Ideal) (colSumSq (convEpilogue (V c main_v22) (V c main_v12) (V c main_v11) (V c main_v23))) := by
  have hN : cfg1.N = 25 := N_1
  have h24 : t.val = 24 := by have := (flush1_6 t).mp hf; have := t.isLt; omega
  show (cfg1.win 6).cut (grid1.coords t) ((dat1 V c).after 6 t) = _
  rw [after1_6]
  funext y
  obtain ⟨r, j, rfl⟩ : ∃ (r : Fin 1) (j : Fin 128), y = ix2 r j := ⟨y 0, y 1, eq_ix2 y⟩
  obtain rfl : r = 0 := Subsingleton.elim r 0
  show (sqAcc1 V c t.val t.isLt (ix2 (0 : Fin 1) j) : EReal)
    = colSumSq (convEpilogue (V c main_v22) (V c main_v12) (V c main_v11) (V c main_v23)) (((cfg1.win 6).blk t).view.emb (ix2 (0 : Fin 1) j))
  rw [emb1_6 t j, colSumSq_apply, sqAcc1_apply V c t.val t.isLt j,
    ← sum_rowsExt (fun i => (convEpilogue (V c main_v22) (V c main_v12) (V c main_v11) (V c main_v23)) i * (convEpilogue (V c main_v22) (V c main_v12) (V c main_v11) (V c main_v23)) i) j,
    show (t.val + 1) * 2000 = 50000 from by omega]

/-- The last point's block covers row output 5's whole array. -/
theorem cover1_5_arr (i : S1x128.Idx) :
    ∃ t : Fin cfg1.N, (cfg1.win 5).flush t = true ∧ i ∈ ((cfg1.win 5).blk t).view.set := by
  have hi0 : (i 0).val < 1 := (i 0).isLt
  have hi1 : (i 1).val < 128 := (i 1).isLt
  have hN : cfg1.N = 25 := N_1
  let t : Fin cfg1.N := ⟨24, by rw [hN]; omega⟩
  obtain ⟨-, -, -, -, -, -, -, -, -, -, e0, e1, -⟩ := block_indices1 t
  refine ⟨t, (flush1_5 t).mpr rfl, ?_⟩
  show i ∈ ((View.whole main_v24_1).slice (win1_5.rect t)).set
  rw [View.set_slice_whole, Rect.mem_set_unit]
  intro a
  match a with
  | ⟨0, _⟩ => show win1_5.index t (0 : Fin 2) * 1 ≤ (i 0).val ∧ (i 0).val < win1_5.index t (0 : Fin 2) * 1 + 1; omega
  | ⟨1, _⟩ => show win1_5.index t (1 : Fin 2) * 128 ≤ (i 1).val ∧ (i 1).val < win1_5.index t (1 : Fin 2) * 128 + 128; omega

/-- The last point's block covers row output 6's whole array. -/
theorem cover1_6_arr (i : S1x128.Idx) :
    ∃ t : Fin cfg1.N, (cfg1.win 6).flush t = true ∧ i ∈ ((cfg1.win 6).blk t).view.set := by
  have hi0 : (i 0).val < 1 := (i 0).isLt
  have hi1 : (i 1).val < 128 := (i 1).isLt
  have hN : cfg1.N = 25 := N_1
  let t : Fin cfg1.N := ⟨24, by rw [hN]; omega⟩
  obtain ⟨-, -, -, -, -, -, -, -, -, -, -, -, e0, e1⟩ := block_indices1 t
  refine ⟨t, (flush1_6 t).mpr rfl, ?_⟩
  show i ∈ ((View.whole main_v24_2).slice (win1_6.rect t)).set
  rw [View.set_slice_whole, Rect.mem_set_unit]
  intro a
  match a with
  | ⟨0, _⟩ => show win1_6.index t (0 : Fin 2) * 1 ≤ (i 0).val ∧ (i 0).val < win1_6.index t (0 : Fin 2) * 1 + 1; omega
  | ⟨1, _⟩ => show win1_6.index t (1 : Fin 2) * 128 ≤ (i 1).val ∧ (i 1).val < win1_6.index t (1 : Fin 2) * 128 + 128; omega

/-- ROW OUTPUT 5's ARRAY after the region: the column sums of the epilogue, from zero. -/
theorem final1_5_arr (c : Dev nD) :
    (dat1 (F := Ideal) V c).arrAt 5 cfg1.N = colSum (convEpilogue (V c main_v22) (V c main_v12) (V c main_v11) (V c main_v23)) :=
  (dat1 V c).arrAt_eq_of_cover 5 _ (flushed1_5_eq V c) cover1_5_arr

/-- ROW OUTPUT 6's ARRAY after the region: the column sums of the epilogue's squares, from zero. -/
theorem final1_6_arr (c : Dev nD) :
    (dat1 (F := Ideal) V c).arrAt 6 cfg1.N = colSumSq (convEpilogue (V c main_v22) (V c main_v12) (V c main_v11) (V c main_v23)) :=
  (dat1 V c).arrAt_eq_of_cover 6 _ (flushed1_6_eq V c) cover1_6_arr

/-- Entry by entry. -/
theorem final1_5 (c : Dev nD) (j : Fin 128) :
    (dat1 (F := Ideal) V c).arrAt 5 cfg1.N (ix2 (0 : Fin 1) j)
      = 0 + ∑ n : Fin 50000, (convEpilogue (V c main_v22) (V c main_v12) (V c main_v11) (V c main_v23)) (ix2 n j) := by
  rw [final1_5_arr V c, colSum_apply]

theorem final1_6 (c : Dev nD) (j : Fin 128) :
    (dat1 (F := Ideal) V c).arrAt 6 cfg1.N (ix2 (0 : Fin 1) j)
      = 0 + ∑ n : Fin 50000, (convEpilogue (V c main_v22) (V c main_v12) (V c main_v11) (V c main_v23)) (ix2 n j) * (convEpilogue (V c main_v22) (V c main_v12) (V c main_v11) (V c main_v23)) (ix2 n j) := by
  rw [final1_6_arr V c, colSumSq_apply]

end Cert.KernelIdeal.Hand
end
-- ==== Proof.KI.Pay2.lean ====
import proofs.«182147_j31610959298973_2_alg».proof.Proof.Gen.KernelIdeal.Skeleton
import proofs.«182147_j31610959298973_2_alg».proof.Proof.LibColumnCasts
import Idealize.ShloMosaic.Lib.ValueIdx
import Idealize.ShloMosaic.Lib.ValueLayout
import Idealize.ShloMosaic.Lib.Pipeline.Value
import Idealize.ShloMosaic.PureOps.Ideal.Laws

/-! What region 2's kernel body stores or hands on, read at one index: the batch-normalised, rectified block
plus the residual; its product with the weight block; the row scale; and the stored product of the last two. -/

noncomputable section

namespace Cert.KernelIdeal.Pay

open Cert.KernelIdeal Cert.KernelIdeal.Gen
open Idealize.ShloMosaic Idealize.ShloMosaic.ValueIdx
open scoped BigOperators

/-- Left operand index of the product at output `(r, j)` and contraction position `q`: row `r` … -/
theorem k2_mm_lhs0 (r : Fin 2000) (j : Fin 128) (q : dot_S2000x128_S128x128_S2000x128_1_0_0_1_n_n.contr.Idx) :
    (dot_S2000x128_S128x128_S2000x128_1_0_0_1_n_n.lhsIdx (ix2 r j) q 0).val = r.val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … right operand index: column `j`. -/
theorem k2_mm_rhs1 (r : Fin 2000) (j : Fin 128) (q : dot_S2000x128_S128x128_S2000x128_1_0_0_1_n_n.contr.Idx) :
    (dot_S2000x128_S128x128_S2000x128_1_0_0_1_n_n.rhsIdx (ix2 r j) q 1).val = j.val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix product into the zero accumulator, read at row `r` and column `j`: the sum over the 128
contraction positions of the operands' products. -/
theorem k2_mm_apply {φ₁ φ₂ : FTy} (a : FVec Ideal S2000x128 φ₁) (b : FVec Ideal S128x128 φ₂) (r : Fin 2000) (j : Fin 128) :
    matmul (F := Ideal) dot_S2000x128_S128x128_S2000x128_1_0_0_1_n_n none a b (constant (F := Ideal) S2000x128 .f32 0x00000000#32) (ix2 r j)
      = ∑ k : Fin 128, a (ix2 r k) * b (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun ax => Fin.ext (by
    match ax with
    | ⟨0, _⟩ => exact k2_mm_lhs0 r j _
    | ⟨1, _⟩ => exact (dot_S2000x128_S128x128_S2000x128_1_0_0_1_n_n.lhsIdx_val_of_single rfl _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun ax => Fin.ext (by
    match ax with
    | ⟨0, _⟩ => exact (dot_S2000x128_S128x128_S2000x128_1_0_0_1_n_n.rhsIdx_val_of_single rfl _ _).trans hk
    | ⟨1, _⟩ => exact k2_mm_rhs1 r j _)
  rw [el, er]

/-- The stored product at row `r`, column `j`: the two operands' entries multiplied. -/
theorem k2_pay1_apply (v33 : FVec Ideal S2000x128 .f32) (v36 : FVec Ideal S2000x128 .f32) (r : Fin 2000) (j : Fin 128) :
    k2_pay1 (F := Ideal) v33 v36 (ix2 r j) = v33 (ix2 r j) * v36 (ix2 r j) := rfl

/-- The normalised, rectified block plus the residual at row `r`, column `j`: the entry minus the column's
first statistic, times the reciprocal square root of the column's second statistic plus the small constant,
times the column's gain, plus the column's shift; the maximum of that and zero; plus the residual's entry. -/
theorem k2_pay2_apply (v0 : Vec Ideal S1x128 .f32) (v4 : Vec Ideal S1x128 .f32) (v11 : Vec Ideal S1x128 .f32)
    (v15 : Vec Ideal S1x128 .f32) (v19 : Vec Ideal S2000x128 .f32) (v27 : Vec Ideal S2000x128 .f32) (r : Fin 2000) (j : Fin 128) :
    k2_pay2 (F := Ideal) v0 v4 v11 v15 v19 v27 (ix2 r j)
      = max ((v19 (ix2 r j) - v0 (ix2 (0 : Fin 1) j)) * Ideal.rsqrt (v4 (ix2 (0 : Fin 1) j) + Ideal.ofBits .f32 0x3727C5AC#32)
          * v11 (ix2 (0 : Fin 1) j) + v15 (ix2 (0 : Fin 1) j)) 0 + v27 (ix2 r j) := by
  unfold k2_pay2
  rw [addf_apply, maximumf_apply, addf_apply, mulf_apply, mulf_apply, subf_apply]
  simp only [shapeCast_self]
  rw [broadcastTo_1b_ab_apply, broadcastTo_1b_ab_apply, broadcastTo_1b_ab_apply, broadcastTo_1b_ab_apply]
  show max (_ * Ideal.rsqrt (v4 (ix2 (0 : Fin 1) j) + Ideal.ofBits .f32 0x3727C5AC#32) * _ + _) (Ideal.ofBits .f32 0x00000000#32) + _ = _
  rw [Ideal.ofBits_zero_f32]

/-- The second matrix product at row `r`, column `j`: the row of the block just stored times the column of the
weight block, summed over the 128 contraction positions. -/
theorem k2_pay3_apply (v0 : Vec Ideal S1x128 .f32) (v4 : Vec Ideal S1x128 .f32) (v11 : Vec Ideal S1x128 .f32)
    (v15 : Vec Ideal S1x128 .f32) (v19 : Vec Ideal S2000x128 .f32) (v27 : Vec Ideal S2000x128 .f32) (v31 : Vec Ideal S128x128 .f32)
    (r : Fin 2000) (j : Fin 128) :
    k2_pay3 (F := Ideal) v0 v4 v11 v15 v19 v27 v31 (ix2 r j)
      = ∑ k : Fin 128, k2_pay2 (F := Ideal) v0 v4 v11 v15 v19 v27 (ix2 r k) * v31 (ix2 k j) := by
  unfold k2_pay3
  rw [k2_mm_apply]
  simp only [truncf_apply]

/-- The row scale broadcast along the columns: at `(r, j)` the column block's entry in row `r`. -/
theorem k2_pay4_apply (v34 : Vec Ideal S2000x1 .f32) (r : Fin 2000) (j : Fin 128) :
    k2_pay4 (F := Ideal) v34 (ix2 r j) = v34 (ix2 r (0 : Fin 1)) := by
  unfold k2_pay4
  rw [shapeCast_self, Cert.LibColumnCasts.broadcastTo_a1_ab_apply]

end Cert.KernelIdeal.Pay

end
-- ==== Proof.KI.Val2.lean ====
import proofs.«182147_j31610959298973_2_alg».proof.Proof.KI.R2
import proofs.«182147_j31610959298973_2_alg».proof.Proof.KI.Pay2
import proofs.«182147_j31610959298973_2_alg».proof.Proof.KI.ValDefs
import Idealize.ShloMosaic.Lib.Pipeline.Value
import Idealize.ShloMosaic.Lib.ValueIdx
import Idealize.ShloMosaic.Lib.Tactic

/-! Region 2, from blocks to the arrays: the two output arrays after the region, each as one function of the arrays
the region finds — the batch-normalised, rectified rows plus the residual; and those rows times the weight
matrix, each row scaled by its entry of the column of scale factors — entry by entry. Each point writes back
its blocks of those functions; the blocks tile the rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- Window 0 sits at block row `t`, column block 0, at every point. -/
theorem block_index2_0 : ∀ t : Fin cfg2.N, win2_0.index t (0 : Fin 2) = t.val ∧ win2_0.index t (1 : Fin 2) = 0 :=
  (by decide +kernel : ∀ t : Fin grid2.N, _)

/-- Window 0's block at point `t` is rows 2000 t … 2000 t + 1999 of the rows to normalise. -/
theorem iblk2_0_apply (c : Dev nD) (t : Fin cfg2.N) (r : Fin 2000) (k : Fin 128) (n : Fin 50000)
    (hn : n.val = t.val * 2000 + r.val) :
    (iblk2 V c 0 t : Vec Ideal S2000x128 .f32) (ix2 r k) = (V c main_v24_0 : S50000x128.Idx → EReal) (ix2 n k) := by
  obtain ⟨e0, e1⟩ := block_index2_0 t
  unfold iblk2
  rw [View.read_apply]
  show V c main_v24_0 _ = V c main_v24_0 _
  congr 1
  funext a
  apply Fin.ext
  match a with
  | ⟨0, _⟩ => show win2_0.index t (0 : Fin 2) * 2000 + 1 * r.val = n.val; omega
  | ⟨1, _⟩ => show win2_0.index t (1 : Fin 2) * 128 + 1 * k.val = k.val; omega

/-- Window 1 sits at block row `t`, column block 0, at every point. -/
theorem block_index2_1 : ∀ t : Fin cfg2.N, win2_1.index t (0 : Fin 2) = t.val ∧ win2_1.index t (1 : Fin 2) = 0 :=
  (by decide +kernel : ∀ t : Fin grid2.N, _)

/-- Window 1's block at point `t` is rows 2000 t … 2000 t + 1999 of the residual rows. -/
theorem iblk2_1_apply (c : Dev nD) (t : Fin cfg2.N) (r : Fin 2000) (k : Fin 128) (n : Fin 50000)
    (hn : n.val = t.val * 2000 + r.val) :
    (iblk2 V c 1 t : Vec Ideal S2000x128 .f32) (ix2 r k) = (V c main_arg0 : S50000x128.Idx → EReal) (ix2 n k) := by
  obtain ⟨e0, e1⟩ := block_index2_1 t
  unfold iblk2
  rw [View.read_apply]
  show V c main_arg0 _ = V c main_arg0 _
  congr 1
  funext a
  apply Fin.ext
  match a with
  | ⟨0, _⟩ => show win2_1.index t (0 : Fin 2) * 2000 + 1 * r.val = n.val; omega
  | ⟨1, _⟩ => show win2_1.index t (1 : Fin 2) * 128 + 1 * k.val = k.val; omega

/-- Window 2's one block is block (0, 0), at every point. -/
theorem block_index2_2 : ∀ t : Fin cfg2.N, win2_2.index t (0 : Fin 2) = 0 ∧ win2_2.index t (1 : Fin 2) = 0 :=
  (by decide +kernel : ∀ t : Fin grid2.N, _)

/-- Window 2's one block is the whole of the row of column means. -/
theorem iblk2_2_apply (c : Dev nD) (t : Fin cfg2.N) (a : Fin 1) (b : Fin 128) :
    (iblk2 V c 2 t : Vec Ideal S1x128 .f32) (ix2 a b) = (V c main_v26 : S1x128.Idx → EReal) (ix2 a b) := by
  obtain ⟨e0, e1⟩ := block_index2_2 t
  unfold iblk2
  rw [View.read_apply]
  show V c main_v26 _ = V c main_v26 _
  congr 1
  funext ax
  apply Fin.ext
  match ax with
  | ⟨0, _⟩ => show win2_2.index t (0 : Fin 2) * 1 + 1 * a.val = a.val; omega
  | ⟨1, _⟩ => show win2_2.index t (1 : Fin 2) * 128 + 1 * b.val = b.val; omega

/-- Window 3's one block is block (0, 0), at every point. -/
theorem block_index2_3 : ∀ t : Fin cfg2.N, win2_3.index t (0 : Fin 2) = 0 ∧ win2_3.index t (1 : Fin 2) = 0 :=
  (by decide +kernel : ∀ t : Fin grid2.N, _)

/-- Window 3's one block is the whole of the row of column variances. -/
theorem iblk2_3_apply (c : Dev nD) (t : Fin cfg2.N) (a : Fin 1) (b : Fin 128) :
    (iblk2 V c 3 t : Vec Ideal S1x128 .f32) (ix2 a b) = (V c main_v30 : S1x128.Idx → EReal) (ix2 a b) := by
  obtain ⟨e0, e1⟩ := block_index2_3 t
  unfold iblk2
  rw [View.read_apply]
  show V c main_v30 _ = V c main_v30 _
  congr 1
  funext ax
  apply Fin.ext
  match ax with
  | ⟨0, _⟩ => show win2_3.index t (0 : Fin 2) * 1 + 1 * a.val = a.val; omega
  | ⟨1, _⟩ => show win2_3.index t (1 : Fin 2) * 128 + 1 * b.val = b.val; omega

/-- Window 4's one block is block (0, 0), at every point. -/
theorem block_index2_4 : ∀ t : Fin cfg2.N, win2_4.index t (0 : Fin 2) = 0 ∧ win2_4.index t (1 : Fin 2) = 0 :=
  (by decide +kernel : ∀ t : Fin grid2.N, _)

/-- Window 4's one block is the whole of the row of gains. -/
theorem iblk2_4_apply (c : Dev nD) (t : Fin cfg2.N) (a : Fin 1) (b : Fin 128) :
    (iblk2 V c 4 t : Vec Ideal S1x128 .f32) (ix2 a b) = (V c main_v31 : S1x128.Idx → EReal) (ix2 a b) := by
  obtain ⟨e0, e1⟩ := block_index2_4 t
  unfold iblk2
  rw [View.read_apply]
  show V c main_v31 _ = V c main_v31 _
  congr 1
  funext ax
  apply Fin.ext
  match ax with
  | ⟨0, _⟩ => show win2_4.index t (0 : Fin 2) * 1 + 1 * a.val = a.val; omega
  | ⟨1, _⟩ => show win2_4.index t (1 : Fin 2) * 128 + 1 * b.val = b.val; omega

/-- Window 5's one block is block (0, 0), at every point. -/
theorem block_index2_5 : ∀ t : Fin cfg2.N, win2_5.index t (0 : Fin 2) = 0 ∧ win2_5.index t (1 : Fin 2) = 0 :=
  (by decide +kernel : ∀ t : Fin grid2.N, _)

/-- Window 5's one block is the whole of the row of shifts. -/
theorem iblk2_5_apply (c : Dev nD) (t : Fin cfg2.N) (a : Fin 1) (b : Fin 128) :
    (iblk2 V c 5 t : Vec Ideal S1x128 .f32) (ix2 a b) = (V c main_v32 : S1x128.Idx → EReal) (ix2 a b) := by
  obtain ⟨e0, e1⟩ := block_index2_5 t
  unfold iblk2
  rw [View.read_apply]
  show V c main_v32 _ = V c main_v32 _
  congr 1
  funext ax
  apply Fin.ext
  match ax with
  | ⟨0, _⟩ => show win2_5.index t (0 : Fin 2) * 1 + 1 * a.val = a.val; omega
  | ⟨1, _⟩ => show win2_5.index t (1 : Fin 2) * 128 + 1 * b.val = b.val; omega

/-- Window 6's one block is block (0, 0), at every point. -/
theorem block_index2_6 : ∀ t : Fin cfg2.N, win2_6.index t (0 : Fin 2) = 0 ∧ win2_6.index t (1 : Fin 2) = 0 :=
  (by decide +kernel : ∀ t : Fin grid2.N, _)

/-- Window 6's one block is the whole of the weight matrix. -/
theorem iblk2_6_apply (c : Dev nD) (t : Fin cfg2.N) (a : Fin 128) (b : Fin 128) :
    (iblk2 V c 6 t : Vec Ideal S128x128 .f32) (ix2 a b) = (V c main_arg6 : S128x128.Idx → EReal) (ix2 a b) := by
  obtain ⟨e0, e1⟩ := block_index2_6 t
  unfold iblk2
  rw [View.read_apply]
  show V c main_arg6 _ = V c main_arg6 _
  congr 1
  funext ax
  apply Fin.ext
  match ax with
  | ⟨0, _⟩ => show win2_6.index t (0 : Fin 2) * 128 + 1 * a.val = a.val; omega
  | ⟨1, _⟩ => show win2_6.index t (1 : Fin 2) * 128 + 1 * b.val = b.val; omega

/-- Window 7 sits at block row `t`, column block 0, at every point. -/
theorem block_index2_7 : ∀ t : Fin cfg2.N, win2_7.index t (0 : Fin 2) = t.val ∧ win2_7.index t (1 : Fin 2) = 0 :=
  (by decide +kernel : ∀ t : Fin grid2.N, _)

/-- Window 7's block at point `t` is rows 2000 t … 2000 t + 1999 of the column of scale factors. -/
theorem iblk2_7_apply (c : Dev nD) (t : Fin cfg2.N) (r : Fin 2000) (k : Fin 1) (n : Fin 50000)
    (hn : n.val = t.val * 2000 + r.val) :
    (iblk2 V c 7 t : Vec Ideal S2000x1 .f32) (ix2 r k) = (V c main_v11 : S50000x1.Idx → EReal) (ix2 n k) := by
  obtain ⟨e0, e1⟩ := block_index2_7 t
  unfold iblk2
  rw [View.read_apply]
  show V c main_v11 _ = V c main_v11 _
  congr 1
  funext a
  apply Fin.ext
  match a with
  | ⟨0, _⟩ => show win2_7.index t (0 : Fin 2) * 2000 + 1 * r.val = n.val; omega
  | ⟨1, _⟩ => show win2_7.index t (1 : Fin 2) * 1 + 1 * k.val = k.val; omega

/-- Window 8 sits at block row `t`, column block 0, at every point. -/
theorem block_index2_8 : ∀ t : Fin cfg2.N, win2_8.index t (0 : Fin 2) = t.val ∧ win2_8.index t (1 : Fin 2) = 0 :=
  (by decide +kernel : ∀ t : Fin grid2.N, _)

/-- Where an element of output window 8's block at point `t` sits in the array. -/
theorem emb2_8 (t : Fin cfg2.N) (r : Fin 2000) (j : Fin 128) (n : Fin 50000) (hn : n.val = t.val * 2000 + r.val) :
    ((cfg2.win 8).blk t).view.emb (ix2 r j) = (ix2 n j : S50000x128.Idx) := by
  obtain ⟨e0, e1⟩ := block_index2_8 t
  funext a
  apply Fin.ext
  match a with
  | ⟨0, _⟩ => show win2_8.index t (0 : Fin 2) * 2000 + 1 * r.val = n.val; omega
  | ⟨1, _⟩ => show win2_8.index t (1 : Fin 2) * 128 + 1 * j.val = j.val; omega

/-- An index of the array is in point `t`'s block of window 8 iff each coordinate is in the block's range on its axis. -/
theorem mem_blk2_8 (t : Fin cfg2.N) (i : S50000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v33_0).slice (win2_8.rect t)).set ↔ _
  rw [View.set_slice_whole, Rect.mem_set_unit]
  exact Iff.rfl

/-- Every row is in some point's block of window 8: row n in the block of point n / 2000. -/
theorem cover2_8_arr (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e0, e1⟩ := block_index2_8 t
  have e0' : win2_8.index t (0 : Fin 2) = (i 0).val / 2000 := e0
  refine ⟨t, flush2_8 t, ?_⟩
  rw [mem_blk2_8]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 128 ≤ (i 1).val ∧ (i 1).val < win2_8.index t (1 : Fin 2) * 128 + 128; omega

/-- Window 9 sits at block row `t`, column block 0, at every point. -/
theorem block_index2_9 : ∀ t : Fin cfg2.N, win2_9.index t (0 : Fin 2) = t.val ∧ win2_9.index t (1 : Fin 2) = 0 :=
  (by decide +kernel : ∀ t : Fin grid2.N, _)

/-- Where an element of output window 9's block at point `t` sits in the array. -/
theorem emb2_9 (t : Fin cfg2.N) (r : Fin 2000) (j : Fin 128) (n : Fin 50000) (hn : n.val = t.val * 2000 + r.val) :
    ((cfg2.win 9).blk t).view.emb (ix2 r j) = (ix2 n j : S50000x128.Idx) := by
  obtain ⟨e0, e1⟩ := block_index2_9 t
  funext a
  apply Fin.ext
  match a with
  | ⟨0, _⟩ => show win2_9.index t (0 : Fin 2) * 2000 + 1 * r.val = n.val; omega
  | ⟨1, _⟩ => show win2_9.index t (1 : Fin 2) * 128 + 1 * j.val = j.val; omega

/-- An index of the array is in point `t`'s block of window 9 iff each coordinate is in the block's range on its axis. -/
theorem mem_blk2_9 (t : Fin cfg2.N) (i : S50000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v33_1).slice (win2_9.rect t)).set ↔ _
  rw [View.set_slice_whole, Rect.mem_set_unit]
  exact Iff.rfl

/-- Every row is in some point's block of window 9: row n in the block of point n / 2000. -/
theorem cover2_9_arr (i : S50000x128.Idx) :
    ∃ t : Fin cfg2.N, (cfg2.win 9).flush t = true ∧ i ∈ ((cfg2.win 9).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e0, e1⟩ := block_index2_9 t
  have e0' : win2_9.index t (0 : Fin 2) = (i 0).val / 2000 := e0
  refine ⟨t, flush2_9 t, ?_⟩
  rw [mem_blk2_9]
  intro a
  match a with
  | ⟨0, _⟩ => show win2_9.index t (0 : Fin 2) * 2000 ≤ (i 0).val ∧ (i 0).val < win2_9.index t (0 : Fin 2) * 2000 + 2000; omega
  | ⟨1, _⟩ => show win2_9.index t (1 : Fin 2) * 128 ≤ (i 1).val ∧ (i 1).val < win2_9.index t (1 : Fin 2) * 128 + 128; omega

/-- The body's normalised, rectified block plus residual at row `r`, column `k` of point `t` is the whole-array
    function at row 2000 t + r. -/
theorem pay2_block2 (c : Dev nD) (t : Fin cfg2.N) (r : Fin 2000) (k : Fin 128) (n : Fin 50000)
    (hn : n.val = t.val * 2000 + r.val) :
    k2_pay2 (F := Ideal) (iblk2 V c 2 t) (iblk2 V c 3 t) (iblk2 V c 4 t) (iblk2 V c 5 t) (iblk2 V c 0 t) (iblk2 V c 1 t) (ix2 r k)
      = bnReluRes (V c main_v24_0) (V c main_arg0) (V c main_v26) (V c main_v30) (V c main_v31) (V c main_v32) (ix2 n k) := by
  rw [Pay.k2_pay2_apply, bnReluRes_apply, iblk2_0_apply V c t r k n hn, iblk2_1_apply V c t r k n hn,
    iblk2_2_apply V c t 0 k, iblk2_3_apply V c t 0 k, iblk2_4_apply V c t 0 k, iblk2_5_apply V c t 0 k]

/-- WHAT POINT `t` WRITES BACK through window 8 is block `t` of the normalised, rectified rows plus the residual. -/
theorem flushed2_8_eq (c : Dev nD) (t : Fin cfg2.N) :
    (dat2 V c).flushed 8 t = ((cfg2.win 8).blk t).view.read (Elt Ideal)
      (bnReluRes (V c main_v24_0) (V c main_arg0) (V c main_v26) (V c main_v30) (V c main_v31) (V c main_v32)) := by
  show (cfg2.win 8).cut (grid2.coords t) ((dat2 V c).after 8 t) = _
  rw [after2_8]
  unfold out2_8
  rw [View.canon_unit_zero zero_offsets]
  simp only [View.ld_unit_zero (S := S2000x128) zero_offsets, View.ld_unit_zero (S := S1x128) zero_offsets]
  funext y
  obtain ⟨r, j, rfl⟩ : ∃ (r : Fin 2000) (j : Fin 128), y = ix2 r j := ⟨y 0, y 1, eq_ix2 y⟩
  have hN : cfg2.N = 25 := N_2
  have ht : t.val < 25 := by have := t.isLt; omega
  have hr : r.val < 2000 := r.isLt
  obtain ⟨n, hn⟩ : ∃ n : Fin 50000, n.val = t.val * 2000 + r.val := ⟨⟨t.val * 2000 + r.val, by omega⟩, rfl⟩
  show k2_pay2 (F := Ideal) (iblk2 V c 2 t) (iblk2 V c 3 t) (iblk2 V c 4 t) (iblk2 V c 5 t) (iblk2 V c 0 t) (iblk2 V c 1 t) (ix2 r j)
    = bnReluRes (V c main_v24_0) (V c main_arg0) (V c main_v26) (V c main_v30) (V c main_v31) (V c main_v32) (((cfg2.win 8).blk t).view.emb (ix2 r j))
  rw [emb2_8 t r j n hn]
  exact pay2_block2 V c t r j n hn

/-- WHAT POINT `t` WRITES BACK through window 9 is block `t` of those rows times the weight matrix, scaled row by row. -/
theorem flushed2_9_eq (c : Dev nD) (t : Fin cfg2.N) :
    (dat2 V c).flushed 9 t = ((cfg2.win 9).blk t).view.read (Elt Ideal)
      (scaledProduct (bnReluRes (V c main_v24_0) (V c main_arg0) (V c main_v26) (V c main_v30) (V c main_v31) (V c main_v32))
        (V c main_arg6) (V c main_v11)) := by
  show (cfg2.win 9).cut (grid2.coords t) ((dat2 V c).after 9 t) = _
  rw [after2_9]
  unfold out2_9
  rw [View.canon_unit_zero zero_offsets]
  simp only [View.ld_unit_zero (S := S2000x128) zero_offsets, View.ld_unit_zero (S := S1x128) zero_offsets,
    View.ld_unit_zero (S := S128x128) zero_offsets, View.ld_unit_zero (S := S2000x1) zero_offsets]
  funext y
  obtain ⟨r, j, rfl⟩ : ∃ (r : Fin 2000) (j : Fin 128), y = ix2 r j := ⟨y 0, y 1, eq_ix2 y⟩
  have hN : cfg2.N = 25 := N_2
  have ht : t.val < 25 := by have := t.isLt; omega
  have hr : r.val < 2000 := r.isLt
  obtain ⟨n, hn⟩ : ∃ n : Fin 50000, n.val = t.val * 2000 + r.val := ⟨⟨t.val * 2000 + r.val, by omega⟩, rfl⟩
  show k2_pay1 (F := Ideal) (k2_pay3 (F := Ideal) (iblk2 V c 2 t) (iblk2 V c 3 t) (iblk2 V c 4 t) (iblk2 V c 5 t) (iblk2 V c 0 t) (iblk2 V c 1 t) (iblk2 V c 6 t))
      (k2_pay4 (F := Ideal) (iblk2 V c 7 t)) (ix2 r j)
    = scaledProduct (bnReluRes (V c main_v24_0) (V c main_arg0) (V c main_v26) (V c main_v30) (V c main_v31) (V c main_v32))
        (V c main_arg6) (V c main_v11) (((cfg2.win 9).blk t).view.emb (ix2 r j))
  rw [emb2_9 t r j n hn, scaledProduct_apply, Pay.k2_pay1_apply, Pay.k2_pay3_apply, Pay.k2_pay4_apply, iblk2_7_apply V c t r 0 n hn]
  refine congrArg (· * _) (Finset.sum_congr rfl fun k _ => ?_)
  rw [pay2_block2 V c t r k n hn, iblk2_6_apply V c t k j]

/-- THE ARRAY of window 8 after the region: the normalised, rectified rows plus the residual. -/
theorem final2_8_arr (c : Dev nD) :
    (dat2 V c).arrAt 8 cfg2.N = bnReluRes (V c main_v24_0) (V c main_arg0) (V c main_v26) (V c main_v30) (V c main_v31) (V c main_v32) :=
  (dat2 V c).arrAt_eq_of_cover 8 _ (fun t _ => flushed2_8_eq V c t) cover2_8_arr

/-- THE ARRAY of window 9 after the region: those rows times the weight matrix, scaled row by row. -/
theorem final2_9_arr (c : Dev nD) :
    (dat2 V c).arrAt 9 cfg2.N = scaledProduct (bnReluRes (V c main_v24_0) (V c main_arg0) (V c main_v26) (V c main_v30) (V c main_v31) (V c main_v32))
      (V c main_arg6) (V c main_v11) :=
  (dat2 V c).arrAt_eq_of_cover 9 _ (fun t _ => flushed2_9_eq V c t) cover2_9_arr

/-- Entry by entry. -/
theorem final2_8 (c : Dev nD) (n : Fin 50000) (j : Fin 128) :
    (dat2 (F := Ideal) V c).arrAt 8 cfg2.N (ix2 n j)
      = bnReluRes (V c main_v24_0) (V c main_arg0) (V c main_v26) (V c main_v30) (V c main_v31) (V c main_v32) (ix2 n j) := by
  rw [final2_8_arr V c]

theorem final2_9 (c : Dev nD) (n : Fin 50000) (j : Fin 128) :
    (dat2 (F := Ideal) V c).arrAt 9 cfg2.N (ix2 n j)
      = scaledProduct (bnReluRes (V c main_v24_0) (V c main_arg0) (V c main_v26) (V c main_v30) (V c main_v31) (V c main_v32))
          (V c main_arg6) (V c main_v11) (ix2 n j) := by
  rw [final2_9_arr V c]

end Cert.KernelIdeal.Hand

end
-- ==== Proof.KI.Pay3.lean ====
import proofs.«182147_j31610959298973_2_alg».proof.Proof.Gen.KernelIdeal.Skeleton
import proofs.«182147_j31610959298973_2_alg».proof.Proof.LibColumnCasts
import Idealize.ShloMosaic.Lib.ValueIdx
import Idealize.ShloMosaic.Lib.ValueLayout
import Idealize.ShloMosaic.Lib.Pipeline.Value
import Idealize.ShloMosaic.PureOps.Ideal.Laws

/-! What region 3's kernel body stores, read at one index: the two scratch buffers' reset values, the
convolution's epilogue `dis * (agg + hs) + b`, and the two running column sums (of the epilogue and of its square)
accumulated in the scratch buffers. -/

noncomputable section

namespace Cert.KernelIdeal.Pay

open Cert.KernelIdeal Cert.KernelIdeal.Gen
open Idealize.ShloMosaic Idealize.ShloMosaic.ValueIdx
open scoped BigOperators

/-- The sum over the 2000 rows into the zero accumulator, read at column `j`. -/
theorem k3_colsum_apply (src : FVec Ideal S2000x128 .f32) (hacc : (0x00000000#32 : BitVec 32) = 0x00000000#32) (j : Fin 128) :
    multiReduction (F := Ideal) .add [0] S128 src 0x00000000#32 reduces_S2000x128_S128 (.inl rfl) hacc (ix1 j)
      = ∑ r : Fin 2000, src (ix2 r j) := by
  refine (Ideal.multiReduction_add_single src 0x00000000#32 reduces_S2000x128_S128 (.inl rfl) hacc (ix1 j)).trans ?_
  exact Finset.sum_congr rfl fun k _ => congrArg src (funext fun ax => Fin.ext (by
    match ax with
    | ⟨0, _⟩ => rfl
    | ⟨1, _⟩ => rfl))

/-- The first scratch buffer's reset value: zero in every column. -/
theorem k3_pay1_apply (j : Fin 128) : k3_pay1 (F := Ideal) (ix2 (0 : Fin 1) j) = 0 := by
  unfold k3_pay1
  rw [shapeCast_self]
  exact Ideal.ofBits_zero_f32

/-- The second scratch buffer's reset value: zero in every column. -/
theorem k3_pay2_apply (j : Fin 128) : k3_pay2 (F := Ideal) (ix2 (0 : Fin 1) j) = 0 := by
  unfold k3_pay2
  rw [shapeCast_self]
  exact Ideal.ofBits_zero_f32

/-- The convolution's epilogue at row `r`, column `j`: the row's scale times the sum of the two blocks'
entries, plus the bias row's entry. -/
theorem k3_pay3_apply (v3 : Vec Ideal S1x128 .f32) (v7 : Vec Ideal S2000x1 .f32) (v9 : Vec Ideal S2000x128 .f32)
    (v11 : Vec Ideal S2000x128 .f32) (r : Fin 2000) (j : Fin 128) :
    k3_pay3 (F := Ideal) v3 v7 v9 v11 (ix2 r j)
      = v7 (ix2 r (0 : Fin 1)) * (v9 (ix2 r j) + v11 (ix2 r j)) + v3 (ix2 (0 : Fin 1) j) := by
  unfold k3_pay3
  rw [addf_apply, mulf_apply, addf_apply]
  simp only [shapeCast_self]
  rw [Cert.LibColumnCasts.broadcastTo_a1_ab_apply, broadcastTo_1b_ab_apply]

/-- The running column sum: what the first scratch buffer held plus the block's column sums of the epilogue. -/
theorem k3_pay4_apply (v3 : Vec Ideal S1x128 .f32) (v7 : Vec Ideal S2000x1 .f32) (v9 : Vec Ideal S2000x128 .f32)
    (v11 : Vec Ideal S2000x128 .f32) (v18 : Vec Ideal S1x128 .f32) (j : Fin 128) :
    k3_pay4 (F := Ideal) v3 v7 v9 v11 v18 (ix2 (0 : Fin 1) j)
      = v18 (ix2 (0 : Fin 1) j) + ∑ r : Fin 2000, k3_pay3 (F := Ideal) v3 v7 v9 v11 (ix2 r j) := by
  unfold k3_pay4
  rw [shapeCast_self, addf_apply, shapeCast_a_1a_apply, k3_colsum_apply]

/-- The running column sum of squares: what the second scratch buffer held plus the block's column sums of the
epilogue's squares. -/
theorem k3_pay5_apply (v3 : Vec Ideal S1x128 .f32) (v7 : Vec Ideal S2000x1 .f32) (v9 : Vec Ideal S2000x128 .f32)
    (v11 : Vec Ideal S2000x128 .f32) (v25 : Vec Ideal S1x128 .f32) (j : Fin 128) :
    k3_pay5 (F := Ideal) v3 v7 v9 v11 v25 (ix2 (0 : Fin 1) j)
      = v25 (ix2 (0 : Fin 1) j) + ∑ r : Fin 2000, k3_pay3 (F := Ideal) v3 v7 v9 v11 (ix2 r j) * k3_pay3 (F := Ideal) v3 v7 v9 v11 (ix2 r j) := by
  unfold k3_pay5
  rw [shapeCast_self, addf_apply, shapeCast_a_1a_apply, k3_colsum_apply]
  rfl

end Cert.KernelIdeal.Pay

end
-- ==== Proof.KI.Val3.lean ====
import proofs.«182147_j31610959298973_2_alg».proof.Proof.KI.R3
import proofs.«182147_j31610959298973_2_alg».proof.Proof.KI.Pay3
import proofs.«182147_j31610959298973_2_alg».proof.Proof.KI.ValDefs1
import proofs.«182147_j31610959298973_2_alg».proof.Proof.KI.Val1
import Idealize.ShloMosaic.Lib.Pipeline.Value
import Idealize.ShloMosaic.Lib.ValueIdx
import Idealize.ShloMosaic.Lib.Tactic

/-! Region 3, from blocks to the arrays: the three output arrays after the region, each as one function of the
arrays the region finds. The block output is the convolution's epilogue, entry by entry: each point writes back
its block of it and the blocks tile the rows. The two row outputs are written back once, after the last point,
from two rows that every point adds its block's column sums to (of the epilogue, and of its squares), starting
from zero at the first point: by induction on the point they hold zero plus the sums over all the rows so far,
and after the last point over all 50000 rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-! ## The windows' blocks, entry by entry -/

/-- The printed index maps, decided over the grid: the row windows (the aggregated rows, the rows' own features,
    the column of scale factors, the block output) sit at block row `t`, column block 0; the bias row and the two
    row outputs have one block, block (0, 0). -/
theorem block_indices3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Window 0's block at point `t` is rows 2000 t … 2000 t + 1999 of the aggregated array. -/
theorem iblk3_0_apply (c : Dev nD) (t : Fin cfg3.N) (r : Fin 2000) (k : Fin 128) (n : Fin 50000)
    (hn : n.val = t.val * 2000 + r.val) :
    (iblk3 V c 0 t : Vec Ideal S2000x128 .f32) (ix2 r k) = (V c main_v43 : S50000x128.Idx → EReal) (ix2 n k) := by
  obtain ⟨e0, e1, -⟩ := block_indices3 t
  unfold iblk3
  rw [View.read_apply]
  show V c main_v43 _ = V c main_v43 _
  congr 1
  funext a
  apply Fin.ext
  match a with
  | ⟨0, _⟩ => show win3_0.index t (0 : Fin 2) * 2000 + 1 * r.val = n.val; omega
  | ⟨1, _⟩ => show win3_0.index t (1 : Fin 2) * 128 + 1 * k.val = k.val; omega

/-- Window 1's block at point `t` is rows 2000 t … 2000 t + 1999 of the rows' own features. -/
theorem iblk3_1_apply (c : Dev nD) (t : Fin cfg3.N) (r : Fin 2000) (k : Fin 128) (n : Fin 50000)
    (hn : n.val = t.val * 2000 + r.val) :
    (iblk3 V c 1 t : Vec Ideal S2000x128 .f32) (ix2 r k) = (V c main_v33_1 : S50000x128.Idx → EReal) (ix2 n k) := by
  obtain ⟨-, -, e0, e1, -⟩ := block_indices3 t
  unfold iblk3
  rw [View.read_apply]
  show V c main_v33_1 _ = V c main_v33_1 _
  congr 1
  funext a
  apply Fin.ext
  match a with
  | ⟨0, _⟩ => show win3_1.index t (0 : Fin 2) * 2000 + 1 * r.val = n.val; omega
  | ⟨1, _⟩ => show win3_1.index t (1 : Fin 2) * 128 + 1 * k.val = k.val; omega

/-- Window 2's block at point `t` is rows 2000 t … 2000 t + 1999 of the column of scale factors. -/
theorem iblk3_2_apply (c : Dev nD) (t : Fin cfg3.N) (r : Fin 2000) (n : Fin 50000)
    (hn : n.val = t.val * 2000 + r.val) :
    (iblk3 V c 2 t : Vec Ideal S2000x1 .f32) (ix2 r (0 : Fin 1)) = (V c main_v11 : S50000x1.Idx → EReal) (ix2 n (0 : Fin 1)) := by
  obtain ⟨-, -, -, -, e0, e1, -⟩ := block_indices3 t
  unfold iblk3
  rw [View.read_apply]
  show V c main_v11 _ = V c main_v11 _
  congr 1
  funext a
  apply Fin.ext
  match a with
  | ⟨0, _⟩ => show win3_2.index t (0 : Fin 2) * 2000 + 1 * r.val = n.val; omega
  | ⟨1, _⟩ => show win3_2.index t (1 : Fin 2) * 1 + 1 * 0 = 0; omega

/-- Window 3's one block is the whole bias row. -/
theorem iblk3_3_apply (c : Dev nD) (t : Fin cfg3.N) (j : Fin 128) :
    (iblk3 V c 3 t : Vec Ideal S1x128 .f32) (ix2 (0 : Fin 1) j) = (V c main_v44 : S1x128.Idx → EReal) (ix2 (0 : Fin 1) j) := by
  obtain ⟨-, -, -, -, -, -, e0, e1, -⟩ := block_indices3 t
  unfold iblk3
  rw [View.read_apply]
  show V c main_v44 _ = V c main_v44 _
  congr 1
  funext a
  apply Fin.ext
  match a with
  | ⟨0, _⟩ => show win3_3.index t (0 : Fin 2) * 1 + 1 * 0 = 0; omega
  | ⟨1, _⟩ => show win3_3.index t (1 : Fin 2) * 128 + 1 * j.val = j.val; omega

/-- The epilogue of the four blocks at point `t`, at row `r` of the block, is the epilogue of the four arrays at
    row 2000 t + r. -/
theorem blockEntry3 (c : Dev nD) (t : Fin cfg3.N) (r : Fin 2000) (j : Fin 128) (n : Fin 50000)
    (hn : n.val = t.val * 2000 + r.val) :
    k3_pay3 (F := Ideal) (iblk3 V c 3 t) (iblk3 V c 2 t) (iblk3 V c 0 t) (iblk3 V c 1 t) (ix2 r j)
      = convEpilogue (V c main_v43) (V c main_v33_1) (V c main_v11) (V c main_v44) (ix2 n j) := by
  rw [Pay.k3_pay3_apply, convEpilogue_apply, iblk3_2_apply V c t r n hn, iblk3_0_apply V c t r j n hn,
    iblk3_1_apply V c t r j n hn, iblk3_3_apply V c t j]

/-- The block's column sum of the epilogue at point `t` is the sum of rows 2000 t … 2000 t + 1999 of the arrays'. -/
theorem blockSum3 (c : Dev nD) (t : Fin cfg3.N) (j : Fin 128) :
    ∑ r : Fin 2000, k3_pay3 (F := Ideal) (iblk3 V c 3 t) (iblk3 V c 2 t) (iblk3 V c 0 t) (iblk3 V c 1 t) (ix2 r j)
      = ∑ r ∈ Finset.range 2000,
          rowsExt (convEpilogue (V c main_v43) (V c main_v33_1) (V c main_v11) (V c main_v44)) j (t.val * 2000 + r) := by
  have hN : cfg3.N = 25 := N_3
  have ht : t.val < 25 := by have := t.isLt; omega
  rw [← Fin.sum_univ_eq_sum_range (fun r => rowsExt (convEpilogue (V c main_v43) (V c main_v33_1) (V c main_v11) (V c main_v44)) j (t.val * 2000 + r)) 2000]
  refine Finset.sum_congr rfl fun r _ => ?_
  have hr : r.val < 2000 := r.isLt
  have hlt : t.val * 2000 + r.val < 50000 := by omega
  rw [blockEntry3 V c t r j ⟨t.val * 2000 + r.val, hlt⟩ rfl]
  unfold rowsExt
  rw [dif_pos hlt]

/-- Likewise the block's column sum of the epilogue's squares. -/
theorem blockSumSq3 (c : Dev nD) (t : Fin cfg3.N) (j : Fin 128) :
    ∑ r : Fin 2000, k3_pay3 (F := Ideal) (iblk3 V c 3 t) (iblk3 V c 2 t) (iblk3 V c 0 t) (iblk3 V c 1 t) (ix2 r j)
        * k3_pay3 (F := Ideal) (iblk3 V c 3 t) (iblk3 V c 2 t) (iblk3 V c 0 t) (iblk3 V c 1 t) (ix2 r j)
      = ∑ r ∈ Finset.range 2000,
          rowsExt (fun i => convEpilogue (V c main_v43) (V c main_v33_1) (V c main_v11) (V c main_v44) i
            * convEpilogue (V c main_v43) (V c main_v33_1) (V c main_v11) (V c main_v44) i) j (t.val * 2000 + r) := by
  have hN : cfg3.N = 25 := N_3
  have ht : t.val < 25 := by have := t.isLt; omega
  rw [← Fin.sum_univ_eq_sum_range (fun r => rowsExt (fun i => convEpilogue (V c main_v43) (V c main_v33_1) (V c main_v11) (V c main_v44) i
            * convEpilogue (V c main_v43) (V c main_v33_1) (V c main_v11) (V c main_v44) i) j (t.val * 2000 + r)) 2000]
  refine Finset.sum_congr rfl fun r _ => ?_
  have hr : r.val < 2000 := r.isLt
  have hlt : t.val * 2000 + r.val < 50000 := by omega
  rw [blockEntry3 V c t r j ⟨t.val * 2000 + r.val, hlt⟩ rfl]
  unfold rowsExt
  rw [dif_pos hlt]

/-! ## The block output -/

/-- Where an element of the block output's block at point `t` sits in the array. -/
theorem emb3_4 (t : Fin cfg3.N) (r : Fin 2000) (j : Fin 128) (n : Fin 50000) (hn : n.val = t.val * 2000 + r.val) :
    ((cfg3.win 4).blk t).view.emb (ix2 r j) = (ix2 n j : S50000x128.Idx) := by
  obtain ⟨-, -, -, -, -, -, -, -, e0, e1, -⟩ := block_indices3 t
  funext a
  apply Fin.ext
  match a with
  | ⟨0, _⟩ => show win3_4.index t (0 : Fin 2) * 2000 + 1 * r.val = n.val; omega
  | ⟨1, _⟩ => show win3_4.index t (1 : Fin 2) * 128 + 1 * j.val = j.val; omega

/-- WHAT POINT `t` WRITES BACK is block `t` of the epilogue of the arrays as the region finds them. -/
theorem flushed3_4_eq (c : Dev nD) (t : Fin cfg3.N) :
    (dat3 V c).flushed 4 t = ((cfg3.win 4).blk t).view.read (Elt Ideal) (convEpilogue (V c main_v43) (V c main_v33_1) (V c main_v11) (V c main_v44)) := by
  show (cfg3.win 4).cut (grid3.coords t) ((dat3 V c).after 4 t) = _
  rw [after3_4]
  funext y
  obtain ⟨r, j, rfl⟩ : ∃ (r : Fin 2000) (j : Fin 128), y = ix2 r j := ⟨y 0, y 1, eq_ix2 y⟩
  have hN : cfg3.N = 25 := N_3
  have ht : t.val < 25 := by have := t.isLt; omega
  have hr : r.val < 2000 := r.isLt
  obtain ⟨n, hn⟩ : ∃ n : Fin 50000, n.val = t.val * 2000 + r.val := ⟨⟨t.val * 2000 + r.val, by omega⟩, rfl⟩
  show k3_pay3 (F := Ideal) (iblk3 V c 3 t) (iblk3 V c 2 t) (iblk3 V c 0 t) (iblk3 V c 1 t) (ix2 r j)
    = (convEpilogue (V c main_v43) (V c main_v33_1) (V c main_v11) (V c main_v44)) (((cfg3.win 4).blk t).view.emb (ix2 r j))
  rw [emb3_4 t r j n hn]
  exact blockEntry3 V c t r j n hn

/-- An index of the array is in point `t`'s block iff each coordinate is in the block's range on its axis. -/
theorem mem_blk3_4 (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v45_0).slice (win3_4.rect t)).set ↔ _
  rw [View.set_slice_whole, Rect.mem_set_unit]
  exact Iff.rfl

/-- Every row is in some point's block: row n in the block of point n / 2000. -/
theorem cover3_4_arr (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨-, -, -, -, -, -, -, -, e0, e1, -⟩ := block_indices3 t
  have e0' : win3_4.index t (0 : Fin 2) = (i 0).val / 2000 := e0
  refine ⟨t, flush3_4 t, ?_⟩
  rw [mem_blk3_4]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- THE BLOCK OUTPUT'S ARRAY after the region: the epilogue of the arrays the region finds. -/
theorem final3_4_arr (c : Dev nD) :
    (dat3 (F := Ideal) V c).arrAt 4 cfg3.N = (convEpilogue (V c main_v43) (V c main_v33_1) (V c main_v11) (V c main_v44)) :=
  (dat3 V c).arrAt_eq_of_cover 4 _ (fun t _ => flushed3_4_eq V c t) cover3_4_arr

/-! ## The two accumulators, in closed form -/

/-- The first scratch row after point `n`, at column `j`: zero plus the epilogue's entries of rows 0 … 2000 (n + 1) − 1. -/
theorem sumAcc3_apply (c : Dev nD) (n : ℕ) (h : n < cfg3.N) (j : Fin 128) :
    (sumAcc3 V c n h (ix2 (0 : Fin 1) j) : EReal)
      = 0 + ∑ m ∈ Finset.range ((n + 1) * 2000), rowsExt (convEpilogue (V c main_v43) (V c main_v33_1) (V c main_v11) (V c main_v44)) j m :=
  blockTotal_eq (M := EReal) (rowsExt (convEpilogue (V c main_v43) (V c main_v33_1) (V c main_v11) (V c main_v44)) j)
    (fun n h => sumAcc3 V c n h (ix2 (0 : Fin 1) j))
    (fun h => by
      show (sumAcc3 V c 0 h (ix2 (0 : Fin 1) j) : EReal) = _
      rw [show sumAcc3 V c 0 h = k3_pay4 (iblk3 V c 3 ⟨0, h⟩) (iblk3 V c 2 ⟨0, h⟩) (iblk3 V c 0 ⟨0, h⟩) (iblk3 V c 1 ⟨0, h⟩) (k3_pay1 (F := Ideal)) from rfl,
        Pay.k3_pay4_apply, Pay.k3_pay1_apply, blockSum3 V c ⟨0, h⟩ j])
    (fun n h => by
      show (sumAcc3 V c (n + 1) h (ix2 (0 : Fin 1) j) : EReal) = sumAcc3 V c n (Nat.lt_of_succ_lt h) (ix2 (0 : Fin 1) j) + _
      rw [show sumAcc3 V c (n + 1) h = k3_pay4 (iblk3 V c 3 ⟨n + 1, h⟩) (iblk3 V c 2 ⟨n + 1, h⟩) (iblk3 V c 0 ⟨n + 1, h⟩) (iblk3 V c 1 ⟨n + 1, h⟩) (sumAcc3 V c n (Nat.lt_of_succ_lt h)) from rfl,
        Pay.k3_pay4_apply, blockSum3 V c ⟨n + 1, h⟩ j])
    n h

/-- The second scratch row after point `n`, at column `j`: zero plus the squares of those entries. -/
theorem sqAcc3_apply (c : Dev nD) (n : ℕ) (h : n < cfg3.N) (j : Fin 128) :
    (sqAcc3 V c n h (ix2 (0 : Fin 1) j) : EReal)
      = 0 + ∑ m ∈ Finset.range ((n + 1) * 2000), rowsExt (fun i => (convEpilogue (V c main_v43) (V c main_v33_1) (V c main_v11) (V c main_v44)) i * (convEpilogue (V c main_v43) (V c main_v33_1) (V c main_v11) (V c main_v44)) i) j m :=
  blockTotal_eq (M := EReal) (rowsExt (fun i => (convEpilogue (V c main_v43) (V c main_v33_1) (V c main_v11) (V c main_v44)) i * (convEpilogue (V c main_v43) (V c main_v33_1) (V c main_v11) (V c main_v44)) i) j)
    (fun n h => sqAcc3 V c n h (ix2 (0 : Fin 1) j))
    (fun h => by
      show (sqAcc3 V c 0 h (ix2 (0 : Fin 1) j) : EReal) = _
      rw [show sqAcc3 V c 0 h = k3_pay5 (iblk3 V c 3 ⟨0, h⟩) (iblk3 V c 2 ⟨0, h⟩) (iblk3 V c 0 ⟨0, h⟩) (iblk3 V c 1 ⟨0, h⟩) (k3_pay2 (F := Ideal)) from rfl,
        Pay.k3_pay5_apply, Pay.k3_pay2_apply, blockSumSq3 V c ⟨0, h⟩ j])
    (fun n h => by
      show (sqAcc3 V c (n + 1) h (ix2 (0 : Fin 1) j) : EReal) = sqAcc3 V c n (Nat.lt_of_succ_lt h) (ix2 (0 : Fin 1) j) + _
      rw [show sqAcc3 V c (n + 1) h = k3_pay5 (iblk3 V c 3 ⟨n + 1, h⟩) (iblk3 V c 2 ⟨n + 1, h⟩) (iblk3 V c 0 ⟨n + 1, h⟩) (iblk3 V c 1 ⟨n + 1, h⟩) (sqAcc3 V c n (Nat.lt_of_succ_lt h)) from rfl,
        Pay.k3_pay5_apply, blockSumSq3 V c ⟨n + 1, h⟩ j])
    n h

/-! ## The two row outputs: written back once, after the last point -/

/-- Row output 5's one block is its whole array. -/
theorem emb3_5 (t : Fin cfg3.N) (j : Fin 128) :
    ((cfg3.win 5).blk t).view.emb (ix2 (0 : Fin 1) j) = (ix2 (0 : Fin 1) j : S1x128.Idx) := by
  obtain ⟨-, -, -, -, -, -, -, -, -, -, e0, e1, -⟩ := block_indices3 t
  funext a
  apply Fin.ext
  match a with
  | ⟨0, _⟩ => show win3_5.index t (0 : Fin 2) * 1 + 1 * 0 = 0; omega
  | ⟨1, _⟩ => show win3_5.index t (1 : Fin 2) * 128 + 1 * j.val = j.val; omega

/-- Row output 6's one block is its whole array. -/
theorem emb3_6 (t : Fin cfg3.N) (j : Fin 128) :
    ((cfg3.win 6).blk t).view.emb (ix2 (0 : Fin 1) j) = (ix2 (0 : Fin 1) j : S1x128.Idx) := by
  obtain ⟨-, -, -, -, -, -, -, -, -, -, -, -, e0, e1⟩ := block_indices3 t
  funext a
  apply Fin.ext
  match a with
  | ⟨0, _⟩ => show win3_6.index t (0 : Fin 2) * 1 + 1 * 0 = 0; omega
  | ⟨1, _⟩ => show win3_6.index t (1 : Fin 2) * 128 + 1 * j.val = j.val; omega

/-- The one write-back of row output 5, at the last point, writes the column sums of the epilogue. -/
theorem flushed3_5_eq (c : Dev nD) (t : Fin cfg3.N) (hf : (cfg3.win 5).flush t = true) :
    (dat3 V c).flushed 5 t = ((cfg3.win 5).blk t).view.read (Elt Ideal) (colSum (convEpilogue (V c main_v43) (V c main_v33_1) (V c main_v11) (V c main_v44))) := by
  have hN : cfg3.N = 25 := N_3
  have h24 : t.val = 24 := by have := (flush3_5 t).mp hf; have := t.isLt; omega
  show (cfg3.win 5).cut (grid3.coords t) ((dat3 V c).after 5 t) = _
  rw [after3_5]
  funext y
  obtain ⟨r, j, rfl⟩ : ∃ (r : Fin 1) (j : Fin 128), y = ix2 r j := ⟨y 0, y 1, eq_ix2 y⟩
  obtain rfl : r = 0 := Subsingleton.elim r 0
  show (sumAcc3 V c t.val t.isLt (ix2 (0 : Fin 1) j) : EReal)
    = colSum (convEpilogue (V c main_v43) (V c main_v33_1) (V c main_v11) (V c main_v44)) (((cfg3.win 5).blk t).view.emb (ix2 (0 : Fin 1) j))
  rw [emb3_5 t j, colSum_apply, sumAcc3_apply V c t.val t.isLt j, ← sum_rowsExt,
    show (t.val + 1) * 2000 = 50000 from by omega]

/-- The one write-back of row output 6, at the last point, writes the column sums of the epilogue's squares. -/
theorem flushed3_6_eq (c : Dev nD) (t : Fin cfg3.N) (hf : (cfg3.win 6).flush t = true) :
    (dat3 V c).flushed 6 t = ((cfg3.win 6).blk t).view.read (Elt Ideal) (colSumSq (convEpilogue (V c main_v43) (V c main_v33_1) (V c main_v11) (V c main_v44))) := by
  have hN : cfg3.N = 25 := N_3
  have h24 : t.val = 24 := by have := (flush3_6 t).mp hf; have := t.isLt; omega
  show (cfg3.win 6).cut (grid3.coords t) ((dat3 V c).after 6 t) = _
  rw [after3_6]
  funext y
  obtain ⟨r, j, rfl⟩ : ∃ (r : Fin 1) (j : Fin 128), y = ix2 r j := ⟨y 0, y 1, eq_ix2 y⟩
  obtain rfl : r = 0 := Subsingleton.elim r 0
  show (sqAcc3 V c t.val t.isLt (ix2 (0 : Fin 1) j) : EReal)
    = colSumSq (convEpilogue (V c main_v43) (V c main_v33_1) (V c main_v11) (V c main_v44)) (((cfg3.win 6).blk t).view.emb (ix2 (0 : Fin 1) j))
  rw [emb3_6 t j, colSumSq_apply, sqAcc3_apply V c t.val t.isLt j,
    ← sum_rowsExt (fun i => (convEpilogue (V c main_v43) (V c main_v33_1) (V c main_v11) (V c main_v44)) i * (convEpilogue (V c main_v43) (V c main_v33_1) (V c main_v11) (V c main_v44)) i) j,
    show (t.val + 1) * 2000 = 50000 from by omega]

/-- The last point's block covers row output 5's whole array. -/
theorem cover3_5_arr (i : S1x128.Idx) :
    ∃ t : Fin cfg3.N, (cfg3.win 5).flush t = true ∧ i ∈ ((cfg3.win 5).blk t).view.set := by
  have hi0 : (i 0).val < 1 := (i 0).isLt
  have hi1 : (i 1).val < 128 := (i 1).isLt
  have hN : cfg3.N = 25 := N_3
  let t : Fin cfg3.N := ⟨24, by rw [hN]; omega⟩
  obtain ⟨-, -, -, -, -, -, -, -, -, -, e0, e1, -⟩ := block_indices3 t
  refine ⟨t, (flush3_5 t).mpr rfl, ?_⟩
  show i ∈ ((View.whole main_v45_1).slice (win3_5.rect t)).set
  rw [View.set_slice_whole, Rect.mem_set_unit]
  intro a
  match a with
  | ⟨0, _⟩ => show win3_5.index t (0 : Fin 2) * 1 ≤ (i 0).val ∧ (i 0).val < win3_5.index t (0 : Fin 2) * 1 + 1; omega
  | ⟨1, _⟩ => show win3_5.index t (1 : Fin 2) * 128 ≤ (i 1).val ∧ (i 1).val < win3_5.index t (1 : Fin 2) * 128 + 128; omega

/-- The last point's block covers row output 6's whole array. -/
theorem cover3_6_arr (i : S1x128.Idx) :
    ∃ t : Fin cfg3.N, (cfg3.win 6).flush t = true ∧ i ∈ ((cfg3.win 6).blk t).view.set := by
  have hi0 : (i 0).val < 1 := (i 0).isLt
  have hi1 : (i 1).val < 128 := (i 1).isLt
  have hN : cfg3.N = 25 := N_3
  let t : Fin cfg3.N := ⟨24, by rw [hN]; omega⟩
  obtain ⟨-, -, -, -, -, -, -, -, -, -, -, -, e0, e1⟩ := block_indices3 t
  refine ⟨t, (flush3_6 t).mpr rfl, ?_⟩
  show i ∈ ((View.whole main_v45_2).slice (win3_6.rect t)).set
  rw [View.set_slice_whole, Rect.mem_set_unit]
  intro a
  match a with
  | ⟨0, _⟩ => show win3_6.index t (0 : Fin 2) * 1 ≤ (i 0).val ∧ (i 0).val < win3_6.index t (0 : Fin 2) * 1 + 1; omega
  | ⟨1, _⟩ => show win3_6.index t (1 : Fin 2) * 128 ≤ (i 1).val ∧ (i 1).val < win3_6.index t (1 : Fin 2) * 128 + 128; omega

/-- ROW OUTPUT 5's ARRAY after the region: the column sums of the epilogue, from zero. -/
theorem final3_5_arr (c : Dev nD) :
    (dat3 (F := Ideal) V c).arrAt 5 cfg3.N = colSum (convEpilogue (V c main_v43) (V c main_v33_1) (V c main_v11) (V c main_v44)) :=
  (dat3 V c).arrAt_eq_of_cover 5 _ (flushed3_5_eq V c) cover3_5_arr

/-- ROW OUTPUT 6's ARRAY after the region: the column sums of the epilogue's squares, from zero. -/
theorem final3_6_arr (c : Dev nD) :
    (dat3 (F := Ideal) V c).arrAt 6 cfg3.N = colSumSq (convEpilogue (V c main_v43) (V c main_v33_1) (V c main_v11) (V c main_v44)) :=
  (dat3 V c).arrAt_eq_of_cover 6 _ (flushed3_6_eq V c) cover3_6_arr

/-- Entry by entry. -/
theorem final3_5 (c : Dev nD) (j : Fin 128) :
    (dat3 (F := Ideal) V c).arrAt 5 cfg3.N (ix2 (0 : Fin 1) j)
      = 0 + ∑ n : Fin 50000, (convEpilogue (V c main_v43) (V c main_v33_1) (V c main_v11) (V c main_v44)) (ix2 n j) := by
  rw [final3_5_arr V c, colSum_apply]

theorem final3_6 (c : Dev nD) (j : Fin 128) :
    (dat3 (F := Ideal) V c).arrAt 6 cfg3.N (ix2 (0 : Fin 1) j)
      = 0 + ∑ n : Fin 50000, (convEpilogue (V c main_v43) (V c main_v33_1) (V c main_v11) (V c main_v44)) (ix2 n j) * (convEpilogue (V c main_v43) (V c main_v33_1) (V c main_v11) (V c main_v44)) (ix2 n j) := by
  rw [final3_6_arr V c, colSumSq_apply]

end Cert.KernelIdeal.Hand
end
-- ==== Proof.KI.Pay4.lean ====
import proofs.«182147_j31610959298973_2_alg».proof.Proof.Gen.KernelIdeal.Skeleton
import proofs.«182147_j31610959298973_2_alg».proof.Proof.LibColumnCasts
import Idealize.ShloMosaic.Lib.ValueIdx
import Idealize.ShloMosaic.Lib.ValueLayout
import Idealize.ShloMosaic.Lib.Pipeline.Value
import Idealize.ShloMosaic.PureOps.Ideal.Laws

/-! What region 4's kernel body stores or hands on, read at one index: the batch-normalised, rectified block
plus the residual; its product with the weight block; the row scale; and the stored product of the last two. -/

noncomputable section

namespace Cert.KernelIdeal.Pay

open Cert.KernelIdeal Cert.KernelIdeal.Gen
open Idealize.ShloMosaic Idealize.ShloMosaic.ValueIdx
open scoped BigOperators

/-- Left operand index of the product at output `(r, j)` and contraction position `q`: row `r` … -/
theorem k4_mm_lhs0 (r : Fin 2000) (j : Fin 32) (q : dot_S2000x128_S128x32_S2000x32_1_0_0_1_n_n.contr.Idx) :
    (dot_S2000x128_S128x32_S2000x32_1_0_0_1_n_n.lhsIdx (ix2 r j) q 0).val = r.val := by
  unfold DotDims.lhsIdx
  rw [dif_neg (show ¬(0 : Fin S2000x128.rank) ∈ dot_S2000x128_S128x32_S2000x32_1_0_0_1_n_n.lhsBatch by decide), dif_pos (show (0 : Fin S2000x128.rank) ∈ dot_S2000x128_S128x32_S2000x32_1_0_0_1_n_n.lhsNonContracting by decide)]
  rfl
/-- … right operand index: column `j`. -/
theorem k4_mm_rhs1 (r : Fin 2000) (j : Fin 32) (q : dot_S2000x128_S128x32_S2000x32_1_0_0_1_n_n.contr.Idx) :
    (dot_S2000x128_S128x32_S2000x32_1_0_0_1_n_n.rhsIdx (ix2 r j) q 1).val = j.val := by
  unfold DotDims.rhsIdx
  rw [dif_neg (show ¬(1 : Fin S128x32.rank) ∈ dot_S2000x128_S128x32_S2000x32_1_0_0_1_n_n.rhsBatch by decide), dif_pos (show (1 : Fin S128x32.rank) ∈ dot_S2000x128_S128x32_S2000x32_1_0_0_1_n_n.rhsNonContracting by decide)]
  rfl

/-- The matrix product into the zero accumulator, read at row `r` and column `j`: the sum over the 128
contraction positions of the operands' products. -/
theorem k4_mm_apply {φ₁ φ₂ : FTy} (a : FVec Ideal S2000x128 φ₁) (b : FVec Ideal S128x32 φ₂) (r : Fin 2000) (j : Fin 32) :
    matmul (F := Ideal) dot_S2000x128_S128x32_S2000x32_1_0_0_1_n_n none a b (constant (F := Ideal) S2000x32 .f32 0x00000000#32) (ix2 r j)
      = ∑ k : Fin 128, a (ix2 r k) * b (ix2 k j) := by
  simp only [matmul]
  rw [Ideal.matmul_constant_zero_apply, ← Equiv.sum_comp (contrEquiv1 dot_S2000x128_S128x32_S2000x32_1_0_0_1_n_n 128 rfl rfl).symm]
  refine Finset.sum_congr rfl fun k _ => ?_
  have hk := contrEquiv1_symm_val dot_S2000x128_S128x32_S2000x32_1_0_0_1_n_n 128 rfl rfl k
  have el : dot_S2000x128_S128x32_S2000x32_1_0_0_1_n_n.lhsIdx (ix2 r j) ((contrEquiv1 dot_S2000x128_S128x32_S2000x32_1_0_0_1_n_n 128 rfl rfl).symm k) = ix2 r k := funext fun ax => Fin.ext (by
    match ax with
    | ⟨0, _⟩ => exact k4_mm_lhs0 r j _
    | ⟨1, _⟩ => exact (dot_S2000x128_S128x32_S2000x32_1_0_0_1_n_n.lhsIdx_val_of_single rfl _ _).trans hk)
  have er : dot_S2000x128_S128x32_S2000x32_1_0_0_1_n_n.rhsIdx (ix2 r j) ((contrEquiv1 dot_S2000x128_S128x32_S2000x32_1_0_0_1_n_n 128 rfl rfl).symm k) = ix2 k j := funext fun ax => Fin.ext (by
    match ax with
    | ⟨0, _⟩ => exact (dot_S2000x128_S128x32_S2000x32_1_0_0_1_n_n.rhsIdx_val_of_single rfl _ _).trans hk
    | ⟨1, _⟩ => exact k4_mm_rhs1 r j _)
  rw [el, er]

/-- The stored product at row `r`, column `j`: the first operand's entry times the row's entry of the column. -/
theorem k4_pay1_apply (v34 : FVec Ideal S2000x32 .f32) (v36 : FVec Ideal S2000x1 .f32) (r : Fin 2000) (j : Fin 32) :
    k4_pay1 (F := Ideal) v34 v36 (ix2 r j) = v34 (ix2 r j) * v36 (ix2 r (0 : Fin 1)) := by
  unfold k4_pay1
  rw [mulf_apply, Cert.LibColumnCasts.broadcastTo_a1_ab_apply]

/-- The normalised, rectified block plus the residual at row `r`, column `j`: the entry minus the column's
first statistic, times the reciprocal square root of the column's second statistic plus the small constant,
times the column's gain, plus the column's shift; the maximum of that and zero; plus the residual's entry. -/
theorem k4_pay2_apply (v0 : Vec Ideal S1x128 .f32) (v4 : Vec Ideal S1x128 .f32) (v11 : Vec Ideal S1x128 .f32)
    (v15 : Vec Ideal S1x128 .f32) (v19 : Vec Ideal S2000x128 .f32) (v27 : Vec Ideal S2000x128 .f32) (r : Fin 2000) (j : Fin 128) :
    k4_pay2 (F := Ideal) v0 v4 v11 v15 v19 v27 (ix2 r j)
      = max ((v19 (ix2 r j) - v0 (ix2 (0 : Fin 1) j)) * Ideal.rsqrt (v4 (ix2 (0 : Fin 1) j) + Ideal.ofBits .f32 0x3727C5AC#32)
          * v11 (ix2 (0 : Fin 1) j) + v15 (ix2 (0 : Fin 1) j)) 0 + v27 (ix2 r j) := by
  unfold k4_pay2
  rw [addf_apply, maximumf_apply, addf_apply, mulf_apply, mulf_apply, subf_apply]
  simp only [shapeCast_self]
  rw [broadcastTo_1b_ab_apply, broadcastTo_1b_ab_apply, broadcastTo_1b_ab_apply, broadcastTo_1b_ab_apply]
  show max (_ * Ideal.rsqrt (v4 (ix2 (0 : Fin 1) j) + Ideal.ofBits .f32 0x3727C5AC#32) * _ + _) (Ideal.ofBits .f32 0x00000000#32) + _ = _
  rw [Ideal.ofBits_zero_f32]

/-- The second matrix product at row `r`, column `j`: the row of the block just stored times the column of the
weight block, summed over the 128 contraction positions. -/
theorem k4_pay3_apply (v0 : Vec Ideal S1x128 .f32) (v4 : Vec Ideal S1x128 .f32) (v11 : Vec Ideal S1x128 .f32)
    (v15 : Vec Ideal S1x128 .f32) (v19 : Vec Ideal S2000x128 .f32) (v27 : Vec Ideal S2000x128 .f32) (v32 : Vec Ideal S128x32 .f32)
    (r : Fin 2000) (j : Fin 32) :
    k4_pay3 (F := Ideal) v0 v4 v11 v15 v19 v27 v32 (ix2 r j)
      = ∑ k : Fin 128, k4_pay2 (F := Ideal) v0 v4 v11 v15 v19 v27 (ix2 r k) * v32 (ix2 k j) := by
  unfold k4_pay3
  rw [k4_mm_apply]
  simp only [truncf_apply]

/-- The row scale as loaded: the column block itself. -/
theorem k4_pay4_apply (v35 : Vec Ideal S2000x1 .f32) (r : Fin 2000) (u : Fin 1) :
    k4_pay4 (F := Ideal) v35 (ix2 r u) = v35 (ix2 r u) := by
  unfold k4_pay4
  rw [shapeCast_self]

end Cert.KernelIdeal.Pay

end
-- ==== Proof.KI.Val4.lean ====
import proofs.«182147_j31610959298973_2_alg».proof.Proof.KI.R4
import proofs.«182147_j31610959298973_2_alg».proof.Proof.KI.Pay4
import proofs.«182147_j31610959298973_2_alg».proof.Proof.KI.ValDefs
import Idealize.ShloMosaic.Lib.Pipeline.Value
import Idealize.ShloMosaic.Lib.ValueIdx
import Idealize.ShloMosaic.Lib.Tactic

/-! Region 4, from blocks to the arrays: the two output arrays after the region, each as one function of the arrays
the region finds — the batch-normalised, rectified rows plus the residual; and those rows times the weight
matrix of 32 columns, each row scaled by its entry of the column of scale factors — entry by entry. Each point
writes back its blocks of those functions; the blocks tile the rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- Window 0 sits at block row `t`, column block 0, at every point. -/
theorem block_index4_0 : ∀ t : Fin cfg4.N, win4_0.index t (0 : Fin 2) = t.val ∧ win4_0.index t (1 : Fin 2) = 0 :=
  (by decide +kernel : ∀ t : Fin grid4.N, _)

/-- Window 0's block at point `t` is rows 2000 t … 2000 t + 1999 of the rows to normalise. -/
theorem iblk4_0_apply (c : Dev nD) (t : Fin cfg4.N) (r : Fin 2000) (k : Fin 128) (n : Fin 50000)
    (hn : n.val = t.val * 2000 + r.val) :
    (iblk4 V c 0 t : Vec Ideal S2000x128 .f32) (ix2 r k) = (V c main_v45_0 : S50000x128.Idx → EReal) (ix2 n k) := by
  obtain ⟨e0, e1⟩ := block_index4_0 t
  unfold iblk4
  rw [View.read_apply]
  show V c main_v45_0 _ = V c main_v45_0 _
  congr 1
  funext a
  apply Fin.ext
  match a with
  | ⟨0, _⟩ => show win4_0.index t (0 : Fin 2) * 2000 + 1 * r.val = n.val; omega
  | ⟨1, _⟩ => show win4_0.index t (1 : Fin 2) * 128 + 1 * k.val = k.val; omega

/-- Window 1 sits at block row `t`, column block 0, at every point. -/
theorem block_index4_1 : ∀ t : Fin cfg4.N, win4_1.index t (0 : Fin 2) = t.val ∧ win4_1.index t (1 : Fin 2) = 0 :=
  (by decide +kernel : ∀ t : Fin grid4.N, _)

/-- Window 1's block at point `t` is rows 2000 t … 2000 t + 1999 of the residual rows. -/
theorem iblk4_1_apply (c : Dev nD) (t : Fin cfg4.N) (r : Fin 2000) (k : Fin 128) (n : Fin 50000)
    (hn : n.val = t.val * 2000 + r.val) :
    (iblk4 V c 1 t : Vec Ideal S2000x128 .f32) (ix2 r k) = (V c main_v33_0 : S50000x128.Idx → EReal) (ix2 n k) := by
  obtain ⟨e0, e1⟩ := block_index4_1 t
  unfold iblk4
  rw [View.read_apply]
  show V c main_v33_0 _ = V c main_v33_0 _
  congr 1
  funext a
  apply Fin.ext
  match a with
  | ⟨0, _⟩ => show win4_1.index t (0 : Fin 2) * 2000 + 1 * r.val = n.val; omega
  | ⟨1, _⟩ => show win4_1.index t (1 : Fin 2) * 128 + 1 * k.val = k.val; omega

/-- Window 2's one block is block (0, 0), at every point. -/
theorem block_index4_2 : ∀ t : Fin cfg4.N, win4_2.index t (0 : Fin 2) = 0 ∧ win4_2.index t (1 : Fin 2) = 0 :=
  (by decide +kernel : ∀ t : Fin grid4.N, _)

/-- Window 2's one block is the whole of the row of column means. -/
theorem iblk4_2_apply (c : Dev nD) (t : Fin cfg4.N) (a : Fin 1) (b : Fin 128) :
    (iblk4 V c 2 t : Vec Ideal S1x128 .f32) (ix2 a b) = (V c main_v47 : S1x128.Idx → EReal) (ix2 a b) := by
  obtain ⟨e0, e1⟩ := block_index4_2 t
  unfold iblk4
  rw [View.read_apply]
  show V c main_v47 _ = V c main_v47 _
  congr 1
  funext ax
  apply Fin.ext
  match ax with
  | ⟨0, _⟩ => show win4_2.index t (0 : Fin 2) * 1 + 1 * a.val = a.val; omega
  | ⟨1, _⟩ => show win4_2.index t (1 : Fin 2) * 128 + 1 * b.val = b.val; omega

/-- Window 3's one block is block (0, 0), at every point. -/
theorem block_index4_3 : ∀ t : Fin cfg4.N, win4_3.index t (0 : Fin 2) = 0 ∧ win4_3.index t (1 : Fin 2) = 0 :=
  (by decide +kernel : ∀ t : Fin grid4.N, _)

/-- Window 3's one block is the whole of the row of column variances. -/
theorem iblk4_3_apply (c : Dev nD) (t : Fin cfg4.N) (a : Fin 1) (b : Fin 128) :
    (iblk4 V c 3 t : Vec Ideal S1x128 .f32) (ix2 a b) = (V c main_v51 : S1x128.Idx → EReal) (ix2 a b) := by
  obtain ⟨e0, e1⟩ := block_index4_3 t
  unfold iblk4
  rw [View.read_apply]
  show V c main_v51 _ = V c main_v51 _
  congr 1
  funext ax
  apply Fin.ext
  match ax with
  | ⟨0, _⟩ => show win4_3.index t (0 : Fin 2) * 1 + 1 * a.val = a.val; omega
  | ⟨1, _⟩ => show win4_3.index t (1 : Fin 2) * 128 + 1 * b.val = b.val; omega

/-- Window 4's one block is block (0, 0), at every point. -/
theorem block_index4_4 : ∀ t : Fin cfg4.N, win4_4.index t (0 : Fin 2) = 0 ∧ win4_4.index t (1 : Fin 2) = 0 :=
  (by decide +kernel : ∀ t : Fin grid4.N, _)

/-- Window 4's one block is the whole of the row of gains. -/
theorem iblk4_4_apply (c : Dev nD) (t : Fin cfg4.N) (a : Fin 1) (b : Fin 128) :
    (iblk4 V c 4 t : Vec Ideal S1x128 .f32) (ix2 a b) = (V c main_v52 : S1x128.Idx → EReal) (ix2 a b) := by
  obtain ⟨e0, e1⟩ := block_index4_4 t
  unfold iblk4
  rw [View.read_apply]
  show V c main_v52 _ = V c main_v52 _
  congr 1
  funext ax
  apply Fin.ext
  match ax with
  | ⟨0, _⟩ => show win4_4.index t (0 : Fin 2) * 1 + 1 * a.val = a.val; omega
  | ⟨1, _⟩ => show win4_4.index t (1 : Fin 2) * 128 + 1 * b.val = b.val; omega

/-- Window 5's one block is block (0, 0), at every point. -/
theorem block_index4_5 : ∀ t : Fin cfg4.N, win4_5.index t (0 : Fin 2) = 0 ∧ win4_5.index t (1 : Fin 2) = 0 :=
  (by decide +kernel : ∀ t : Fin grid4.N, _)

/-- Window 5's one block is the whole of the row of shifts. -/
theorem iblk4_5_apply (c : Dev nD) (t : Fin cfg4.N) (a : Fin 1) (b : Fin 128) :
    (iblk4 V c 5 t : Vec Ideal S1x128 .f32) (ix2 a b) = (V c main_v53 : S1x128.Idx → EReal) (ix2 a b) := by
  obtain ⟨e0, e1⟩ := block_index4_5 t
  unfold iblk4
  rw [View.read_apply]
  show V c main_v53 _ = V c main_v53 _
  congr 1
  funext ax
  apply Fin.ext
  match ax with
  | ⟨0, _⟩ => show win4_5.index t (0 : Fin 2) * 1 + 1 * a.val = a.val; omega
  | ⟨1, _⟩ => show win4_5.index t (1 : Fin 2) * 128 + 1 * b.val = b.val; omega

/-- Window 6's one block is block (0, 0), at every point. -/
theorem block_index4_6 : ∀ t : Fin cfg4.N, win4_6.index t (0 : Fin 2) = 0 ∧ win4_6.index t (1 : Fin 2) = 0 :=
  (by decide +kernel : ∀ t : Fin grid4.N, _)

/-- Window 6's one block is the whole of the weight matrix. -/
theorem iblk4_6_apply (c : Dev nD) (t : Fin cfg4.N) (a : Fin 128) (b : Fin 32) :
    (iblk4 V c 6 t : Vec Ideal S128x32 .f32) (ix2 a b) = (V c main_arg10 : S128x32.Idx → EReal) (ix2 a b) := by
  obtain ⟨e0, e1⟩ := block_index4_6 t
  unfold iblk4
  rw [View.read_apply]
  show V c main_arg10 _ = V c main_arg10 _
  congr 1
  funext ax
  apply Fin.ext
  match ax with
  | ⟨0, _⟩ => show win4_6.index t (0 : Fin 2) * 128 + 1 * a.val = a.val; omega
  | ⟨1, _⟩ => show win4_6.index t (1 : Fin 2) * 32 + 1 * b.val = b.val; omega

/-- Window 7 sits at block row `t`, column block 0, at every point. -/
theorem block_index4_7 : ∀ t : Fin cfg4.N, win4_7.index t (0 : Fin 2) = t.val ∧ win4_7.index t (1 : Fin 2) = 0 :=
  (by decide +kernel : ∀ t : Fin grid4.N, _)

/-- Window 7's block at point `t` is rows 2000 t … 2000 t + 1999 of the column of scale factors. -/
theorem iblk4_7_apply (c : Dev nD) (t : Fin cfg4.N) (r : Fin 2000) (k : Fin 1) (n : Fin 50000)
    (hn : n.val = t.val * 2000 + r.val) :
    (iblk4 V c 7 t : Vec Ideal S2000x1 .f32) (ix2 r k) = (V c main_v11 : S50000x1.Idx → EReal) (ix2 n k) := by
  obtain ⟨e0, e1⟩ := block_index4_7 t
  unfold iblk4
  rw [View.read_apply]
  show V c main_v11 _ = V c main_v11 _
  congr 1
  funext a
  apply Fin.ext
  match a with
  | ⟨0, _⟩ => show win4_7.index t (0 : Fin 2) * 2000 + 1 * r.val = n.val; omega
  | ⟨1, _⟩ => show win4_7.index t (1 : Fin 2) * 1 + 1 * k.val = k.val; omega

/-- Window 8 sits at block row `t`, column block 0, at every point. -/
theorem block_index4_8 : ∀ t : Fin cfg4.N, win4_8.index t (0 : Fin 2) = t.val ∧ win4_8.index t (1 : Fin 2) = 0 :=
  (by decide +kernel : ∀ t : Fin grid4.N, _)

/-- Where an element of output window 8's block at point `t` sits in the array. -/
theorem emb4_8 (t : Fin cfg4.N) (r : Fin 2000) (j : Fin 128) (n : Fin 50000) (hn : n.val = t.val * 2000 + r.val) :
    ((cfg4.win 8).blk t).view.emb (ix2 r j) = (ix2 n j : S50000x128.Idx) := by
  obtain ⟨e0, e1⟩ := block_index4_8 t
  funext a
  apply Fin.ext
  match a with
  | ⟨0, _⟩ => show win4_8.index t (0 : Fin 2) * 2000 + 1 * r.val = n.val; omega
  | ⟨1, _⟩ => show win4_8.index t (1 : Fin 2) * 128 + 1 * j.val = j.val; omega

/-- An index of the array is in point `t`'s block of window 8 iff each coordinate is in the block's range on its axis. -/
theorem mem_blk4_8 (t : Fin cfg4.N) (i : S50000x128.Idx) :
    i ∈ ((cfg4.win 8).blk t).view.set ↔ ∀ a : Fin 2, win4_8.index t a * S2000x128.size a ≤ (i a).val ∧ (i a).val < win4_8.index t a * S2000x128.size a + S2000x128.size a := by
  show i ∈ ((View.whole main_v54_0).slice (win4_8.rect t)).set ↔ _
  rw [View.set_slice_whole, Rect.mem_set_unit]
  exact Iff.rfl

/-- Every row is in some point's block of window 8: row n in the block of point n / 2000. -/
theorem cover4_8_arr (i : S50000x128.Idx) :
    ∃ t : Fin cfg4.N, (cfg4.win 8).flush t = true ∧ i ∈ ((cfg4.win 8).blk t).view.set := by
  have hi0 : (i 0).val < 50000 := (i 0).isLt
  have hi1 : (i 1).val < 128 := (i 1).isLt
  have hN : cfg4.N = 25 := N_4
  let t : Fin cfg4.N := ⟨(i 0).val / 2000, by rw [hN]; omega⟩
  obtain ⟨e0, e1⟩ := block_index4_8 t
  have e0' : win4_8.index t (0 : Fin 2) = (i 0).val / 2000 := e0
  refine ⟨t, flush4_8 t, ?_⟩
  rw [mem_blk4_8]
  intro a
  match a with
  | ⟨0, _⟩ => show win4_8.index t (0 : Fin 2) * 2000 ≤ (i 0).val ∧ (i 0).val < win4_8.index t (0 : Fin 2) * 2000 + 2000; omega
  | ⟨1, _⟩ => show win4_8.index t (1 : Fin 2) * 128 ≤ (i 1).val ∧ (i 1).val < win4_8.index t (1 : Fin 2) * 128 + 128; omega

/-- Window 9 sits at block row `t`, column block 0, at every point. -/
theorem block_index4_9 : ∀ t : Fin cfg4.N, win4_9.index t (0 : Fin 2) = t.val ∧ win4_9.index t (1 : Fin 2) = 0 :=
  (by decide +kernel : ∀ t : Fin grid4.N, _)

/-- Where an element of output window 9's block at point `t` sits in the array. -/
theorem emb4_9 (t : Fin cfg4.N) (r : Fin 2000) (j : Fin 32) (n : Fin 50000) (hn : n.val = t.val * 2000 + r.val) :
    ((cfg4.win 9).blk t).view.emb (ix2 r j) = (ix2 n j : S50000x32.Idx) := by
  obtain ⟨e0, e1⟩ := block_index4_9 t
  funext a
  apply Fin.ext
  match a with
  | ⟨0, _⟩ => show win4_9.index t (0 : Fin 2) * 2000 + 1 * r.val = n.val; omega
  | ⟨1, _⟩ => show win4_9.index t (1 : Fin 2) * 32 + 1 * j.val = j.val; omega

/-- An index of the array is in point `t`'s block of window 9 iff each coordinate is in the block's range on its axis. -/
theorem mem_blk4_9 (t : Fin cfg4.N) (i : S50000x32.Idx) :
    i ∈ ((cfg4.win 9).blk t).view.set ↔ ∀ a : Fin 2, win4_9.index t a * S2000x32.size a ≤ (i a).val ∧ (i a).val < win4_9.index t a * S2000x32.size a + S2000x32.size a := by
  show i ∈ ((View.whole main_v54_1).slice (win4_9.rect t)).set ↔ _
  rw [View.set_slice_whole, Rect.mem_set_unit]
  exact Iff.rfl

/-- Every row is in some point's block of window 9: row n in the block of point n / 2000. -/
theorem cover4_9_arr (i : S50000x32.Idx) :
    ∃ t : Fin cfg4.N, (cfg4.win 9).flush t = true ∧ i ∈ ((cfg4.win 9).blk t).view.set := by
  have hi0 : (i 0).val < 50000 := (i 0).isLt
  have hi1 : (i 1).val < 32 := (i 1).isLt
  have hN : cfg4.N = 25 := N_4
  let t : Fin cfg4.N := ⟨(i 0).val / 2000, by rw [hN]; omega⟩
  obtain ⟨e0, e1⟩ := block_index4_9 t
  have e0' : win4_9.index t (0 : Fin 2) = (i 0).val / 2000 := e0
  refine ⟨t, flush4_9 t, ?_⟩
  rw [mem_blk4_9]
  intro a
  match a with
  | ⟨0, _⟩ => show win4_9.index t (0 : Fin 2) * 2000 ≤ (i 0).val ∧ (i 0).val < win4_9.index t (0 : Fin 2) * 2000 + 2000; omega
  | ⟨1, _⟩ => show win4_9.index t (1 : Fin 2) * 32 ≤ (i 1).val ∧ (i 1).val < win4_9.index t (1 : Fin 2) * 32 + 32; omega

/-- The body's normalised, rectified block plus residual at row `r`, column `k` of point `t` is the whole-array
    function at row 2000 t + r. -/
theorem pay2_block4 (c : Dev nD) (t : Fin cfg4.N) (r : Fin 2000) (k : Fin 128) (n : Fin 50000)
    (hn : n.val = t.val * 2000 + r.val) :
    k4_pay2 (F := Ideal) (iblk4 V c 2 t) (iblk4 V c 3 t) (iblk4 V c 4 t) (iblk4 V c 5 t) (iblk4 V c 0 t) (iblk4 V c 1 t) (ix2 r k)
      = bnReluRes (V c main_v45_0) (V c main_v33_0) (V c main_v47) (V c main_v51) (V c main_v52) (V c main_v53) (ix2 n k) := by
  rw [Pay.k4_pay2_apply, bnReluRes_apply, iblk4_0_apply V c t r k n hn, iblk4_1_apply V c t r k n hn,
    iblk4_2_apply V c t 0 k, iblk4_3_apply V c t 0 k, iblk4_4_apply V c t 0 k, iblk4_5_apply V c t 0 k]

/-- WHAT POINT `t` WRITES BACK through window 8 is block `t` of the normalised, rectified rows plus the residual. -/
theorem flushed4_8_eq (c : Dev nD) (t : Fin cfg4.N) :
    (dat4 V c).flushed 8 t = ((cfg4.win 8).blk t).view.read (Elt Ideal)
      (bnReluRes (V c main_v45_0) (V c main_v33_0) (V c main_v47) (V c main_v51) (V c main_v52) (V c main_v53)) := by
  show (cfg4.win 8).cut (grid4.coords t) ((dat4 V c).after 8 t) = _
  rw [after4_8]
  unfold out4_8
  rw [View.canon_unit_zero zero_offsets]
  simp only [View.ld_unit_zero (S := S2000x128) zero_offsets, View.ld_unit_zero (S := S1x128) zero_offsets]
  funext y
  obtain ⟨r, j, rfl⟩ : ∃ (r : Fin 2000) (j : Fin 128), y = ix2 r j := ⟨y 0, y 1, eq_ix2 y⟩
  have hN : cfg4.N = 25 := N_4
  have ht : t.val < 25 := by have := t.isLt; omega
  have hr : r.val < 2000 := r.isLt
  obtain ⟨n, hn⟩ : ∃ n : Fin 50000, n.val = t.val * 2000 + r.val := ⟨⟨t.val * 2000 + r.val, by omega⟩, rfl⟩
  show k4_pay2 (F := Ideal) (iblk4 V c 2 t) (iblk4 V c 3 t) (iblk4 V c 4 t) (iblk4 V c 5 t) (iblk4 V c 0 t) (iblk4 V c 1 t) (ix2 r j)
    = bnReluRes (V c main_v45_0) (V c main_v33_0) (V c main_v47) (V c main_v51) (V c main_v52) (V c main_v53) (((cfg4.win 8).blk t).view.emb (ix2 r j))
  rw [emb4_8 t r j n hn]
  exact pay2_block4 V c t r j n hn

/-- WHAT POINT `t` WRITES BACK through window 9 is block `t` of those rows times the weight matrix, scaled row by row. -/
theorem flushed4_9_eq (c : Dev nD) (t : Fin cfg4.N) :
    (dat4 V c).flushed 9 t = ((cfg4.win 9).blk t).view.read (Elt Ideal)
      (scaledProduct32 (bnReluRes (V c main_v45_0) (V c main_v33_0) (V c main_v47) (V c main_v51) (V c main_v52) (V c main_v53))
        (V c main_arg10) (V c main_v11)) := by
  show (cfg4.win 9).cut (grid4.coords t) ((dat4 V c).after 9 t) = _
  rw [after4_9]
  unfold out4_9
  rw [View.canon_unit_zero zero_offsets]
  simp only [View.ld_unit_zero (S := S2000x128) zero_offsets, View.ld_unit_zero (S := S1x128) zero_offsets,
    View.ld_unit_zero (S := S128x32) zero_offsets, View.ld_unit_zero (S := S2000x1) zero_offsets]
  funext y
  obtain ⟨r, j, rfl⟩ : ∃ (r : Fin 2000) (j : Fin 32), y = ix2 r j := ⟨y 0, y 1, eq_ix2 y⟩
  have hN : cfg4.N = 25 := N_4
  have ht : t.val < 25 := by have := t.isLt; omega
  have hr : r.val < 2000 := r.isLt
  obtain ⟨n, hn⟩ : ∃ n : Fin 50000, n.val = t.val * 2000 + r.val := ⟨⟨t.val * 2000 + r.val, by omega⟩, rfl⟩
  show k4_pay1 (F := Ideal) (k4_pay3 (F := Ideal) (iblk4 V c 2 t) (iblk4 V c 3 t) (iblk4 V c 4 t) (iblk4 V c 5 t) (iblk4 V c 0 t) (iblk4 V c 1 t) (iblk4 V c 6 t))
      (k4_pay4 (F := Ideal) (iblk4 V c 7 t)) (ix2 r j)
    = scaledProduct32 (bnReluRes (V c main_v45_0) (V c main_v33_0) (V c main_v47) (V c main_v51) (V c main_v52) (V c main_v53))
        (V c main_arg10) (V c main_v11) (((cfg4.win 9).blk t).view.emb (ix2 r j))
  rw [emb4_9 t r j n hn, scaledProduct32_apply, Pay.k4_pay1_apply, Pay.k4_pay3_apply, Pay.k4_pay4_apply, iblk4_7_apply V c t r 0 n hn]
  refine congrArg (· * _) (Finset.sum_congr rfl fun k _ => ?_)
  rw [pay2_block4 V c t r k n hn, iblk4_6_apply V c t k j]

/-- THE ARRAY of window 8 after the region: the normalised, rectified rows plus the residual. -/
theorem final4_8_arr (c : Dev nD) :
    (dat4 V c).arrAt 8 cfg4.N = bnReluRes (V c main_v45_0) (V c main_v33_0) (V c main_v47) (V c main_v51) (V c main_v52) (V c main_v53) :=
  (dat4 V c).arrAt_eq_of_cover 8 _ (fun t _ => flushed4_8_eq V c t) cover4_8_arr

/-- THE ARRAY of window 9 after the region: those rows times the weight matrix, scaled row by row. -/
theorem final4_9_arr (c : Dev nD) :
    (dat4 V c).arrAt 9 cfg4.N = scaledProduct32 (bnReluRes (V c main_v45_0) (V c main_v33_0) (V c main_v47) (V c main_v51) (V c main_v52) (V c main_v53))
      (V c main_arg10) (V c main_v11) :=
  (dat4 V c).arrAt_eq_of_cover 9 _ (fun t _ => flushed4_9_eq V c t) cover4_9_arr

/-- Entry by entry. -/
theorem final4_8 (c : Dev nD) (n : Fin 50000) (j : Fin 128) :
    (dat4 (F := Ideal) V c).arrAt 8 cfg4.N (ix2 n j)
      = bnReluRes (V c main_v45_0) (V c main_v33_0) (V c main_v47) (V c main_v51) (V c main_v52) (V c main_v53) (ix2 n j) := by
  rw [final4_8_arr V c]

theorem final4_9 (c : Dev nD) (n : Fin 50000) (j : Fin 32) :
    (dat4 (F := Ideal) V c).arrAt 9 cfg4.N (ix2 n j)
      = scaledProduct32 (bnReluRes (V c main_v45_0) (V c main_v33_0) (V c main_v47) (V c main_v51) (V c main_v52) (V c main_v53))
          (V c main_arg10) (V c main_v11) (ix2 n j) := by
  rw [final4_9_arr V c]

end Cert.KernelIdeal.Hand

end
-- ==== Proof.KI.Pay5.lean ====
import proofs.«182147_j31610959298973_2_alg».proof.Proof.Gen.KernelIdeal.Skeleton
import proofs.«182147_j31610959298973_2_alg».proof.Proof.LibColumnCasts
import Idealize.ShloMosaic.Lib.ValueIdx
import Idealize.ShloMosaic.Lib.ValueLayout
import Idealize.ShloMosaic.Lib.Pipeline.Value
import Idealize.ShloMosaic.PureOps.Ideal.Laws

/-! What region 5's kernel body stores, read at one index: the last convolution's epilogue `dis * (agg + hs) + b`
followed by the row-wise log-softmax — each entry minus its row's maximum, minus the logarithm of the row's sum
of exponentials of those differences. -/

noncomputable section

namespace Cert.KernelIdeal.Pay

open Cert.KernelIdeal Cert.KernelIdeal.Gen
open Idealize.ShloMosaic Idealize.ShloMosaic.ValueIdx
open scoped BigOperators

/-- The maximum along a row of 32 from the accumulator's value, read at row `r`: the fold of `max` over the
row's entries. -/
theorem k5_rowmax_apply (src : FVec Ideal S2000x32 .f32) (hacc : (0xFF800000#32 : BitVec 32) = 0xFF800000#32) (r : Fin 2000) :
    multiReduction (F := Ideal) .maximumf [1] S2000 src 0xFF800000#32 reduces_S2000x32_S2000 (.inl rfl) hacc (ix1 r)
      = (Finset.univ : Finset (Fin 32)).fold max (Ideal.ofBits .f32 0xFF800000#32) (fun c => src (ix2 r c)) := by
  refine (Ideal.multiReduction_maximumf_single src 0xFF800000#32 reduces_S2000x32_S2000 (.inl rfl) hacc (ix1 r)).trans ?_
  refine congrArg (fun f => Finset.fold max (Ideal.ofBits .f32 0xFF800000#32) f (Finset.univ : Finset (Fin 32))) (funext fun c => ?_)
  exact congrArg src (funext fun ax => Fin.ext (by
    match ax with
    | ⟨0, _⟩ => rfl
    | ⟨1, _⟩ => rfl))

/-- The sum along a row of 32 into the zero accumulator, read at row `r`. -/
theorem k5_rowsum_apply (src : FVec Ideal S2000x32 .f32) (hacc : (0x00000000#32 : BitVec 32) = 0x00000000#32) (r : Fin 2000) :
    multiReduction (F := Ideal) .add [1] S2000 src 0x00000000#32 reduces_S2000x32_S2000 (.inl rfl) hacc (ix1 r)
      = ∑ c : Fin 32, src (ix2 r c) := by
  refine (Ideal.multiReduction_add_single src 0x00000000#32 reduces_S2000x32_S2000 (.inl rfl) hacc (ix1 r)).trans ?_
  exact Finset.sum_congr rfl fun k _ => congrArg src (funext fun ax => Fin.ext (by
    match ax with
    | ⟨0, _⟩ => rfl
    | ⟨1, _⟩ => rfl))

/-- The exponential of a vector at an index is the exponential of the entry … -/
theorem k5_exp_at {s : Shape} (x : FVec Ideal s .f32) (i : s.Idx) : exp x i = Ideal.exp (x i) := rfl
/-- … and the logarithm the logarithm of the entry. -/
theorem k5_log_at {s : Shape} (x : FVec Ideal s .f32) (i : s.Idx) : log x i = Ideal.log (x i) := rfl

/-- The convolution's epilogue at row `r`, column `c`: the row's scale times the sum of the two blocks' entries,
plus the bias row's entry. -/
def k5_lin (v0 : Vec Ideal S1x32 .f32) (v4 : Vec Ideal S2000x1 .f32) (v6 : Vec Ideal S2000x32 .f32) (v8 : Vec Ideal S2000x32 .f32)
    (r : Fin 2000) (c : Fin 32) : EReal :=
  v4 (ix2 r (0 : Fin 1)) * (v6 (ix2 r c) + v8 (ix2 r c)) + v0 (ix2 (0 : Fin 1) c)

/-- Row `r`'s maximum of the epilogue, folded from the accumulator's value. -/
def k5_rowMax (v0 : Vec Ideal S1x32 .f32) (v4 : Vec Ideal S2000x1 .f32) (v6 : Vec Ideal S2000x32 .f32) (v8 : Vec Ideal S2000x32 .f32)
    (r : Fin 2000) : EReal :=
  (Finset.univ : Finset (Fin 32)).fold max (Ideal.ofBits .f32 0xFF800000#32) (fun c => k5_lin v0 v4 v6 v8 r c)

/-- The stored log-softmax at row `r`, column `j`: the epilogue's entry minus the row's maximum, minus the
logarithm of the row's sum of the exponentials of those differences. -/
theorem k5_pay1_apply (v0 : Vec Ideal S1x32 .f32) (v4 : Vec Ideal S2000x1 .f32) (v6 : Vec Ideal S2000x32 .f32)
    (v8 : Vec Ideal S2000x32 .f32) (r : Fin 2000) (j : Fin 32) :
    k5_pay1 (F := Ideal) v0 v4 v6 v8 (ix2 r j)
      = (k5_lin v0 v4 v6 v8 r j - k5_rowMax v0 v4 v6 v8 r)
          - Ideal.log (∑ c : Fin 32, Ideal.exp (k5_lin v0 v4 v6 v8 r c - k5_rowMax v0 v4 v6 v8 r)) := by
  unfold k5_pay1
  simp only [subf_apply, addf_apply, mulf_apply, shapeCast_self, k5_exp_at, k5_log_at,
    Cert.LibColumnCasts.broadcastTo_a1_ab_apply, broadcastTo_1b_ab_apply, Cert.LibColumnCasts.shapeCast_a_a1_apply]
  rw [k5_rowsum_apply]
  simp only [subf_apply, addf_apply, mulf_apply, shapeCast_self, k5_exp_at, k5_log_at,
    Cert.LibColumnCasts.broadcastTo_a1_ab_apply, broadcastTo_1b_ab_apply, Cert.LibColumnCasts.shapeCast_a_a1_apply]
  rw [k5_rowmax_apply]
  simp only [subf_apply, addf_apply, mulf_apply, shapeCast_self, k5_exp_at, k5_log_at,
    Cert.LibColumnCasts.broadcastTo_a1_ab_apply, broadcastTo_1b_ab_apply, Cert.LibColumnCasts.shapeCast_a_a1_apply, k5_lin, k5_rowMax]

end Cert.KernelIdeal.Pay

end
-- ==== Proof.KI.Val5.lean ====
import proofs.«182147_j31610959298973_2_alg».proof.Proof.KI.R5
import proofs.«182147_j31610959298973_2_alg».proof.Proof.KI.Pay5
import proofs.«182147_j31610959298973_2_alg».proof.Proof.KI.ValDefs
import Idealize.ShloMosaic.Lib.Pipeline.Value
import Idealize.ShloMosaic.Lib.ValueIdx
import Idealize.ShloMosaic.Lib.Tactic

/-! Region 5, from blocks to the array: the output array after the region, as one function of the arrays
the region finds — row by row the log-softmax of the convolution's epilogue dis · (agg + hs) + b — entry by
entry. Each point writes back its block of that function; the blocks tile the rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The body's stored value at row `r`, column `j` is the log-softmax of the row of epilogue entries. -/
theorem k5_pay1_row (v0 : Vec Ideal S1x32 .f32) (v4 : Vec Ideal S2000x1 .f32) (v6 : Vec Ideal S2000x32 .f32)
    (v8 : Vec Ideal S2000x32 .f32) (r : Fin 2000) (j : Fin 32) :
    k5_pay1 (F := Ideal) v0 v4 v6 v8 (ix2 r j) = logSoftmaxRow (fun c => Pay.k5_lin v0 v4 v6 v8 r c) j :=
  Pay.k5_pay1_apply v0 v4 v6 v8 r j

/-- The printed index maps, decided over the grid: the row windows (agg, hs, dis, the output) sit at block row
    `t`, column block 0; the bias row's one block is block (0, 0). -/
theorem block_indices5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Window 0's block at point `t` is rows 2000 t … 2000 t + 1999 of the aggregated features. -/
theorem iblk5_0_apply (c : Dev nD) (t : Fin cfg5.N) (r : Fin 2000) (k : Fin 32) (n : Fin 50000)
    (hn : n.val = t.val * 2000 + r.val) :
    (iblk5 V c 0 t : Vec Ideal S2000x32 .f32) (ix2 r k) = (V c main_v64 : S50000x32.Idx → EReal) (ix2 n k) := by
  obtain ⟨e0, e1, -⟩ := block_indices5 t
  unfold iblk5
  rw [View.read_apply]
  show V c main_v64 _ = V c main_v64 _
  congr 1
  funext a
  apply Fin.ext
  match a with
  | ⟨0, _⟩ => show win5_0.index t (0 : Fin 2) * 2000 + 1 * r.val = n.val; omega
  | ⟨1, _⟩ => show win5_0.index t (1 : Fin 2) * 32 + 1 * k.val = k.val; omega

/-- Window 1's block at point `t` is the same rows of the rows' own features. -/
theorem iblk5_1_apply (c : Dev nD) (t : Fin cfg5.N) (r : Fin 2000) (k : Fin 32) (n : Fin 50000)
    (hn : n.val = t.val * 2000 + r.val) :
    (iblk5 V c 1 t : Vec Ideal S2000x32 .f32) (ix2 r k) = (V c main_v54_1 : S50000x32.Idx → EReal) (ix2 n k) := by
  obtain ⟨-, -, e0, e1, -⟩ := block_indices5 t
  unfold iblk5
  rw [View.read_apply]
  show V c main_v54_1 _ = V c main_v54_1 _
  congr 1
  funext a
  apply Fin.ext
  match a with
  | ⟨0, _⟩ => show win5_1.index t (0 : Fin 2) * 2000 + 1 * r.val = n.val; omega
  | ⟨1, _⟩ => show win5_1.index t (1 : Fin 2) * 32 + 1 * k.val = k.val; omega

/-- Window 2's block at point `t` is the same rows of the column of scale factors. -/
theorem iblk5_2_apply (c : Dev nD) (t : Fin cfg5.N) (r : Fin 2000) (n : Fin 50000)
    (hn : n.val = t.val * 2000 + r.val) :
    (iblk5 V c 2 t : Vec Ideal S2000x1 .f32) (ix2 r (0 : Fin 1)) = (V c main_v11 : S50000x1.Idx → EReal) (ix2 n (0 : Fin 1)) := by
  obtain ⟨-, -, -, -, e0, e1, -⟩ := block_indices5 t
  unfold iblk5
  rw [View.read_apply]
  show V c main_v11 _ = V c main_v11 _
  congr 1
  funext a
  apply Fin.ext
  match a with
  | ⟨0, _⟩ => show win5_2.index t (0 : Fin 2) * 2000 + 1 * r.val = n.val; omega
  | ⟨1, _⟩ => show win5_2.index t (1 : Fin 2) * 1 + 1 * 0 = 0; omega

/-- Window 3's one block is the whole bias row. -/
theorem iblk5_3_apply (c : Dev nD) (t : Fin cfg5.N) (k : Fin 32) :
    (iblk5 V c 3 t : Vec Ideal S1x32 .f32) (ix2 (0 : Fin 1) k) = (V c main_v65 : S1x32.Idx → EReal) (ix2 (0 : Fin 1) k) := by
  obtain ⟨-, -, -, -, -, -, e0, e1, -⟩ := block_indices5 t
  unfold iblk5
  rw [View.read_apply]
  show V c main_v65 _ = V c main_v65 _
  congr 1
  funext a
  apply Fin.ext
  match a with
  | ⟨0, _⟩ => show win5_3.index t (0 : Fin 2) * 1 + 1 * 0 = 0; omega
  | ⟨1, _⟩ => show win5_3.index t (1 : Fin 2) * 32 + 1 * k.val = k.val; omega

/-- Where an element of the output's block at point `t` sits in the array. -/
theorem emb5_4 (t : Fin cfg5.N) (r : Fin 2000) (j : Fin 32) (n : Fin 50000) (hn : n.val = t.val * 2000 + r.val) :
    ((cfg5.win 4).blk t).view.emb (ix2 r j) = (ix2 n j : S50000x32.Idx) := by
  obtain ⟨-, -, -, -, -, -, -, -, e0, e1⟩ := block_indices5 t
  funext a
  apply Fin.ext
  match a with
  | ⟨0, _⟩ => show win5_4.index t (0 : Fin 2) * 2000 + 1 * r.val = n.val; omega
  | ⟨1, _⟩ => show win5_4.index t (1 : Fin 2) * 32 + 1 * j.val = j.val; omega

/-- WHAT POINT `t` WRITES BACK is block `t` of the log-softmax of the epilogue of the arrays as the region finds them. -/
theorem flushed5_4_eq (c : Dev nD) (t : Fin cfg5.N) :
    (dat5 V c).flushed 4 t = ((cfg5.win 4).blk t).view.read (Elt Ideal)
      (logSoftmaxConv (V c main_v11) (V c main_v64) (V c main_v54_1) (V c main_v65)) := by
  show (cfg5.win 4).cut (grid5.coords t) ((dat5 V c).after 4 t) = _
  rw [after5_4]
  unfold out5_4
  rw [View.canon_unit_zero zero_offsets]
  simp only [View.ld_unit_zero (S := S2000x32) zero_offsets, View.ld_unit_zero (S := S1x32) zero_offsets,
    View.ld_unit_zero (S := S2000x1) zero_offsets]
  funext y
  obtain ⟨r, j, rfl⟩ : ∃ (r : Fin 2000) (j : Fin 32), y = ix2 r j := ⟨y 0, y 1, eq_ix2 y⟩
  have hN : cfg5.N = 25 := N_5
  have ht : t.val < 25 := by have := t.isLt; omega
  have hr : r.val < 2000 := r.isLt
  obtain ⟨n, hn⟩ : ∃ n : Fin 50000, n.val = t.val * 2000 + r.val := ⟨⟨t.val * 2000 + r.val, by omega⟩, rfl⟩
  show k5_pay1 (F := Ideal) (iblk5 V c 3 t) (iblk5 V c 2 t) (iblk5 V c 0 t) (iblk5 V c 1 t) (ix2 r j)
    = logSoftmaxConv (V c main_v11) (V c main_v64) (V c main_v54_1) (V c main_v65) (((cfg5.win 4).blk t).view.emb (ix2 r j))
  rw [emb5_4 t r j n hn, logSoftmaxConv_apply, k5_pay1_row]
  refine congrArg (fun row => logSoftmaxRow row j) (funext fun k => ?_)
  unfold Pay.k5_lin convRow
  rw [iblk5_0_apply V c t r k n hn, iblk5_1_apply V c t r k n hn, iblk5_2_apply V c t r n hn, iblk5_3_apply V c t k]

/-- An index of the array is in point `t`'s block iff each coordinate is in the block's range on its axis. -/
theorem mem_blk5_4 (t : Fin cfg5.N) (i : S50000x32.Idx) :
    i ∈ ((cfg5.win 4).blk t).view.set ↔ ∀ a : Fin 2, win5_4.index t a * S2000x32.size a ≤ (i a).val ∧ (i a).val < win5_4.index t a * S2000x32.size a + S2000x32.size a := by
  show i ∈ ((View.whole main_v66).slice (win5_4.rect t)).set ↔ _
  rw [View.set_slice_whole, Rect.mem_set_unit]
  exact Iff.rfl

/-- Every row is in some point's block: row n in the block of point n / 2000. -/
theorem cover5_4_arr (i : S50000x32.Idx) :
    ∃ t : Fin cfg5.N, (cfg5.win 4).flush t = true ∧ i ∈ ((cfg5.win 4).blk t).view.set := by
  have hi0 : (i 0).val < 50000 := (i 0).isLt
  have hi1 : (i 1).val < 32 := (i 1).isLt
  have hN : cfg5.N = 25 := N_5
  let t : Fin cfg5.N := ⟨(i 0).val / 2000, by rw [hN]; omega⟩
  obtain ⟨-, -, -, -, -, -, -, -, e0, e1⟩ := block_indices5 t
  have e0' : win5_4.index t (0 : Fin 2) = (i 0).val / 2000 := e0
  refine ⟨t, flush5_4 t, ?_⟩
  rw [mem_blk5_4]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 32 ≤ (i 1).val ∧ (i 1).val < win5_4.index t (1 : Fin 2) * 32 + 32; omega

/-- THE ARRAY after region 5: row by row the log-softmax of the epilogue of the arrays the region finds. -/
theorem final5_arr (c : Dev nD) :
    (dat5 V c).arrAt 4 cfg5.N = logSoftmaxConv (V c main_v11) (V c main_v64) (V c main_v54_1) (V c main_v65) :=
  (dat5 V c).arrAt_eq_of_cover 4 _ (fun t _ => flushed5_4_eq V c t) cover5_4_arr

/-- Entry by entry. -/
theorem final5 (c : Dev nD) (n : Fin 50000) (j : Fin 32) :
    (dat5 (F := Ideal) V c).arrAt 4 cfg5.N (ix2 n j)
      = logSoftmaxRow (convRow (V c main_v11) (V c main_v64) (V c main_v54_1) (V c main_v65) n) j := by
  rw [final5_arr V c]; rfl

end Cert.KernelIdeal.Hand

end
-- ==== Proof.KI.Stages.lean ====
/-
  The idealized program's result as one composition. Stage by stage, what each buffer that a later stage reads holds
  at the boundary where it is read, as a function of the twelve arguments' launch contents: the scaled product, the
  three convolution epilogues over the neighbourhood sums, the two batch normalisations with their column
  statistics, and the final row-wise log-softmax.
-/
import proofs.«182147_j31610959298973_2_alg».proof.Proof.KI.Run
import proofs.«182147_j31610959298973_2_alg».proof.Proof.KI.Carry
import proofs.«182147_j31610959298973_2_alg».proof.Proof.KI.HostTerms
import proofs.«182147_j31610959298973_2_alg».proof.Proof.KI.StageDefs
import proofs.«182147_j31610959298973_2_alg».proof.Proof.KI.Val0
import proofs.«182147_j31610959298973_2_alg».proof.Proof.KI.Val1
import proofs.«182147_j31610959298973_2_alg».proof.Proof.KI.Val2
import proofs.«182147_j31610959298973_2_alg».proof.Proof.KI.Val3
import proofs.«182147_j31610959298973_2_alg».proof.Proof.KI.Val4
import proofs.«182147_j31610959298973_2_alg».proof.Proof.KI.Val5

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

-- the arguments' launch contents on core `c`
set_option quotPrecheck false in
local notation "A0" => m ((c : Thread nD τ).loc main_arg0)
set_option quotPrecheck false in
local notation "A1" => m ((c : Thread nD τ).loc main_arg1)
set_option quotPrecheck false in
local notation "A2" => m ((c : Thread nD τ).loc main_arg2)
set_option quotPrecheck false in
local notation "A3" => m ((c : Thread nD τ).loc main_arg3)
set_option quotPrecheck false in
local notation "A4" => m ((c : Thread nD τ).loc main_arg4)
set_option quotPrecheck false in
local notation "A5" => m ((c : Thread nD τ).loc main_arg5)
set_option quotPrecheck false in
local notation "A6" => m ((c : Thread nD τ).loc main_arg6)
set_option quotPrecheck false in
local notation "A7" => m ((c : Thread nD τ).loc main_arg7)
set_option quotPrecheck false in
local notation "A8" => m ((c : Thread nD τ).loc main_arg8)
set_option quotPrecheck false in
local notation "A9" => m ((c : Thread nD τ).loc main_arg9)
set_option quotPrecheck false in
local notation "A10" => m ((c : Thread nD τ).loc main_arg10)
set_option quotPrecheck false in
local notation "A11" => m ((c : Thread nD τ).loc main_arg11)

/-! ### Stretch 0: the edge rows and the scale column -/

theorem W1_v1 : W1 m ρ c (Proc.devRef .tc main_v1) = srcK A1 := Host.after0_v1 _
theorem W1_v3 : W1 m ρ c (Proc.devRef .tc main_v3) = dstK A1 := Host.after0_v3 _
theorem W1_v11 : W1 m ρ c (Proc.devRef .tc main_v11) = disK A1 := Host.after0_v11 _

/-! ### Region 0 -/

theorem W2_v12 : W2 m ρ c (Proc.devRef .tc main_v12) = hs0K A0 A1 A2 := by
  have h := (W2_arr m ρ c 3).trans (final0_arr (B1 m ρ) c)
  rw [show B1 m ρ c main_arg0 = A0 from W1_main_arg0 m ρ c, show B1 m ρ c main_arg2 = A2 from W1_main_arg2 m ρ c,
    show B1 m ρ c main_v11 = disK A1 from W1_v11 m ρ c] at h
  unfold hs0K
  exact h

/-! ### Stretch 1 -/

theorem W3_v22 : W3 m ρ c (Proc.devRef .tc main_v22)
    = Host.aggOf (F := Ideal) (hs0K A0 A1 A2) (srcK A1) (dstK A1) := by
  have h := Host.after1_v22 (W2 m ρ c)
  rw [W2_v12 m ρ c, (W2_main_v1 m ρ c).trans (W1_v1 m ρ c), (W2_main_v3 m ρ c).trans (W1_v3 m ρ c)] at h
  exact h
theorem W3_v23 : W3 m ρ c (Proc.devRef .tc main_v23) = Host.rowOf128 (F := Ideal) A3 := by
  have h := Host.after1_v23 (W2 m ρ c)
  rw [show W2 m ρ c (Proc.devRef .tc main_arg3) = A3 from W2_main_arg3 m ρ c] at h
  exact h

/-! ### Region 1 -/

theorem W4_v24_0 : W4 m ρ c (Proc.devRef .tc main_v24_0) = conv0K A0 A1 A2 A3 := by
  have h := (W4_arr m ρ c 4).trans (final1_4_arr (B3 m ρ) c)
  rw [show B3 m ρ c main_v22 = _ from W3_v22 m ρ c,
    show B3 m ρ c main_v12 = hs0K A0 A1 A2 from (W3_main_v12 m ρ c).trans (W2_v12 m ρ c),
    show B3 m ρ c main_v11 = disK A1 from (W3_main_v11 m ρ c).trans (W1_v11 m ρ c),
    show B3 m ρ c main_v23 = _ from W3_v23 m ρ c] at h
  unfold conv0K
  exact h
theorem W4_v24_1 : W4 m ρ c (Proc.devRef .tc main_v24_1) = colSum (conv0K A0 A1 A2 A3) := by
  have h := (W4_arr m ρ c 5).trans (final1_5_arr (B3 m ρ) c)
  rw [show B3 m ρ c main_v22 = _ from W3_v22 m ρ c,
    show B3 m ρ c main_v12 = hs0K A0 A1 A2 from (W3_main_v12 m ρ c).trans (W2_v12 m ρ c),
    show B3 m ρ c main_v11 = disK A1 from (W3_main_v11 m ρ c).trans (W1_v11 m ρ c),
    show B3 m ρ c main_v23 = _ from W3_v23 m ρ c] at h
  unfold conv0K
  exact h
theorem W4_v24_2 : W4 m ρ c (Proc.devRef .tc main_v24_2) = colSumSq (conv0K A0 A1 A2 A3) := by
  have h := (W4_arr m ρ c 6).trans (final1_6_arr (B3 m ρ) c)
  rw [show B3 m ρ c main_v22 = _ from W3_v22 m ρ c,
    show B3 m ρ c main_v12 = hs0K A0 A1 A2 from (W3_main_v12 m ρ c).trans (W2_v12 m ρ c),
    show B3 m ρ c main_v11 = disK A1 from (W3_main_v11 m ρ c).trans (W1_v11 m ρ c),
    show B3 m ρ c main_v23 = _ from W3_v23 m ρ c] at h
  unfold conv0K
  exact h

/-! ### Stretch 2 -/

theorem W5_v26 : W5 m ρ c (Proc.devRef .tc main_v26) = mu0K A0 A1 A2 A3 := by
  have h := Host.after2_v26 (W4 m ρ c)
  rw [W4_v24_1 m ρ c] at h
  unfold mu0K
  exact h
theorem W5_v30 : W5 m ρ c (Proc.devRef .tc main_v30) = var0K A0 A1 A2 A3 := by
  have h := Host.after2_v30 (W4 m ρ c)
  rw [W4_v24_1 m ρ c, W4_v24_2 m ρ c] at h
  unfold var0K
  exact h
theorem W5_v31 : W5 m ρ c (Proc.devRef .tc main_v31) = Host.rowOf128 (F := Ideal) A4 := by
  have h := Host.after2_v31 (W4 m ρ c)
  rw [show W4 m ρ c (Proc.devRef .tc main_arg4) = A4 from W4_main_arg4 m ρ c] at h
  exact h
theorem W5_v32 : W5 m ρ c (Proc.devRef .tc main_v32) = Host.rowOf128 (F := Ideal) A5 := by
  have h := Host.after2_v32 (W4 m ρ c)
  rw [show W4 m ρ c (Proc.devRef .tc main_arg5) = A5 from W4_main_arg5 m ρ c] at h
  exact h

/-! ### Region 2 -/

theorem W6_v33_0 : W6 m ρ c (Proc.devRef .tc main_v33_0) = x1K A0 A1 A2 A3 A4 A5 := by
  have h := (W6_arr m ρ c 8).trans (final2_8_arr (B5 m ρ) c)
  rw [show B5 m ρ c main_v24_0 = conv0K A0 A1 A2 A3 from (W5_main_v24_0 m ρ c).trans (W4_v24_0 m ρ c),
    show B5 m ρ c main_arg0 = A0 from W5_main_arg0 m ρ c,
    show B5 m ρ c main_v26 = _ from W5_v26 m ρ c, show B5 m ρ c main_v30 = _ from W5_v30 m ρ c,
    show B5 m ρ c main_v31 = _ from W5_v31 m ρ c, show B5 m ρ c main_v32 = _ from W5_v32 m ρ c] at h
  unfold x1K
  exact h
theorem W6_v33_1 : W6 m ρ c (Proc.devRef .tc main_v33_1) = hs1K A0 A1 A2 A3 A4 A5 A6 := by
  have h := (W6_arr m ρ c 9).trans (final2_9_arr (B5 m ρ) c)
  rw [show B5 m ρ c main_v24_0 = conv0K A0 A1 A2 A3 from (W5_main_v24_0 m ρ c).trans (W4_v24_0 m ρ c),
    show B5 m ρ c main_arg0 = A0 from W5_main_arg0 m ρ c,
    show B5 m ρ c main_v26 = _ from W5_v26 m ρ c, show B5 m ρ c main_v30 = _ from W5_v30 m ρ c,
    show B5 m ρ c main_v31 = _ from W5_v31 m ρ c, show B5 m ρ c main_v32 = _ from W5_v32 m ρ c,
    show B5 m ρ c main_arg6 = A6 from W5_main_arg6 m ρ c,
    show B5 m ρ c main_v11 = disK A1 from (W5_main_v11 m ρ c).trans (W1_v11 m ρ c)] at h
  unfold hs1K x1K
  exact h

/-! ### Stretch 3 -/

theorem W7_v43 : W7 m ρ c (Proc.devRef .tc main_v43)
    = Host.aggOf (F := Ideal) (hs1K A0 A1 A2 A3 A4 A5 A6) (srcK A1) (dstK A1) := by
  have h := Host.after3_v43 (W6 m ρ c)
  rw [W6_v33_1 m ρ c, (W6_main_v1 m ρ c).trans (W1_v1 m ρ c), (W6_main_v3 m ρ c).trans (W1_v3 m ρ c)] at h
  exact h
theorem W7_v44 : W7 m ρ c (Proc.devRef .tc main_v44) = Host.rowOf128 (F := Ideal) A7 := by
  have h := Host.after3_v44 (W6 m ρ c)
  rw [show W6 m ρ c (Proc.devRef .tc main_arg7) = A7 from W6_main_arg7 m ρ c] at h
  exact h

/-! ### Region 3 -/

theorem W8_v45_0 : W8 m ρ c (Proc.devRef .tc main_v45_0) = conv1K A0 A1 A2 A3 A4 A5 A6 A7 := by
  have h := (W8_arr m ρ c 4).trans (final3_4_arr (B7 m ρ) c)
  rw [show B7 m ρ c main_v43 = _ from W7_v43 m ρ c,
    show B7 m ρ c main_v33_1 = hs1K A0 A1 A2 A3 A4 A5 A6 from (W7_main_v33_1 m ρ c).trans (W6_v33_1 m ρ c),
    show B7 m ρ c main_v11 = disK A1 from (W7_main_v11 m ρ c).trans (W1_v11 m ρ c),
    show B7 m ρ c main_v44 = _ from W7_v44 m ρ c] at h
  unfold conv1K
  exact h
theorem W8_v45_1 : W8 m ρ c (Proc.devRef .tc main_v45_1) = colSum (conv1K A0 A1 A2 A3 A4 A5 A6 A7) := by
  have h := (W8_arr m ρ c 5).trans (final3_5_arr (B7 m ρ) c)
  rw [show B7 m ρ c main_v43 = _ from W7_v43 m ρ c,
    show B7 m ρ c main_v33_1 = hs1K A0 A1 A2 A3 A4 A5 A6 from (W7_main_v33_1 m ρ c).trans (W6_v33_1 m ρ c),
    show B7 m ρ c main_v11 = disK A1 from (W7_main_v11 m ρ c).trans (W1_v11 m ρ c),
    show B7 m ρ c main_v44 = _ from W7_v44 m ρ c] at h
  unfold conv1K
  exact h
theorem W8_v45_2 : W8 m ρ c (Proc.devRef .tc main_v45_2) = colSumSq (conv1K A0 A1 A2 A3 A4 A5 A6 A7) := by
  have h := (W8_arr m ρ c 6).trans (final3_6_arr (B7 m ρ) c)
  rw [show B7 m ρ c main_v43 = _ from W7_v43 m ρ c,
    show B7 m ρ c main_v33_1 = hs1K A0 A1 A2 A3 A4 A5 A6 from (W7_main_v33_1 m ρ c).trans (W6_v33_1 m ρ c),
    show B7 m ρ c main_v11 = disK A1 from (W7_main_v11 m ρ c).trans (W1_v11 m ρ c),
    show B7 m ρ c main_v44 = _ from W7_v44 m ρ c] at h
  unfold conv1K
  exact h

/-! ### Stretch 4 -/

theorem W9_v47 : W9 m ρ c (Proc.devRef .tc main_v47) = mu1K A0 A1 A2 A3 A4 A5 A6 A7 := by
  have h := Host.after4_v47 (W8 m ρ c)
  rw [W8_v45_1 m ρ c] at h
  unfold mu1K
  exact h
theorem W9_v51 : W9 m ρ c (Proc.devRef .tc main_v51) = var1K A0 A1 A2 A3 A4 A5 A6 A7 := by
  have h := Host.after4_v51 (W8 m ρ c)
  rw [W8_v45_1 m ρ c, W8_v45_2 m ρ c] at h
  unfold var1K
  exact h
theorem W9_v52 : W9 m ρ c (Proc.devRef .tc main_v52) = Host.rowOf128 (F := Ideal) A8 := by
  have h := Host.after4_v52 (W8 m ρ c)
  rw [show W8 m ρ c (Proc.devRef .tc main_arg8) = A8 from W8_main_arg8 m ρ c] at h
  exact h
theorem W9_v53 : W9 m ρ c (Proc.devRef .tc main_v53) = Host.rowOf128 (F := Ideal) A9 := by
  have h := Host.after4_v53 (W8 m ρ c)
  rw [show W8 m ρ c (Proc.devRef .tc main_arg9) = A9 from W8_main_arg9 m ρ c] at h
  exact h

/-! ### Region 4 -/

theorem W10_v54_0 : W10 m ρ c (Proc.devRef .tc main_v54_0) = x2K A0 A1 A2 A3 A4 A5 A6 A7 A8 A9 := by
  have h := (W10_arr m ρ c 8).trans (final4_8_arr (B9 m ρ) c)
  rw [show B9 m ρ c main_v45_0 = conv1K A0 A1 A2 A3 A4 A5 A6 A7 from (W9_main_v45_0 m ρ c).trans (W8_v45_0 m ρ c),
    show B9 m ρ c main_v33_0 = x1K A0 A1 A2 A3 A4 A5 from (W9_main_v33_0 m ρ c).trans (W6_v33_0 m ρ c),
    show B9 m ρ c main_v47 = _ from W9_v47 m ρ c, show B9 m ρ c main_v51 = _ from W9_v51 m ρ c,
    show B9 m ρ c main_v52 = _ from W9_v52 m ρ c, show B9 m ρ c main_v53 = _ from W9_v53 m ρ c] at h
  unfold x2K
  exact h
theorem W10_v54_1 : W10 m ρ c (Proc.devRef .tc main_v54_1) = hs2K A0 A1 A2 A3 A4 A5 A6 A7 A8 A9 A10 := by
  have h := (W10_arr m ρ c 9).trans (final4_9_arr (B9 m ρ) c)
  rw [show B9 m ρ c main_v45_0 = conv1K A0 A1 A2 A3 A4 A5 A6 A7 from (W9_main_v45_0 m ρ c).trans (W8_v45_0 m ρ c),
    show B9 m ρ c main_v33_0 = x1K A0 A1 A2 A3 A4 A5 from (W9_main_v33_0 m ρ c).trans (W6_v33_0 m ρ c),
    show B9 m ρ c main_v47 = _ from W9_v47 m ρ c, show B9 m ρ c main_v51 = _ from W9_v51 m ρ c,
    show B9 m ρ c main_v52 = _ from W9_v52 m ρ c, show B9 m ρ c main_v53 = _ from W9_v53 m ρ c,
    show B9 m ρ c main_arg10 = A10 from W9_main_arg10 m ρ c,
    show B9 m ρ c main_v11 = disK A1 from (W9_main_v11 m ρ c).trans (W1_v11 m ρ c)] at h
  unfold hs2K x2K
  exact h

/-! ### Stretch 5 -/

theorem W11_v64 : W11 m ρ c (Proc.devRef .tc main_v64)
    = Host.aggOf32 (F := Ideal) (hs2K A0 A1 A2 A3 A4 A5 A6 A7 A8 A9 A10) (srcK A1) (dstK A1) := by
  have h := Host.after5_v64 (W10 m ρ c)
  rw [W10_v54_1 m ρ c, (W10_main_v1 m ρ c).trans (W1_v1 m ρ c), (W10_main_v3 m ρ c).trans (W1_v3 m ρ c)] at h
  exact h
theorem W11_v65 : W11 m ρ c (Proc.devRef .tc main_v65) = Host.rowOf32 (F := Ideal) A11 := by
  have h := Host.after5_v65 (W10 m ρ c)
  rw [show W10 m ρ c (Proc.devRef .tc main_arg11) = A11 from W10_main_arg11 m ρ c] at h
  exact h

/-! ### Region 5: the result -/

/-- The program's result buffer at the end of the run is the composition of the stages at the arguments' launch contents. -/
theorem W12_v66 : W12 m ρ c (Proc.devRef .tc main_v66) = outK A0 A1 A2 A3 A4 A5 A6 A7 A8 A9 A10 A11 := by
  have h := (W12_arr m ρ c 4).trans (final5_arr (B11 m ρ) c)
  rw [show B11 m ρ c main_v11 = disK A1 from (W11_main_v11 m ρ c).trans (W1_v11 m ρ c),
    show B11 m ρ c main_v64 = _ from W11_v64 m ρ c,
    show B11 m ρ c main_v54_1 = hs2K A0 A1 A2 A3 A4 A5 A6 A7 A8 A9 A10 from (W11_main_v54_1 m ρ c).trans (W10_v54_1 m ρ c),
    show B11 m ρ c main_v65 = _ from W11_v65 m ρ c] at h
  unfold outK
  exact h

end Cert.KernelIdeal.Hand

end
-- ==== Proof.RefRunA.lean ====
/-
  The reference's 249 operations run piece by piece. The line is cut into seven consecutive pieces; each piece is run from an
  ARBITRARY valuation `W` of the buffers: what it leaves at the few buffers later pieces read (the two index words, each
  layer's degree scale, each layer's convolution, output and product) is the matching stage of the arguments, provided `W`
  held the matching stages at the buffers the piece reads; every other buffer a later piece reads is not written by the
  piece. Within one piece the stages are opened only down to the previous pieces' buffers, so no term ever holds more than
  one layer's arithmetic. The steps compose along `after (l₁ ++ l₂) V = after l₂ (after l₁ V)`.
-/
import proofs.«182147_j31610959298973_2_alg».proof.Proof.RefOps
import proofs.«182147_j31610959298973_2_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-! ## Running a line in two parts -/

/-- The fold over a concatenation is the fold over the second line from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A line run as its first `n` operations, then the rest. -/
theorem after_split (n : Nat) (l : List (HloOp τ sig (Elt F))) (V : Valuation τ sig (Elt F)) :
    after l V = after (l.drop n) (after (l.take n) V) := by
  rw [← after_append, List.take_append_drop]

/-! ## The seven pieces

Positions in `ops`, counting from 0: [0, 15) the index words, layer 1's product x·W₁ and degree scale; [15, 58) layer 1's
convolution; [58, 103) layer 1's normalization, output, layer 2's product and degree scale; [103, 146) layer 2's convolution;
[146, 191) layer 2's normalization, output, layer 3's product and degree scale; [191, 234) layer 3's convolution;
[234, 249) the log-softmax. -/

abbrev s1 : List (HloOp τ sig (Elt F)) := (ops (F := F)).drop 15
abbrev s2 : List (HloOp τ sig (Elt F)) := (s1 (F := F)).drop 43
abbrev s3 : List (HloOp τ sig (Elt F)) := (s2 (F := F)).drop 45
abbrev s4 : List (HloOp τ sig (Elt F)) := (s3 (F := F)).drop 43
abbrev s5 : List (HloOp τ sig (Elt F)) := (s4 (F := F)).drop 45
abbrev cA : List (HloOp τ sig (Elt F)) := (ops (F := F)).take 15
abbrev cB : List (HloOp τ sig (Elt F)) := (s1 (F := F)).take 43
abbrev cC : List (HloOp τ sig (Elt F)) := (s2 (F := F)).take 45
abbrev cD : List (HloOp τ sig (Elt F)) := (s3 (F := F)).take 43
abbrev cE : List (HloOp τ sig (Elt F)) := (s4 (F := F)).take 45
abbrev cF : List (HloOp τ sig (Elt F)) := (s5 (F := F)).take 43
abbrev cG : List (HloOp τ sig (Elt F)) := (s5 (F := F)).drop 43

/-- The whole line is the seven pieces run in order. -/
theorem after_ops (V : Valuation τ sig (Elt F)) :
    after (ops (F := F)) V = after cG (after cF (after cE (after cD (after cC (after cB (after cA V)))))) :=
  (after_split 15 _ V).trans <| (after_split 43 _ _).trans <| (after_split 45 _ _).trans <| (after_split 43 _ _).trans <|
    (after_split 45 _ _).trans (after_split 43 _ _)

/-! ## What holds between the pieces -/

variable (W : Valuation τ sig (Elt F))
  (x0 : (⟨S50000x128, .f32⟩ : BufTy).Contents (Elt F)) (x1 : (⟨S2x800000, .i32⟩ : BufTy).Contents (Elt F))
  (x2 : (⟨S128x128, .f32⟩ : BufTy).Contents (Elt F)) (x3 x4 x5 : (⟨S128, .f32⟩ : BufTy).Contents (Elt F))
  (x6 : (⟨S128x128, .f32⟩ : BufTy).Contents (Elt F)) (x7 x8 x9 : (⟨S128, .f32⟩ : BufTy).Contents (Elt F))
  (x10 : (⟨S128x32, .f32⟩ : BufTy).Contents (Elt F)) (x11 : (⟨S32, .f32⟩ : BufTy).Contents (Elt F))

/-- At the start: the twelve arguments. -/
def InvA : Prop :=
  W (Proc.devRef .tc main_arg0) = x0 ∧ W (Proc.devRef .tc main_arg1) = x1 ∧ W (Proc.devRef .tc main_arg2) = x2
  ∧ W (Proc.devRef .tc main_arg3) = x3 ∧ W (Proc.devRef .tc main_arg4) = x4 ∧ W (Proc.devRef .tc main_arg5) = x5
  ∧ W (Proc.devRef .tc main_arg6) = x6 ∧ W (Proc.devRef .tc main_arg7) = x7 ∧ W (Proc.devRef .tc main_arg8) = x8
  ∧ W (Proc.devRef .tc main_arg9) = x9 ∧ W (Proc.devRef .tc main_arg10) = x10 ∧ W (Proc.devRef .tc main_arg11) = x11

/-- Before layer 1's convolution: the index words, x·W₁, the degree scale, and the arguments still to be read. -/
def InvB : Prop :=
  W (Proc.devRef .tc main_v1) = val_main_v1 (F := F) x1 ∧ W (Proc.devRef .tc main_v3) = val_main_v3 (F := F) x1
  ∧ W (Proc.devRef .tc main_v4) = val_main_v4 (F := F) x0 x2 ∧ W (Proc.devRef .tc main_v11) = val_main_v11 (F := F) x1
  ∧ W (Proc.devRef .tc main_arg0) = x0
  ∧ W (Proc.devRef .tc main_arg3) = x3 ∧ W (Proc.devRef .tc main_arg4) = x4 ∧ W (Proc.devRef .tc main_arg5) = x5
  ∧ W (Proc.devRef .tc main_arg6) = x6 ∧ W (Proc.devRef .tc main_arg7) = x7 ∧ W (Proc.devRef .tc main_arg8) = x8
  ∧ W (Proc.devRef .tc main_arg9) = x9 ∧ W (Proc.devRef .tc main_arg10) = x10 ∧ W (Proc.devRef .tc main_arg11) = x11

/-- After layer 1's convolution. -/
def InvC : Prop :=
  W (Proc.devRef .tc main_v1) = val_main_v1 (F := F) x1 ∧ W (Proc.devRef .tc main_v3) = val_main_v3 (F := F) x1
  ∧ W (Proc.devRef .tc main_v47) = val_main_v47 (F := F) x0 x1 x2 x3
  ∧ W (Proc.devRef .tc main_arg0) = x0 ∧ W (Proc.devRef .tc main_arg4) = x4 ∧ W (Proc.devRef .tc main_arg5) = x5
  ∧ W (Proc.devRef .tc main_arg6) = x6 ∧ W (Proc.devRef .tc main_arg7) = x7 ∧ W (Proc.devRef .tc main_arg8) = x8
  ∧ W (Proc.devRef .tc main_arg9) = x9 ∧ W (Proc.devRef .tc main_arg10) = x10 ∧ W (Proc.devRef .tc main_arg11) = x11

/-- Before layer 2's convolution: layer 1's output, its product with W₂, and layer 2's degree scale. -/
def InvD : Prop :=
  W (Proc.devRef .tc main_v1) = val_main_v1 (F := F) x1 ∧ W (Proc.devRef .tc main_v3) = val_main_v3 (F := F) x1
  ∧ W (Proc.devRef .tc main_v74) = val_main_v74 (F := F) x0 x1 x2 x3 x4 x5
  ∧ W (Proc.devRef .tc main_v75) = val_main_v75 (F := F) x0 x1 x2 x3 x4 x5 x6
  ∧ W (Proc.devRef .tc main_v82) = val_main_v82 (F := F) x1
  ∧ W (Proc.devRef .tc main_arg7) = x7 ∧ W (Proc.devRef .tc main_arg8) = x8
  ∧ W (Proc.devRef .tc main_arg9) = x9 ∧ W (Proc.devRef .tc main_arg10) = x10 ∧ W (Proc.devRef .tc main_arg11) = x11

/-- After layer 2's convolution. -/
def InvE : Prop :=
  W (Proc.devRef .tc main_v1) = val_main_v1 (F := F) x1 ∧ W (Proc.devRef .tc main_v3) = val_main_v3 (F := F) x1
  ∧ W (Proc.devRef .tc main_v74) = val_main_v74 (F := F) x0 x1 x2 x3 x4 x5
  ∧ W (Proc.devRef .tc main_v118) = val_main_v118 (F := F) x0 x1 x2 x3 x4 x5 x6 x7
  ∧ W (Proc.devRef .tc main_arg8) = x8
  ∧ W (Proc.devRef .tc main_arg9) = x9 ∧ W (Proc.devRef .tc main_arg10) = x10 ∧ W (Proc.devRef .tc main_arg11) = x11

/-- Before layer 3's convolution: layer 2's output times W₃, and layer 3's degree scale. -/
def InvF : Prop :=
  W (Proc.devRef .tc main_v1) = val_main_v1 (F := F) x1 ∧ W (Proc.devRef .tc main_v3) = val_main_v3 (F := F) x1
  ∧ W (Proc.devRef .tc main_v146) = val_main_v146 (F := F) x0 x1 x2 x3 x4 x5 x6 x7 x8 x9 x10
  ∧ W (Proc.devRef .tc main_v153) = val_main_v153 (F := F) x1
  ∧ W (Proc.devRef .tc main_arg11) = x11

/-- Before the log-softmax: layer 3's convolution. -/
def InvG : Prop :=
  W (Proc.devRef .tc main_v189) = val_main_v189 (F := F) x0 x1 x2 x3 x4 x5 x6 x7 x8 x9 x10 x11

variable {W x0 x1 x2 x3 x4 x5 x6 x7 x8 x9 x10 x11}

/-- A called function's operations carry their operands through the transport between a buffer's contents and the value's
    type (the identity): there and back is nothing. -/
theorem ofBuf_toBuf {T : BufTy} (x : TRef sig T) (v : T.Contents (Elt F)) : x.ofBuf (x.toBuf v) = v := by
  obtain ⟨r, h, _, _⟩ := x
  subst h
  rfl

/-! ## The seven steps

Each: open the piece to its literal operations, compute what it leaves at every buffer named in the next statement (one pass:
an operation's result at its own buffer is its function of its operands' contents, at any other buffer what was there),
replace the contents the piece read by the stages the hypothesis gives, and compare with the stages' definitions. -/

set_option maxHeartbeats 1000000 in
/-- [0, 15): the index words, x·W₁ and layer 1's degree scale. -/
theorem stepA (h : InvA W x0 x1 x2 x3 x4 x5 x6 x7 x8 x9 x10 x11) :
    InvB (after cA W) x0 x1 x2 x3 x4 x5 x6 x7 x8 x9 x10 x11 := by
  obtain ⟨a0, a1, a2, a3, a4, a5, a6, a7, a8, a9, a10, a11⟩ := h
  unfold InvB
  simp only [cA, ops, List.take_succ_cons, List.take_zero]
  after_results_simp
  rw [a0, a1, a2]
  exact ⟨rfl, rfl, rfl, rfl, rfl, a3, a4, a5, a6, a7, a8, a9, a10, a11⟩

set_option maxHeartbeats 1000000 in
/-- [15, 58): layer 1's convolution. -/
theorem stepB (h : InvB W x0 x1 x2 x3 x4 x5 x6 x7 x8 x9 x10 x11) :
    InvC (after cB W) x0 x1 x2 x3 x4 x5 x6 x7 x8 x9 x10 x11 := by
  obtain ⟨h1, h3, h4, h11, a0, a3, a4, a5, a6, a7, a8, a9, a10, a11⟩ := h
  unfold InvC
  simp only [cB, s1, ops, List.drop_succ_cons, List.drop_zero, List.take_succ_cons, List.take_zero]
  after_results_simp
  rw [h1, h3, h4, h11, a3]
  exact ⟨rfl, rfl, rfl, a0, a4, a5, a6, a7, a8, a9, a10, a11⟩

set_option maxHeartbeats 1000000 in
/-- [58, 103): layer 1's normalization and output, its product with W₂, layer 2's degree scale. -/
theorem stepC (h : InvC W x0 x1 x2 x3 x4 x5 x6 x7 x8 x9 x10 x11) :
    InvD (after cC W) x0 x1 x2 x3 x4 x5 x6 x7 x8 x9 x10 x11 := by
  obtain ⟨h1, h3, h47, a0, a4, a5, a6, a7, a8, a9, a10, a11⟩ := h
  unfold InvD
  simp only [cC, s2, s1, ops, List.drop_succ_cons, List.drop_zero, List.take_succ_cons, List.take_zero]
  after_results_simp
  rw [h3, h47, a0, a4, a5, a6]
  exact ⟨h1, rfl, rfl, rfl, rfl, a7, a8, a9, a10, a11⟩

set_option maxHeartbeats 1000000 in
/-- [103, 146): layer 2's convolution. -/
theorem stepD (h : InvD W x0 x1 x2 x3 x4 x5 x6 x7 x8 x9 x10 x11) :
    InvE (after cD W) x0 x1 x2 x3 x4 x5 x6 x7 x8 x9 x10 x11 := by
  obtain ⟨h1, h3, h74, h75, h82, a7, a8, a9, a10, a11⟩ := h
  unfold InvE
  simp only [cD, s3, s2, s1, ops, List.drop_succ_cons, List.drop_zero, List.take_succ_cons, List.take_zero]
  after_results_simp
  rw [h1, h3, h75, h82, a7]
  exact ⟨rfl, rfl, h74, rfl, a8, a9, a10, a11⟩

set_option maxHeartbeats 1000000 in
/-- [146, 191): layer 2's normalization and output, its product with W₃, layer 3's degree scale. -/
theorem stepE (h : InvE W x0 x1 x2 x3 x4 x5 x6 x7 x8 x9 x10 x11) :
    InvF (after cE W) x0 x1 x2 x3 x4 x5 x6 x7 x8 x9 x10 x11 := by
  obtain ⟨h1, h3, h74, h118, a8, a9, a10, a11⟩ := h
  unfold InvF
  simp only [cE, s4, s3, s2, s1, ops, List.drop_succ_cons, List.drop_zero, List.take_succ_cons, List.take_zero]
  after_results_simp
  rw [h3, h74, h118, a8, a9, a10]
  exact ⟨h1, rfl, rfl, rfl, a11⟩

set_option maxHeartbeats 1000000 in
/-- [191, 234): layer 3's convolution. -/
theorem stepF (h : InvF W x0 x1 x2 x3 x4 x5 x6 x7 x8 x9 x10 x11) :
    InvG (after cF W) x0 x1 x2 x3 x4 x5 x6 x7 x8 x9 x10 x11 := by
  obtain ⟨h1, h3, h146, h153, a11⟩ := h
  unfold InvG
  simp only [cF, s5, s4, s3, s2, s1, ops, List.drop_succ_cons, List.drop_zero, List.take_succ_cons, List.take_zero]
  after_results_simp
  rw [h1, h3, h146, h153, a11]
  rfl

set_option maxHeartbeats 1000000 in
/-- [234, 249): the log-softmax of layer 3's convolution. -/
theorem stepG (h : InvG W x0 x1 x2 x3 x4 x5 x6 x7 x8 x9 x10 x11) :
    after cG W (Proc.devRef .tc main_v190) = val_main_v190 (F := F) x0 x1 x2 x3 x4 x5 x6 x7 x8 x9 x10 x11 := by
  unfold InvG at h
  simp only [cG, s5, s4, s3, s2, s1, ops, List.drop_succ_cons, List.drop_zero]
  after_results_simp
  rw [h]
  simp only [ofBuf_toBuf]
  rfl

/-! ## The whole line -/

/-- The result buffer after the whole line: the last stage, of the arguments' contents. -/
theorem after_v190 (V : Valuation τ sig (Elt F)) :
    after (ops (F := F)) V (Proc.devRef .tc main_v190)
      = val_main_v190 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11)) := by
  rw [after_ops]
  exact stepG (stepF (stepE (stepD (stepC (stepB (stepA (by unfold InvA; exact ⟨rfl, rfl, rfl, rfl, rfl, rfl, rfl, rfl, rfl, rfl, rfl, rfl⟩)))))))

end Cert.ReferenceIdeal.RefRun

end
-- ==== Proof.RefRunB.lean ====
/-
  The reference program keeps its arguments.

  Each of @main's 249 operations writes one buffer: its result.  Listing the result buffers in order, every
  operation's written set is inside the list, and no argument buffer of @main is in the list; so after all the
  operations every argument buffer holds what it held before.
-/
import proofs.«182147_j31610959298973_2_alg».proof.Proof.RefOps
import Idealize.ShloMosaic.Lib.StableHlo.Run

noncomputable section

namespace Cert.ReferenceIdeal.RefRun

open Cert.ReferenceIdeal Cert.ReferenceIdeal.Gen Cert.ReferenceIdeal.Value Idealize.ShloMosaic Idealize.ShloMosaic.TcCoe
open Idealize.SL.Sem Idealize.ShloMosaic.StableHlo

variable {F : FTy → Type} [FloatOps F]

/-- The buffers @main's operations write, in the operations' order: one result buffer each. -/
abbrev opsW : List (Ref sig .tc) :=
  [main_v0, main_v1, main_v2, main_v3, main_v4, main_cst, main_v5, main_cst_0, main_v6, main_v7, main_v8,
   main_cst_1, main_v9, main_v10, main_v11, main_c, main_v12, main_v13, main_c_2, main_v14, main_v15, main_v16,
   main_v17, main_v18, main_c_3, main_v19, main_v20, main_c_4, main_v21, main_v22, main_v23, main_v24, main_v25,
   main_v26, main_c_5, main_v27, main_v28, main_c_6, main_v29, main_v30, main_v31, main_v32, main_v33, main_v34,
   main_v35, main_v36, main_cst_7, main_v37, main_v38, main_v39, main_v40, main_v41, main_v42, main_v43, main_v44,
   main_v45, main_v46, main_v47, main_cst_8, main_v48, main_cst_9, main_v49, main_v50, main_v51, main_v52,
   main_v53, main_v54, main_cst_10, main_v55, main_cst_11, main_v56, main_v57, main_v58, main_v59, main_v60,
   main_cst_12, main_v61, main_v62, main_v63, main_v64, main_v65, main_v66, main_v67, main_v68, main_v69, main_v70,
   main_v71, main_v72, main_call0_cst, main_call0_v0, main_v73, main_v74, main_v75, main_cst_13, main_v76,
   main_cst_14, main_v77, main_v78, main_v79, main_cst_15, main_v80, main_v81, main_v82, main_c_16, main_v83,
   main_v84, main_c_17, main_v85, main_v86, main_v87, main_v88, main_v89, main_c_18, main_v90, main_v91, main_c_19,
   main_v92, main_v93, main_v94, main_v95, main_v96, main_v97, main_c_20, main_v98, main_v99, main_c_21, main_v100,
   main_v101, main_v102, main_v103, main_v104, main_v105, main_v106, main_v107, main_cst_22, main_v108, main_v109,
   main_v110, main_v111, main_v112, main_v113, main_v114, main_v115, main_v116, main_v117, main_v118, main_cst_23,
   main_v119, main_cst_24, main_v120, main_v121, main_v122, main_v123, main_v124, main_v125, main_cst_25,
   main_v126, main_cst_26, main_v127, main_v128, main_v129, main_v130, main_v131, main_cst_27, main_v132,
   main_v133, main_v134, main_v135, main_v136, main_v137, main_v138, main_v139, main_v140, main_v141, main_v142,
   main_v143, main_call1_cst, main_call1_v0, main_v144, main_v145, main_v146, main_cst_28, main_v147, main_cst_29,
   main_v148, main_v149, main_v150, main_cst_30, main_v151, main_v152, main_v153, main_c_31, main_v154, main_v155,
   main_c_32, main_v156, main_v157, main_v158, main_v159, main_v160, main_c_33, main_v161, main_v162, main_c_34,
   main_v163, main_v164, main_v165, main_v166, main_v167, main_v168, main_c_35, main_v169, main_v170, main_c_36,
   main_v171, main_v172, main_v173, main_v174, main_v175, main_v176, main_v177, main_v178, main_cst_37, main_v179,
   main_v180, main_v181, main_v182, main_v183, main_v184, main_v185, main_v186, main_v187, main_v188, main_v189,
   main_call2_cst, main_call2_v0, main_call2_cst_0, main_call2_v1, main_call2_v2, main_call2_v3, main_call2_v4,
   main_call2_v5, main_call2_v6, main_call2_cst_1, main_call2_v7, main_call2_v8, main_call2_v9, main_call2_v10,
   main_v190]

set_option maxRecDepth 8192 in
/-- Every operation writes only its own result buffer, which is in the list. -/
theorem ops_writes : (ops : List (HloOp τ sig (Elt F))).Forall fun op =>
    op.writes ⊆ (opsW.map (Proc.devRef (τ := τ) .tc)).toFinset :=
  ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 0) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 1) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 2) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 3) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 4) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 5) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 6) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 7) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 8) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 9) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 10) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 11) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 12) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 13) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 14) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 15) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 16) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 17) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 18) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 19) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 20) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 21) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 22) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 23) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 24) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 25) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 26) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 27) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 28) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 29) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 30) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 31) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 32) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 33) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 34) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 35) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 36) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 37) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 38) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 39) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 40) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 41) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 42) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 43) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 44) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 45) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 46) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 47) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 48) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 49) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 50) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 51) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 52) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 53) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 54) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 55) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 56) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 57) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 58) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 59) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 60) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 61) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 62) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 63) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 64) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 65) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 66) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 67) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 68) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 69) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 70) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 71) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 72) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 73) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 74) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 75) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 76) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 77) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 78) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 79) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 80) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 81) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 82) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 83) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 84) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 85) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 86) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 87) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 88) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 89) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 90) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 91) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 92) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 93) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 94) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 95) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 96) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 97) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 98) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 99) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 100) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 101) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 102) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 103) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 104) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 105) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 106) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 107) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 108) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 109) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 110) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 111) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 112) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 113) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 114) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 115) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 116) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 117) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 118) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 119) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 120) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 121) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 122) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 123) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 124) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 125) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 126) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 127) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 128) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 129) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 130) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 131) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 132) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 133) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 134) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 135) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 136) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 137) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 138) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 139) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 140) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 141) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 142) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 143) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 144) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 145) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 146) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 147) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 148) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 149) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 150) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 151) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 152) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 153) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 154) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 155) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 156) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 157) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 158) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 159) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 160) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 161) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 162) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 163) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 164) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 165) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 166) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 167) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 168) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 169) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 170) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 171) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 172) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 173) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 174) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 175) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 176) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 177) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 178) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 179) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 180) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 181) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 182) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 183) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 184) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 185) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 186) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 187) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 188) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 189) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 190) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 191) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 192) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 193) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 194) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 195) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 196) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 197) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 198) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 199) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 200) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 201) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 202) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 203) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 204) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 205) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 206) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 207) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 208) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 209) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 210) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 211) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 212) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 213) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 214) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 215) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 216) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 217) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 218) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 219) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 220) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 221) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 222) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 223) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 224) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 225) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 226) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 227) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 228) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 229) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 230) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 231) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 232) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 233) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 234) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 235) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 236) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 237) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 238) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 239) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 240) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 241) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 242) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 243) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 244) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 245) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 246) (by decide)),
   by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 247) (by decide)),
   by simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (List.getElem_mem (l := opsW) (n := 248) (by decide))⟩

/-- Argument 0 of @main is written by none of the operations: it ends as it began. -/
theorem after_main_arg0 (V : Valuation τ sig (Elt F)) :
    StableHlo.after ops V (Proc.devRef .tc main_arg0) = V (Proc.devRef .tc main_arg0) :=
  StableHlo.after_of_writes_sub ops V ops_writes (by decide)
/-- Argument 1 of @main is written by none of the operations: it ends as it began. -/
theorem after_main_arg1 (V : Valuation τ sig (Elt F)) :
    StableHlo.after ops V (Proc.devRef .tc main_arg1) = V (Proc.devRef .tc main_arg1) :=
  StableHlo.after_of_writes_sub ops V ops_writes (by decide)
/-- Argument 2 of @main is written by none of the operations: it ends as it began. -/
theorem after_main_arg2 (V : Valuation τ sig (Elt F)) :
    StableHlo.after ops V (Proc.devRef .tc main_arg2) = V (Proc.devRef .tc main_arg2) :=
  StableHlo.after_of_writes_sub ops V ops_writes (by decide)
/-- Argument 3 of @main is written by none of the operations: it ends as it began. -/
theorem after_main_arg3 (V : Valuation τ sig (Elt F)) :
    StableHlo.after ops V (Proc.devRef .tc main_arg3) = V (Proc.devRef .tc main_arg3) :=
  StableHlo.after_of_writes_sub ops V ops_writes (by decide)
/-- Argument 4 of @main is written by none of the operations: it ends as it began. -/
theorem after_main_arg4 (V : Valuation τ sig (Elt F)) :
    StableHlo.after ops V (Proc.devRef .tc main_arg4) = V (Proc.devRef .tc main_arg4) :=
  StableHlo.after_of_writes_sub ops V ops_writes (by decide)
/-- Argument 5 of @main is written by none of the operations: it ends as it began. -/
theorem after_main_arg5 (V : Valuation τ sig (Elt F)) :
    StableHlo.after ops V (Proc.devRef .tc main_arg5) = V (Proc.devRef .tc main_arg5) :=
  StableHlo.after_of_writes_sub ops V ops_writes (by decide)
/-- Argument 6 of @main is written by none of the operations: it ends as it began. -/
theorem after_main_arg6 (V : Valuation τ sig (Elt F)) :
    StableHlo.after ops V (Proc.devRef .tc main_arg6) = V (Proc.devRef .tc main_arg6) :=
  StableHlo.after_of_writes_sub ops V ops_writes (by decide)
/-- Argument 7 of @main is written by none of the operations: it ends as it began. -/
theorem after_main_arg7 (V : Valuation τ sig (Elt F)) :
    StableHlo.after ops V (Proc.devRef .tc main_arg7) = V (Proc.devRef .tc main_arg7) :=
  StableHlo.after_of_writes_sub ops V ops_writes (by decide)
/-- Argument 8 of @main is written by none of the operations: it ends as it began. -/
theorem after_main_arg8 (V : Valuation τ sig (Elt F)) :
    StableHlo.after ops V (Proc.devRef .tc main_arg8) = V (Proc.devRef .tc main_arg8) :=
  StableHlo.after_of_writes_sub ops V ops_writes (by decide)
/-- Argument 9 of @main is written by none of the operations: it ends as it began. -/
theorem after_main_arg9 (V : Valuation τ sig (Elt F)) :
    StableHlo.after ops V (Proc.devRef .tc main_arg9) = V (Proc.devRef .tc main_arg9) :=
  StableHlo.after_of_writes_sub ops V ops_writes (by decide)
/-- Argument 10 of @main is written by none of the operations: it ends as it began. -/
theorem after_main_arg10 (V : Valuation τ sig (Elt F)) :
    StableHlo.after ops V (Proc.devRef .tc main_arg10) = V (Proc.devRef .tc main_arg10) :=
  StableHlo.after_of_writes_sub ops V ops_writes (by decide)
/-- Argument 11 of @main is written by none of the operations: it ends as it began. -/
theorem after_main_arg11 (V : Valuation τ sig (Elt F)) :
    StableHlo.after ops V (Proc.devRef .tc main_arg11) = V (Proc.devRef .tc main_arg11) :=
  StableHlo.after_of_writes_sub ops V ops_writes (by decide)

end Cert.ReferenceIdeal.RefRun

end
-- ==== Proof.RefRunHand.lean ====
/-
  The run of the reference's @main, stated over the stages of the read module: on every device every weakly fair execution
  ends with the result buffer at the last stage `val_main_v190` of the twelve arguments, and the arguments unchanged.
  The straight-line run gives every buffer at the fold of the operations' results over the launch contents; the fold at the
  result buffer is the last stage (the seven steps' composition), and no operation writes an argument.
-/
import proofs.«182147_j31610959298973_2_alg».proof.Proof.RefRunA
import proofs.«182147_j31610959298973_2_alg».proof.Proof.RefRunB

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-- On every device, for any float values, from any memory with zero counters: every weakly fair execution of @main
    terminates with the result at the last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v190)
        = val_main_v190 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c main_v190).trans (after_v190 _), (h c main_arg0).trans (after_main_arg0 _), (h c main_arg1).trans (after_main_arg1 _),
        (h c main_arg2).trans (after_main_arg2 _), (h c main_arg3).trans (after_main_arg3 _),
        (h c main_arg4).trans (after_main_arg4 _), (h c main_arg5).trans (after_main_arg5 _),
        (h c main_arg6).trans (after_main_arg6 _), (h c main_arg7).trans (after_main_arg7 _),
        (h c main_arg8).trans (after_main_arg8 _), (h c main_arg9).trans (after_main_arg9 _),
        (h c main_arg10).trans (after_main_arg10 _), (h c main_arg11).trans (after_main_arg11 _)⟩)
    (run_seq scopedRefs_eq scopedSems_eq defs main (fun _ => ops) main_eq (fun _ => ops_sub) m ρ)

end Cert.ReferenceIdeal.RefRun

end
-- ==== Proof.LibGraphOps.lean ====
/-
  The host's gather and accumulating scatter of a graph, read at an index.

  A graph's edges are listed as a column of `E` node numbers (32-bit words).  Gathering node data by such a column
  reads, for edge `e`, the node whose number is the `e`-th word, read signed and clamped into `[0, N − 1]`.
  Scattering edge data back adds the datum of edge `e` into the node whose number is the `e`-th word, read signed,
  and drops it when that number is not a node.  The lemmas below say where each update lands, coordinate by
  coordinate, for a scatter of rows of an `E × C` matrix into an `N × C` matrix and for a scatter of `E` scalars
  into a vector of `N`, and what a gather of scalars reads; the last part is the arithmetic of the index
  normalisation (a negative index counts from the end) on 32-bit words.
-/
import Idealize.ShloMosaic.PureOps.Ideal
import Idealize.ShloMosaic.Lib.ValueIdx

noncomputable section

namespace Cert.LibGraphOps

open Idealize.ShloMosaic Idealize.ShloMosaic.ValueIdx

variable {N C E w : Nat}

/-- A valid index into a one-element list reads its element. -/
theorem getElem_singleton_any {α : Type} (a : α) (k : Nat) (hk : k < [a].length) : [a][k]'hk = a := by
  have h0 : k = 0 := by simpa using hk
  subst h0; rfl

/-- The same for a list that equals a one-element list. -/
theorem getElem_of_eq_singleton {α : Type} (l : List α) (a : α) (hl : l = [a]) (k : Nat) (hk : k < l.length) :
    l[k]'hk = a := by
  subst hl; exact getElem_singleton_any a k hk

/-! ## A scatter of rows -/

/-- On the row axis the target coordinate of the update at `(e, c)` is the `e`-th index word read signed: the start
    comes from the index column and the row axis carries no window coordinate. -/
theorem rows_coord_row (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) :
    d.start (ix2 e c) idx 0 + (d.window (ix2 e c) 0 : Int) = (idx (ix2 e (0 : Fin 1))).toInt := by
  obtain ⟨uw, iw, sd, iv, wf⟩ := d
  dsimp only at h1 h2 h3 h4
  subst h1 h2 h3 h4
  have m0 : (0 : Fin 2) ∈ ([0] : List (Fin 2)) := by decide
  have k0 : (0 : Fin 2) ∉ ScatterDims.sKept (⟨[1], [0], [0], 1, wf⟩ : ScatterDims ⟨2, ![N, C]⟩ ⟨2, ![E, 1]⟩ ⟨2, ![E, C]⟩) := by
    show (0 : Fin 2) ∉ (List.finRange 2).filter (fun x => decide (x ∉ ([0] : List (Fin 2))))
    decide
  have hu : ScatterDims.uScatter (⟨[1], [0], [0], 1, wf⟩ : ScatterDims ⟨2, ![N, C]⟩ ⟨2, ![E, 1]⟩ ⟨2, ![E, C]⟩) = [0] := by
    show (List.finRange 2).filter (fun x => decide (x ∉ ([1] : List (Fin 2)))) = [0]
    decide
  simp only [ScatterDims.start, ScatterDims.window]
  rw [dif_pos m0, dif_neg k0]
  simp only [Nat.cast_zero, add_zero]
  refine congrArg (fun q => (idx q).toInt) (funext ?_)
  refine Fin.forall_fin_two.2 ⟨?_, ?_⟩
  · apply Fin.ext
    simp only [ScatterDims.siIdx]
    split
    · rename_i h
      exact absurd h Nat.zero_ne_one
    · unfold ScatterDims.siCoord
      simp only [Fin.coe_cast]
      exact congrArg (fun a => ((ix2 e c) a).val) (getElem_of_eq_singleton _ 0 hu _ _)
  · apply Fin.ext
    simp only [ScatterDims.siIdx]
    split
    · rfl
    · rename_i h
      exact absurd rfl h

/-- On the column axis the target coordinate of the update at `(e, c)` is `c`: no start, and the window coordinate
    is the update's own column. -/
theorem rows_coord_col (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) :
    d.start (ix2 e c) idx 1 + (d.window (ix2 e c) 1 : Int) = (c.val : Int) := by
  obtain ⟨uw, iw, sd, iv, wf⟩ := d
  dsimp only at h1 h2 h3 h4
  subst h1 h2 h3 h4
  have m1 : (1 : Fin 2) ∉ ([0] : List (Fin 2)) := by decide
  have k1 : (1 : Fin 2) ∈ ScatterDims.sKept (⟨[1], [0], [0], 1, wf⟩ : ScatterDims ⟨2, ![N, C]⟩ ⟨2, ![E, 1]⟩ ⟨2, ![E, C]⟩) := by
    show (1 : Fin 2) ∈ (List.finRange 2).filter (fun x => decide (x ∉ ([0] : List (Fin 2))))
    decide
  simp only [ScatterDims.start, ScatterDims.window]
  rw [dif_neg m1, dif_pos k1]
  simp only [zero_add]
  refine congrArg (fun n : Nat => (n : Int)) ?_
  exact congrArg (fun a => ((ix2 e c) a).val) (getElem_singleton_any (1 : Fin 2) _ _)

/-- WHERE A ROW UPDATE LANDS.  The update at `(e, c)` lands at entry `(i, j)` exactly when it keeps its column,
    `c = j`, and the `e`-th index word reads, signed, as the row number `i`; an update whose word is not a row number
    lands nowhere. -/
theorem rows_resultIdx_iff (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (i : Fin N) (j : Fin C) :
    d.resultIdx? (ix2 e c) idx = some (ix2 i j) ↔ c = j ∧ (idx (ix2 e (0 : Fin 1))).toInt = (i.val : Int) := by
  have c0 := rows_coord_row d h1 h2 h3 h4 idx e c
  have c1 := rows_coord_col d h1 h2 h3 h4 idx e c
  unfold ScatterDims.resultIdx?
  split
  · rename_i hall
    have p0 := (hall 0).1
    constructor
    · intro h
      have h' := Option.some.inj h
      have e0 : (d.start (ix2 e c) idx 0 + (d.window (ix2 e c) 0 : Int)).toNat = i.val := congrArg Fin.val (congrFun h' 0)
      have e1 : (d.start (ix2 e c) idx 1 + (d.window (ix2 e c) 1 : Int)).toNat = j.val := congrArg Fin.val (congrFun h' 1)
      rw [c1, Int.toNat_natCast] at e1
      refine ⟨Fin.ext e1, ?_⟩
      rw [← c0]
      omega
    · rintro ⟨hc, hr⟩
      subst hc
      refine congrArg some (funext ?_)
      refine Fin.forall_fin_two.2 ⟨?_, ?_⟩
      · apply Fin.ext
        show (d.start (ix2 e c) idx 0 + (d.window (ix2 e c) 0 : Int)).toNat = i.val
        rw [c0, hr, Int.toNat_natCast]
      · apply Fin.ext
        show (d.start (ix2 e c) idx 1 + (d.window (ix2 e c) 1 : Int)).toNat = c.val
        rw [c1, Int.toNat_natCast]
  · rename_i hall
    constructor
    · intro h
      exact absurd h (by simp)
    · rintro ⟨hc, hr⟩
      refine absurd ?_ hall
      refine Fin.forall_fin_two.2 ⟨?_, ?_⟩
      · rw [c0, hr]
        exact ⟨Int.natCast_nonneg _, by exact_mod_cast i.isLt⟩
      · rw [c1]
        exact ⟨Int.natCast_nonneg _, by exact_mod_cast c.isLt⟩

/-! ## A scatter of scalars into a vector -/

/-- The target coordinate of the `e`-th scalar update is the `e`-th index word read signed. -/
theorem vec_coord (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) :
    d.start (ix1 e) idx 0 + (d.window (ix1 e) 0 : Int) = (idx (ix2 e (0 : Fin 1))).toInt := by
  obtain ⟨uw, iw, sd, iv, wf⟩ := d
  dsimp only at h1 h2 h3 h4
  subst h1 h2 h3 h4
  have m0 : (0 : Fin 1) ∈ ([0] : List (Fin 1)) := by decide
  have k0 : (0 : Fin 1) ∉ ScatterDims.sKept (⟨[], [0], [0], 1, wf⟩ : ScatterDims ⟨1, ![N]⟩ ⟨2, ![E, 1]⟩ ⟨1, ![E]⟩) := by
    show (0 : Fin 1) ∉ (List.finRange 1).filter (fun x => decide (x ∉ ([0] : List (Fin 1))))
    decide
  have hu : ScatterDims.uScatter (⟨[], [0], [0], 1, wf⟩ : ScatterDims ⟨1, ![N]⟩ ⟨2, ![E, 1]⟩ ⟨1, ![E]⟩) = [0] := by
    show (List.finRange 1).filter (fun x => decide (x ∉ ([] : List (Fin 1)))) = [0]
    decide
  simp only [ScatterDims.start, ScatterDims.window]
  rw [dif_pos m0, dif_neg k0]
  simp only [Nat.cast_zero, add_zero]
  refine congrArg (fun q => (idx q).toInt) (funext ?_)
  refine Fin.forall_fin_two.2 ⟨?_, ?_⟩
  · apply Fin.ext
    simp only [ScatterDims.siIdx]
    split
    · rename_i h
      exact absurd h Nat.zero_ne_one
    · unfold ScatterDims.siCoord
      simp only [Fin.coe_cast]
      exact congrArg (fun a => ((ix1 e) a).val) (getElem_of_eq_singleton _ 0 hu _ _)
  · apply Fin.ext
    simp only [ScatterDims.siIdx]
    split
    · rfl
    · rename_i h
      exact absurd rfl h

/-- WHERE A SCALAR UPDATE LANDS.  The `e`-th update lands at entry `i` exactly when the `e`-th index word reads,
    signed, as `i`; an update whose word is not an entry number lands nowhere. -/
theorem vec_resultIdx_iff (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  have c0 := vec_coord d h1 h2 h3 h4 idx e
  unfold ScatterDims.resultIdx?
  split
  · rename_i hall
    have p0 := (hall 0).1
    constructor
    · intro h
      have h' := Option.some.inj h
      have e0 : (d.start (ix1 e) idx 0 + (d.window (ix1 e) 0 : Int)).toNat = i.val := congrArg Fin.val (congrFun h' 0)
      rw [← c0]
      omega
    · intro hr
      refine congrArg some (funext ?_)
      refine Fin.forall_fin_one.2 ?_
      apply Fin.ext
      show (d.start (ix1 e) idx 0 + (d.window (ix1 e) 0 : Int)).toNat = i.val
      rw [c0, hr, Int.toNat_natCast]
  · rename_i hall
    constructor
    · intro h
      exact absurd h (by simp)
    · intro hr
      refine absurd ?_ hall
      refine Fin.forall_fin_one.2 ?_
      rw [c0, hr]
      exact ⟨Int.natCast_nonneg _, by exact_mod_cast i.isLt⟩

/-! ## Sums over the updates that land at an entry, reindexed over the edges -/

/-- The row coordinate of an index of the `E × C` updates, as a plain `Fin E`. -/
abbrev rowIx (u : (⟨2, ![E, C]⟩ : Shape).Idx) : Fin E := ⟨(u 0).val, (u 0).isLt⟩
/-- The column coordinate of an index of the `E × C` updates, as a plain `Fin C`. -/
abbrev colIx (u : (⟨2, ![E, C]⟩ : Shape).Idx) : Fin C := ⟨(u 1).val, (u 1).isLt⟩
/-- An index of the updates is its row and column coordinates. -/
theorem eq_rowIx_colIx (u : (⟨2, ![E, C]⟩ : Shape).Idx) : u = ix2 (rowIx u) (colIx u) := by
  funext a; match a with | ⟨0, _⟩ => rfl | ⟨1, _⟩ => rfl

/-- THE ROW SCATTER'S LANDING SET, EDGE BY EDGE.  A sum over the updates `(e, c)` that land at entry `(n, j)` is the
    sum over the edges `e` whose index word reads, signed, as `n`, of the term at `(e, j)`: such an update keeps its
    column, so there is exactly one per such edge. -/
theorem rows_sum_landing {M : Type*} [AddCommMonoid M] (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (n : Fin N) (j : Fin C)
    (f : (⟨2, ![E, C]⟩ : Shape).Idx → M)
    [DecidablePred fun u : (⟨2, ![E, C]⟩ : Shape).Idx => d.resultIdx? u idx = some (ix2 n j)] :
    ∑ u ∈ Finset.univ.filter (fun u : (⟨2, ![E, C]⟩ : Shape).Idx => d.resultIdx? u idx = some (ix2 n j)), f u
      = ∑ e ∈ Finset.univ.filter (fun e : Fin E => (idx (ix2 e (0 : Fin 1))).toInt = (n.val : Int)), f (ix2 e j) := by
  have key : ∀ u : (⟨2, ![E, C]⟩ : Shape).Idx, d.resultIdx? u idx = some (ix2 n j) →
      colIx u = j ∧ (idx (ix2 (rowIx u) (0 : Fin 1))).toInt = (n.val : Int) := by
    intro u hu
    have hu2 : d.resultIdx? (ix2 (rowIx u) (colIx u)) idx = some (ix2 n j) := by
      rw [← eq_rowIx_colIx u]; exact hu
    exact (rows_resultIdx_iff d h1 h2 h3 h4 idx _ _ n j).1 hu2
  have back : ∀ u : (⟨2, ![E, C]⟩ : Shape).Idx, d.resultIdx? u idx = some (ix2 n j) → ix2 (rowIx u) j = u := by
    intro u hu
    have hc := (key u hu).1
    rw [← hc]; exact (eq_rowIx_colIx u).symm
  refine Finset.sum_bij' (fun u _ => rowIx u) (fun e _ => ix2 e j) ?_ ?_ ?_ ?_ ?_
  · intro u hu
    rw [Finset.mem_filter] at hu ⊢
    exact ⟨Finset.mem_univ _, (key u hu.2).2⟩
  · intro e he
    rw [Finset.mem_filter] at he ⊢
    exact ⟨Finset.mem_univ _, (rows_resultIdx_iff d h1 h2 h3 h4 idx e j n j).2 ⟨rfl, he.2⟩⟩
  · intro u hu
    exact back u (Finset.mem_filter.1 hu).2
  · intro e _
    exact Fin.ext rfl
  · intro u hu
    exact congrArg f (back u (Finset.mem_filter.1 hu).2).symm

/-- THE SCALAR SCATTER'S LANDING SET, EDGE BY EDGE.  A sum over the updates that land at entry `n` is the sum over the
    edges whose index word reads, signed, as `n`. -/
theorem vec_sum_landing {M : Type*} [AddCommMonoid M] (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (n : Fin N)
    (f : (⟨1, ![E]⟩ : Shape).Idx → M)
    [DecidablePred fun u : (⟨1, ![E]⟩ : Shape).Idx => d.resultIdx? u idx = some (ix1 n)] :
    ∑ u ∈ Finset.univ.filter (fun u : (⟨1, ![E]⟩ : Shape).Idx => d.resultIdx? u idx = some (ix1 n)), f u
      = ∑ e ∈ Finset.univ.filter (fun e : Fin E => (idx (ix2 e (0 : Fin 1))).toInt = (n.val : Int)), f (ix1 e) := by
  have key : ∀ u : (⟨1, ![E]⟩ : Shape).Idx, d.resultIdx? u idx = some (ix1 n) →
      (idx (ix2 (⟨(u 0).val, (u 0).isLt⟩ : Fin E) (0 : Fin 1))).toInt = (n.val : Int) := by
    intro u hu
    have hu2 : d.resultIdx? (ix1 (⟨(u 0).val, (u 0).isLt⟩ : Fin E)) idx = some (ix1 n) := by
      have hx : u = ix1 (⟨(u 0).val, (u 0).isLt⟩ : Fin E) := by
        funext a; match a with | ⟨0, _⟩ => rfl
      rw [← hx]; exact hu
    exact (vec_resultIdx_iff d h1 h2 h3 h4 idx _ n).1 hu2
  refine Finset.sum_bij' (fun u _ => (⟨(u 0).val, (u 0).isLt⟩ : Fin E)) (fun e _ => ix1 e) ?_ ?_ ?_ ?_ ?_
  · intro u hu
    rw [Finset.mem_filter] at hu ⊢
    exact ⟨Finset.mem_univ _, key u hu.2⟩
  · intro e he
    rw [Finset.mem_filter] at he ⊢
    exact ⟨Finset.mem_univ _, (vec_resultIdx_iff d h1 h2 h3 h4 idx e n).2 he.2⟩
  · intro u _
    funext a; match a with | ⟨0, _⟩ => rfl
  · intro e _
    exact Fin.ext rfl
  · intro u _
    refine congrArg f ?_
    funext a; match a with | ⟨0, _⟩ => rfl

/-- THE ROW SCATTER READ AT AN ENTRY, over the extended reals: the operand's entry plus the sum, over the edges whose
    index word reads as this row, of the update's entry in the same column. -/
theorem hostScatterAdd_rows_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (n : Fin N) (j : Fin C)
    (x : (⟨2, ![N, C]⟩ : Shape).Idx → EReal) (upd : (⟨2, ![E, C]⟩ : Shape).Idx → EReal) :
    Ideal.hostScatterAdd d x idx upd (ix2 n j)
      = x (ix2 n j)
        + ∑ e ∈ Finset.univ.filter (fun e : Fin E => (idx (ix2 e (0 : Fin 1))).toInt = (n.val : Int)), upd (ix2 e j) := by
  unfold Ideal.hostScatterAdd
  rw [rows_sum_landing d h1 h2 h3 h4 idx n j upd]

/-- THE SCALAR SCATTER READ AT AN ENTRY, over the extended reals: the operand's entry plus the sum of the updates of
    the edges whose index word reads as this entry. -/
theorem hostScatterAdd_vec_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (n : Fin N)
    (x : (⟨1, ![N]⟩ : Shape).Idx → EReal) (upd : (⟨1, ![E]⟩ : Shape).Idx → EReal) :
    Ideal.hostScatterAdd d x idx upd (ix1 n)
      = x (ix1 n)
        + ∑ e ∈ Finset.univ.filter (fun e : Fin E => (idx (ix2 e (0 : Fin 1))).toInt = (n.val : Int)), upd (ix1 e) := by
  unfold Ideal.hostScatterAdd
  rw [vec_sum_landing d h1 h2 h3 h4 idx n upd]

end Cert.LibGraphOps

end
-- ==== Proof.LibRowGather.lean ====
/-
  A host gather of whole rows, read at an index.

  The operand is an N×C matrix, the indices an E×1 column of integers, the result E×C: row `e` of the result is the
  operand's row at the `e`-th index, that index read signed and clamped into `[0, N − 1]` (the one admissible start of a
  one-row window).  So the result at `(e, i)` is the operand at `(clamp (idx e), i)`: the column coordinate passes
  through unchanged.  In particular gathering the rows of two matrices laid side by side is laying the two gathers side
  by side, since the clamp depends on the number of rows only.
-/
import Idealize.ShloMosaic.Lib.ValueIdx
import Idealize.ShloMosaic.Lib.Pipeline.Value

noncomputable section

namespace Cert.LibRowGather

open Idealize.ShloMosaic Idealize.ShloMosaic.ValueIdx

variable {α : Type}

/-- The dimension numbers of a gather of whole rows by a column of indices. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index selects: the index read signed, clamped into `[0, N − 1]`. -/
def rowOf {w : Nat} (N : Nat) (hN : 0 < N) (v : BitVec w) : Fin N := ⟨min v.toInt.toNat (N - 1), by omega⟩

/-- THE ROW GATHER READ AT `(e, i)`: the operand at the selected row and the same column. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (i : Fin C) :
    Host.gather (rowDims N C E wf) x idx (ix2 e i) = x (ix2 (rowOf N hN (idx (ix2 e (0 : Fin 1)))) i) := by
  unfold Host.gather
  congr 1
  funext a
  refine Fin.ext ?_
  show (rowDims N C E wf).start (ix2 e i) idx a + (rowDims N C E wf).batchCoord (ix2 e i) a + (rowDims N C E wf).offCoord (ix2 e i) a = _
  rw [GatherDims.batchCoord_eq_zero _ _ _ List.not_mem_nil]
  match a with
  | ⟨0, _⟩ =>
    have hs : (rowDims N C E wf).start (ix2 e i) idx (0 : Fin 2) = min (idx (ix2 e (0 : Fin 1))).toInt.toNat (N - 1) := by
      unfold GatherDims.start
      rw [dif_pos (show (0 : Fin 2) ∈ (rowDims N C E wf).startIndexMap from List.mem_singleton.mpr rfl)]
      have hsi : (rowDims N C E wf).siIdx (ix2 e i) ⟨List.idxOf (0 : Fin 2) (rowDims N C E wf).startIndexMap,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
      rfl
    have ho : (rowDims N C E wf).offCoord (ix2 e i) (0 : Fin 2) = 0 :=
      GatherDims.offCoord_eq_zero _ _ _ (fun h => ((GatherDims.mem_sKept _ _).mp h).1 (List.mem_singleton.mpr rfl))
    show (rowDims N C E wf).start (ix2 e i) idx (0 : Fin 2) + 0 + (rowDims N C E wf).offCoord (ix2 e i) (0 : Fin 2)
      = min (idx (ix2 e (0 : Fin 1))).toInt.toNat (N - 1)
    rw [hs, ho]; rfl
  | ⟨1, _⟩ =>
    have hs : (rowDims N C E wf).start (ix2 e i) idx (1 : Fin 2) = 0 := by
      unfold GatherDims.start
      rw [dif_neg (show (1 : Fin 2) ∉ [(0 : Fin 2)] from by decide)]
    have ho : (rowDims N C E wf).offCoord (ix2 e i) (1 : Fin 2) = i.val := by
      unfold GatherDims.offCoord
      rw [dif_pos ((GatherDims.mem_sKept _ _).mpr ⟨(show (1 : Fin 2) ∉ [(0 : Fin 2)] from by decide), List.not_mem_nil⟩)]
      rfl
    show (rowDims N C E wf).start (ix2 e i) idx (1 : Fin 2) + 0 + (rowDims N C E wf).offCoord (ix2 e i) (1 : Fin 2) = i.val
    rw [hs, ho]; omega

end Cert.LibRowGather

end
-- ==== Proof.LibGraphIndex.lean ====
/-
  Node numbers as 32-bit words: what a gather reads, and the index normalisation in front of it.

  A gather by a column of index words reads, for edge `e`, the node whose number is the `e`-th word read signed and
  clamped into `[0, N − 1]`.  Here: the gather of scalars from a vector and the gather of whole rows of a matrix, each
  for any dimension-number record with the right fields; the column of words obtained by laying a vector of words out
  as an `E × 1` matrix; and the normalisation that adds `N` to a negative word (a negative index counts from the
  end), read word by word.  A word that already is a node number is left alone by the normalisation and selects that
  node.
-/
import Idealize.ShloMosaic.Lib.ValueIdx
import Idealize.ShloMosaic.Lib.Pipeline.Value
import proofs.«182147_j31610959298973_2_alg».proof.Proof.LibRowGather

noncomputable section

namespace Cert.LibGraphIndex

open Idealize.ShloMosaic Idealize.ShloMosaic.ValueIdx Cert.LibRowGather

variable {α : Type} {N C E w : Nat}

/-! ## Gathers -/

/-- The dimension numbers of a gather of scalars from a vector by a column of indices. -/
abbrev scalarDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The scalar gather read at `e`, for the record spelt out: the vector at the selected entry. -/
theorem gather_scalars_dims_apply (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (scalarDims N E wf) v idx (ix1 e) = v (ix1 (rowOf N hN (idx (ix2 e (0 : Fin 1))))) := by
  unfold Host.gather
  refine congrArg v (funext fun a => Fin.ext ?_)
  show (scalarDims N E wf).start (ix1 e) idx a + (scalarDims N E wf).batchCoord (ix1 e) a
    + (scalarDims N E wf).offCoord (ix1 e) a = _
  rw [GatherDims.batchCoord_eq_zero _ _ _ List.not_mem_nil]
  match a with
  | ⟨0, _⟩ =>
    have hs : (scalarDims N E wf).start (ix1 e) idx (0 : Fin 1) = min (idx (ix2 e (0 : Fin 1))).toInt.toNat (N - 1) := by
      unfold GatherDims.start
      rw [dif_pos (show (0 : Fin 1) ∈ (scalarDims N E wf).startIndexMap from List.mem_singleton.mpr rfl)]
      have hsi : (scalarDims N E wf).siIdx (ix1 e) ⟨List.idxOf (0 : Fin 1) (scalarDims N E wf).startIndexMap,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
      rfl
    have ho : (scalarDims N E wf).offCoord (ix1 e) (0 : Fin 1) = 0 :=
      GatherDims.offCoord_eq_zero _ _ _ (fun h => ((GatherDims.mem_sKept _ _).mp h).1 (List.mem_singleton.mpr rfl))
    show (scalarDims N E wf).start (ix1 e) idx (0 : Fin 1) + 0 + (scalarDims N E wf).offCoord (ix1 e) (0 : Fin 1)
      = min (idx (ix2 e (0 : Fin 1))).toInt.toNat (N - 1)
    rw [hs, ho]; rfl

/-- THE SCALAR GATHER READ AT `e`: a gather of scalars from a vector of `N` by an `E × 1` column of index words
    reads, at `e`, the vector at the `e`-th word read signed and clamped into `[0, N − 1]`. -/
theorem gather_scalars_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (v : (⟨1, ![N]⟩ : Shape).Idx → α) (idx : IVec ⟨2, ![E, 1]⟩ w) (e : Fin E) :
    Host.gather d v idx (ix1 e) = v (ix1 (rowOf N hN (idx (ix2 e (0 : Fin 1))))) := by
  obtain ⟨od, cd, ob, sb, sm, iv, ss, wf⟩ := d
  dsimp only at h1 h2 h3 h4 h5 h6 h7
  subst h1 h2 h3 h4 h5 h6 h7
  exact gather_scalars_dims_apply hN wf v idx e

/-- THE ROW GATHER READ AT `(e, i)`, for any record with the fields of a gather of whole rows: the matrix at the
    selected row and the same column. -/
theorem gather_rows_apply' (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E)
    (i : Fin C) :
    Host.gather d x idx (ix2 e i) = x (ix2 (rowOf N hN (idx (ix2 e (0 : Fin 1)))) i) := by
  obtain ⟨od, cd, ob, sb, sm, iv, ss, wf⟩ := d
  dsimp only at h1 h2 h3 h4 h5 h6 h7
  subst h1 h2 h3 h4 h5 h6 h7
  exact gather_rows_apply hN wf x idx e i

/-! ## A vector of words laid out as a column -/

/-- A vector of `E` entries broadcast to an `E × 1` column reads, at `(e, 0)`, the vector's entry `e`. -/
theorem bcast_col_apply (hb : (⟨1, ![E]⟩ : Shape).BroadcastsInDim ⟨2, ![E, 1]⟩ ![0])
    (x : (⟨1, ![E]⟩ : Shape).Idx → α) (e : Fin E) (k : Fin 1) :
    broadcastInDim ⟨2, ![E, 1]⟩ ![0] hb x (ix2 e k) = x (ix1 e) := by
  unfold broadcastInDim
  refine congrArg x (funext fun a => ?_)
  match a with
  | ⟨0, _⟩ =>
    refine Fin.ext ?_
    split
    · rename_i h1
      have h1' : E = 1 := h1
      have := e.isLt
      show 0 = e.val
      omega
    · rfl

/-- A constant broadcast to a vector reads the constant at every entry. -/
theorem bcast_const_apply (hb : (⟨0, ![]⟩ : Shape).BroadcastsInDim ⟨1, ![E]⟩ ![]) (K : BitVec w)
    (j : (⟨1, ![E]⟩ : Shape).Idx) :
    broadcastInDim ⟨1, ![E]⟩ ![] hb (constantI ⟨0, ![]⟩ w K) j = K := rfl

/-! ## The index normalisation -/

/-- THE NORMALISATION READ AT AN INDEX.  Where the word is negative (signed comparison with a zero) the sum of the
    word and the offset is taken, elsewhere the word itself: at index `j`, the word plus the offset if the word reads
    negative, else the word. -/
theorem normalise_apply {S : Shape} (s z n : IVec S 32) (j : S.Idx) (hz : z j = 0#32) :
    select (cmpi .slt s z) (addi s n) s j = if (s j).toInt < 0 then s j + n j else s j := by
  show Scalar.select (IntOp.cmpi .slt (s j) (z j)) (IntOp.addi (s j) (n j)) (s j) = _
  rw [hz]
  unfold Scalar.select IntOp.cmpi IntOp.addi
  by_cases h : (s j).toInt < 0
  · rw [if_pos h, if_pos]
    simp [BitVec.slt, h]
  · rw [if_neg h, if_neg]
    simp [BitVec.slt, h]

/-- The same with the zero and the offset `K` given as constants broadcast to the vector's shape. -/
theorem normalise_bcast_apply (hb : (⟨0, ![]⟩ : Shape).BroadcastsInDim ⟨1, ![E]⟩ ![]) (s : IVec ⟨1, ![E]⟩ 32)
    (K : BitVec 32) (e : Fin E) :
    select (cmpi .slt s (broadcastInDim ⟨1, ![E]⟩ ![] hb (constantI ⟨0, ![]⟩ 32 0#32)))
        (addi s (broadcastInDim ⟨1, ![E]⟩ ![] hb (constantI ⟨0, ![]⟩ 32 K))) s (ix1 e)
      = if (s (ix1 e)).toInt < 0 then s (ix1 e) + K else s (ix1 e) :=
  normalise_apply s _ _ (ix1 e) rfl

/-- A word that reads as a natural number is left alone by the normalisation. -/
theorem normalise_of_nat (v K : BitVec 32) (i : Nat) (hv : v.toInt = (i : Int)) :
    (if v.toInt < 0 then v + K else v) = v := by
  rw [if_neg]
  rw [hv]
  exact not_lt.mpr (Int.natCast_nonneg i)

/-- A word that reads as the node number `i` selects node `i`: the clamp does nothing. -/
theorem rowOf_of_eq (hN : 0 < N) (v : BitVec w) (i : Fin N) (hv : v.toInt = (i.val : Int)) : rowOf N hN v = i := by
  apply Fin.ext
  show min v.toInt.toNat (N - 1) = i.val
  rw [hv, Int.toNat_natCast]
  have := i.isLt
  omega

/-- The normalised word as an integer, for any word: a negative word `v` becomes `v + K` exactly (no wrap-around,
    since `-2^31 ≤ v < 0` and `0 ≤ K < 2^31`), another word is unchanged. -/
theorem toInt_normalise (v : BitVec 32) (K : Nat) (hK : K < 2 ^ 31) :
    (if v.toInt < 0 then v + BitVec.ofNat 32 K else v).toInt = if v.toInt < 0 then v.toInt + (K : Int) else v.toInt := by
  have hlo := BitVec.le_toInt v
  have hhi : v.toInt < 2 ^ (32 - 1) := BitVec.toInt_lt
  by_cases h : v.toInt < 0
  · rw [if_pos h, if_pos h, BitVec.toInt_add, BitVec.toInt_ofNat']
    simp only [Int.bmod]
    norm_num at hlo hhi ⊢
    split_ifs <;> omega
  · rw [if_neg h, if_neg h]

end Cert.LibGraphIndex

end
-- ==== Proof.KI.HostAt.lean ====
import proofs.«182147_j31610959298973_2_alg».proof.Proof.KI.HostTerms
import proofs.«182147_j31610959298973_2_alg».proof.Proof.LibGraphOps
import proofs.«182147_j31610959298973_2_alg».proof.Proof.LibRowGather
import proofs.«182147_j31610959298973_2_alg».proof.Proof.LibColumnCasts
import proofs.«182147_j31610959298973_2_alg».proof.Proof.LibGraphIndex
import Idealize.ShloMosaic.Lib.ValueIdx
import Idealize.ShloMosaic.Lib.ValueLayout

/-! The host stretches' named terms read at an index, over the extended reals: the normalisation column
is the inverse square root of one plus the number of edges whose target is the node; the neighbourhood
sum at a node and a column is the sum, over the edges whose target is the node, of the gathered row's
entry in that column; the mean and the variance are the column sums divided by the number of rows; a
parameter vector viewed as a row reads the vector at the column. -/

noncomputable section

namespace Cert.KernelIdeal.Host

open Cert.KernelIdeal Cert.KernelIdeal.Gen
open Idealize.ShloMosaic Idealize.ShloMosaic.TcCoe Idealize.ShloMosaic.ValueIdx

/-! ## General reads -/

/-- A vector `[E]` broadcast to the column `[E, 1]` along axis 0 reads, at `(e, u)`, the vector at `e`. -/
theorem bcastCol_apply {α : Type} {E : ℕ} (h : (⟨1, ![E]⟩ : Shape).BroadcastsInDim ⟨2, ![E, 1]⟩ ![0])
    (x : (⟨1, ![E]⟩ : Shape).Idx → α) (e : Fin E) (u : Fin 1) :
    broadcastInDim ⟨2, ![E, 1]⟩ ![0] h x (ix2 e u) = x (ix1 e) := by
  unfold broadcastInDim
  refine congrArg x (funext fun a => ?_)
  match a with
  | ⟨0, _⟩ =>
    dsimp only
    split
    · rename_i h1
      have hE : E = 1 := h1
      apply Fin.ext
      have := e.isLt
      show 0 = e.val
      omega
    · rfl

/-- A scalar constant broadcast to any shape reads the constant's value everywhere. -/
theorem bcastConst_apply {t : Shape} (h : S_.BroadcastsInDim t ![]) (φ : FTy) (b : BitVec φ.bits) (i : t.Idx) :
    broadcastInDim t ![] h (constant (F := Ideal) S_ φ b) i = Ideal.ofBits φ b := rfl

/-- The host's accumulating scatter over the extended reals is the exact sum. -/
theorem hostScatterAdd_eq {s si u : Shape} {w : ℕ} {φ : FTy} (d : ScatterDims s si u) (x : FVec Ideal s φ) (idx : IVec si w)
    (upd : FVec Ideal u φ) : Host.scatterAdd d x idx upd = Ideal.hostScatterAdd d x idx upd := rfl

/-- The host's inverse square root over the extended reals, entry by entry. -/
theorem hostRsqrt_apply {s : Shape} {φ : FTy} (x : FVec Ideal s φ) (i : s.Idx) : Host.rsqrt x i = Ideal.rsqrt (x i) := rfl

/-- The host's division over the extended reals, entry by entry. -/
theorem hostDivf_apply {s : Shape} {φ : FTy} (x y : FVec Ideal s φ) (i : s.Idx) : Host.divf x y i = Ideal.div (x i) (y i) := rfl

/-! ## The edge rows and the index normalisation -/

/-- The source row read at an edge: entry `(0, e)` of the edge list. -/
theorem srcOf_apply (ei : (⟨S2x800000, .i32⟩ : BufTy).Contents (Elt Ideal)) (e : Fin 800000) :
    srcOf (F := Ideal) ei (ix1 e) = ei (ix2 0 e) := by
  unfold srcOf
  rw [shapeCast_1a_a_apply]
  exact slice2_axis0_apply 0 ei _ 0 e 0 rfl

/-- The target row read at an edge: entry `(1, e)` of the edge list. -/
theorem dstOf_apply (ei : (⟨S2x800000, .i32⟩ : BufTy).Contents (Elt Ideal)) (e : Fin 800000) :
    dstOf (F := Ideal) ei (ix1 e) = ei (ix2 1 e) := by
  unfold dstOf
  rw [shapeCast_1a_a_apply]
  exact slice2_axis0_apply 1 ei _ 0 e 1 rfl

/-- The normalised source index at an edge: the word plus the number of nodes where the word reads negative,
    else the word. -/
theorem wrapIdx_apply (src : (⟨S800000, .i32⟩ : BufTy).Contents (Elt Ideal)) (e : Fin 800000) :
    wrapIdx (F := Ideal) src (ix1 e) = if (src (ix1 e)).toInt < 0 then src (ix1 e) + 50000#32 else src (ix1 e) := by
  unfold wrapIdx
  exact LibGraphIndex.normalise_bcast_apply bcast_S_S800000 src 50000#32 e

/-! ## The in-degree and the normalisation column -/

theorem degOf_apply (dst : (⟨S800000, .i32⟩ : BufTy).Contents (Elt Ideal)) (n : Fin 50000) :
    degOf (F := Ideal) dst (ix1 n)
      = Ideal.ofBits .f32 0x00000000#32
        + ∑ e ∈ Finset.univ.filter (fun e : Fin 800000 => (dst (ix1 e)).toInt = (n.val : ℤ)), Ideal.ofBits .f32 0x3F800000#32 := by
  unfold degOf
  rw [hostScatterAdd_eq, LibGraphOps.hostScatterAdd_vec_apply _ rfl rfl rfl rfl]
  refine congrArg₂ (· + ·) rfl ?_
  refine Finset.sum_congr (Finset.filter_congr fun e _ => ?_) (fun e _ => rfl)
  rw [bcastCol_apply]

theorem disOfDst_apply (dst : (⟨S800000, .i32⟩ : BufTy).Contents (Elt Ideal)) (n : Fin 50000) :
    disOfDst (F := Ideal) dst (ix2 n 0)
      = Ideal.rsqrt ((Ideal.ofBits .f32 0x00000000#32
          + ∑ e ∈ Finset.univ.filter (fun e : Fin 800000 => (dst (ix1 e)).toInt = (n.val : ℤ)), Ideal.ofBits .f32 0x3F800000#32)
          + Ideal.ofBits .f32 0x3F800000#32) := by
  unfold disOfDst
  rw [LibColumnCasts.shapeCast_a_a1_apply, hostRsqrt_apply, addf_apply, bcastConst_apply, degOf_apply]

theorem disOf_apply (ei : (⟨S2x800000, .i32⟩ : BufTy).Contents (Elt Ideal)) (n : Fin 50000) :
    disOf (F := Ideal) ei (ix2 n 0)
      = Ideal.rsqrt ((Ideal.ofBits .f32 0x00000000#32
          + ∑ e ∈ Finset.univ.filter (fun e : Fin 800000 => (dstOf (F := Ideal) ei (ix1 e)).toInt = (n.val : ℤ)), Ideal.ofBits .f32 0x3F800000#32)
          + Ideal.ofBits .f32 0x3F800000#32) :=
  disOfDst_apply (dstOf ei) n

/-! ## The neighbourhood sums -/

theorem aggOf_apply (hs : (⟨S50000x128, .f32⟩ : BufTy).Contents (Elt Ideal))
    (src dst : (⟨S800000, .i32⟩ : BufTy).Contents (Elt Ideal)) (n : Fin 50000) (j : Fin 128) :
    aggOf (F := Ideal) hs src dst (ix2 n j)
      = Ideal.ofBits .f32 0x00000000#32
        + ∑ e ∈ Finset.univ.filter (fun e : Fin 800000 => (dst (ix1 e)).toInt = (n.val : ℤ)),
            hs (ix2 (LibRowGather.rowOf 50000 (by decide) (wrapIdx (F := Ideal) src (ix1 e))) j) := by
  unfold aggOf
  rw [hostScatterAdd_eq, LibGraphOps.hostScatterAdd_rows_apply _ rfl rfl rfl rfl]
  refine congrArg₂ (· + ·) rfl ?_
  refine Finset.sum_congr (Finset.filter_congr fun e _ => ?_) (fun e _ => ?_)
  · rw [bcastCol_apply]
  · have hg := LibRowGather.gather_rows_apply (N := 50000) (C := 128) (E := 800000) (by decide)
      Facts₀.gather_S50000x128_S800000x1_S800000x128_1_0_n_n_0_1_1128_wf hs
      (broadcastInDim S800000x1 ![0] bcast_S800000_S800000x1_0 (wrapIdx (F := Ideal) src)) e j
    rw [bcastCol_apply] at hg
    exact hg

theorem aggOf32_apply (hs : (⟨S50000x32, .f32⟩ : BufTy).Contents (Elt Ideal))
    (src dst : (⟨S800000, .i32⟩ : BufTy).Contents (Elt Ideal)) (n : Fin 50000) (j : Fin 32) :
    aggOf32 (F := Ideal) hs src dst (ix2 n j)
      = Ideal.ofBits .f32 0x00000000#32
        + ∑ e ∈ Finset.univ.filter (fun e : Fin 800000 => (dst (ix1 e)).toInt = (n.val : ℤ)),
            hs (ix2 (LibRowGather.rowOf 50000 (by decide) (wrapIdx (F := Ideal) src (ix1 e))) j) := by
  unfold aggOf32
  rw [hostScatterAdd_eq, LibGraphOps.hostScatterAdd_rows_apply _ rfl rfl rfl rfl]
  refine congrArg₂ (· + ·) rfl ?_
  refine Finset.sum_congr (Finset.filter_congr fun e _ => ?_) (fun e _ => ?_)
  · rw [bcastCol_apply]
  · have hg := LibRowGather.gather_rows_apply (N := 50000) (C := 32) (E := 800000) (by decide)
      Facts₀.gather_S50000x32_S800000x1_S800000x32_1_0_n_n_0_1_132_wf hs
      (broadcastInDim S800000x1 ![0] bcast_S800000_S800000x1_0 (wrapIdx (F := Ideal) src)) e j
    rw [bcastCol_apply] at hg
    exact hg

/-! ## The batch statistics and the parameter rows -/

theorem meanOf_apply (s : (⟨S1x128, .f32⟩ : BufTy).Contents (Elt Ideal)) (j : Fin 128) :
    meanOf (F := Ideal) s (ix2 0 j) = Ideal.div (s (ix2 0 j)) (Ideal.ofBits .f32 0x47435000#32) := rfl

theorem varOf_apply (s sq : (⟨S1x128, .f32⟩ : BufTy).Contents (Elt Ideal)) (j : Fin 128) :
    varOf (F := Ideal) s sq (ix2 0 j)
      = Ideal.div (sq (ix2 0 j)) (Ideal.ofBits .f32 0x47435000#32)
        - Ideal.div (s (ix2 0 j)) (Ideal.ofBits .f32 0x47435000#32) * Ideal.div (s (ix2 0 j)) (Ideal.ofBits .f32 0x47435000#32) := rfl

theorem rowOf128_apply (b : (⟨S128, .f32⟩ : BufTy).Contents (Elt Ideal)) (j : Fin 128) :
    rowOf128 (F := Ideal) b (ix2 0 j) = b (ix1 j) := by
  unfold rowOf128
  exact shapeCast_a_1a_apply b _ 0 j

theorem rowOf32_apply (b : (⟨S32, .f32⟩ : BufTy).Contents (Elt Ideal)) (j : Fin 32) :
    rowOf32 (F := Ideal) b (ix2 0 j) = b (ix1 j) := by
  unfold rowOf32
  exact shapeCast_a_1a_apply b _ 0 j

end Cert.KernelIdeal.Host

end
-- ==== Proof.KI.StageAt.lean ====
import proofs.«182147_j31610959298973_2_alg».proof.Proof.KI.HostAt
import proofs.«182147_j31610959298973_2_alg».proof.Proof.KI.ValDefs
import proofs.«182147_j31610959298973_2_alg».proof.Proof.KI.ValDefs1
import Idealize.ShloMosaic.PureOps.Ideal.Laws

/-! The stages of the main program read at an index: the host terms applied to the regions' whole-array
functions, entry by entry, over the extended reals. -/

noncomputable section

namespace Cert.KernelIdeal.Hand

open Cert.KernelIdeal
open Idealize.ShloMosaic Idealize.ShloMosaic.ValueIdx
open scoped BigOperators

/-- The node an edge's source word selects: the word normalised (a negative word counts from the end), read
    signed and clamped into the node range. -/
def srcRow (src : (⟨S800000, .i32⟩ : BufTy).Contents (Elt Ideal)) (e : Fin 800000) : Fin 50000 :=
  LibRowGather.rowOf 50000 (by decide) (if (src (ix1 e)).toInt < 0 then src (ix1 e) + 50000#32 else src (ix1 e))

/-- The neighbourhood sum of any array of rows, at node `n` and column `j`: the sum, over the edges whose
    target is `n`, of the source node's entry in column `j`. -/
theorem agg_apply (hs : S50000x128.Idx → EReal) (src dst : (⟨S800000, .i32⟩ : BufTy).Contents (Elt Ideal))
    (n : Fin 50000) (j : Fin 128) :
    Host.aggOf (F := Ideal) hs src dst (ix2 n j)
      = 0 + ∑ e ∈ Finset.univ.filter (fun e : Fin 800000 => (dst (ix1 e)).toInt = (n.val : ℤ)),
          hs (ix2 (srcRow src e) j) := by
  rw [Host.aggOf_apply, Ideal.ofBits_zero_f32]
  refine congrArg (0 + ·) (Finset.sum_congr rfl fun e _ => ?_)
  rw [Host.wrapIdx_apply]
  rfl

/-- The same at width 32. -/
theorem agg32_apply (hs : S50000x32.Idx → EReal) (src dst : (⟨S800000, .i32⟩ : BufTy).Contents (Elt Ideal))
    (n : Fin 50000) (j : Fin 32) :
    Host.aggOf32 (F := Ideal) hs src dst (ix2 n j)
      = 0 + ∑ e ∈ Finset.univ.filter (fun e : Fin 800000 => (dst (ix1 e)).toInt = (n.val : ℤ)),
          hs (ix2 (srcRow src e) j) := by
  rw [Host.aggOf32_apply, Ideal.ofBits_zero_f32]
  refine congrArg (0 + ·) (Finset.sum_congr rfl fun e _ => ?_)
  rw [Host.wrapIdx_apply]
  rfl

/-- The first neighbourhood sum of the scaled product, at node `n` and column `j`: the sum, over the edges
    whose target is `n`, of the source node's row of `x` times column `j` of `W`, scaled by the source node's
    entry of `dis`. -/
theorem agg_scaled_apply (x : S50000x128.Idx → EReal) (W : S128x128.Idx → EReal) (dis : S50000x1.Idx → EReal)
    (src dst : (⟨S800000, .i32⟩ : BufTy).Contents (Elt Ideal)) (n : Fin 50000) (j : Fin 128) :
    Host.aggOf (F := Ideal) (scaledProduct x W dis) src dst (ix2 n j)
      = 0 + ∑ e ∈ Finset.univ.filter (fun e : Fin 800000 => (dst (ix1 e)).toInt = (n.val : ℤ)),
          (∑ k : Fin 128, x (ix2 (srcRow src e) k) * W (ix2 k j)) * dis (ix2 (srcRow src e) (0 : Fin 1)) := by
  rw [Host.aggOf_apply, Ideal.ofBits_zero_f32]
  refine congrArg (0 + ·) (Finset.sum_congr rfl fun e _ => ?_)
  rw [scaledProduct_apply, Host.wrapIdx_apply]
  rfl

/-- The same for the weight matrix of 32 columns. -/
theorem agg32_scaled_apply (x : S50000x128.Idx → EReal) (W32 : S128x32.Idx → EReal) (dis : S50000x1.Idx → EReal)
    (src dst : (⟨S800000, .i32⟩ : BufTy).Contents (Elt Ideal)) (n : Fin 50000) (j : Fin 32) :
    Host.aggOf32 (F := Ideal) (scaledProduct32 x W32 dis) src dst (ix2 n j)
      = 0 + ∑ e ∈ Finset.univ.filter (fun e : Fin 800000 => (dst (ix1 e)).toInt = (n.val : ℤ)),
          (∑ k : Fin 128, x (ix2 (srcRow src e) k) * W32 (ix2 k j)) * dis (ix2 (srcRow src e) (0 : Fin 1)) := by
  rw [agg32_apply]
  refine congrArg (0 + ·) (Finset.sum_congr rfl fun e _ => ?_)
  rw [scaledProduct32_apply]

/-! ## The kernel stages -/

/-- A convolution stage at node `n` and column `j`: the node's scale factor times the sum of the neighbourhood
    sum of the scaled product and the node's own entry of the scaled product, plus the bias. -/
theorem conv_stage_apply (x : S50000x128.Idx → EReal) (W : S128x128.Idx → EReal) (dis : S50000x1.Idx → EReal)
    (src dst : (⟨S800000, .i32⟩ : BufTy).Contents (Elt Ideal)) (b : (⟨S128, .f32⟩ : BufTy).Contents (Elt Ideal))
    (n : Fin 50000) (j : Fin 128) :
    convEpilogue (Host.aggOf (F := Ideal) (scaledProduct x W dis) src dst) (scaledProduct x W dis) dis
        (Host.rowOf128 (F := Ideal) b) (ix2 n j)
      = dis (ix2 n (0 : Fin 1))
          * ((0 + ∑ e ∈ Finset.univ.filter (fun e : Fin 800000 => (dst (ix1 e)).toInt = (n.val : ℤ)),
                (∑ k : Fin 128, x (ix2 (srcRow src e) k) * W (ix2 k j)) * dis (ix2 (srcRow src e) (0 : Fin 1)))
              + (∑ k : Fin 128, x (ix2 n k) * W (ix2 k j)) * dis (ix2 n (0 : Fin 1)))
        + b (ix1 j) := by
  rw [convEpilogue_apply, agg_scaled_apply, scaledProduct_apply, Host.rowOf128_apply]

/-- A batch-normalisation stage at node `n` and column `j`, the statistics taken from the column sums of the
    convolution's output and of its squares. -/
theorem bn_stage_apply (conv res : S50000x128.Idx → EReal) (g be : (⟨S128, .f32⟩ : BufTy).Contents (Elt Ideal))
    (n : Fin 50000) (j : Fin 128) :
    bnReluRes conv res (Host.meanOf (F := Ideal) (colSum conv)) (Host.varOf (F := Ideal) (colSum conv) (colSumSq conv))
        (Host.rowOf128 (F := Ideal) g) (Host.rowOf128 (F := Ideal) be) (ix2 n j)
      = max ((conv (ix2 n j) - Ideal.div (0 + ∑ n' : Fin 50000, conv (ix2 n' j)) (Ideal.ofBits .f32 0x47435000#32))
            * Ideal.rsqrt ((Ideal.div (0 + ∑ n' : Fin 50000, conv (ix2 n' j) * conv (ix2 n' j)) (Ideal.ofBits .f32 0x47435000#32)
                - Ideal.div (0 + ∑ n' : Fin 50000, conv (ix2 n' j)) (Ideal.ofBits .f32 0x47435000#32)
                  * Ideal.div (0 + ∑ n' : Fin 50000, conv (ix2 n' j)) (Ideal.ofBits .f32 0x47435000#32))
              + Ideal.ofBits .f32 0x3727C5AC#32)
            * g (ix1 j) + be (ix1 j)) 0
        + res (ix2 n j) := by
  rw [bnReluRes_apply, Host.meanOf_apply, Host.varOf_apply, Host.rowOf128_apply, Host.rowOf128_apply, colSum_apply,
    colSumSq_apply]

/-- The last stage at node `n` and column `j`: the log-softmax of the node's row of the width-32 convolution. -/
theorem last_stage_apply (x : S50000x128.Idx → EReal) (W32 : S128x32.Idx → EReal) (dis : S50000x1.Idx → EReal)
    (src dst : (⟨S800000, .i32⟩ : BufTy).Contents (Elt Ideal)) (b32 : (⟨S32, .f32⟩ : BufTy).Contents (Elt Ideal))
    (n : Fin 50000) (j : Fin 32) :
    logSoftmaxConv dis (Host.aggOf32 (F := Ideal) (scaledProduct32 x W32 dis) src dst) (scaledProduct32 x W32 dis)
        (Host.rowOf32 (F := Ideal) b32) (ix2 n j)
      = logSoftmaxRow (fun c => dis (ix2 n (0 : Fin 1))
          * ((0 + ∑ e ∈ Finset.univ.filter (fun e : Fin 800000 => (dst (ix1 e)).toInt = (n.val : ℤ)),
                (∑ k : Fin 128, x (ix2 (srcRow src e) k) * W32 (ix2 k c)) * dis (ix2 (srcRow src e) (0 : Fin 1)))
              + (∑ k : Fin 128, x (ix2 n k) * W32 (ix2 k c)) * dis (ix2 n (0 : Fin 1)))
          + b32 (ix1 c)) j := by
  rw [logSoftmaxConv_apply]
  refine congrArg (fun r => logSoftmaxRow r j) (funext fun c => ?_)
  unfold convRow
  rw [agg32_scaled_apply, scaledProduct32_apply, Host.rowOf32_apply]

end Cert.KernelIdeal.Hand

end
-- ==== Proof.LibGcnEReal.lean ====
/-
  Extended-real algebra for a graph convolution network with batch normalisation: the float literals as
  extended reals, the two arrangements of a normalised neighbourhood sum, a matrix product row, the two
  formulas for a variance, the finiteness of a normalised activation, the positivity of a degree scale,
  and the regrouping of an accumulation carried across blocks of rows.

  In the extended reals addition and multiplication are commutative and associative, but distributivity,
  cancellation and the laws of subtraction need finite operands: every lemma here takes its operands as
  coerced reals.
-/
import Mathlib.Data.EReal.Operations
import Mathlib.Data.EReal.Inv
import Mathlib.Algebra.BigOperators.Group.Finset.Basic
import Mathlib.Algebra.BigOperators.Fin
import Mathlib.Analysis.SpecialFunctions.Pow.Real
import Idealize.ShloMosaic.PureOps.Ideal

noncomputable section

namespace Cert.LibGcnEReal

open Idealize.ShloMosaic
open scoped BigOperators

/-! ### The literals -/

/-- The single-precision pattern `0x47435000` denotes the real `50000`. -/
theorem ofBits_50000 : Ideal.ofBits .f32 0x47435000#32 = ((50000 : ℝ) : EReal) := by
  simp [Ideal.ofBits, Ideal.ieee, -EReal.coe_mul]; norm_num

/-- The single-precision pattern `0x3F800000` denotes the real `1`. -/
theorem ofBits_one : Ideal.ofBits .f32 0x3F800000#32 = ((1 : ℝ) : EReal) := by
  simp [Ideal.ofBits, Ideal.ieee, -EReal.coe_mul]; norm_num

/-- The single-precision pattern of `+0.0` denotes `0`. -/
theorem ofBits_zero : Ideal.ofBits .f32 0x00000000#32 = 0 := by
  simp [Ideal.ofBits, Ideal.ieee]

/-- The single-precision pattern `0x3727C5AC` (the float nearest to `1e-5`) denotes a positive real. -/
theorem ofBits_eps : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee, -EReal.coe_mul]

/-- The single-precision pattern `0xFF800000` (minus infinity) denotes `⊥`. -/
theorem ofBits_neg_inf : Ideal.ofBits .f32 0xFF800000#32 = ⊥ := by
  simp [Ideal.ofBits, Ideal.ieee]

/-! ### Finite sums of coerced reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a finite sum of products of reals is the sum of the products of the coercions. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-! ### The graph convolution, two arrangements -/

/-- The real value of a normalised neighbourhood sum at node `n`: the node's scale times the sum of the scaled
    features of its in-neighbours and of itself, plus the bias. -/
def convReal {ι κ : Type*} (P : Finset ι) (S : ι → κ) (h dis : κ → ℝ) (b : ℝ) (n : κ) : ℝ :=
  dis n * (∑ e ∈ P, h (S e) * dis (S e) + h n * dis n) + b

/-- First arrangement: every feature row is scaled once at its source, the rows arriving at `n` and `n`'s own
    row are added up, and the total is scaled at `n`. -/
theorem conv_scaled_rows {ι κ : Type*} (P : Finset ι) (S : ι → κ) (h dis : κ → ℝ) (b : ℝ) (n : κ) :
    ((dis n : ℝ) : EReal) * ((0 + ∑ e ∈ P, ((h (S e) * dis (S e) : ℝ) : EReal)) + ((h n * dis n : ℝ) : EReal))
        + (b : EReal) = ((convReal P S h dis b n : ℝ) : EReal) := by
  rw [zero_add, ← coe_sum, ← EReal.coe_add, ← EReal.coe_mul, ← EReal.coe_add]
  rfl

/-- Second arrangement: every edge into `n` carries the weight `dis (source) * dis (target)`, and `n`'s own row
    the weight `dis n * dis n`. -/
theorem conv_edge_weights {ι κ : Type*} (P : Finset ι) (S D : ι → κ) (h dis : κ → ℝ) (b : ℝ) (n : κ)
    (hD : ∀ e ∈ P, D e = n) :
    ((0 + ∑ e ∈ P, (h (S e) : EReal) * ((dis (S e) : EReal) * (dis (D e) : EReal)))
        + (h n : EReal) * ((dis n : EReal) * (dis n : EReal))) + (b : EReal)
      = ((convReal P S h dis b n : ℝ) : EReal) := by
  have h1 : ∑ e ∈ P, (h (S e) : EReal) * ((dis (S e) : EReal) * (dis (D e) : EReal))
      = ((∑ e ∈ P, h (S e) * (dis (S e) * dis n) : ℝ) : EReal) := by
    rw [coe_sum]
    refine Finset.sum_congr rfl fun e he => ?_
    rw [hD e he, ← EReal.coe_mul, ← EReal.coe_mul]
  rw [h1, zero_add, ← EReal.coe_mul, ← EReal.coe_mul, ← EReal.coe_add, ← EReal.coe_add]
  refine congrArg _ ?_
  unfold convReal
  rw [mul_add, Finset.mul_sum]
  have h2 : ∀ e, h (S e) * (dis (S e) * dis n) = dis n * (h (S e) * dis (S e)) := fun e => by ring
  simp only [h2]
  ring

/-- The two arrangements of the graph convolution agree. -/
theorem conv_two_ways {ι κ : Type*} (P : Finset ι) (S D : ι → κ) (h dis : κ → ℝ) (b : ℝ) (n : κ)
    (hD : ∀ e ∈ P, D e = n) :
    ((dis n : ℝ) : EReal) * ((0 + ∑ e ∈ P, ((h (S e) * dis (S e) : ℝ) : EReal)) + ((h n * dis n : ℝ) : EReal))
        + (b : EReal)
      = ((0 + ∑ e ∈ P, (h (S e) : EReal) * ((dis (S e) : EReal) * (dis (D e) : EReal)))
        + (h n : EReal) * ((dis n : EReal) * (dis n : EReal))) + (b : EReal) :=
  (conv_scaled_rows P S h dis b n).trans (conv_edge_weights P S D h dis b n hD).symm

/-- The common value of the two arrangements is a real number. -/
theorem conv_real {ι κ : Type*} (P : Finset ι) (S : ι → κ) (h dis : κ → ℝ) (b : ℝ) (n : κ) :
    ∃ r : ℝ, ((dis n : ℝ) : EReal) * ((0 + ∑ e ∈ P, ((h (S e) * dis (S e) : ℝ) : EReal))
        + ((h n * dis n : ℝ) : EReal)) + (b : EReal) = (r : EReal) :=
  ⟨_, conv_scaled_rows P S h dis b n⟩

/-! ### A matrix product row -/

/-- A row of a matrix product of real matrices is the real sum of products. -/
theorem dot_real {κ : Type*} [Fintype κ] (a w : κ → ℝ) :
    ∑ k : κ, (a k : EReal) * (w k : EReal) = ((∑ k, a k * w k : ℝ) : EReal) :=
  (coe_sum_mul Finset.univ a w).symm

/-! ### The variance, two ways -/

/-- The mean of finitely many reals over the count `c`. -/
def mean {ι : Type*} [Fintype ι] (a : ι → ℝ) (c : ℝ) : ℝ := (∑ i, a i) / c

/-- The mean over the count `c` of the squared deviations from the mean. -/
def var {ι : Type*} [Fintype ι] (a : ι → ℝ) (c : ℝ) : ℝ :=
  (∑ i, (a i - mean a c) * (a i - mean a c)) / c

/-- The variance is not negative. -/
theorem var_nonneg {ι : Type*} [Fintype ι] (a : ι → ℝ) (c : ℝ) (hc : (Fintype.card ι : ℝ) = c) : 0 ≤ var a c :=
  div_nonneg (Finset.sum_nonneg fun _ _ => mul_self_nonneg _) (hc ▸ Nat.cast_nonneg _)

/-- The sum of finitely many reals divided by a nonzero real count is their real mean. -/
theorem mean_eq {ι : Type*} [Fintype ι] (a : ι → ℝ) (c : ℝ) (hc0 : c ≠ 0) :
    Ideal.div (0 + ∑ i, (a i : EReal)) (c : EReal) = ((mean a c : ℝ) : EReal) := by
  rw [Ideal.div_coe hc0, zero_add, ← coe_sum, ← EReal.coe_mul]
  exact congrArg _ (div_eq_mul_one_div _ _).symm

/-- The variance as the mean of the squared deviations from the mean. -/
theorem var_centered {ι : Type*} [Fintype ι] (a : ι → ℝ) (c : ℝ) (hc0 : c ≠ 0) :
    Ideal.div (0 + ∑ i, ((a i : EReal) - Ideal.div (0 + ∑ i, (a i : EReal)) (c : EReal))
        * ((a i : EReal) - Ideal.div (0 + ∑ i, (a i : EReal)) (c : EReal))) (c : EReal)
      = ((var a c : ℝ) : EReal) := by
  rw [mean_eq a c hc0]
  simp only [← EReal.coe_sub, ← EReal.coe_mul]
  rw [Ideal.div_coe hc0, zero_add, ← coe_sum, ← EReal.coe_mul]
  exact congrArg _ (div_eq_mul_one_div _ _).symm

/-- The variance as the mean of the squares minus the square of the mean, when the count is the number of terms. -/
theorem var_moments {ι : Type*} [Fintype ι] (a : ι → ℝ) (c : ℝ) (hc : (Fintype.card ι : ℝ) = c) (hc0 : c ≠ 0) :
    Ideal.div (0 + ∑ i, (a i : EReal) * (a i : EReal)) (c : EReal)
        - Ideal.div (0 + ∑ i, (a i : EReal)) (c : EReal) * Ideal.div (0 + ∑ i, (a i : EReal)) (c : EReal)
      = ((var a c : ℝ) : EReal) := by
  rw [mean_eq a c hc0, Ideal.div_coe hc0, zero_add, ← coe_sum_mul, ← EReal.coe_mul, ← EReal.coe_mul,
    ← EReal.coe_sub]
  refine congrArg _ ?_
  have hs : ∑ i, (a i - mean a c) * (a i - mean a c)
      = ∑ i, a i * a i - 2 * mean a c * ∑ i, a i + c * (mean a c * mean a c) := by
    have h3 : ∀ i, (a i - mean a c) * (a i - mean a c)
        = a i * a i - 2 * mean a c * a i + mean a c * mean a c := fun i => by ring
    simp only [h3]
    rw [Finset.sum_add_distrib, Finset.sum_sub_distrib, ← Finset.mul_sum, Finset.sum_const, Finset.card_univ,
      nsmul_eq_mul, hc]
  have hm : ∑ i, a i = c * mean a c := by
    unfold mean; field_simp
  unfold var
  rw [hs, hm]
  field_simp
  ring

/-- The two formulas for the variance of finitely many reals agree, their common value is a real that is not
    negative, and the mean they are taken about is the real mean. -/
theorem variance_two_ways {ι : Type*} [Fintype ι] (a : ι → ℝ) (c : ℝ) (hc : (Fintype.card ι : ℝ) = c)
    (hc0 : c ≠ 0) :
    ∃ v : ℝ, 0 ≤ v
      ∧ Ideal.div (0 + ∑ i, (a i : EReal)) (c : EReal) = (((∑ i, a i) / c : ℝ) : EReal)
      ∧ Ideal.div (0 + ∑ i, (a i : EReal) * (a i : EReal)) (c : EReal)
          - Ideal.div (0 + ∑ i, (a i : EReal)) (c : EReal) * Ideal.div (0 + ∑ i, (a i : EReal)) (c : EReal)
        = (v : EReal)
      ∧ Ideal.div (0 + ∑ i, ((a i : EReal) - Ideal.div (0 + ∑ i, (a i : EReal)) (c : EReal))
          * ((a i : EReal) - Ideal.div (0 + ∑ i, (a i : EReal)) (c : EReal))) (c : EReal) = (v : EReal) :=
  ⟨var a c, var_nonneg a c hc, mean_eq a c hc0, var_moments a c hc hc0, var_centered a c hc0⟩

/-! ### The normalised activation and the degree scale -/

/-- The coercion of the larger of two reals is the larger of the coercions. -/
theorem coe_max (x y : ℝ) : ((max x y : ℝ) : EReal) = max (x : EReal) (y : EReal) :=
  EReal.coe_strictMono.monotone.map_max

/-- The reciprocal square root of a positive real is the real reciprocal of its square root. -/
theorem rsqrt_pos {t : ℝ} (ht : 0 < t) : Ideal.rsqrt (t : EReal) = (((Real.sqrt t)⁻¹ : ℝ) : EReal) := by
  rw [Ideal.rsqrt_coe, if_neg (not_lt.mpr ht.le), if_neg ht.ne']

/-- A normalised, scaled and shifted real, cut off below at zero and added to a real, is a real: the variance is
    not negative and the stabiliser is positive, so the reciprocal square root is taken of a positive real. -/
theorem bn_relu_real (a μ v g β x ε : ℝ) (hv : 0 ≤ v) (hε : 0 < ε) :
    ∃ r : ℝ, max (((a : EReal) - (μ : EReal)) * Ideal.rsqrt ((v : EReal) + (ε : EReal)) * (g : EReal)
        + (β : EReal)) 0 + (x : EReal) = (r : EReal) := by
  have hpos : 0 < v + ε := by linarith
  refine ⟨max ((a - μ) * (Real.sqrt (v + ε))⁻¹ * g + β) 0 + x, ?_⟩
  rw [← EReal.coe_add v ε, rsqrt_pos hpos, ← EReal.coe_sub, ← EReal.coe_mul, ← EReal.coe_mul, ← EReal.coe_add,
    ← EReal.coe_zero, ← coe_max, ← EReal.coe_add]

/-- The degree scale of a node — the reciprocal square root of one more than the number of its in-edges — is a
    positive real. -/
theorem degree_scale_pos {ι : Type*} (P : Finset ι) :
    ∃ r : ℝ, 0 < r ∧ Ideal.rsqrt ((0 + ∑ _e ∈ P, ((1 : ℝ) : EReal)) + ((1 : ℝ) : EReal)) = (r : EReal) := by
  have hpos : (0 : ℝ) < ∑ _e ∈ P, (1 : ℝ) + 1 :=
    add_pos_of_nonneg_of_pos (Finset.sum_nonneg fun _ _ => zero_le_one) one_pos
  refine ⟨(Real.sqrt (∑ _e ∈ P, (1 : ℝ) + 1))⁻¹, inv_pos.mpr (Real.sqrt_pos.mpr hpos), ?_⟩
  rw [zero_add, ← coe_sum, ← EReal.coe_add, rsqrt_pos hpos]

/-! ### An accumulation carried across blocks of rows -/

/-- The running total after step `n` when the terms `f 0, f 1, …` are added one at a time to `z`. -/
def sumAcc {M : Type*} [AddCommMonoid M] {T : ℕ} (z : M) (f : Fin T → M) : (n : ℕ) → n < T → M
  | 0, h => z + f ⟨0, h⟩
  | n + 1, h => sumAcc z f n (Nat.lt_of_succ_lt h) + f ⟨n + 1, h⟩

/-- The running total after step `n` is the start plus the sum of the first `n + 1` terms. -/
theorem sumAcc_eq {M : Type*} [AddCommMonoid M] {T : ℕ} (z : M) (f : Fin T → M) (n : ℕ) (h : n < T) :
    sumAcc z f n h = z + ∑ t : Fin (n + 1), f ⟨t.val, Nat.lt_of_lt_of_le t.isLt (Nat.succ_le_of_lt h)⟩ := by
  induction n with
  | zero => rw [sumAcc, Fin.sum_univ_one]; rfl
  | succ n ih =>
    rw [sumAcc, ih (Nat.lt_of_succ_lt h), add_assoc]
    refine congrArg (z + ·) ?_
    exact (Fin.sum_univ_castSucc
      (fun t : Fin (n + 1 + 1) => f ⟨t.val, Nat.lt_of_lt_of_le t.isLt (Nat.succ_le_of_lt h)⟩)).symm

/-- The running total after the last step is the start plus the whole sum. -/
theorem sumAcc_last {M : Type*} [AddCommMonoid M] {T : ℕ} (z : M) (f : Fin T → M) (n : ℕ) (hn : n + 1 = T) :
    sumAcc z f n (hn ▸ Nat.lt_succ_self n) = z + ∑ t, f t := by
  subst hn
  rw [sumAcc_eq]

/-- The running total after step `T - 1` of `T > 0` steps is the start plus the whole sum. -/
theorem sumAcc_pred {M : Type*} [AddCommMonoid M] {T : ℕ} (z : M) (f : Fin T → M) (hT : 0 < T) :
    sumAcc z f (T - 1) (Nat.sub_lt hT Nat.one_pos) = z + ∑ t, f t := by
  obtain ⟨n, rfl⟩ : ∃ n, T = n + 1 := ⟨T - 1, (Nat.sub_add_cancel hT).symm⟩
  exact sumAcc_last z f n rfl

/-- A sum taken block by block, `T` blocks of `B` positions, is the sum over the `T * B` positions, the position
    `n` lying in block `n / B` at place `n % B`. -/
theorem sum_blocks_fin {M : Type*} [AddCommMonoid M] (T B : ℕ) (g : Fin T → Fin B → M) :
    ∑ t : Fin T, ∑ r : Fin B, g t r = ∑ n : Fin (T * B), g n.divNat n.modNat :=
  calc ∑ t : Fin T, ∑ r : Fin B, g t r
      = ∑ p : Fin T × Fin B, g p.1 p.2 := (Fintype.sum_prod_type fun p : Fin T × Fin B => g p.1 p.2).symm
    _ = ∑ n : Fin (T * B), g (finProdFinEquiv.symm n).1 (finProdFinEquiv.symm n).2 :=
        (Equiv.sum_comp finProdFinEquiv.symm fun p : Fin T × Fin B => g p.1 p.2).symm
    _ = ∑ n : Fin (T * B), g n.divNat n.modNat := Finset.sum_congr rfl fun _ _ => rfl

/-- The same regrouping for a summand given on the natural numbers. -/
theorem sum_blocks_nat {M : Type*} [AddCommMonoid M] (T B : ℕ) (G : ℕ → ℕ → M) :
    ∑ t : Fin T, ∑ r : Fin B, G t r = ∑ n : Fin (T * B), G (n / B) (n % B) :=
  sum_blocks_fin T B fun t r => G t r

/-- The same regrouping for a summand of the position alone: position `r` of block `t` is the position
    `B * t + r` of the whole. -/
theorem sum_blocks_index {M : Type*} [AddCommMonoid M] (T B : ℕ) (F : ℕ → M) :
    ∑ t : Fin T, ∑ r : Fin B, F (B * t + r) = ∑ n : Fin (T * B), F n := by
  rw [sum_blocks_nat T B fun t r => F (B * t + r)]
  exact Finset.sum_congr rfl fun n _ => congrArg F (Nat.div_add_mod n.val B)

/-- A total accumulated block by block from `z` — after the last of `T` blocks of `B` positions — is `z` plus the
    sum over all `T * B` positions. -/
theorem sumAcc_blocks {M : Type*} [AddCommMonoid M] (T B : ℕ) (z : M) (F : ℕ → M) (n : ℕ) (hn : n + 1 = T) :
    sumAcc z (fun t : Fin T => ∑ r : Fin B, F (B * t + r)) n (hn ▸ Nat.lt_succ_self n)
      = z + ∑ k : Fin (T * B), F k := by
  rw [sumAcc_last z _ n hn, sum_blocks_index]

end Cert.LibGcnEReal

end
-- ==== Proof.LibGcnLayer.lean ====
/-
  The two layer identities of a graph convolution network with batch normalisation, in index form.

  A convolution layer multiplies the features by a weight matrix, scales every row by its node's degree scale, adds
  up the rows arriving along the edges into each node together with the node's own row, scales the total at the
  node and adds a bias; a reference spells the same value with one weight `dis (source) * dis (target)` per edge.
  A batch normalisation takes the variance as the mean of the squares minus the square of the mean, or as the mean
  of the squared deviations.  With all entries finite the two spellings of each layer agree, and the value is finite.
  The edges are given by 32-bit words; a negative word counts from the end, and a word that reads as a node number
  selects that node.
-/
import proofs.«182147_j31610959298973_2_alg».proof.Proof.LibGcnEReal
import proofs.«182147_j31610959298973_2_alg».proof.Proof.LibGraphIndex

noncomputable section

namespace Cert.LibGcnLayer

open Idealize.ShloMosaic Cert.LibGcnEReal Cert.LibRowGather Cert.LibGraphIndex
open scoped BigOperators

/-! ### The convolution layer -/

/-- The convolution layer at node `n` and output column `j`, for any edge set `P` all of whose edges end in `n`:
    scaling the rows at their sources and the total at `n` is the same as weighting every edge by
    `dis (source) * dis (target)` and `n`'s own row by `dis n * dis n`; and the value is a real number. -/
theorem conv_layer_gen {ν ι α γ : Type*} [Fintype α] (P : Finset ι) (S D : ι → ν)
    (x : ν → α → EReal) (w : α → γ → EReal) (b : γ → EReal) (dis : ν → EReal)
    (hx : ∀ m k, ∃ r : ℝ, x m k = (r : EReal)) (hw : ∀ k j, ∃ r : ℝ, w k j = (r : EReal))
    (hb : ∀ j, ∃ r : ℝ, b j = (r : EReal)) (hdis : ∀ m, ∃ r : ℝ, dis m = (r : EReal))
    (n : ν) (j : γ) (hD : ∀ e ∈ P, D e = n) :
    dis n * ((0 + ∑ e ∈ P, (∑ k, x (S e) k * w k j) * dis (S e)) + (∑ k, x n k * w k j) * dis n) + b j
        = ((0 + ∑ e ∈ P, (∑ k, x (S e) k * w k j) * (dis (S e) * dis (D e)))
          + (∑ k, x n k * w k j) * (dis n * dis n)) + b j
      ∧ ∃ r : ℝ, dis n * ((0 + ∑ e ∈ P, (∑ k, x (S e) k * w k j) * dis (S e)) + (∑ k, x n k * w k j) * dis n)
          + b j = (r : EReal) := by
  choose xr hxr using hx
  choose wr hwr using hw
  choose br hbr using hb
  choose dr hdr using hdis
  obtain ⟨hh, hdot⟩ : ∃ hh : ν → ℝ, ∀ m, ∑ k, x m k * w k j = ((hh m : ℝ) : EReal) :=
    ⟨fun m => ∑ k, xr m k * wr k j, fun m => by simp only [hxr, hwr]; exact dot_real _ _⟩
  have e1 : dis n * ((0 + ∑ e ∈ P, (∑ k, x (S e) k * w k j) * dis (S e)) + (∑ k, x n k * w k j) * dis n) + b j
      = ((convReal P S hh dr (br j) n : ℝ) : EReal) := by
    refine Eq.trans ?_ (conv_scaled_rows P S hh dr (br j) n)
    simp only [hdot, hdr, hbr, EReal.coe_mul]
  have e2 : ((0 + ∑ e ∈ P, (∑ k, x (S e) k * w k j) * (dis (S e) * dis (D e)))
      + (∑ k, x n k * w k j) * (dis n * dis n)) + b j = ((convReal P S hh dr (br j) n : ℝ) : EReal) := by
    refine Eq.trans ?_ (conv_edge_weights P S D hh dr (br j) n hD)
    simp only [hdot, hdr, hbr]
  exact ⟨e1.trans e2.symm, _, e1⟩

/-- The index normalisation of a word: a negative word counts from the end. -/
abbrev wrap (K v : BitVec 32) : BitVec 32 := if v.toInt < 0 then v + K else v

/-- The edges whose target word reads as the node number `n`. -/
abbrev landing {N E : ℕ} (dstw : Fin E → BitVec 32) (n : Fin N) : Finset (Fin E) :=
  Finset.univ.filter fun e : Fin E => (dstw e).toInt = (n.val : ℤ)

/-- An edge whose target word reads as the node number `n` ends in `n`: the normalisation leaves the word alone
    and the clamp does nothing. -/
theorem target_of_landing {N E : ℕ} (hN : 0 < N) (K : BitVec 32) (dstw : Fin E → BitVec 32) (n : Fin N)
    (e : Fin E) (he : e ∈ landing dstw n) : rowOf N hN (wrap K (dstw e)) = n := by
  have hv : (dstw e).toInt = (n.val : ℤ) := (Finset.mem_filter.mp he).2
  show rowOf N hN (if (dstw e).toInt < 0 then dstw e + K else dstw e) = n
  rw [normalise_of_nat (dstw e) K n.val hv]
  exact rowOf_of_eq hN (dstw e) n hv

/-- THE CONVOLUTION LAYER with the edges given by source and target words: at node `n` and output column `j`, over
    the edges whose target word reads `n`, the two spellings agree and the value is a real number. -/
theorem conv_layer {N E A C : ℕ} (hN : 0 < N) (K : BitVec 32) (srcw dstw : Fin E → BitVec 32)
    (x : Fin N → Fin A → EReal) (w : Fin A → Fin C → EReal) (b : Fin C → EReal) (dis : Fin N → EReal)
    (hx : ∀ m k, ∃ r : ℝ, x m k = (r : EReal)) (hw : ∀ k j, ∃ r : ℝ, w k j = (r : EReal))
    (hb : ∀ j, ∃ r : ℝ, b j = (r : EReal)) (hdis : ∀ m, ∃ r : ℝ, dis m = (r : EReal))
    (n : Fin N) (j : Fin C) :
    dis n * ((0 + ∑ e ∈ landing dstw n, (∑ k, x (rowOf N hN (wrap K (srcw e))) k * w k j)
            * dis (rowOf N hN (wrap K (srcw e)))) + (∑ k, x n k * w k j) * dis n) + b j
        = ((0 + ∑ e ∈ landing dstw n, (∑ k, x (rowOf N hN (wrap K (srcw e))) k * w k j)
            * (dis (rowOf N hN (wrap K (srcw e))) * dis (rowOf N hN (wrap K (dstw e)))))
          + (∑ k, x n k * w k j) * (dis n * dis n)) + b j
      ∧ ∃ r : ℝ, dis n * ((0 + ∑ e ∈ landing dstw n, (∑ k, x (rowOf N hN (wrap K (srcw e))) k * w k j)
            * dis (rowOf N hN (wrap K (srcw e)))) + (∑ k, x n k * w k j) * dis n) + b j = (r : EReal) :=
  conv_layer_gen (landing dstw n) (fun e => rowOf N hN (wrap K (srcw e))) (fun e => rowOf N hN (wrap K (dstw e)))
    x w b dis hx hw hb hdis n j (target_of_landing hN K dstw n)

/-! ### The batch normalisation layer -/

/-- THE BATCH NORMALISATION LAYER over finitely many finite entries: with the variance taken as the mean of the
    squares minus the square of the mean, or as the mean of the squared deviations from the mean, the normalised,
    scaled, shifted, cut-off and added value is the same; and it is a real number. -/
theorem bn_layer_gen {ι : Type*} [Fintype ι] (a : ι → EReal) (g β xres : EReal) (c ε : ℝ)
    (ha : ∀ i, ∃ r : ℝ, a i = (r : EReal)) (hg : ∃ r : ℝ, g = (r : EReal)) (hβ : ∃ r : ℝ, β = (r : EReal))
    (hxres : ∃ r : ℝ, xres = (r : EReal)) (hc : (Fintype.card ι : ℝ) = c) (hc0 : c ≠ 0) (hε : 0 < ε) (n : ι) :
    max ((a n - Ideal.div (0 + ∑ i, a i) (c : EReal))
          * Ideal.rsqrt ((Ideal.div (0 + ∑ i, a i * a i) (c : EReal)
              - Ideal.div (0 + ∑ i, a i) (c : EReal) * Ideal.div (0 + ∑ i, a i) (c : EReal)) + (ε : EReal))
          * g + β) 0 + xres
        = max ((a n - Ideal.div (0 + ∑ i, a i) (c : EReal))
          * Ideal.rsqrt (Ideal.div (0 + ∑ i, (a i - Ideal.div (0 + ∑ i, a i) (c : EReal))
              * (a i - Ideal.div (0 + ∑ i, a i) (c : EReal))) (c : EReal) + (ε : EReal))
          * g + β) 0 + xres
      ∧ ∃ r : ℝ, max ((a n - Ideal.div (0 + ∑ i, a i) (c : EReal))
          * Ideal.rsqrt ((Ideal.div (0 + ∑ i, a i * a i) (c : EReal)
              - Ideal.div (0 + ∑ i, a i) (c : EReal) * Ideal.div (0 + ∑ i, a i) (c : EReal)) + (ε : EReal))
          * g + β) 0 + xres = (r : EReal) := by
  choose ar har using ha
  obtain ⟨gr, rfl⟩ := hg
  obtain ⟨βr, rfl⟩ := hβ
  obtain ⟨xr, rfl⟩ := hxres
  simp only [har]
  rw [var_moments ar c hc hc0, var_centered ar c hc0, mean_eq ar c hc0]
  exact ⟨rfl, bn_relu_real (ar n) (mean ar c) (var ar c) gr βr xr ε (var_nonneg ar c hc) hε⟩

/-- The batch normalisation layer over the `N` rows of a column. -/
theorem bn_layer {N : ℕ} (a : Fin N → EReal) (g β xres : EReal) (c ε : ℝ)
    (ha : ∀ i, ∃ r : ℝ, a i = (r : EReal)) (hg : ∃ r : ℝ, g = (r : EReal)) (hβ : ∃ r : ℝ, β = (r : EReal))
    (hxres : ∃ r : ℝ, xres = (r : EReal)) (hc : (N : ℝ) = c) (hc0 : c ≠ 0) (hε : 0 < ε) (n : Fin N) :
    max ((a n - Ideal.div (0 + ∑ i, a i) (c : EReal))
          * Ideal.rsqrt ((Ideal.div (0 + ∑ i, a i * a i) (c : EReal)
              - Ideal.div (0 + ∑ i, a i) (c : EReal) * Ideal.div (0 + ∑ i, a i) (c : EReal)) + (ε : EReal))
          * g + β) 0 + xres
        = max ((a n - Ideal.div (0 + ∑ i, a i) (c : EReal))
          * Ideal.rsqrt (Ideal.div (0 + ∑ i, (a i - Ideal.div (0 + ∑ i, a i) (c : EReal))
              * (a i - Ideal.div (0 + ∑ i, a i) (c : EReal))) (c : EReal) + (ε : EReal))
          * g + β) 0 + xres
      ∧ ∃ r : ℝ, max ((a n - Ideal.div (0 + ∑ i, a i) (c : EReal))
          * Ideal.rsqrt ((Ideal.div (0 + ∑ i, a i * a i) (c : EReal)
              - Ideal.div (0 + ∑ i, a i) (c : EReal) * Ideal.div (0 + ∑ i, a i) (c : EReal)) + (ε : EReal))
          * g + β) 0 + xres = (r : EReal) :=
  bn_layer_gen a g β xres c ε ha hg hβ hxres (by rw [Fintype.card_fin]; exact hc) hc0 hε n

/-! ### The degree scale -/

/-- The degree scale in its spelt-out form — the reciprocal square root of the zero word plus one unit word per
    in-edge plus one more unit word — is a positive real. -/
theorem degree_scale_words {ι : Type*} (P : Finset ι) :
    ∃ r : ℝ, 0 < r ∧ Ideal.rsqrt ((Ideal.ofBits .f32 0x00000000#32 + ∑ _e ∈ P, Ideal.ofBits .f32 0x3F800000#32)
        + Ideal.ofBits .f32 0x3F800000#32) = (r : EReal) := by
  rw [ofBits_zero, ofBits_one]
  exact degree_scale_pos P

/-- The same with the zero word already read as `0`. -/
theorem degree_scale_words' {ι : Type*} (P : Finset ι) :
    ∃ r : ℝ, 0 < r ∧ Ideal.rsqrt ((0 + ∑ _e ∈ P, Ideal.ofBits .f32 0x3F800000#32)
        + Ideal.ofBits .f32 0x3F800000#32) = (r : EReal) := by
  rw [ofBits_one]
  exact degree_scale_pos P

end Cert.LibGcnLayer

end
-- ==== Proof.BridgeForms.lean ====
/-
  The kernel program's stages in the form the reference's stages are read in.

  The kernel program scales every feature row once at its source, adds up the rows arriving at a node, and scales the
  total at the node; its variance is the mean of the squares minus the square of the mean.  Here each stage is
  rewritten, entry by entry and for finite inputs, into the other spelling: one weight `dis (source) * dis (target)`
  per edge, and the variance as the mean of the squared deviations; and each entry is shown to be a real number.
-/
import proofs.«182147_j31610959298973_2_alg».proof.Proof.KI.StageDefs
import proofs.«182147_j31610959298973_2_alg».proof.Proof.KI.StageAt
import proofs.«182147_j31610959298973_2_alg».proof.Proof.LibGcnLayer

noncomputable section

namespace Cert.Bridge

open Cert.KernelIdeal Cert.KernelIdeal.Hand
open Idealize.ShloMosaic Idealize.ShloMosaic.ValueIdx
open Cert.LibGcnEReal Cert.LibGcnLayer
open scoped BigOperators

section
variable (X1 : (⟨S2x800000, .i32⟩ : BufTy).Contents (Elt Ideal))

/-! ### The edge words and the degree scale -/

/-- The target word of an edge. -/
theorem dstK_apply (e : Fin 800000) : dstK X1 (ix1 e) = X1 (ix2 1 e) := Host.dstOf_apply X1 e

/-- The source word of an edge. -/
theorem srcK_apply (e : Fin 800000) : srcK X1 (ix1 e) = X1 (ix2 0 e) := Host.srcOf_apply X1 e

/-- The node that row `r` of the edge list selects at edge `e`: the word normalised, read signed and clamped. -/
abbrev nodeOf (r : Fin 2) (e : Fin 800000) : Fin 50000 :=
  LibRowGather.rowOf 50000 (by decide) (wrap 50000#32 (X1 (ix2 r e)))

/-- The source node of an edge, from the edge list. -/
theorem srcRow_srcK (e : Fin 800000) : srcRow (srcK X1) e = nodeOf X1 0 e := by
  unfold srcRow
  rw [srcK_apply]

/-- The degree scale of node `n`: the reciprocal square root of one more than the number of edges whose target
    word reads `n`. -/
theorem disK_apply (n : Fin 50000) :
    disK X1 (ix2 n 0) = Ideal.rsqrt ((0 + ∑ _e ∈ landing (fun e => X1 (ix2 1 e)) n, Ideal.ofBits .f32 0x3F800000#32)
      + Ideal.ofBits .f32 0x3F800000#32) := by
  unfold disK
  rw [Host.disOf_apply, Ideal.ofBits_zero_f32]
  refine congrArg Ideal.rsqrt (congrArg (· + Ideal.ofBits .f32 0x3F800000#32) (congrArg (0 + ·) ?_))
  exact Finset.sum_congr (Finset.filter_congr fun e _ => by rw [Host.dstOf_apply]) fun _ _ => rfl

/-- The degree scale is a positive real. -/
theorem disK_pos (n : Fin 50000) : ∃ r : ℝ, 0 < r ∧ disK X1 (ix2 n 0) = (r : EReal) := by
  rw [disK_apply]
  exact degree_scale_words' _

/-- The degree scale is a real. -/
theorem disK_real (n : Fin 50000) : ∃ r : ℝ, disK X1 (ix2 n 0) = (r : EReal) :=
  (disK_pos X1 n).imp fun _ h => h.2

/-! ### A convolution stage -/

/-- The convolution of finite features, of any width `C`, at node `n` and column `j`: the kernel program's
    spelling (rows scaled at their sources, the total scaled at the node) equals the spelling with one weight
    per edge; and the value is a real. -/
theorem conv_form_two_ways {C : ℕ} (x : (⟨2, ![50000, 128]⟩ : Shape).Idx → EReal)
    (W : (⟨2, ![128, C]⟩ : Shape).Idx → EReal) (b : (⟨1, ![C]⟩ : Shape).Idx → EReal)
    (hx : ∀ i, ∃ r : ℝ, x i = (r : EReal)) (hW : ∀ i, ∃ r : ℝ, W i = (r : EReal))
    (hb : ∀ i, ∃ r : ℝ, b i = (r : EReal)) (n : Fin 50000) (j : Fin C) :
    disK X1 (ix2 n (0 : Fin 1))
          * ((0 + ∑ e ∈ Finset.univ.filter (fun e : Fin 800000 => (dstK X1 (ix1 e)).toInt = (n.val : ℤ)),
                (∑ k : Fin 128, x (ix2 (srcRow (srcK X1) e) k) * W (ix2 k j))
                  * disK X1 (ix2 (srcRow (srcK X1) e) (0 : Fin 1)))
              + (∑ k : Fin 128, x (ix2 n k) * W (ix2 k j)) * disK X1 (ix2 n (0 : Fin 1)))
        + b (ix1 j)
      = ((0 + ∑ e ∈ landing (fun e => X1 (ix2 1 e)) n,
            (∑ k : Fin 128, x (ix2 (nodeOf X1 0 e) k) * W (ix2 k j))
              * (disK X1 (ix2 (nodeOf X1 0 e) (0 : Fin 1)) * disK X1 (ix2 (nodeOf X1 1 e) (0 : Fin 1))))
          + (∑ k : Fin 128, x (ix2 n k) * W (ix2 k j)) * (disK X1 (ix2 n (0 : Fin 1)) * disK X1 (ix2 n (0 : Fin 1))))
        + b (ix1 j)
      ∧ ∃ r : ℝ, disK X1 (ix2 n (0 : Fin 1))
          * ((0 + ∑ e ∈ Finset.univ.filter (fun e : Fin 800000 => (dstK X1 (ix1 e)).toInt = (n.val : ℤ)),
                (∑ k : Fin 128, x (ix2 (srcRow (srcK X1) e) k) * W (ix2 k j))
                  * disK X1 (ix2 (srcRow (srcK X1) e) (0 : Fin 1)))
              + (∑ k : Fin 128, x (ix2 n k) * W (ix2 k j)) * disK X1 (ix2 n (0 : Fin 1)))
        + b (ix1 j) = (r : EReal) := by
  have key := conv_layer (N := 50000) (E := 800000) (A := 128) (C := C) (by decide) 50000#32
    (fun e => X1 (ix2 0 e)) (fun e => X1 (ix2 1 e)) (fun m k => x (ix2 m k)) (fun k j => W (ix2 k j))
    (fun j => b (ix1 j)) (fun m => disK X1 (ix2 m (0 : Fin 1))) (fun m k => hx _) (fun k j => hW _) (fun j => hb _)
    (fun m => disK_real X1 m) n j
  have hk : disK X1 (ix2 n (0 : Fin 1))
          * ((0 + ∑ e ∈ Finset.univ.filter (fun e : Fin 800000 => (dstK X1 (ix1 e)).toInt = (n.val : ℤ)),
                (∑ k : Fin 128, x (ix2 (srcRow (srcK X1) e) k) * W (ix2 k j))
                  * disK X1 (ix2 (srcRow (srcK X1) e) (0 : Fin 1)))
              + (∑ k : Fin 128, x (ix2 n k) * W (ix2 k j)) * disK X1 (ix2 n (0 : Fin 1)))
        + b (ix1 j)
      = disK X1 (ix2 n (0 : Fin 1))
          * ((0 + ∑ e ∈ landing (fun e => X1 (ix2 1 e)) n,
                (∑ k : Fin 128, x (ix2 (nodeOf X1 0 e) k) * W (ix2 k j))
                  * disK X1 (ix2 (nodeOf X1 0 e) (0 : Fin 1)))
              + (∑ k : Fin 128, x (ix2 n k) * W (ix2 k j)) * disK X1 (ix2 n (0 : Fin 1)))
        + b (ix1 j) := by
    refine congrArg (· + b (ix1 j)) (congrArg (disK X1 (ix2 n (0 : Fin 1)) * ·) (congrArg
      (· + (∑ k : Fin 128, x (ix2 n k) * W (ix2 k j)) * disK X1 (ix2 n (0 : Fin 1))) (congrArg (0 + ·) ?_)))
    exact Finset.sum_congr (Finset.filter_congr fun e _ => by rw [dstK_apply]) fun e _ => by rw [srcRow_srcK]
  rw [hk]
  exact key

/-- A convolution stage of the kernel program over finite features, at node `n` and column `j`, in the spelling
    with one weight per edge; and the value is a real. -/
theorem convK_two_ways (x : S50000x128.Idx → EReal) (W : S128x128.Idx → EReal)
    (b : (⟨S128, .f32⟩ : BufTy).Contents (Elt Ideal))
    (hx : ∀ i, ∃ r : ℝ, x i = (r : EReal)) (hW : ∀ i, ∃ r : ℝ, W i = (r : EReal))
    (hb : ∀ i, ∃ r : ℝ, b i = (r : EReal)) (n : Fin 50000) (j : Fin 128) :
    convEpilogue (Host.aggOf (F := Ideal) (scaledProduct x W (disK X1)) (srcK X1) (dstK X1))
        (scaledProduct x W (disK X1)) (disK X1) (Host.rowOf128 (F := Ideal) b) (ix2 n j)
      = ((0 + ∑ e ∈ landing (fun e => X1 (ix2 1 e)) n,
            (∑ k : Fin 128, x (ix2 (nodeOf X1 0 e) k) * W (ix2 k j))
              * (disK X1 (ix2 (nodeOf X1 0 e) (0 : Fin 1)) * disK X1 (ix2 (nodeOf X1 1 e) (0 : Fin 1))))
          + (∑ k : Fin 128, x (ix2 n k) * W (ix2 k j)) * (disK X1 (ix2 n (0 : Fin 1)) * disK X1 (ix2 n (0 : Fin 1))))
        + b (ix1 j)
      ∧ ∃ r : ℝ, convEpilogue (Host.aggOf (F := Ideal) (scaledProduct x W (disK X1)) (srcK X1) (dstK X1))
        (scaledProduct x W (disK X1)) (disK X1) (Host.rowOf128 (F := Ideal) b) (ix2 n j) = (r : EReal) := by
  rw [conv_stage_apply]
  exact conv_form_two_ways X1 x W b hx hW hb n j

end

/-! ### A batch normalisation stage -/

/-- The batch normalisation of a finite array of 50000 rows, at row `n` and column `j`: with the variance as the
    mean of the squares minus the square of the mean, or as the mean of the squared deviations, the value is the
    same; and it is a real. -/
theorem bn_form_two_ways (conv res : (⟨2, ![50000, 128]⟩ : Shape).Idx → EReal)
    (g be : (⟨1, ![128]⟩ : Shape).Idx → EReal)
    (hconv : ∀ i, ∃ r : ℝ, conv i = (r : EReal)) (hres : ∀ i, ∃ r : ℝ, res i = (r : EReal))
    (hg : ∀ i, ∃ r : ℝ, g i = (r : EReal)) (hbe : ∀ i, ∃ r : ℝ, be i = (r : EReal)) (n : Fin 50000) (j : Fin 128) :
    max ((conv (ix2 n j) - Ideal.div (0 + ∑ n' : Fin 50000, conv (ix2 n' j)) (Ideal.ofBits .f32 0x47435000#32))
            * Ideal.rsqrt ((Ideal.div (0 + ∑ n' : Fin 50000, conv (ix2 n' j) * conv (ix2 n' j)) (Ideal.ofBits .f32 0x47435000#32)
                - Ideal.div (0 + ∑ n' : Fin 50000, conv (ix2 n' j)) (Ideal.ofBits .f32 0x47435000#32)
                  * Ideal.div (0 + ∑ n' : Fin 50000, conv (ix2 n' j)) (Ideal.ofBits .f32 0x47435000#32))
              + Ideal.ofBits .f32 0x3727C5AC#32)
            * g (ix1 j) + be (ix1 j)) 0
        + res (ix2 n j)
      = max ((conv (ix2 n j) - Ideal.div (0 + ∑ n' : Fin 50000, conv (ix2 n' j)) (Ideal.ofBits .f32 0x47435000#32))
            * Ideal.rsqrt (Ideal.div (0 + ∑ n' : Fin 50000,
                  (conv (ix2 n' j) - Ideal.div (0 + ∑ n' : Fin 50000, conv (ix2 n' j)) (Ideal.ofBits .f32 0x47435000#32))
                  * (conv (ix2 n' j) - Ideal.div (0 + ∑ n' : Fin 50000, conv (ix2 n' j)) (Ideal.ofBits .f32 0x47435000#32)))
                (Ideal.ofBits .f32 0x47435000#32)
              + Ideal.ofBits .f32 0x3727C5AC#32)
            * g (ix1 j) + be (ix1 j)) 0
        + res (ix2 n j)
      ∧ ∃ r : ℝ, max ((conv (ix2 n j) - Ideal.div (0 + ∑ n' : Fin 50000, conv (ix2 n' j)) (Ideal.ofBits .f32 0x47435000#32))
            * Ideal.rsqrt ((Ideal.div (0 + ∑ n' : Fin 50000, conv (ix2 n' j) * conv (ix2 n' j)) (Ideal.ofBits .f32 0x47435000#32)
                - Ideal.div (0 + ∑ n' : Fin 50000, conv (ix2 n' j)) (Ideal.ofBits .f32 0x47435000#32)
                  * Ideal.div (0 + ∑ n' : Fin 50000, conv (ix2 n' j)) (Ideal.ofBits .f32 0x47435000#32))
              + Ideal.ofBits .f32 0x3727C5AC#32)
            * g (ix1 j) + be (ix1 j)) 0
        + res (ix2 n j) = (r : EReal) := by
  obtain ⟨ε, hε, hεq⟩ := ofBits_eps
  rw [ofBits_50000, hεq]
  exact bn_layer (fun n' => conv (ix2 n' j)) (g (ix1 j)) (be (ix1 j)) (res (ix2 n j)) 50000 ε (fun i => hconv _)
    (hg _) (hbe _) (hres _) (by norm_num) (by norm_num) hε n

/-- A batch normalisation stage of the kernel program over a finite convolution output, at row `n` and column `j`,
    in the spelling with the variance as the mean of the squared deviations; and the value is a real. -/
theorem bnK_two_ways (conv res : S50000x128.Idx → EReal) (g be : (⟨S128, .f32⟩ : BufTy).Contents (Elt Ideal))
    (hconv : ∀ i, ∃ r : ℝ, conv i = (r : EReal)) (hres : ∀ i, ∃ r : ℝ, res i = (r : EReal))
    (hg : ∀ i, ∃ r : ℝ, g i = (r : EReal)) (hbe : ∀ i, ∃ r : ℝ, be i = (r : EReal)) (n : Fin 50000) (j : Fin 128) :
    bnReluRes conv res (Host.meanOf (F := Ideal) (colSum conv)) (Host.varOf (F := Ideal) (colSum conv) (colSumSq conv))
        (Host.rowOf128 (F := Ideal) g) (Host.rowOf128 (F := Ideal) be) (ix2 n j)
      = max ((conv (ix2 n j) - Ideal.div (0 + ∑ n' : Fin 50000, conv (ix2 n' j)) (Ideal.ofBits .f32 0x47435000#32))
            * Ideal.rsqrt (Ideal.div (0 + ∑ n' : Fin 50000,
                  (conv (ix2 n' j) - Ideal.div (0 + ∑ n' : Fin 50000, conv (ix2 n' j)) (Ideal.ofBits .f32 0x47435000#32))
                  * (conv (ix2 n' j) - Ideal.div (0 + ∑ n' : Fin 50000, conv (ix2 n' j)) (Ideal.ofBits .f32 0x47435000#32)))
                (Ideal.ofBits .f32 0x47435000#32)
              + Ideal.ofBits .f32 0x3727C5AC#32)
            * g (ix1 j) + be (ix1 j)) 0
        + res (ix2 n j)
      ∧ ∃ r : ℝ, bnReluRes conv res (Host.meanOf (F := Ideal) (colSum conv))
        (Host.varOf (F := Ideal) (colSum conv) (colSumSq conv))
        (Host.rowOf128 (F := Ideal) g) (Host.rowOf128 (F := Ideal) be) (ix2 n j) = (r : EReal) := by
  rw [bn_stage_apply]
  exact bn_form_two_ways conv res g be hconv hres hg hbe n j

end Cert.Bridge

end
-- ==== Proof.RefLayers.lean ====
/-
  The reference network read at an entry, layer by layer, on the extended reals.

  Each of the three layers begins with a dense product: the entry (n, j) of the product is the sum over the 128 inner
  coordinates of the products of the row's and the column's entries.  The first two layers end with a batch
  normalisation over the 50000 rows: column j's mean is its sum divided by the row count, its variance the mean of the
  squared deviations, and the entry is centred, divided by the root of the variance plus a small constant, scaled by the
  column's gain, shifted by its offset, cut below at zero, and added to the layer's input.  The statements below read
  the corresponding stages at an entry in exactly this form; the graph convolution in the middle of each layer is kept
  as an unopened matrix.
-/
import proofs.«182147_j31610959298973_2_alg».proof.Proof.RefRead

noncomputable section

namespace Cert.ReferenceIdeal.RefValue

open Cert.ReferenceIdeal Cert.ReferenceIdeal.Gen Cert.ReferenceIdeal.Read Idealize.ShloMosaic Idealize.ShloMosaic.ValueIdx

/-! ## Batch statistics of the columns of a 50000-row matrix, and the normalised, rectified entry -/

/-- The mean of column `j`: the column's sum (from zero) over the number of rows. -/
def colMean {C : Nat} (c : (⟨2, ![50000, C]⟩ : Shape).Idx → EReal) (j : Fin C) : EReal :=
  Ideal.div (0 + ∑ n' : Fin 50000, c (ix2 n' j)) (Ideal.ofBits .f32 0x47435000#32)

/-- The (biased) variance of column `j`. -/
def colVar {C : Nat} (c : (⟨2, ![50000, C]⟩ : Shape).Idx → EReal) (j : Fin C) : EReal :=
  Ideal.div (0 + ∑ n' : Fin 50000, (c (ix2 n' j) - colMean c j) * (c (ix2 n' j) - colMean c j)) (Ideal.ofBits .f32 0x47435000#32)

/-- The entry normalised by its column's statistics, scaled, shifted and rectified. -/
def bnRelu {C : Nat} (c : (⟨2, ![50000, C]⟩ : Shape).Idx → EReal) (g b : (⟨1, ![C]⟩ : Shape).Idx → EReal) (n : Fin 50000) (j : Fin C) : EReal :=
  max ((c (ix2 n j) - colMean c j) * Ideal.rsqrt (colVar c j + Ideal.ofBits .f32 0x3727C5AC#32) * g (ix1 j) + b (ix1 j)) 0

/-! ## The dense product of each layer, at an entry -/

theorem v4_at (x0 : (⟨S50000x128, .f32⟩ : BufTy).Contents (Elt Ideal)) (x2 : (⟨S128x128, .f32⟩ : BufTy).Contents (Elt Ideal)) (n : Fin 50000) (j : Fin 128) :
    val_main_v4 (F := Ideal) x0 x2 (ix2 n j) = ∑ k : Fin 128, x0 (ix2 n k) * x2 (ix2 k j) := by
  rw [val_main_v4_apply]
  refine Finset.sum_congr rfl fun k _ => ?_
  have e1 : lidx_main_v4 (ix2 n j) k = ix2 n k := funext fun a => by match a with | ⟨0, _⟩ => rfl | ⟨1, _⟩ => rfl
  have e2 : ridx_main_v4 (ix2 n j) k = ix2 k j := funext fun a => by match a with | ⟨0, _⟩ => rfl | ⟨1, _⟩ => rfl
  rw [e1, e2]

theorem v75_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (n : Fin 50000) (j : Fin 128) :
    val_main_v75 (F := Ideal) x0 x1 x2 x3 x4 x5 x6 (ix2 n j) = ∑ k : Fin 128, val_main_v74 (F := Ideal) x0 x1 x2 x3 x4 x5 (ix2 n k) * x6 (ix2 k j) := by
  rw [val_main_v75_apply]
  refine Finset.sum_congr rfl fun k _ => ?_
  have e1 : lidx_main_v75 (ix2 n j) k = ix2 n k := funext fun a => by match a with | ⟨0, _⟩ => rfl | ⟨1, _⟩ => rfl
  have e2 : ridx_main_v75 (ix2 n j) k = ix2 k j := funext fun a => by match a with | ⟨0, _⟩ => rfl | ⟨1, _⟩ => rfl
  rw [e1, e2]

theorem v146_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S128x32, .f32⟩ : BufTy).Contents (Elt Ideal)) (n : Fin 50000) (j : Fin 32) :
    val_main_v146 (F := Ideal) x0 x1 x2 x3 x4 x5 x6 x7 x8 x9 x10 (ix2 n j) = ∑ k : Fin 128, val_main_v145 (F := Ideal) x0 x1 x2 x3 x4 x5 x6 x7 x8 x9 (ix2 n k) * x10 (ix2 k j) := by
  rw [val_main_v146_apply]
  refine Finset.sum_congr rfl fun k _ => ?_
  have e1 : lidx_main_v146 (ix2 n j) k = ix2 n k := funext fun a => by match a with | ⟨0, _⟩ => rfl | ⟨1, _⟩ => rfl
  have e2 : ridx_main_v146 (ix2 n j) k = ix2 k j := funext fun a => by match a with | ⟨0, _⟩ => rfl | ⟨1, _⟩ => rfl
  rw [e1, e2]

/-! ## Layer 1: batch statistics, normalisation, rectification, residual -/

theorem bn_i48 (j : Fin 128) (k : Fin 50000) : idx_main_v48 (ix1 j) k = ix2 k j :=
  funext fun a => by match a with | ⟨0, _⟩ => rfl | ⟨1, _⟩ => rfl
theorem bn_i55 (j : Fin 128) (k : Fin 50000) : idx_main_v55 (ix1 j) k = ix2 k j :=
  funext fun a => by match a with | ⟨0, _⟩ => rfl | ⟨1, _⟩ => rfl
theorem bn_i51 (n : Fin 50000) (j : Fin 128) : idx_main_v51 (idx_main_v52 (ix2 n j)) = ix1 j :=
  funext fun a => by match a with | ⟨0, _⟩ => rfl
theorem bn_i58 (n : Fin 50000) (j : Fin 128) : idx_main_v58 (idx_main_v59 (ix2 n j)) = ix1 j :=
  funext fun a => by match a with | ⟨0, _⟩ => rfl
theorem bn_i64 (n : Fin 50000) (j : Fin 128) : idx_main_v64 (idx_main_v65 (ix2 n j)) = ix1 j :=
  funext fun a => by match a with | ⟨0, _⟩ => rfl
theorem bn_i67 (n : Fin 50000) (j : Fin 128) : idx_main_v67 (idx_main_v68 (ix2 n j)) = ix1 j :=
  funext fun a => by match a with | ⟨0, _⟩ => rfl
theorem bn_i70 (n : Fin 50000) (j : Fin 128) : idx_main_v70 (idx_main_v71 (ix2 n j)) = ix1 j :=
  funext fun a => by match a with | ⟨0, _⟩ => rfl

/-- The column mean stage. -/
theorem v50_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (j : Fin 128) :
    val_main_v50 (F := Ideal) x0 x1 x2 x3 (ix1 j) = colMean (val_main_v47 (F := Ideal) x0 x1 x2 x3) j := by
  rw [val_main_v50_apply, val_main_v48_apply, val_main_v49_apply, val_main_cst_8_apply, val_main_cst_9_apply]
  generalize val_main_v47 (F := Ideal) x0 x1 x2 x3 = c
  simp only [bn_i48, Ideal.hostDivf_def, Ideal.ofBits_def, Ideal.ofBits_zero_f32, colMean]

/-- The centred entry. -/
theorem v53_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (n : Fin 50000) (j : Fin 128) :
    val_main_v53 (F := Ideal) x0 x1 x2 x3 (ix2 n j)
      = val_main_v47 (F := Ideal) x0 x1 x2 x3 (ix2 n j) - colMean (val_main_v47 (F := Ideal) x0 x1 x2 x3) j := by
  rw [val_main_v53_apply, val_main_v52_apply, val_main_v51_apply, bn_i51, v50_at]
  generalize val_main_v47 (F := Ideal) x0 x1 x2 x3 = c
  exact Ideal.subf_def _ _

/-- The column variance stage. -/
theorem v57_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (j : Fin 128) :
    val_main_v57 (F := Ideal) x0 x1 x2 x3 (ix1 j) = colVar (val_main_v47 (F := Ideal) x0 x1 x2 x3) j := by
  rw [val_main_v57_apply, val_main_v55_apply, val_main_v56_apply, val_main_cst_10_apply, val_main_cst_11_apply]
  have hs : ∀ k : Fin 50000, val_main_v54 (F := Ideal) x0 x1 x2 x3 (idx_main_v55 (ix1 j) k)
      = (val_main_v47 (F := Ideal) x0 x1 x2 x3 (ix2 k j) - colMean (val_main_v47 (F := Ideal) x0 x1 x2 x3) j)
        * (val_main_v47 (F := Ideal) x0 x1 x2 x3 (ix2 k j) - colMean (val_main_v47 (F := Ideal) x0 x1 x2 x3) j) := by
    intro k
    rw [bn_i55, val_main_v54_apply, v53_at]
    generalize val_main_v47 (F := Ideal) x0 x1 x2 x3 = c
    exact Ideal.mulf_def _ _
  rw [Finset.sum_congr rfl (fun k _ => hs k)]
  generalize val_main_v47 (F := Ideal) x0 x1 x2 x3 = c
  rw [Ideal.hostDivf_def, Ideal.ofBits_def, Ideal.ofBits_def, Ideal.ofBits_zero_f32]
  rfl

/-- Layer 1 after normalisation, rectification and the residual. -/
theorem v74_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (n : Fin 50000) (j : Fin 128) :
    val_main_v74 (F := Ideal) x0 x1 x2 x3 x4 x5 (ix2 n j)
      = bnRelu (val_main_v47 (F := Ideal) x0 x1 x2 x3) x4 x5 n j + x0 (ix2 n j) := by
  rw [val_main_v74_apply, val_main_v73_apply, val_main_call0_v0_apply, val_main_call0_cst_apply, val_main_v72_apply,
    val_main_v71_apply, val_main_v70_apply, bn_i70, val_main_v69_apply, val_main_v68_apply, val_main_v67_apply, bn_i67,
    val_main_v66_apply, val_main_v65_apply, val_main_v64_apply, bn_i64, val_main_v63_apply, val_main_v62_apply,
    val_main_v61_apply, val_main_cst_12_apply, v57_at, val_main_v60_apply, val_main_v59_apply, val_main_v58_apply, bn_i58, v50_at]
  generalize val_main_v47 (F := Ideal) x0 x1 x2 x3 = c
  rw [Ideal.ofBits_def, Ideal.ofBits_def, Ideal.ofBits_zero_f32]
  rfl

/-! ## Layer 2: batch statistics, normalisation, rectification, residual -/

theorem bn_i119 (j : Fin 128) (k : Fin 50000) : idx_main_v119 (ix1 j) k = ix2 k j :=
  funext fun a => by match a with | ⟨0, _⟩ => rfl | ⟨1, _⟩ => rfl
theorem bn_i126 (j : Fin 128) (k : Fin 50000) : idx_main_v126 (ix1 j) k = ix2 k j :=
  funext fun a => by match a with | ⟨0, _⟩ => rfl | ⟨1, _⟩ => rfl
theorem bn_i122 (n : Fin 50000) (j : Fin 128) : idx_main_v122 (idx_main_v123 (ix2 n j)) = ix1 j :=
  funext fun a => by match a with | ⟨0, _⟩ => rfl
theorem bn_i129 (n : Fin 50000) (j : Fin 128) : idx_main_v129 (idx_main_v130 (ix2 n j)) = ix1 j :=
  funext fun a => by match a with | ⟨0, _⟩ => rfl
theorem bn_i135 (n : Fin 50000) (j : Fin 128) : idx_main_v135 (idx_main_v136 (ix2 n j)) = ix1 j :=
  funext fun a => by match a with | ⟨0, _⟩ => rfl
theorem bn_i138 (n : Fin 50000) (j : Fin 128) : idx_main_v138 (idx_main_v139 (ix2 n j)) = ix1 j :=
  funext fun a => by match a with | ⟨0, _⟩ => rfl
theorem bn_i141 (n : Fin 50000) (j : Fin 128) : idx_main_v141 (idx_main_v142 (ix2 n j)) = ix1 j :=
  funext fun a => by match a with | ⟨0, _⟩ => rfl

/-- The column mean stage. -/
theorem v121_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal)) (j : Fin 128) :
    val_main_v121 (F := Ideal) x0 x1 x2 x3 x4 x5 x6 x7 (ix1 j) = colMean (val_main_v118 (F := Ideal) x0 x1 x2 x3 x4 x5 x6 x7) j := by
  rw [val_main_v121_apply, val_main_v119_apply, val_main_v120_apply, val_main_cst_23_apply, val_main_cst_24_apply]
  generalize val_main_v118 (F := Ideal) x0 x1 x2 x3 x4 x5 x6 x7 = c
  simp only [bn_i119, Ideal.hostDivf_def, Ideal.ofBits_def, Ideal.ofBits_zero_f32, colMean]

/-- The centred entry. -/
theorem v124_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal)) (n : Fin 50000) (j : Fin 128) :
    val_main_v124 (F := Ideal) x0 x1 x2 x3 x4 x5 x6 x7 (ix2 n j)
      = val_main_v118 (F := Ideal) x0 x1 x2 x3 x4 x5 x6 x7 (ix2 n j) - colMean (val_main_v118 (F := Ideal) x0 x1 x2 x3 x4 x5 x6 x7) j := by
  rw [val_main_v124_apply, val_main_v123_apply, val_main_v122_apply, bn_i122, v121_at]
  generalize val_main_v118 (F := Ideal) x0 x1 x2 x3 x4 x5 x6 x7 = c
  exact Ideal.subf_def _ _

/-- The column variance stage. -/
theorem v128_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal)) (j : Fin 128) :
    val_main_v128 (F := Ideal) x0 x1 x2 x3 x4 x5 x6 x7 (ix1 j) = colVar (val_main_v118 (F := Ideal) x0 x1 x2 x3 x4 x5 x6 x7) j := by
  rw [val_main_v128_apply, val_main_v126_apply, val_main_v127_apply, val_main_cst_25_apply, val_main_cst_26_apply]
  have hs : ∀ k : Fin 50000, val_main_v125 (F := Ideal) x0 x1 x2 x3 x4 x5 x6 x7 (idx_main_v126 (ix1 j) k)
      = (val_main_v118 (F := Ideal) x0 x1 x2 x3 x4 x5 x6 x7 (ix2 k j) - colMean (val_main_v118 (F := Ideal) x0 x1 x2 x3 x4 x5 x6 x7) j)
        * (val_main_v118 (F := Ideal) x0 x1 x2 x3 x4 x5 x6 x7 (ix2 k j) - colMean (val_main_v118 (F := Ideal) x0 x1 x2 x3 x4 x5 x6 x7) j) := by
    intro k
    rw [bn_i126, val_main_v125_apply, v124_at]
    generalize val_main_v118 (F := Ideal) x0 x1 x2 x3 x4 x5 x6 x7 = c
    exact Ideal.mulf_def _ _
  rw [Finset.sum_congr rfl (fun k _ => hs k)]
  generalize val_main_v118 (F := Ideal) x0 x1 x2 x3 x4 x5 x6 x7 = c
  rw [Ideal.hostDivf_def, Ideal.ofBits_def, Ideal.ofBits_def, Ideal.ofBits_zero_f32]
  rfl

/-- Layer 2 after normalisation, rectification and the residual (the residual is layer 1's result). -/
theorem v145_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (n : Fin 50000) (j : Fin 128) :
    val_main_v145 (F := Ideal) x0 x1 x2 x3 x4 x5 x6 x7 x8 x9 (ix2 n j)
      = bnRelu (val_main_v118 (F := Ideal) x0 x1 x2 x3 x4 x5 x6 x7) x8 x9 n j + val_main_v74 (F := Ideal) x0 x1 x2 x3 x4 x5 (ix2 n j) := by
  rw [val_main_v145_apply, val_main_v144_apply, val_main_call1_v0_apply, val_main_call1_cst_apply, val_main_v143_apply,
    val_main_v142_apply, val_main_v141_apply, bn_i141, val_main_v140_apply, val_main_v139_apply, val_main_v138_apply, bn_i138,
    val_main_v137_apply, val_main_v136_apply, val_main_v135_apply, bn_i135, val_main_v134_apply, val_main_v133_apply,
    val_main_v132_apply, val_main_cst_27_apply, v128_at, val_main_v131_apply, val_main_v130_apply, val_main_v129_apply, bn_i129, v121_at]
  generalize val_main_v118 (F := Ideal) x0 x1 x2 x3 x4 x5 x6 x7 = c
  rw [Ideal.ofBits_def, Ideal.ofBits_def, Ideal.ofBits_zero_f32]
  rfl

end Cert.ReferenceIdeal.RefValue

end
-- ==== Proof.LibGraphConv.lean ====
/-
  One layer of a graph convolution with symmetric degree normalisation, read at an entry.

  The degree scale of node `n` is the reciprocal square root of one plus the number of edges whose target word reads
  as `n`.  A layer gathers, for every edge, the source node's feature row and the product of the two endpoint scales,
  multiplies them, adds the products into the rows named by the target words, and adds the node's own row scaled by
  the square of its scale.  Read at `(n, j)` this is a sum over the edges whose target word reads as `n`, plus the
  self term.  The small lemmas first: what a value stretched along a new or a unit axis reads at an index.
-/
import Idealize.ShloMosaic.PureOps.Ideal
import Idealize.ShloMosaic.Lib.ValueIdx
import proofs.«182147_j31610959298973_2_alg».proof.Proof.LibGraphOps
import proofs.«182147_j31610959298973_2_alg».proof.Proof.LibGraphIndex

noncomputable section

namespace Cert.LibGraphConv

open Idealize.ShloMosaic Idealize.ShloMosaic.ValueIdx Cert.LibRowGather Cert.LibGraphOps Cert.LibGraphIndex

variable {α : Type} {A B N C E w : Nat}

/-! ## Stretching along an axis -/

/-- An `A × 1` column stretched to `A × B` reads, at `(a, b)`, the column's entry `(a, 0)`. -/
theorem bcast_cols_apply (hb : (⟨2, ![A, 1]⟩ : Shape).BroadcastsInDim ⟨2, ![A, B]⟩ ![0, 1])
    (x : (⟨2, ![A, 1]⟩ : Shape).Idx → α) (a : Fin A) (b : Fin B) :
    broadcastInDim ⟨2, ![A, B]⟩ ![0, 1] hb x (ix2 a b) = x (ix2 a (0 : Fin 1)) := by
  unfold broadcastInDim
  refine congrArg x (funext fun c => ?_)
  match c with
  | ⟨0, _⟩ =>
    refine Fin.ext ?_
    split
    · rename_i h1
      have h1' : A = 1 := h1
      have := a.isLt
      show 0 = a.val
      omega
    · rfl
  | ⟨1, _⟩ =>
    refine Fin.ext ?_
    split
    · rfl
    · rename_i h1
      exact absurd rfl h1

/-- A vector of `B` entries laid out as a `1 × B` row reads, at `(0, b)`, the vector's entry `b`. -/
theorem bcast_row_apply (hb : (⟨1, ![B]⟩ : Shape).BroadcastsInDim ⟨2, ![1, B]⟩ ![1])
    (x : (⟨1, ![B]⟩ : Shape).Idx → α) (k : Fin 1) (b : Fin B) :
    broadcastInDim ⟨2, ![1, B]⟩ ![1] hb x (ix2 k b) = x (ix1 b) := by
  unfold broadcastInDim
  refine congrArg x (funext fun c => ?_)
  match c with
  | ⟨0, _⟩ =>
    refine Fin.ext ?_
    split
    · rename_i h1
      have h1' : B = 1 := h1
      have := b.isLt
      show 0 = b.val
      omega
    · rfl

/-- A `1 × B` row stretched to `A × B` reads, at `(a, b)`, the row's entry `(0, b)`. -/
theorem bcast_rows_apply (hb : (⟨2, ![1, B]⟩ : Shape).BroadcastsInDim ⟨2, ![A, B]⟩ ![0, 1])
    (x : (⟨2, ![1, B]⟩ : Shape).Idx → α) (a : Fin A) (b : Fin B) :
    broadcastInDim ⟨2, ![A, B]⟩ ![0, 1] hb x (ix2 a b) = x (ix2 (0 : Fin 1) b) := by
  unfold broadcastInDim
  refine congrArg x (funext fun c => ?_)
  match c with
  | ⟨0, _⟩ =>
    refine Fin.ext ?_
    split
    · rfl
    · rename_i h1
      exact absurd rfl h1
  | ⟨1, _⟩ =>
    refine Fin.ext ?_
    split
    · rename_i h1
      have h1' : B = 1 := h1
      have := b.isLt
      show 0 = b.val
      omega
    · rfl

/-- A vector of `B` entries laid out as a `1 × B` row and stretched to `A × B` reads, at `(a, b)`, the vector's
    entry `b`. -/
theorem bcast_bias_apply (hb1 : (⟨1, ![B]⟩ : Shape).BroadcastsInDim ⟨2, ![1, B]⟩ ![1])
    (hb2 : (⟨2, ![1, B]⟩ : Shape).BroadcastsInDim ⟨2, ![A, B]⟩ ![0, 1])
    (x : (⟨1, ![B]⟩ : Shape).Idx → α) (a : Fin A) (b : Fin B) :
    broadcastInDim ⟨2, ![A, B]⟩ ![0, 1] hb2 (broadcastInDim ⟨2, ![1, B]⟩ ![1] hb1 x) (ix2 a b) = x (ix1 b) := by
  rw [bcast_rows_apply, bcast_row_apply]

/-! ## The degree scale -/

/-- THE DEGREE SCALE READ AT A NODE.  The reciprocal square root of: the operand's entry, plus the sum of the updates
    of the edges whose target word reads as this node, plus the addend's entry. -/
theorem degree_scale_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (hbE : (⟨1, ![E]⟩ : Shape).BroadcastsInDim ⟨2, ![E, 1]⟩ ![0])
    (z o : FVec Ideal ⟨1, ![N]⟩ .f32) (u : FVec Ideal ⟨1, ![E]⟩ .f32) (sd : IVec ⟨1, ![E]⟩ w) (n : Fin N) :
    Host.rsqrt (addf (Host.scatterAdd d z (broadcastInDim ⟨2, ![E, 1]⟩ ![0] hbE sd) u) o) (ix1 n)
      = Ideal.rsqrt ((z (ix1 n)
          + ∑ e ∈ Finset.univ.filter (fun e : Fin E => (sd (ix1 e)).toInt = (n.val : Int)), u (ix1 e)) + o (ix1 n)) := by
  have hfil : Finset.univ.filter (fun e : Fin E =>
        ((broadcastInDim ⟨2, ![E, 1]⟩ ![0] hbE sd) (ix2 e (0 : Fin 1))).toInt = (n.val : Int))
      = Finset.univ.filter (fun e : Fin E => (sd (ix1 e)).toInt = (n.val : Int)) := by
    refine Finset.filter_congr fun e _ => ?_
    rw [bcast_col_apply]
  show Ideal.rsqrt (Ideal.hostScatterAdd d z (broadcastInDim ⟨2, ![E, 1]⟩ ![0] hbE sd) u (ix1 n) + o (ix1 n)) = _
  rw [hostScatterAdd_vec_apply d h1 h2 h3 h4, hfil]

/-! ## One layer -/

/-- THE LAYER READ AT `(n, j)`.  With `H` the feature rows, `dis` the degree scales, `sd` the target words the
    scatter uses, and `ss1`, `ss2`, `sd2` the source and target words the three gathers use: the operand's entry,
    plus the sum over the edges whose target word reads as `n` of the source row's entry `j` times the product of the
    two gathered scales, plus the node's own entry times the square of its scale. -/
theorem conv_apply (hN : 0 < N)
    (dS : ScatterDims ⟨2, ![N, C]⟩ ⟨2, ![E, 1]⟩ ⟨2, ![E, C]⟩)
    (hS1 : dS.updateWindowDims = [1]) (hS2 : dS.insertedWindowDims = [0]) (hS3 : dS.scatterDimsToOperandDims = [0])
    (hS4 : dS.indexVectorDim = 1)
    (dG : GatherDims ⟨2, ![N, C]⟩ ⟨2, ![E, 1]⟩ ⟨2, ![E, C]⟩)
    (hG1 : dG.offsetDims = [1]) (hG2 : dG.collapsedSliceDims = [0]) (hG3 : dG.operandBatchingDims = [])
    (hG4 : dG.startIndicesBatchingDims = []) (hG5 : dG.startIndexMap = [0]) (hG6 : dG.indexVectorDim = 1)
    (hG7 : dG.sliceSizes = ![1, C])
    (dg : GatherDims ⟨1, ![N]⟩ ⟨2, ![E, 1]⟩ ⟨1, ![E]⟩)
    (hg1 : dg.offsetDims = []) (hg2 : dg.collapsedSliceDims = [0]) (hg3 : dg.operandBatchingDims = [])
    (hg4 : dg.startIndicesBatchingDims = []) (hg5 : dg.startIndexMap = [0]) (hg6 : dg.indexVectorDim = 1)
    (hg7 : dg.sliceSizes = ![1])
    (hbE : (⟨1, ![E]⟩ : Shape).BroadcastsInDim ⟨2, ![E, 1]⟩ ![0])
    (hbEC : (⟨2, ![E, 1]⟩ : Shape).BroadcastsInDim ⟨2, ![E, C]⟩ ![0, 1])
    (hbN : (⟨1, ![N]⟩ : Shape).BroadcastsInDim ⟨2, ![N, 1]⟩ ![0])
    (hbNC : (⟨2, ![N, 1]⟩ : Shape).BroadcastsInDim ⟨2, ![N, C]⟩ ![0, 1])
    (Z H : FVec Ideal ⟨2, ![N, C]⟩ .f32) (dis : FVec Ideal ⟨1, ![N]⟩ .f32) (sd ss1 ss2 sd2 : IVec ⟨1, ![E]⟩ 32)
    (n : Fin N) (j : Fin C) :
    addf
        (Host.scatterAdd dS Z (broadcastInDim ⟨2, ![E, 1]⟩ ![0] hbE sd)
          (mulf (Host.gather dG H (broadcastInDim ⟨2, ![E, 1]⟩ ![0] hbE ss1))
            (broadcastInDim ⟨2, ![E, C]⟩ ![0, 1] hbEC
              (broadcastInDim ⟨2, ![E, 1]⟩ ![0] hbE
                (mulf (Host.gather dg dis (broadcastInDim ⟨2, ![E, 1]⟩ ![0] hbE ss2))
                  (Host.gather dg dis (broadcastInDim ⟨2, ![E, 1]⟩ ![0] hbE sd2)))))))
        (mulf H (broadcastInDim ⟨2, ![N, C]⟩ ![0, 1] hbNC (broadcastInDim ⟨2, ![N, 1]⟩ ![0] hbN (mulf dis dis))))
        (ix2 n j)
      = (Z (ix2 n j)
          + ∑ e ∈ Finset.univ.filter (fun e : Fin E => (sd (ix1 e)).toInt = (n.val : Int)),
              H (ix2 (rowOf N hN (ss1 (ix1 e))) j)
                * (dis (ix1 (rowOf N hN (ss2 (ix1 e)))) * dis (ix1 (rowOf N hN (sd2 (ix1 e))))))
        + H (ix2 n j) * (dis (ix1 n) * dis (ix1 n)) := by
  have hself : (broadcastInDim ⟨2, ![N, C]⟩ ![0, 1] hbNC (broadcastInDim ⟨2, ![N, 1]⟩ ![0] hbN (mulf dis dis)))
      (ix2 n j) = dis (ix1 n) * dis (ix1 n) := by
    rw [bcast_cols_apply, bcast_col_apply]
    rfl
  have hupd : ∀ e : Fin E,
      (mulf (Host.gather dG H (broadcastInDim ⟨2, ![E, 1]⟩ ![0] hbE ss1))
        (broadcastInDim ⟨2, ![E, C]⟩ ![0, 1] hbEC
          (broadcastInDim ⟨2, ![E, 1]⟩ ![0] hbE
            (mulf (Host.gather dg dis (broadcastInDim ⟨2, ![E, 1]⟩ ![0] hbE ss2))
              (Host.gather dg dis (broadcastInDim ⟨2, ![E, 1]⟩ ![0] hbE sd2)))))) (ix2 e j)
        = H (ix2 (rowOf N hN (ss1 (ix1 e))) j)
            * (dis (ix1 (rowOf N hN (ss2 (ix1 e)))) * dis (ix1 (rowOf N hN (sd2 (ix1 e))))) := by
    intro e
    show Host.gather dG H (broadcastInDim ⟨2, ![E, 1]⟩ ![0] hbE ss1) (ix2 e j)
        * (broadcastInDim ⟨2, ![E, C]⟩ ![0, 1] hbEC
          (broadcastInDim ⟨2, ![E, 1]⟩ ![0] hbE
            (mulf (Host.gather dg dis (broadcastInDim ⟨2, ![E, 1]⟩ ![0] hbE ss2))
              (Host.gather dg dis (broadcastInDim ⟨2, ![E, 1]⟩ ![0] hbE sd2))))) (ix2 e j) = _
    rw [gather_rows_apply' hN dG hG1 hG2 hG3 hG4 hG5 hG6 hG7, bcast_col_apply, bcast_cols_apply, bcast_col_apply]
    show _ * (Host.gather dg dis (broadcastInDim ⟨2, ![E, 1]⟩ ![0] hbE ss2) (ix1 e)
        * Host.gather dg dis (broadcastInDim ⟨2, ![E, 1]⟩ ![0] hbE sd2) (ix1 e)) = _
    rw [gather_scalars_apply hN dg hg1 hg2 hg3 hg4 hg5 hg6 hg7, gather_scalars_apply hN dg hg1 hg2 hg3 hg4 hg5 hg6 hg7,
      bcast_col_apply, bcast_col_apply]
  have hfil : Finset.univ.filter (fun e : Fin E =>
        ((broadcastInDim ⟨2, ![E, 1]⟩ ![0] hbE sd) (ix2 e (0 : Fin 1))).toInt = (n.val : Int))
      = Finset.univ.filter (fun e : Fin E => (sd (ix1 e)).toInt = (n.val : Int)) := by
    refine Finset.filter_congr fun e _ => ?_
    rw [bcast_col_apply]
  show Ideal.hostScatterAdd dS Z (broadcastInDim ⟨2, ![E, 1]⟩ ![0] hbE sd) _ (ix2 n j)
      + H (ix2 n j) * (broadcastInDim ⟨2, ![N, C]⟩ ![0, 1] hbNC (broadcastInDim ⟨2, ![N, 1]⟩ ![0] hbN (mulf dis dis)))
        (ix2 n j) = _
  rw [hostScatterAdd_rows_apply dS hS1 hS2 hS3 hS4, hself, hfil]
  refine congrArg (· + H (ix2 n j) * (dis (ix1 n) * dis (ix1 n))) ?_
  refine congrArg (Z (ix2 n j) + ·) ?_
  exact Finset.sum_congr rfl fun e _ => hupd e

end Cert.LibGraphConv

end
-- ==== Proof.RefConv.lean ====
/-
  The reference program's graph convolutions, read at an entry.

  The reference computes each node's degree scale as the reciprocal square root of one plus the number of edges whose
  target word reads as that node, and each of its three layers as: gather the source node's feature row and the two
  endpoint scales for every edge (each index word first normalised: `50000` is added where it reads negative),
  multiply, add into the rows named by the raw target words, add the node's own row times the square of its scale,
  and add the bias.  Here each of these stages is read at an index as a sum over edges.  The edge words themselves are
  the two rows of the `2 × 800000` index array.
-/
import proofs.«182147_j31610959298973_2_alg».proof.Proof.RefRead
import proofs.«182147_j31610959298973_2_alg».proof.Proof.LibGraphConv

noncomputable section

namespace Cert.ReferenceIdeal.RefValue

open Cert.ReferenceIdeal Cert.ReferenceIdeal.Gen Cert.ReferenceIdeal.Read Idealize.ShloMosaic Idealize.ShloMosaic.ValueIdx
open Cert.LibRowGather Cert.LibGraphOps Cert.LibGraphIndex Cert.LibGraphConv

/-- The edge index array: two rows of `800000` 32-bit words, the source words and the target words. -/
abbrev Words : Type := (⟨S2x800000, .i32⟩ : BufTy).Contents (Elt Ideal)

/-! ## The edge words -/

/-- The source word of edge `e` is the entry `(0, e)` of the index array. -/
theorem v1_at (x1 : Words) (e : Fin 800000) : val_main_v1 (F := Ideal) x1 (ix1 e) = x1 (ix2 (0 : Fin 2) e) := by
  rw [val_main_v1_apply, val_main_v0_apply]
  refine congrArg x1 (funext fun a => ?_)
  match a with
  | ⟨0, _⟩ => rfl
  | ⟨1, _⟩ => exact Fin.ext (Nat.mod_eq_of_lt e.isLt)

/-- The target word of edge `e` is the entry `(1, e)` of the index array. -/
theorem v3_at (x1 : Words) (e : Fin 800000) : val_main_v3 (F := Ideal) x1 (ix1 e) = x1 (ix2 (1 : Fin 2) e) := by
  rw [val_main_v3_apply, val_main_v2_apply]
  refine congrArg x1 (funext fun a => ?_)
  match a with
  | ⟨0, _⟩ => rfl
  | ⟨1, _⟩ => exact Fin.ext (Nat.mod_eq_of_lt e.isLt)

/-- The node a gather reads for edge `e` through the source word: the word, with `50000` added where it reads
    negative, clamped into `[0, 49999]`. -/
def refSrcRow (x1 : Words) (e : Fin 800000) : Fin 50000 :=
  rowOf 50000 (by decide)
    (if (val_main_v1 (F := Ideal) x1 (ix1 e)).toInt < 0 then val_main_v1 (F := Ideal) x1 (ix1 e) + 50000#32
      else val_main_v1 (F := Ideal) x1 (ix1 e))

/-- The node a gather reads for edge `e` through the target word. -/
def refDstRow (x1 : Words) (e : Fin 800000) : Fin 50000 :=
  rowOf 50000 (by decide)
    (if (val_main_v3 (F := Ideal) x1 (ix1 e)).toInt < 0 then val_main_v3 (F := Ideal) x1 (ix1 e) + 50000#32
      else val_main_v3 (F := Ideal) x1 (ix1 e))

/-- The source node in terms of the index array's entry `(0, e)`. -/
theorem refSrcRow_eq (x1 : Words) (e : Fin 800000) :
    refSrcRow x1 e = rowOf 50000 (by decide)
      (if (x1 (ix2 (0 : Fin 2) e)).toInt < 0 then x1 (ix2 (0 : Fin 2) e) + 50000#32 else x1 (ix2 (0 : Fin 2) e)) := by
  unfold refSrcRow
  rw [v1_at]

/-- The target node in terms of the index array's entry `(1, e)`. -/
theorem refDstRow_eq (x1 : Words) (e : Fin 800000) :
    refDstRow x1 e = rowOf 50000 (by decide)
      (if (x1 (ix2 (1 : Fin 2) e)).toInt < 0 then x1 (ix2 (1 : Fin 2) e) + 50000#32 else x1 (ix2 (1 : Fin 2) e)) := by
  unfold refDstRow
  rw [v3_at]

/-! ## The degree scale -/

/-- THE DEGREE SCALE OF NODE `n`: the reciprocal square root of one plus the number of edges whose target word reads
    as `n` (each counted as the float one). -/
theorem v11_at (x1 : Words) (n : Fin 50000) :
    val_main_v11 (F := Ideal) x1 (ix1 n)
      = Ideal.rsqrt ((0 + ∑ e ∈ Finset.univ.filter (fun e : Fin 800000 => (val_main_v3 (F := Ideal) x1 (ix1 e)).toInt = (n.val : Int)),
            Ideal.ofBits .f32 0x3F800000#32) + Ideal.ofBits .f32 0x3F800000#32) := by
  have h := degree_scale_apply scatter_S50000_S800000x1_S800000_n_0_0_1 rfl rfl rfl rfl bcast_S800000_S800000x1_0
    (val_main_v6 (F := Ideal)) (val_main_v9 (F := Ideal)) (val_main_v5 (F := Ideal)) (val_main_v3 (F := Ideal) x1) n
  have h6 : val_main_v6 (F := Ideal) (ix1 n) = 0 := Idealize.ShloMosaic.Ideal.ofBits_zero_f32
  have h9 : val_main_v9 (F := Ideal) (ix1 n) = Ideal.ofBits .f32 0x3F800000#32 := rfl
  have h5 : ∀ e : Fin 800000, val_main_v5 (F := Ideal) (ix1 e) = Ideal.ofBits .f32 0x3F800000#32 := fun _ => rfl
  unfold val_main_v11 val_main_v10 val_main_v8 val_main_v7
  refine h.trans ?_
  rw [h6, h9]
  simp only [h5]

/-- The second layer recomputes the degree scale from the same words: the same function. -/
theorem v82_eq (x1 : Words) : val_main_v82 (F := Ideal) x1 = val_main_v11 (F := Ideal) x1 := rfl

/-- The third layer recomputes the degree scale from the same words: the same function. -/
theorem v153_eq (x1 : Words) : val_main_v153 (F := Ideal) x1 = val_main_v11 (F := Ideal) x1 := rfl

end Cert.ReferenceIdeal.RefValue

end
-- ==== Proof.RefConv3.lean ====
/-
  The three graph convolutions of the reference network, read at an entry, on the extended reals.

  A layer's convolution takes the feature rows H (one row per node), the degree scales dis (one per node) and the
  edge list (a source word and a target word per edge).  Its entry (n, j) is: the sum, over the edges whose target
  word reads as node n, of the source node's entry H(s, j) times the product of the source's and the target's degree
  scales; plus the node's own entry H(n, j) times the square of its own scale; plus the bias of column j.  A source
  or target word is first normalised (a negative word counts from the end) and then clamped into the node range; the
  accumulation starts from zero, and on the extended reals it is an exact sum.  Each layer is read first with the
  words as the program's stages name them, then in terms of the edge array itself; layers 2 and 3 recompute the
  degree scales, and the recomputed vector is the first layer's.
-/
import proofs.«182147_j31610959298973_2_alg».proof.Proof.RefRead
import proofs.«182147_j31610959298973_2_alg».proof.Proof.LibGraphConv

noncomputable section

namespace Cert.ReferenceIdeal.RefValue

open Cert.ReferenceIdeal Cert.ReferenceIdeal.Gen Cert.ReferenceIdeal.Read Idealize.ShloMosaic Idealize.ShloMosaic.ValueIdx
open Cert.LibRowGather Cert.LibGraphOps Cert.LibGraphIndex Cert.LibGraphConv

/-- The number of nodes is positive. -/
theorem c_pos : 0 < 50000 := by decide

/-- A 32-bit node word after the index normalisation: a negative word counts from the end. -/
def c_norm (v : BitVec 32) : BitVec 32 := if v.toInt < 0 then v + 50000#32 else v

/-- The source row of edge `e`: its normalised source word, clamped into the node range. -/
def c_S (x1 : (⟨S2x800000, .i32⟩ : BufTy).Contents (Elt Ideal)) (e : Fin 800000) : Fin 50000 :=
  rowOf 50000 c_pos (c_norm (val_main_v1 (F := Ideal) x1 (ix1 e)))

/-- The target row of edge `e`: its normalised target word, clamped into the node range. -/
def c_D (x1 : (⟨S2x800000, .i32⟩ : BufTy).Contents (Elt Ideal)) (e : Fin 800000) : Fin 50000 :=
  rowOf 50000 c_pos (c_norm (val_main_v3 (F := Ideal) x1 (ix1 e)))

/-! ## Layer 1's convolution -/

theorem c1_srcH_word (x1 : (⟨S2x800000, .i32⟩ : BufTy).Contents (Elt Ideal)) (e : Fin 800000) :
    val_main_v31 (F := Ideal) x1 (ix1 e) = c_norm (val_main_v1 (F := Ideal) x1 (ix1 e)) := by
  unfold val_main_v31 val_main_v28 val_main_v30 val_main_v27 val_main_v29 val_main_c_5 val_main_c_6
  generalize val_main_v1 (F := Ideal) x1 = s
  exact normalise_bcast_apply bcast_S_S800000 s 50000#32 e

theorem c1_srcD_word (x1 : (⟨S2x800000, .i32⟩ : BufTy).Contents (Elt Ideal)) (e : Fin 800000) :
    val_main_v16 (F := Ideal) x1 (ix1 e) = c_norm (val_main_v1 (F := Ideal) x1 (ix1 e)) := by
  unfold val_main_v16 val_main_v13 val_main_v15 val_main_v12 val_main_v14 val_main_c val_main_c_2
  generalize val_main_v1 (F := Ideal) x1 = s
  exact normalise_bcast_apply bcast_S_S800000 s 50000#32 e

theorem c1_dstD_word (x1 : (⟨S2x800000, .i32⟩ : BufTy).Contents (Elt Ideal)) (e : Fin 800000) :
    val_main_v23 (F := Ideal) x1 (ix1 e) = c_norm (val_main_v3 (F := Ideal) x1 (ix1 e)) := by
  unfold val_main_v23 val_main_v20 val_main_v22 val_main_v19 val_main_v21 val_main_c_3 val_main_c_4
  generalize val_main_v3 (F := Ideal) x1 = s
  exact normalise_bcast_apply bcast_S_S800000 s 50000#32 e

set_option maxHeartbeats 100000 in
/-- The aggregation plus the self term, before the bias, with the gathers' words as the stages name them. -/
theorem c1_agg_raw (x0 : (⟨S50000x128, .f32⟩ : BufTy).Contents (Elt Ideal)) (x1 : (⟨S2x800000, .i32⟩ : BufTy).Contents (Elt Ideal)) (x2 : (⟨S128x128, .f32⟩ : BufTy).Contents (Elt Ideal)) (n : Fin 50000) (j : Fin 128) :
    val_main_v44 (F := Ideal) x0 x1 x2 (ix2 n j)
      = (val_main_v37 (F := Ideal) (ix2 n j)
          + ∑ e ∈ Finset.univ.filter (fun e : Fin 800000 => (val_main_v3 (F := Ideal) x1 (ix1 e)).toInt = (n.val : Int)),
            val_main_v4 (F := Ideal) x0 x2 (ix2 (rowOf 50000 c_pos (val_main_v31 (F := Ideal) x1 (ix1 e))) j)
              * (val_main_v11 (F := Ideal) x1 (ix1 (rowOf 50000 c_pos (val_main_v16 (F := Ideal) x1 (ix1 e))))
                  * val_main_v11 (F := Ideal) x1 (ix1 (rowOf 50000 c_pos (val_main_v23 (F := Ideal) x1 (ix1 e))))))
        + val_main_v4 (F := Ideal) x0 x2 (ix2 n j) * (val_main_v11 (F := Ideal) x1 (ix1 n) * val_main_v11 (F := Ideal) x1 (ix1 n)) := by
  unfold val_main_v44 val_main_v39 val_main_v43 val_main_v36 val_main_v33 val_main_v35 val_main_v34 val_main_v26
    val_main_v18 val_main_v25 val_main_v42 val_main_v41 val_main_v40 val_main_v38 val_main_v32 val_main_v17 val_main_v24
  generalize val_main_v4 (F := Ideal) x0 x2 = H
  generalize val_main_v11 (F := Ideal) x1 = dis
  generalize val_main_v3 (F := Ideal) x1 = sd
  generalize val_main_v31 (F := Ideal) x1 = ss1
  generalize val_main_v16 (F := Ideal) x1 = ss2
  generalize val_main_v23 (F := Ideal) x1 = sd2
  generalize val_main_v37 (F := Ideal) = Z
  exact conv_apply (N := 50000) (C := 128) (E := 800000) c_pos scatter_S50000x128_S800000x1_S800000x128_1_0_0_1 rfl rfl rfl rfl
    gather_S50000x128_S800000x1_S800000x128_1_0_n_n_0_1_1128 rfl rfl rfl rfl rfl rfl rfl
    gather_S50000_S800000x1_S800000_n_0_n_n_0_1_1 rfl rfl rfl rfl rfl rfl rfl
    bcast_S800000_S800000x1_0 bcast_S800000x1_S800000x128_0_1 bcast_S50000_S50000x1_0 bcast_S50000x1_S50000x128_0_1
    Z H dis sd ss1 ss2 sd2 n j

theorem c1_ibias (n : Fin 50000) (j : Fin 128) : idx_main_v45 (idx_main_v46 (ix2 n j)) = ix1 j :=
  funext fun a => by match a with | ⟨0, _⟩ => rfl

/-- LAYER 1's CONVOLUTION READ AT `(n, j)`, in the same form. -/
theorem c1_v47_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (n : Fin 50000) (j : Fin 128) :
    val_main_v47 (F := Ideal) x0 x1 x2 x3 (ix2 n j)
      = ((0 + ∑ e ∈ Finset.univ.filter (fun e : Fin 800000 => (val_main_v3 (F := Ideal) x1 (ix1 e)).toInt = (n.val : Int)),
            val_main_v4 (F := Ideal) x0 x2 (ix2 (c_S x1 e) j) * (val_main_v11 (F := Ideal) x1 (ix1 (c_S x1 e)) * val_main_v11 (F := Ideal) x1 (ix1 (c_D x1 e))))
        + val_main_v4 (F := Ideal) x0 x2 (ix2 n j) * (val_main_v11 (F := Ideal) x1 (ix1 n) * val_main_v11 (F := Ideal) x1 (ix1 n))) + x3 (ix1 j) := by
  have hz : val_main_v37 (F := Ideal) (ix2 n j) = 0 := by
    rw [val_main_v37_apply, val_main_cst_7_apply, Ideal.ofBits_def, Ideal.ofBits_zero_f32]
  have hs : ∀ e : Fin 800000,
      val_main_v4 (F := Ideal) x0 x2 (ix2 (rowOf 50000 c_pos (val_main_v31 (F := Ideal) x1 (ix1 e))) j)
        * (val_main_v11 (F := Ideal) x1 (ix1 (rowOf 50000 c_pos (val_main_v16 (F := Ideal) x1 (ix1 e))))
            * val_main_v11 (F := Ideal) x1 (ix1 (rowOf 50000 c_pos (val_main_v23 (F := Ideal) x1 (ix1 e)))))
      = val_main_v4 (F := Ideal) x0 x2 (ix2 (c_S x1 e) j) * (val_main_v11 (F := Ideal) x1 (ix1 (c_S x1 e)) * val_main_v11 (F := Ideal) x1 (ix1 (c_D x1 e))) := by
    intro e
    rw [c1_srcH_word, c1_srcD_word, c1_dstD_word]
    rfl
  rw [val_main_v47_apply, val_main_v46_apply, val_main_v45_apply, c1_ibias, c1_agg_raw, hz,
    Finset.sum_congr rfl (fun e _ => hs e)]
  generalize val_main_v4 (F := Ideal) x0 x2 = H
  generalize val_main_v11 (F := Ideal) x1 = dis
  exact Ideal.addf_def _ _

/-! ## Layer 2's convolution -/

theorem c2_srcH_word (x1 : (⟨S2x800000, .i32⟩ : BufTy).Contents (Elt Ideal)) (e : Fin 800000) :
    val_main_v102 (F := Ideal) x1 (ix1 e) = c_norm (val_main_v1 (F := Ideal) x1 (ix1 e)) := by
  unfold val_main_v102 val_main_v99 val_main_v101 val_main_v98 val_main_v100 val_main_c_20 val_main_c_21
  generalize val_main_v1 (F := Ideal) x1 = s
  exact normalise_bcast_apply bcast_S_S800000 s 50000#32 e

theorem c2_srcD_word (x1 : (⟨S2x800000, .i32⟩ : BufTy).Contents (Elt Ideal)) (e : Fin 800000) :
    val_main_v87 (F := Ideal) x1 (ix1 e) = c_norm (val_main_v1 (F := Ideal) x1 (ix1 e)) := by
  unfold val_main_v87 val_main_v84 val_main_v86 val_main_v83 val_main_v85 val_main_c_16 val_main_c_17
  generalize val_main_v1 (F := Ideal) x1 = s
  exact normalise_bcast_apply bcast_S_S800000 s 50000#32 e

theorem c2_dstD_word (x1 : (⟨S2x800000, .i32⟩ : BufTy).Contents (Elt Ideal)) (e : Fin 800000) :
    val_main_v94 (F := Ideal) x1 (ix1 e) = c_norm (val_main_v3 (F := Ideal) x1 (ix1 e)) := by
  unfold val_main_v94 val_main_v91 val_main_v93 val_main_v90 val_main_v92 val_main_c_18 val_main_c_19
  generalize val_main_v3 (F := Ideal) x1 = s
  exact normalise_bcast_apply bcast_S_S800000 s 50000#32 e

set_option maxHeartbeats 100000 in
/-- The aggregation plus the self term, before the bias, with the gathers' words as the stages name them. -/
theorem c2_agg_raw (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (n : Fin 50000) (j : Fin 128) :
    val_main_v115 (F := Ideal) x0 x1 x2 x3 x4 x5 x6 (ix2 n j)
      = (val_main_v108 (F := Ideal) (ix2 n j)
          + ∑ e ∈ Finset.univ.filter (fun e : Fin 800000 => (val_main_v3 (F := Ideal) x1 (ix1 e)).toInt = (n.val : Int)),
            val_main_v75 (F := Ideal) x0 x1 x2 x3 x4 x5 x6 (ix2 (rowOf 50000 c_pos (val_main_v102 (F := Ideal) x1 (ix1 e))) j)
              * (val_main_v82 (F := Ideal) x1 (ix1 (rowOf 50000 c_pos (val_main_v87 (F := Ideal) x1 (ix1 e))))
                  * val_main_v82 (F := Ideal) x1 (ix1 (rowOf 50000 c_pos (val_main_v94 (F := Ideal) x1 (ix1 e))))))
        + val_main_v75 (F := Ideal) x0 x1 x2 x3 x4 x5 x6 (ix2 n j) * (val_main_v82 (F := Ideal) x1 (ix1 n) * val_main_v82 (F := Ideal) x1 (ix1 n)) := by
  unfold val_main_v115 val_main_v110 val_main_v114 val_main_v107 val_main_v104 val_main_v106 val_main_v105 val_main_v97
    val_main_v89 val_main_v96 val_main_v113 val_main_v112 val_main_v111 val_main_v109 val_main_v103 val_main_v88 val_main_v95
  generalize val_main_v75 (F := Ideal) x0 x1 x2 x3 x4 x5 x6 = H
  generalize val_main_v82 (F := Ideal) x1 = dis
  generalize val_main_v3 (F := Ideal) x1 = sd
  generalize val_main_v102 (F := Ideal) x1 = ss1
  generalize val_main_v87 (F := Ideal) x1 = ss2
  generalize val_main_v94 (F := Ideal) x1 = sd2
  generalize val_main_v108 (F := Ideal) = Z
  exact conv_apply (N := 50000) (C := 128) (E := 800000) c_pos scatter_S50000x128_S800000x1_S800000x128_1_0_0_1 rfl rfl rfl rfl
    gather_S50000x128_S800000x1_S800000x128_1_0_n_n_0_1_1128 rfl rfl rfl rfl rfl rfl rfl
    gather_S50000_S800000x1_S800000_n_0_n_n_0_1_1 rfl rfl rfl rfl rfl rfl rfl
    bcast_S800000_S800000x1_0 bcast_S800000x1_S800000x128_0_1 bcast_S50000_S50000x1_0 bcast_S50000x1_S50000x128_0_1
    Z H dis sd ss1 ss2 sd2 n j

theorem c2_ibias (n : Fin 50000) (j : Fin 128) : idx_main_v116 (idx_main_v117 (ix2 n j)) = ix1 j :=
  funext fun a => by match a with | ⟨0, _⟩ => rfl

/-- LAYER 2's CONVOLUTION READ AT `(n, j)`, in the same form. -/
theorem c2_v118_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal)) (n : Fin 50000) (j : Fin 128) :
    val_main_v118 (F := Ideal) x0 x1 x2 x3 x4 x5 x6 x7 (ix2 n j)
      = ((0 + ∑ e ∈ Finset.univ.filter (fun e : Fin 800000 => (val_main_v3 (F := Ideal) x1 (ix1 e)).toInt = (n.val : Int)),
            val_main_v75 (F := Ideal) x0 x1 x2 x3 x4 x5 x6 (ix2 (c_S x1 e) j) * (val_main_v82 (F := Ideal) x1 (ix1 (c_S x1 e)) * val_main_v82 (F := Ideal) x1 (ix1 (c_D x1 e))))
        + val_main_v75 (F := Ideal) x0 x1 x2 x3 x4 x5 x6 (ix2 n j) * (val_main_v82 (F := Ideal) x1 (ix1 n) * val_main_v82 (F := Ideal) x1 (ix1 n))) + x7 (ix1 j) := by
  have hz : val_main_v108 (F := Ideal) (ix2 n j) = 0 := by
    rw [val_main_v108_apply, val_main_cst_22_apply, Ideal.ofBits_def, Ideal.ofBits_zero_f32]
  have hs : ∀ e : Fin 800000,
      val_main_v75 (F := Ideal) x0 x1 x2 x3 x4 x5 x6 (ix2 (rowOf 50000 c_pos (val_main_v102 (F := Ideal) x1 (ix1 e))) j)
        * (val_main_v82 (F := Ideal) x1 (ix1 (rowOf 50000 c_pos (val_main_v87 (F := Ideal) x1 (ix1 e))))
            * val_main_v82 (F := Ideal) x1 (ix1 (rowOf 50000 c_pos (val_main_v94 (F := Ideal) x1 (ix1 e)))))
      = val_main_v75 (F := Ideal) x0 x1 x2 x3 x4 x5 x6 (ix2 (c_S x1 e) j) * (val_main_v82 (F := Ideal) x1 (ix1 (c_S x1 e)) * val_main_v82 (F := Ideal) x1 (ix1 (c_D x1 e))) := by
    intro e
    rw [c2_srcH_word, c2_srcD_word, c2_dstD_word]
    rfl
  rw [val_main_v118_apply, val_main_v117_apply, val_main_v116_apply, c2_ibias, c2_agg_raw, hz,
    Finset.sum_congr rfl (fun e _ => hs e)]
  generalize val_main_v75 (F := Ideal) x0 x1 x2 x3 x4 x5 x6 = H
  generalize val_main_v82 (F := Ideal) x1 = dis
  exact Ideal.addf_def _ _

/-! ## Layer 3's convolution -/

theorem c3_srcH_word (x1 : (⟨S2x800000, .i32⟩ : BufTy).Contents (Elt Ideal)) (e : Fin 800000) :
    val_main_v173 (F := Ideal) x1 (ix1 e) = c_norm (val_main_v1 (F := Ideal) x1 (ix1 e)) := by
  unfold val_main_v173 val_main_v170 val_main_v172 val_main_v169 val_main_v171 val_main_c_35 val_main_c_36
  generalize val_main_v1 (F := Ideal) x1 = s
  exact normalise_bcast_apply bcast_S_S800000 s 50000#32 e

theorem c3_srcD_word (x1 : (⟨S2x800000, .i32⟩ : BufTy).Contents (Elt Ideal)) (e : Fin 800000) :
    val_main_v158 (F := Ideal) x1 (ix1 e) = c_norm (val_main_v1 (F := Ideal) x1 (ix1 e)) := by
  unfold val_main_v158 val_main_v155 val_main_v157 val_main_v154 val_main_v156 val_main_c_31 val_main_c_32
  generalize val_main_v1 (F := Ideal) x1 = s
  exact normalise_bcast_apply bcast_S_S800000 s 50000#32 e

theorem c3_dstD_word (x1 : (⟨S2x800000, .i32⟩ : BufTy).Contents (Elt Ideal)) (e : Fin 800000) :
    val_main_v165 (F := Ideal) x1 (ix1 e) = c_norm (val_main_v3 (F := Ideal) x1 (ix1 e)) := by
  unfold val_main_v165 val_main_v162 val_main_v164 val_main_v161 val_main_v163 val_main_c_33 val_main_c_34
  generalize val_main_v3 (F := Ideal) x1 = s
  exact normalise_bcast_apply bcast_S_S800000 s 50000#32 e

set_option maxHeartbeats 100000 in
/-- The aggregation plus the self term, before the bias, with the gathers' words as the stages name them. -/
theorem c3_agg_raw (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S128x32, .f32⟩ : BufTy).Contents (Elt Ideal)) (n : Fin 50000) (j : Fin 32) :
    val_main_v186 (F := Ideal) x0 x1 x2 x3 x4 x5 x6 x7 x8 x9 x10 (ix2 n j)
      = (val_main_v179 (F := Ideal) (ix2 n j)
          + ∑ e ∈ Finset.univ.filter (fun e : Fin 800000 => (val_main_v3 (F := Ideal) x1 (ix1 e)).toInt = (n.val : Int)),
            val_main_v146 (F := Ideal) x0 x1 x2 x3 x4 x5 x6 x7 x8 x9 x10 (ix2 (rowOf 50000 c_pos (val_main_v173 (F := Ideal) x1 (ix1 e))) j)
              * (val_main_v153 (F := Ideal) x1 (ix1 (rowOf 50000 c_pos (val_main_v158 (F := Ideal) x1 (ix1 e))))
                  * val_main_v153 (F := Ideal) x1 (ix1 (rowOf 50000 c_pos (val_main_v165 (F := Ideal) x1 (ix1 e))))))
        + val_main_v146 (F := Ideal) x0 x1 x2 x3 x4 x5 x6 x7 x8 x9 x10 (ix2 n j) * (val_main_v153 (F := Ideal) x1 (ix1 n) * val_main_v153 (F := Ideal) x1 (ix1 n)) := by
  unfold val_main_v186 val_main_v181 val_main_v185 val_main_v178 val_main_v175 val_main_v177 val_main_v176 val_main_v168
    val_main_v160 val_main_v167 val_main_v184 val_main_v183 val_main_v182 val_main_v180 val_main_v174 val_main_v159 val_main_v166
  generalize val_main_v146 (F := Ideal) x0 x1 x2 x3 x4 x5 x6 x7 x8 x9 x10 = H
  generalize val_main_v153 (F := Ideal) x1 = dis
  generalize val_main_v3 (F := Ideal) x1 = sd
  generalize val_main_v173 (F := Ideal) x1 = ss1
  generalize val_main_v158 (F := Ideal) x1 = ss2
  generalize val_main_v165 (F := Ideal) x1 = sd2
  generalize val_main_v179 (F := Ideal) = Z
  exact conv_apply (N := 50000) (C := 32) (E := 800000) c_pos scatter_S50000x32_S800000x1_S800000x32_1_0_0_1 rfl rfl rfl rfl
    gather_S50000x32_S800000x1_S800000x32_1_0_n_n_0_1_132 rfl rfl rfl rfl rfl rfl rfl
    gather_S50000_S800000x1_S800000_n_0_n_n_0_1_1 rfl rfl rfl rfl rfl rfl rfl
    bcast_S800000_S800000x1_0 bcast_S800000x1_S800000x32_0_1 bcast_S50000_S50000x1_0 bcast_S50000x1_S50000x32_0_1
    Z H dis sd ss1 ss2 sd2 n j

theorem c3_ibias (n : Fin 50000) (j : Fin 32) : idx_main_v187 (idx_main_v188 (ix2 n j)) = ix1 j :=
  funext fun a => by match a with | ⟨0, _⟩ => rfl

/-- LAYER 3's CONVOLUTION READ AT `(n, j)`: the sum over the edges whose target word reads as node `n` of the source row's entry times the two degree scales, plus the node's own entry times the square of its scale, plus the bias. -/
theorem c3_v189_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S128x32, .f32⟩ : BufTy).Contents (Elt Ideal)) (x11 : (⟨S32, .f32⟩ : BufTy).Contents (Elt Ideal)) (n : Fin 50000) (j : Fin 32) :
    val_main_v189 (F := Ideal) x0 x1 x2 x3 x4 x5 x6 x7 x8 x9 x10 x11 (ix2 n j)
      = ((0 + ∑ e ∈ Finset.univ.filter (fun e : Fin 800000 => (val_main_v3 (F := Ideal) x1 (ix1 e)).toInt = (n.val : Int)),
            val_main_v146 (F := Ideal) x0 x1 x2 x3 x4 x5 x6 x7 x8 x9 x10 (ix2 (c_S x1 e) j) * (val_main_v153 (F := Ideal) x1 (ix1 (c_S x1 e)) * val_main_v153 (F := Ideal) x1 (ix1 (c_D x1 e))))
        + val_main_v146 (F := Ideal) x0 x1 x2 x3 x4 x5 x6 x7 x8 x9 x10 (ix2 n j) * (val_main_v153 (F := Ideal) x1 (ix1 n) * val_main_v153 (F := Ideal) x1 (ix1 n))) + x11 (ix1 j) := by
  have hz : val_main_v179 (F := Ideal) (ix2 n j) = 0 := by
    rw [val_main_v179_apply, val_main_cst_37_apply, Ideal.ofBits_def, Ideal.ofBits_zero_f32]
  have hs : ∀ e : Fin 800000,
      val_main_v146 (F := Ideal) x0 x1 x2 x3 x4 x5 x6 x7 x8 x9 x10 (ix2 (rowOf 50000 c_pos (val_main_v173 (F := Ideal) x1 (ix1 e))) j)
        * (val_main_v153 (F := Ideal) x1 (ix1 (rowOf 50000 c_pos (val_main_v158 (F := Ideal) x1 (ix1 e))))
            * val_main_v153 (F := Ideal) x1 (ix1 (rowOf 50000 c_pos (val_main_v165 (F := Ideal) x1 (ix1 e)))))
      = val_main_v146 (F := Ideal) x0 x1 x2 x3 x4 x5 x6 x7 x8 x9 x10 (ix2 (c_S x1 e) j) * (val_main_v153 (F := Ideal) x1 (ix1 (c_S x1 e)) * val_main_v153 (F := Ideal) x1 (ix1 (c_D x1 e))) := by
    intro e
    rw [c3_srcH_word, c3_srcD_word, c3_dstD_word]
    rfl
  rw [val_main_v189_apply, val_main_v188_apply, val_main_v187_apply, c3_ibias, c3_agg_raw, hz,
    Finset.sum_congr rfl (fun e _ => hs e)]
  generalize val_main_v146 (F := Ideal) x0 x1 x2 x3 x4 x5 x6 x7 x8 x9 x10 = H
  generalize val_main_v153 (F := Ideal) x1 = dis
  exact Ideal.addf_def _ _

/-- The source words are row 0 of the edge array. -/
theorem c_v1_at (x1 : (⟨S2x800000, .i32⟩ : BufTy).Contents (Elt Ideal)) (e : Fin 800000) : val_main_v1 (F := Ideal) x1 (ix1 e) = x1 (ix2 (0 : Fin 2) e) := by
  rw [val_main_v1_apply, val_main_v0_apply]
  refine congrArg x1 (funext fun a => ?_)
  match a with
  | ⟨0, _⟩ => rfl
  | ⟨1, _⟩ => exact Fin.ext (Nat.mod_eq_of_lt e.isLt)

/-- The target words are row 1 of the edge array. -/
theorem c_v3_at (x1 : (⟨S2x800000, .i32⟩ : BufTy).Contents (Elt Ideal)) (e : Fin 800000) : val_main_v3 (F := Ideal) x1 (ix1 e) = x1 (ix2 (1 : Fin 2) e) := by
  rw [val_main_v3_apply, val_main_v2_apply]
  refine congrArg x1 (funext fun a => ?_)
  match a with
  | ⟨0, _⟩ => rfl
  | ⟨1, _⟩ => exact Fin.ext (Nat.mod_eq_of_lt e.isLt)

/-- The source row of an edge in terms of the edge array. -/
theorem c_S_eq (x1 : (⟨S2x800000, .i32⟩ : BufTy).Contents (Elt Ideal)) (e : Fin 800000) : c_S x1 e = (rowOf 50000 (by decide) (if (x1 (ix2 (0 : Fin 2) e)).toInt < 0 then x1 (ix2 (0 : Fin 2) e) + 50000#32 else x1 (ix2 (0 : Fin 2) e))) := by
  unfold c_S c_norm
  rw [c_v1_at]

/-- The target row of an edge in terms of the edge array. -/
theorem c_D_eq (x1 : (⟨S2x800000, .i32⟩ : BufTy).Contents (Elt Ideal)) (e : Fin 800000) : c_D x1 e = (rowOf 50000 (by decide) (if (x1 (ix2 (1 : Fin 2) e)).toInt < 0 then x1 (ix2 (1 : Fin 2) e) + 50000#32 else x1 (ix2 (1 : Fin 2) e))) := by
  unfold c_D c_norm
  rw [c_v3_at]

/-- The edges whose target word reads as node `n`, in terms of the edge array. -/
theorem c_filter_eq (x1 : (⟨S2x800000, .i32⟩ : BufTy).Contents (Elt Ideal)) (n : Fin 50000) :
    Finset.univ.filter (fun e : Fin 800000 => (val_main_v3 (F := Ideal) x1 (ix1 e)).toInt = (n.val : Int))
      = Finset.univ.filter (fun e : Fin 800000 => (x1 (ix2 (1 : Fin 2) e)).toInt = (n.val : Int)) :=
  Finset.filter_congr fun e _ => by rw [c_v3_at]

set_option maxHeartbeats 100000 in
/-- Layer 2 recomputes the degree scales: the same vector. -/
theorem c_v82_eq (x1 : (⟨S2x800000, .i32⟩ : BufTy).Contents (Elt Ideal)) : val_main_v82 (F := Ideal) x1 = val_main_v11 (F := Ideal) x1 := rfl

set_option maxHeartbeats 100000 in
/-- Layer 3 recomputes the degree scales: the same vector. -/
theorem c_v153_eq (x1 : (⟨S2x800000, .i32⟩ : BufTy).Contents (Elt Ideal)) : val_main_v153 (F := Ideal) x1 = val_main_v11 (F := Ideal) x1 := rfl

/-- Layer 1's convolution in terms of the edge array. -/
theorem c1_v47_at' (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (n : Fin 50000) (j : Fin 128) :
    val_main_v47 (F := Ideal) x0 x1 x2 x3 (ix2 n j)
      = ((0 + ∑ e ∈ Finset.univ.filter (fun e : Fin 800000 => (x1 (ix2 (1 : Fin 2) e)).toInt = (n.val : Int)),
            val_main_v4 (F := Ideal) x0 x2 (ix2 (rowOf 50000 (by decide) (if (x1 (ix2 (0 : Fin 2) e)).toInt < 0 then x1 (ix2 (0 : Fin 2) e) + 50000#32 else x1 (ix2 (0 : Fin 2) e))) j)
              * (val_main_v11 (F := Ideal) x1 (ix1 (rowOf 50000 (by decide) (if (x1 (ix2 (0 : Fin 2) e)).toInt < 0 then x1 (ix2 (0 : Fin 2) e) + 50000#32 else x1 (ix2 (0 : Fin 2) e))))
                  * val_main_v11 (F := Ideal) x1 (ix1 (rowOf 50000 (by decide) (if (x1 (ix2 (1 : Fin 2) e)).toInt < 0 then x1 (ix2 (1 : Fin 2) e) + 50000#32 else x1 (ix2 (1 : Fin 2) e))))))
        + val_main_v4 (F := Ideal) x0 x2 (ix2 n j) * (val_main_v11 (F := Ideal) x1 (ix1 n) * val_main_v11 (F := Ideal) x1 (ix1 n))) + x3 (ix1 j) := by
  have hs : ∀ e : Fin 800000,
      val_main_v4 (F := Ideal) x0 x2 (ix2 (c_S x1 e) j) * (val_main_v11 (F := Ideal) x1 (ix1 (c_S x1 e)) * val_main_v11 (F := Ideal) x1 (ix1 (c_D x1 e)))
      = val_main_v4 (F := Ideal) x0 x2 (ix2 (rowOf 50000 (by decide) (if (x1 (ix2 (0 : Fin 2) e)).toInt < 0 then x1 (ix2 (0 : Fin 2) e) + 50000#32 else x1 (ix2 (0 : Fin 2) e))) j)
          * (val_main_v11 (F := Ideal) x1 (ix1 (rowOf 50000 (by decide) (if (x1 (ix2 (0 : Fin 2) e)).toInt < 0 then x1 (ix2 (0 : Fin 2) e) + 50000#32 else x1 (ix2 (0 : Fin 2) e))))
              * val_main_v11 (F := Ideal) x1 (ix1 (rowOf 50000 (by decide) (if (x1 (ix2 (1 : Fin 2) e)).toInt < 0 then x1 (ix2 (1 : Fin 2) e) + 50000#32 else x1 (ix2 (1 : Fin 2) e))))) := by
    intro e
    rw [c_S_eq, c_D_eq]
  rw [c1_v47_at, c_filter_eq, Finset.sum_congr rfl (fun e _ => hs e)]

/-- Layer 2's convolution in terms of the edge array and the first layer's degree scales. -/
theorem c2_v118_at' (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal)) (n : Fin 50000) (j : Fin 128) :
    val_main_v118 (F := Ideal) x0 x1 x2 x3 x4 x5 x6 x7 (ix2 n j)
      = ((0 + ∑ e ∈ Finset.univ.filter (fun e : Fin 800000 => (x1 (ix2 (1 : Fin 2) e)).toInt = (n.val : Int)),
            val_main_v75 (F := Ideal) x0 x1 x2 x3 x4 x5 x6 (ix2 (rowOf 50000 (by decide) (if (x1 (ix2 (0 : Fin 2) e)).toInt < 0 then x1 (ix2 (0 : Fin 2) e) + 50000#32 else x1 (ix2 (0 : Fin 2) e))) j)
              * (val_main_v11 (F := Ideal) x1 (ix1 (rowOf 50000 (by decide) (if (x1 (ix2 (0 : Fin 2) e)).toInt < 0 then x1 (ix2 (0 : Fin 2) e) + 50000#32 else x1 (ix2 (0 : Fin 2) e))))
                  * val_main_v11 (F := Ideal) x1 (ix1 (rowOf 50000 (by decide) (if (x1 (ix2 (1 : Fin 2) e)).toInt < 0 then x1 (ix2 (1 : Fin 2) e) + 50000#32 else x1 (ix2 (1 : Fin 2) e))))))
        + val_main_v75 (F := Ideal) x0 x1 x2 x3 x4 x5 x6 (ix2 n j) * (val_main_v11 (F := Ideal) x1 (ix1 n) * val_main_v11 (F := Ideal) x1 (ix1 n))) + x7 (ix1 j) := by
  have hs : ∀ e : Fin 800000,
      val_main_v75 (F := Ideal) x0 x1 x2 x3 x4 x5 x6 (ix2 (c_S x1 e) j) * (val_main_v11 (F := Ideal) x1 (ix1 (c_S x1 e)) * val_main_v11 (F := Ideal) x1 (ix1 (c_D x1 e)))
      = val_main_v75 (F := Ideal) x0 x1 x2 x3 x4 x5 x6 (ix2 (rowOf 50000 (by decide) (if (x1 (ix2 (0 : Fin 2) e)).toInt < 0 then x1 (ix2 (0 : Fin 2) e) + 50000#32 else x1 (ix2 (0 : Fin 2) e))) j)
          * (val_main_v11 (F := Ideal) x1 (ix1 (rowOf 50000 (by decide) (if (x1 (ix2 (0 : Fin 2) e)).toInt < 0 then x1 (ix2 (0 : Fin 2) e) + 50000#32 else x1 (ix2 (0 : Fin 2) e))))
              * val_main_v11 (F := Ideal) x1 (ix1 (rowOf 50000 (by decide) (if (x1 (ix2 (1 : Fin 2) e)).toInt < 0 then x1 (ix2 (1 : Fin 2) e) + 50000#32 else x1 (ix2 (1 : Fin 2) e))))) := by
    intro e
    rw [c_S_eq, c_D_eq]
  rw [c2_v118_at, c_v82_eq, c_filter_eq, Finset.sum_congr rfl (fun e _ => hs e)]

/-- Layer 3's convolution in terms of the edge array and the first layer's degree scales. -/
theorem c3_v189_at' (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S128x32, .f32⟩ : BufTy).Contents (Elt Ideal)) (x11 : (⟨S32, .f32⟩ : BufTy).Contents (Elt Ideal)) (n : Fin 50000) (j : Fin 32) :
    val_main_v189 (F := Ideal) x0 x1 x2 x3 x4 x5 x6 x7 x8 x9 x10 x11 (ix2 n j)
      = ((0 + ∑ e ∈ Finset.univ.filter (fun e : Fin 800000 => (x1 (ix2 (1 : Fin 2) e)).toInt = (n.val : Int)),
            val_main_v146 (F := Ideal) x0 x1 x2 x3 x4 x5 x6 x7 x8 x9 x10 (ix2 (rowOf 50000 (by decide) (if (x1 (ix2 (0 : Fin 2) e)).toInt < 0 then x1 (ix2 (0 : Fin 2) e) + 50000#32 else x1 (ix2 (0 : Fin 2) e))) j)
              * (val_main_v11 (F := Ideal) x1 (ix1 (rowOf 50000 (by decide) (if (x1 (ix2 (0 : Fin 2) e)).toInt < 0 then x1 (ix2 (0 : Fin 2) e) + 50000#32 else x1 (ix2 (0 : Fin 2) e))))
                  * val_main_v11 (F := Ideal) x1 (ix1 (rowOf 50000 (by decide) (if (x1 (ix2 (1 : Fin 2) e)).toInt < 0 then x1 (ix2 (1 : Fin 2) e) + 50000#32 else x1 (ix2 (1 : Fin 2) e))))))
        + val_main_v146 (F := Ideal) x0 x1 x2 x3 x4 x5 x6 x7 x8 x9 x10 (ix2 n j) * (val_main_v11 (F := Ideal) x1 (ix1 n) * val_main_v11 (F := Ideal) x1 (ix1 n))) + x11 (ix1 j) := by
  have hs : ∀ e : Fin 800000,
      val_main_v146 (F := Ideal) x0 x1 x2 x3 x4 x5 x6 x7 x8 x9 x10 (ix2 (c_S x1 e) j) * (val_main_v11 (F := Ideal) x1 (ix1 (c_S x1 e)) * val_main_v11 (F := Ideal) x1 (ix1 (c_D x1 e)))
      = val_main_v146 (F := Ideal) x0 x1 x2 x3 x4 x5 x6 x7 x8 x9 x10 (ix2 (rowOf 50000 (by decide) (if (x1 (ix2 (0 : Fin 2) e)).toInt < 0 then x1 (ix2 (0 : Fin 2) e) + 50000#32 else x1 (ix2 (0 : Fin 2) e))) j)
          * (val_main_v11 (F := Ideal) x1 (ix1 (rowOf 50000 (by decide) (if (x1 (ix2 (0 : Fin 2) e)).toInt < 0 then x1 (ix2 (0 : Fin 2) e) + 50000#32 else x1 (ix2 (0 : Fin 2) e))))
              * val_main_v11 (F := Ideal) x1 (ix1 (rowOf 50000 (by decide) (if (x1 (ix2 (1 : Fin 2) e)).toInt < 0 then x1 (ix2 (1 : Fin 2) e) + 50000#32 else x1 (ix2 (1 : Fin 2) e))))) := by
    intro e
    rw [c_S_eq, c_D_eq]
  rw [c3_v189_at, c_v153_eq, c_filter_eq, Finset.sum_congr rfl (fun e _ => hs e)]

end Cert.ReferenceIdeal.RefValue

end
-- ==== Proof.Bridge1.lean ====
/-
  Layer 1 of the network, kernel program against reference: the degree scale, the first graph convolution and the
  first batch normalisation agree entry by entry for finite inputs, and every entry is a real number.  The
  kernel program's stages are first put in the reference's spelling (one weight per edge; the variance as the mean of
  the squared deviations); the reference's stages are read at an entry; the two readings are then the same sums.
-/
import proofs.«182147_j31610959298973_2_alg».proof.Proof.BridgeForms
import proofs.«182147_j31610959298973_2_alg».proof.Proof.RefLayers
import proofs.«182147_j31610959298973_2_alg».proof.Proof.RefConv
import proofs.«182147_j31610959298973_2_alg».proof.Proof.RefConv3

noncomputable section

namespace Cert.Bridge

open Cert.KernelIdeal Cert.KernelIdeal.Hand
open Idealize.ShloMosaic Idealize.ShloMosaic.ValueIdx
open Cert.LibGcnEReal Cert.LibGcnLayer
open Cert.ReferenceIdeal.Read Cert.ReferenceIdeal.RefValue
open scoped BigOperators

section
variable (X0 : S50000x128.Idx → EReal) (X1 : (⟨S2x800000, .i32⟩ : BufTy).Contents (Elt Ideal)) (X2 : S128x128.Idx → EReal) (X3 X4 X5 : S128.Idx → EReal)

/-- The degree scale agrees with the reference's and is real, given the reference's degree scale read at a node
    and its target words read at an edge. -/
theorem dis_eq_of
    (ha : ∀ n : Fin 50000, val_main_v11 (F := Ideal) X1 (ix1 n) = Ideal.rsqrt ((0 + ∑ _e ∈ Finset.univ.filter (fun e : Fin 800000 => (val_main_v3 (F := Ideal) X1 (ix1 e)).toInt = (n.val : ℤ)), Ideal.ofBits .f32 0x3F800000#32) + Ideal.ofBits .f32 0x3F800000#32))
    (he3 : ∀ e : Fin 800000, val_main_v3 (F := Ideal) X1 (ix1 e) = X1 (ix2 1 e)) (n : Fin 50000) :
    disK X1 (ix2 n 0) = val_main_v11 (F := Ideal) X1 (ix1 n) ∧ ∃ r : ℝ, disK X1 (ix2 n 0) = (r : EReal) := by
  refine ⟨?_, disK_real X1 n⟩
  rw [disK_apply, ha]
  refine congrArg Ideal.rsqrt (congrArg (· + Ideal.ofBits .f32 0x3F800000#32) (congrArg (0 + ·) ?_))
  exact Finset.sum_congr (Finset.filter_congr fun e _ => by rw [he3]) fun _ _ => rfl

/-- THE DEGREE SCALE of the kernel program is the reference's, node by node, and is real. -/
theorem dis_eq (n : Fin 50000) :
    disK X1 (ix2 n 0) = val_main_v11 (F := Ideal) X1 (ix1 n) ∧ ∃ r : ℝ, disK X1 (ix2 n 0) = (r : EReal) :=
  dis_eq_of X1 (v11_at X1) (v3_at X1) n

/-- The node the reference gathers from at an edge is the one the edge's source word selects. -/
theorem refSrcRow_nodeOf (e : Fin 800000) : refSrcRow X1 e = nodeOf X1 0 e := refSrcRow_eq X1 e

/-- The node the reference scatters to at an edge is the one the edge's target word selects. -/
theorem refDstRow_nodeOf (e : Fin 800000) : refDstRow X1 e = nodeOf X1 1 e := refDstRow_eq X1 e

/-- Layer 1's convolution is the convolution stage over the input features. -/
theorem conv0K_def : conv0K X0 X1 X2 X3
    = convEpilogue (Host.aggOf (F := Ideal) (scaledProduct X0 X2 (disK X1)) (srcK X1) (dstK X1))
        (scaledProduct X0 X2 (disK X1)) (disK X1) (Host.rowOf128 (F := Ideal) X3) := rfl

/-- Layer 1's convolution agrees with the reference's, entry by entry, and is real, given the degree scales'
    agreement and the reference's convolution read at an entry. -/
theorem conv0_eq_of
    (hdis : ∀ n : Fin 50000, disK X1 (ix2 n 0) = val_main_v11 (F := Ideal) X1 (ix1 n) ∧ ∃ r : ℝ, disK X1 (ix2 n 0) = (r : EReal))
    (he3 : ∀ e : Fin 800000, val_main_v3 (F := Ideal) X1 (ix1 e) = X1 (ix2 1 e))
    (hb : ∀ (n : Fin 50000) (j : Fin 128), val_main_v47 (F := Ideal) X0 X1 X2 X3 (ix2 n j)
      = ((0 + ∑ e ∈ Finset.univ.filter (fun e : Fin 800000 => (val_main_v3 (F := Ideal) X1 (ix1 e)).toInt = (n.val : ℤ)),
            val_main_v4 (F := Ideal) X0 X2 (ix2 (nodeOf X1 0 e) j)
              * (val_main_v11 (F := Ideal) X1 (ix1 (nodeOf X1 0 e)) * val_main_v11 (F := Ideal) X1 (ix1 (nodeOf X1 1 e))))
          + val_main_v4 (F := Ideal) X0 X2 (ix2 n j) * (val_main_v11 (F := Ideal) X1 (ix1 n) * val_main_v11 (F := Ideal) X1 (ix1 n)))
        + X3 (ix1 j))
    (h0 : ∀ i, ∃ r : ℝ, X0 i = (r : EReal)) (h2 : ∀ i, ∃ r : ℝ, X2 i = (r : EReal))
    (h3 : ∀ i, ∃ r : ℝ, X3 i = (r : EReal)) (n : Fin 50000) (j : Fin 128) :
    conv0K X0 X1 X2 X3 (ix2 n j) = val_main_v47 (F := Ideal) X0 X1 X2 X3 (ix2 n j)
      ∧ ∃ r : ℝ, conv0K X0 X1 X2 X3 (ix2 n j) = (r : EReal) := by
  have hk := convK_two_ways X1 X0 X2 X3 h0 h2 h3 n j
  rw [conv0K_def]
  refine ⟨?_, hk.2⟩
  rw [hb]
  refine hk.1.trans ?_
  refine congrArg (· + X3 (ix1 j)) (congrArg₂ (· + ·) (congrArg (0 + ·) ?_) ?_)
  · exact Finset.sum_congr (Finset.filter_congr fun e _ => by rw [he3]) fun e _ =>
      congrArg₂ (· * ·) (v4_at X0 X2 (nodeOf X1 0 e) j).symm
        (congrArg₂ (· * ·) (hdis (nodeOf X1 0 e)).1 (hdis (nodeOf X1 1 e)).1)
  · exact congrArg₂ (· * ·) (v4_at X0 X2 n j).symm (congrArg₂ (· * ·) (hdis n).1 (hdis n).1)

/-- LAYER 1'S CONVOLUTION of the kernel program is the reference's, entry by entry, and is real, for finite
    features, weights and bias. -/
theorem conv0_eq (h0 : ∀ i, ∃ r : ℝ, X0 i = (r : EReal)) (h2 : ∀ i, ∃ r : ℝ, X2 i = (r : EReal))
    (h3 : ∀ i, ∃ r : ℝ, X3 i = (r : EReal)) (n : Fin 50000) (j : Fin 128) :
    conv0K X0 X1 X2 X3 (ix2 n j) = val_main_v47 (F := Ideal) X0 X1 X2 X3 (ix2 n j)
      ∧ ∃ r : ℝ, conv0K X0 X1 X2 X3 (ix2 n j) = (r : EReal) := by
  have hk := convK_two_ways X1 X0 X2 X3 h0 h2 h3 n j
  rw [conv0K_def]
  refine ⟨?_, hk.2⟩
  rw [c1_v47_at']
  refine hk.1.trans ?_
  refine congrArg (· + X3 (ix1 j)) (congrArg₂ (· + ·) (congrArg (0 + ·) ?_) ?_)
  · exact Finset.sum_congr (Finset.filter_congr fun _ _ => Iff.rfl) fun e _ =>
      congrArg₂ (· * ·) (v4_at X0 X2 (nodeOf X1 0 e) j).symm
        (congrArg₂ (· * ·) (dis_eq X1 (nodeOf X1 0 e)).1 (dis_eq X1 (nodeOf X1 1 e)).1)
  · exact congrArg₂ (· * ·) (v4_at X0 X2 n j).symm (congrArg₂ (· * ·) (dis_eq X1 n).1 (dis_eq X1 n).1)

/-- Layer 1's output is the batch normalisation stage over layer 1's convolution. -/
theorem x1K_def : x1K X0 X1 X2 X3 X4 X5
    = bnReluRes (conv0K X0 X1 X2 X3) X0 (Host.meanOf (F := Ideal) (colSum (conv0K X0 X1 X2 X3)))
        (Host.varOf (F := Ideal) (colSum (conv0K X0 X1 X2 X3)) (colSumSq (conv0K X0 X1 X2 X3)))
        (Host.rowOf128 (F := Ideal) X4) (Host.rowOf128 (F := Ideal) X5) := rfl

/-- Layer 1's output agrees with the reference's, entry by entry, and is real, given that layer 1's convolution
    does and is. -/
theorem x1_eq_of
    (hc : ∀ (n : Fin 50000) (j : Fin 128), conv0K X0 X1 X2 X3 (ix2 n j) = val_main_v47 (F := Ideal) X0 X1 X2 X3 (ix2 n j)
      ∧ ∃ r : ℝ, conv0K X0 X1 X2 X3 (ix2 n j) = (r : EReal))
    (h0 : ∀ i, ∃ r : ℝ, X0 i = (r : EReal)) (h4 : ∀ i, ∃ r : ℝ, X4 i = (r : EReal))
    (h5 : ∀ i, ∃ r : ℝ, X5 i = (r : EReal)) (n : Fin 50000) (j : Fin 128) :
    x1K X0 X1 X2 X3 X4 X5 (ix2 n j) = val_main_v74 (F := Ideal) X0 X1 X2 X3 X4 X5 (ix2 n j)
      ∧ ∃ r : ℝ, x1K X0 X1 X2 X3 X4 X5 (ix2 n j) = (r : EReal) := by
  have hcarr : conv0K X0 X1 X2 X3 = val_main_v47 (F := Ideal) X0 X1 X2 X3 := funext fun i => by
    obtain ⟨a, b, rfl⟩ : ∃ a b, i = ix2 a b := ⟨_, _, eq_ix2 i⟩
    exact (hc a b).1
  have hcreal : ∀ i, ∃ r : ℝ, conv0K X0 X1 X2 X3 i = (r : EReal) := fun i => by
    obtain ⟨a, b, rfl⟩ : ∃ a b, i = ix2 a b := ⟨_, _, eq_ix2 i⟩
    exact (hc a b).2
  have hk := bnK_two_ways (conv0K X0 X1 X2 X3) X0 X4 X5 hcreal h0 h4 h5 n j
  rw [x1K_def]
  refine ⟨?_, hk.2⟩
  rw [v74_at, ← hcarr]
  unfold bnRelu colVar colMean
  exact hk.1

/-- LAYER 1'S OUTPUT of the kernel program is the reference's, entry by entry, and is real, for finite inputs. -/
theorem x1_eq (h0 : ∀ i, ∃ r : ℝ, X0 i = (r : EReal)) (h2 : ∀ i, ∃ r : ℝ, X2 i = (r : EReal))
    (h3 : ∀ i, ∃ r : ℝ, X3 i = (r : EReal)) (h4 : ∀ i, ∃ r : ℝ, X4 i = (r : EReal))
    (h5 : ∀ i, ∃ r : ℝ, X5 i = (r : EReal)) (n : Fin 50000) (j : Fin 128) :
    x1K X0 X1 X2 X3 X4 X5 (ix2 n j) = val_main_v74 (F := Ideal) X0 X1 X2 X3 X4 X5 (ix2 n j)
      ∧ ∃ r : ℝ, x1K X0 X1 X2 X3 X4 X5 (ix2 n j) = (r : EReal) :=
  x1_eq_of X0 X1 X2 X3 X4 X5 (fun n j => conv0_eq X0 X1 X2 X3 h0 h2 h3 n j) h0 h4 h5 n j

end

end Cert.Bridge

end
-- ==== Proof.Bridge2.lean ====
import proofs.«182147_j31610959298973_2_alg».proof.Proof.BridgeForms
import proofs.«182147_j31610959298973_2_alg».proof.Proof.RefLayers
import proofs.«182147_j31610959298973_2_alg».proof.Proof.RefConv
import proofs.«182147_j31610959298973_2_alg».proof.Proof.RefConv3
/-! The second layer of the network, kernel program against reference, entry by entry: given that the degree
scale and the first layer's output agree with the reference's and are real numbers, the second convolution and
the second layer's output agree with the reference's and are real numbers. -/

noncomputable section

namespace Cert.Bridge

open Cert.KernelIdeal Cert.KernelIdeal.Hand
open Idealize.ShloMosaic Idealize.ShloMosaic.ValueIdx
open Cert.LibGcnLayer
open Cert.ReferenceIdeal.Read Cert.ReferenceIdeal.RefValue
open scoped BigOperators

section
variable (X0 : S50000x128.Idx → EReal) (X1 : (⟨S2x800000, .i32⟩ : BufTy).Contents (Elt Ideal)) (X2 : S128x128.Idx → EReal) (X3 X4 X5 : S128.Idx → EReal) (X6 : S128x128.Idx → EReal) (X7 X8 X9 : S128.Idx → EReal)

/-- The second convolution, unfolded one step. -/
theorem conv1K_def : conv1K X0 X1 X2 X3 X4 X5 X6 X7
    = convEpilogue (Host.aggOf (F := Ideal) (scaledProduct (x1K X0 X1 X2 X3 X4 X5) X6 (disK X1)) (srcK X1) (dstK X1))
        (scaledProduct (x1K X0 X1 X2 X3 X4 X5) X6 (disK X1)) (disK X1) (Host.rowOf128 (F := Ideal) X7) := rfl

/-- The second layer's output, unfolded one step. -/
theorem x2K_def : x2K X0 X1 X2 X3 X4 X5 X6 X7 X8 X9
    = bnReluRes (conv1K X0 X1 X2 X3 X4 X5 X6 X7) (x1K X0 X1 X2 X3 X4 X5)
        (Host.meanOf (F := Ideal) (colSum (conv1K X0 X1 X2 X3 X4 X5 X6 X7)))
        (Host.varOf (F := Ideal) (colSum (conv1K X0 X1 X2 X3 X4 X5 X6 X7)) (colSumSq (conv1K X0 X1 X2 X3 X4 X5 X6 X7)))
        (Host.rowOf128 (F := Ideal) X8) (Host.rowOf128 (F := Ideal) X9) := rfl

/-- The second convolution agrees with the reference's, entry by entry, and is a real number. -/
theorem conv1_eq_of
    (hb : ∀ (n : Fin 50000) (j : Fin 128), val_main_v118 (F := Ideal) X0 X1 X2 X3 X4 X5 X6 X7 (ix2 n j)
      = ((0 + ∑ e ∈ Finset.univ.filter (fun e : Fin 800000 => (val_main_v3 (F := Ideal) X1 (ix1 e)).toInt = (n.val : ℤ)),
            val_main_v75 (F := Ideal) X0 X1 X2 X3 X4 X5 X6 (ix2 (nodeOf X1 0 e) j)
              * (val_main_v82 (F := Ideal) X1 (ix1 (nodeOf X1 0 e)) * val_main_v82 (F := Ideal) X1 (ix1 (nodeOf X1 1 e))))
          + val_main_v75 (F := Ideal) X0 X1 X2 X3 X4 X5 X6 (ix2 n j)
              * (val_main_v82 (F := Ideal) X1 (ix1 n) * val_main_v82 (F := Ideal) X1 (ix1 n)))
        + X7 (ix1 j))
    (h6 : ∀ i, ∃ r : ℝ, X6 i = (r : EReal)) (h7 : ∀ i, ∃ r : ℝ, X7 i = (r : EReal))
    (hdis : ∀ n : Fin 50000, disK X1 (ix2 n (0 : Fin 1)) = val_main_v11 (F := Ideal) X1 (ix1 n)
      ∧ ∃ r : ℝ, disK X1 (ix2 n (0 : Fin 1)) = (r : EReal))
    (hx1 : ∀ (n : Fin 50000) (k : Fin 128), x1K X0 X1 X2 X3 X4 X5 (ix2 n k) = val_main_v74 (F := Ideal) X0 X1 X2 X3 X4 X5 (ix2 n k)
      ∧ ∃ r : ℝ, x1K X0 X1 X2 X3 X4 X5 (ix2 n k) = (r : EReal))
    (n : Fin 50000) (j : Fin 128) :
    conv1K X0 X1 X2 X3 X4 X5 X6 X7 (ix2 n j) = val_main_v118 (F := Ideal) X0 X1 X2 X3 X4 X5 X6 X7 (ix2 n j)
      ∧ ∃ r : ℝ, conv1K X0 X1 X2 X3 X4 X5 X6 X7 (ix2 n j) = (r : EReal) := by
  have hx1F : ∀ i, ∃ r : ℝ, x1K X0 X1 X2 X3 X4 X5 i = (r : EReal) := fun i => by
    obtain ⟨a, b, rfl⟩ : ∃ a b, i = ix2 a b := ⟨_, _, eq_ix2 i⟩
    exact (hx1 a b).2
  -- the reference's dense product of the second layer, over the kernel's first-layer output
  have hprod : ∀ (m : Fin 50000), (∑ k : Fin 128, x1K X0 X1 X2 X3 X4 X5 (ix2 m k) * X6 (ix2 k j))
      = val_main_v75 (F := Ideal) X0 X1 X2 X3 X4 X5 X6 (ix2 m j) := fun m =>
    ((v75_at X0 X1 X2 X3 X4 X5 X6 m j).trans
      (Finset.sum_congr rfl fun k _ => congrArg (· * X6 (ix2 k j)) (hx1 m k).1.symm)).symm
  -- the reference's degree scale of the second layer, over the kernel's
  have hd : ∀ (m : Fin 50000), disK X1 (ix2 m (0 : Fin 1)) = val_main_v82 (F := Ideal) X1 (ix1 m) := fun m =>
    (hdis m).1.trans (congrFun (v82_eq X1) (ix1 m)).symm
  have hk := convK_two_ways X1 (x1K X0 X1 X2 X3 X4 X5) X6 X7 hx1F h6 h7 n j
  rw [conv1K_def]
  refine ⟨?_, hk.2⟩
  rw [hb]
  refine hk.1.trans ?_
  refine congrArg (· + X7 (ix1 j)) (congrArg₂ (· + ·) (congrArg (0 + ·) ?_) ?_)
  · exact Finset.sum_congr (Finset.filter_congr fun e _ => by rw [v3_at X1]) fun e _ =>
      congrArg₂ (· * ·) (hprod (nodeOf X1 0 e)) (congrArg₂ (· * ·) (hd (nodeOf X1 0 e)) (hd (nodeOf X1 1 e)))
  · exact congrArg₂ (· * ·) (hprod n) (congrArg₂ (· * ·) (hd n) (hd n))

/-- The second layer's output agrees with the reference's, entry by entry, and is a real number, given that the
    second convolution does. -/
theorem x2_eq_of (h8 : ∀ i, ∃ r : ℝ, X8 i = (r : EReal)) (h9 : ∀ i, ∃ r : ℝ, X9 i = (r : EReal))
    (hx1 : ∀ (n : Fin 50000) (k : Fin 128), x1K X0 X1 X2 X3 X4 X5 (ix2 n k) = val_main_v74 (F := Ideal) X0 X1 X2 X3 X4 X5 (ix2 n k)
      ∧ ∃ r : ℝ, x1K X0 X1 X2 X3 X4 X5 (ix2 n k) = (r : EReal))
    (hc : ∀ (n : Fin 50000) (j : Fin 128), conv1K X0 X1 X2 X3 X4 X5 X6 X7 (ix2 n j) = val_main_v118 (F := Ideal) X0 X1 X2 X3 X4 X5 X6 X7 (ix2 n j)
      ∧ ∃ r : ℝ, conv1K X0 X1 X2 X3 X4 X5 X6 X7 (ix2 n j) = (r : EReal))
    (n : Fin 50000) (j : Fin 128) :
    x2K X0 X1 X2 X3 X4 X5 X6 X7 X8 X9 (ix2 n j) = val_main_v145 (F := Ideal) X0 X1 X2 X3 X4 X5 X6 X7 X8 X9 (ix2 n j)
      ∧ ∃ r : ℝ, x2K X0 X1 X2 X3 X4 X5 X6 X7 X8 X9 (ix2 n j) = (r : EReal) := by
  have hx1arr : x1K X0 X1 X2 X3 X4 X5 = val_main_v74 (F := Ideal) X0 X1 X2 X3 X4 X5 := funext fun i => by
    obtain ⟨a, b, rfl⟩ : ∃ a b, i = ix2 a b := ⟨_, _, eq_ix2 i⟩
    exact (hx1 a b).1
  have hx1F : ∀ i, ∃ r : ℝ, x1K X0 X1 X2 X3 X4 X5 i = (r : EReal) := fun i => by
    obtain ⟨a, b, rfl⟩ : ∃ a b, i = ix2 a b := ⟨_, _, eq_ix2 i⟩
    exact (hx1 a b).2
  have hcarr : conv1K X0 X1 X2 X3 X4 X5 X6 X7 = val_main_v118 (F := Ideal) X0 X1 X2 X3 X4 X5 X6 X7 := funext fun i => by
    obtain ⟨a, b, rfl⟩ : ∃ a b, i = ix2 a b := ⟨_, _, eq_ix2 i⟩
    exact (hc a b).1
  have hcF : ∀ i, ∃ r : ℝ, conv1K X0 X1 X2 X3 X4 X5 X6 X7 i = (r : EReal) := fun i => by
    obtain ⟨a, b, rfl⟩ : ∃ a b, i = ix2 a b := ⟨_, _, eq_ix2 i⟩
    exact (hc a b).2
  have hk := bnK_two_ways (conv1K X0 X1 X2 X3 X4 X5 X6 X7) (x1K X0 X1 X2 X3 X4 X5) X8 X9 hcF hx1F h8 h9 n j
  rw [x2K_def]
  refine ⟨?_, hk.2⟩
  rw [v145_at, ← hcarr, ← hx1arr]
  unfold bnRelu colVar colMean
  exact hk.1

/-- THE SECOND LAYER, from the reference's reading of its second convolution: given that the degree scale and the first layer's output agree with the reference's and are
    real numbers, the second convolution and the second layer's output agree with the reference's, entry by entry,
    and are real numbers. -/
theorem layer2_of
    (hb : ∀ (n : Fin 50000) (j : Fin 128), val_main_v118 (F := Ideal) X0 X1 X2 X3 X4 X5 X6 X7 (ix2 n j)
      = ((0 + ∑ e ∈ Finset.univ.filter (fun e : Fin 800000 => (val_main_v3 (F := Ideal) X1 (ix1 e)).toInt = (n.val : ℤ)),
            val_main_v75 (F := Ideal) X0 X1 X2 X3 X4 X5 X6 (ix2 (nodeOf X1 0 e) j)
              * (val_main_v82 (F := Ideal) X1 (ix1 (nodeOf X1 0 e)) * val_main_v82 (F := Ideal) X1 (ix1 (nodeOf X1 1 e))))
          + val_main_v75 (F := Ideal) X0 X1 X2 X3 X4 X5 X6 (ix2 n j)
              * (val_main_v82 (F := Ideal) X1 (ix1 n) * val_main_v82 (F := Ideal) X1 (ix1 n)))
        + X7 (ix1 j))
    (h6 : ∀ i, ∃ r : ℝ, X6 i = (r : EReal)) (h7 : ∀ i, ∃ r : ℝ, X7 i = (r : EReal))
    (h8 : ∀ i, ∃ r : ℝ, X8 i = (r : EReal)) (h9 : ∀ i, ∃ r : ℝ, X9 i = (r : EReal))
    (hdis : ∀ n : Fin 50000, disK X1 (ix2 n (0 : Fin 1)) = val_main_v11 (F := Ideal) X1 (ix1 n)
      ∧ ∃ r : ℝ, disK X1 (ix2 n (0 : Fin 1)) = (r : EReal))
    (hx1 : ∀ (n : Fin 50000) (k : Fin 128), x1K X0 X1 X2 X3 X4 X5 (ix2 n k) = val_main_v74 (F := Ideal) X0 X1 X2 X3 X4 X5 (ix2 n k)
      ∧ ∃ r : ℝ, x1K X0 X1 X2 X3 X4 X5 (ix2 n k) = (r : EReal)) :
    (∀ (n : Fin 50000) (j : Fin 128), conv1K X0 X1 X2 X3 X4 X5 X6 X7 (ix2 n j) = val_main_v118 (F := Ideal) X0 X1 X2 X3 X4 X5 X6 X7 (ix2 n j)
      ∧ ∃ r : ℝ, conv1K X0 X1 X2 X3 X4 X5 X6 X7 (ix2 n j) = (r : EReal))
    ∧ (∀ (n : Fin 50000) (j : Fin 128), x2K X0 X1 X2 X3 X4 X5 X6 X7 X8 X9 (ix2 n j) = val_main_v145 (F := Ideal) X0 X1 X2 X3 X4 X5 X6 X7 X8 X9 (ix2 n j)
      ∧ ∃ r : ℝ, x2K X0 X1 X2 X3 X4 X5 X6 X7 X8 X9 (ix2 n j) = (r : EReal)) :=
  ⟨conv1_eq_of X0 X1 X2 X3 X4 X5 X6 X7 hb h6 h7 hdis hx1,
   fun n j => x2_eq_of X0 X1 X2 X3 X4 X5 X6 X7 X8 X9 h8 h9 hx1 (conv1_eq_of X0 X1 X2 X3 X4 X5 X6 X7 hb h6 h7 hdis hx1) n j⟩

/-- The reference's second convolution at an entry, its edges' end nodes and degree scales spelt as the kernel
    program's side spells them. -/
theorem v118_reading (n : Fin 50000) (j : Fin 128) :
    val_main_v118 (F := Ideal) X0 X1 X2 X3 X4 X5 X6 X7 (ix2 n j)
      = ((0 + ∑ e ∈ Finset.univ.filter (fun e : Fin 800000 => (val_main_v3 (F := Ideal) X1 (ix1 e)).toInt = (n.val : ℤ)),
            val_main_v75 (F := Ideal) X0 X1 X2 X3 X4 X5 X6 (ix2 (nodeOf X1 0 e) j)
              * (val_main_v82 (F := Ideal) X1 (ix1 (nodeOf X1 0 e)) * val_main_v82 (F := Ideal) X1 (ix1 (nodeOf X1 1 e))))
          + val_main_v75 (F := Ideal) X0 X1 X2 X3 X4 X5 X6 (ix2 n j)
              * (val_main_v82 (F := Ideal) X1 (ix1 n) * val_main_v82 (F := Ideal) X1 (ix1 n)))
        + X7 (ix1 j) := by
  rw [v82_eq X1]
  refine (c2_v118_at' X0 X1 X2 X3 X4 X5 X6 X7 n j).trans ?_
  refine congrArg (· + X7 (ix1 j)) (congrArg₂ (· + ·) (congrArg (0 + ·) ?_) rfl)
  exact Finset.sum_congr (Finset.filter_congr fun e _ => by rw [v3_at]) fun e _ => rfl

/-- THE SECOND LAYER: given that the degree scale and the first layer's output agree with the reference's and are
    real numbers, the second convolution and the second layer's output agree with the reference's, entry by entry,
    and are real numbers. -/
theorem layer2 (h6 : ∀ i, ∃ r : ℝ, X6 i = (r : EReal)) (h7 : ∀ i, ∃ r : ℝ, X7 i = (r : EReal))
    (h8 : ∀ i, ∃ r : ℝ, X8 i = (r : EReal)) (h9 : ∀ i, ∃ r : ℝ, X9 i = (r : EReal))
    (hdis : ∀ n : Fin 50000, disK X1 (ix2 n (0 : Fin 1)) = val_main_v11 (F := Ideal) X1 (ix1 n)
      ∧ ∃ r : ℝ, disK X1 (ix2 n (0 : Fin 1)) = (r : EReal))
    (hx1 : ∀ (n : Fin 50000) (k : Fin 128), x1K X0 X1 X2 X3 X4 X5 (ix2 n k) = val_main_v74 (F := Ideal) X0 X1 X2 X3 X4 X5 (ix2 n k)
      ∧ ∃ r : ℝ, x1K X0 X1 X2 X3 X4 X5 (ix2 n k) = (r : EReal)) :
    (∀ (n : Fin 50000) (j : Fin 128), conv1K X0 X1 X2 X3 X4 X5 X6 X7 (ix2 n j) = val_main_v118 (F := Ideal) X0 X1 X2 X3 X4 X5 X6 X7 (ix2 n j)
      ∧ ∃ r : ℝ, conv1K X0 X1 X2 X3 X4 X5 X6 X7 (ix2 n j) = (r : EReal))
    ∧ (∀ (n : Fin 50000) (j : Fin 128), x2K X0 X1 X2 X3 X4 X5 X6 X7 X8 X9 (ix2 n j) = val_main_v145 (F := Ideal) X0 X1 X2 X3 X4 X5 X6 X7 X8 X9 (ix2 n j)
      ∧ ∃ r : ℝ, x2K X0 X1 X2 X3 X4 X5 X6 X7 X8 X9 (ix2 n j) = (r : EReal)) :=
  layer2_of X0 X1 X2 X3 X4 X5 X6 X7 X8 X9 (v118_reading X0 X1 X2 X3 X4 X5 X6 X7) h6 h7 h8 h9 hdis hx1

end

end Cert.Bridge

end
-- ==== Proof.RefSoftmax.lean ====
import proofs.«182147_j31610959298973_2_alg».proof.Proof.RefRead
import Idealize.ShloMosaic.Lib.ValueIdx
import Idealize.ShloMosaic.Lib.Pipeline.Value
import Idealize.ShloMosaic.PureOps.Ideal.Laws

/-! The reference's last stage read at one index: the log-softmax of the last convolution's output — each entry minus
its row's maximum, minus the logarithm of the row's sum of the exponentials of those differences. The row maximum
is folded from the initial value `-∞`'s word, and the reference's further maximum with that same word changes nothing. -/

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The host's maximum along a row of 32, read at row `n`: the fold of `max` from the initial value's element over the
row's entries. -/
theorem hostRowMax_at (x : FVec Ideal S50000x32 .f32) (init : FVec Ideal S_ .f32) (n : Fin 50000) :
    Host.reduce (α := Ideal .f32) FloatOps.maximumf x init reducesTo_S50000x32_S50000_d1 h_S_ (ix1 n)
      = (Finset.univ : Finset (Fin 32)).fold max (init (Shape.Idx.first h_S_)) (fun c => x (ix2 n c)) := by
  refine (Host.reduce_eq_fold_single (α := Ideal .f32) FloatOps.maximumf x init reducesTo_S50000x32_S50000_d1 (by decide) h_S_ (ix1 n)).trans ?_
  exact congrArg (fun f => Finset.fold max (init (Shape.Idx.first h_S_)) f (Finset.univ : Finset (Fin 32)))
    (funext fun c => congrArg x (funext fun ax => Fin.ext (by
      match ax with
      | ⟨0, _⟩ => rfl
      | ⟨1, _⟩ => rfl)))

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S128x32, .f32⟩ : BufTy).Contents (Elt Ideal)) (x11 : (⟨S32, .f32⟩ : BufTy).Contents (Elt Ideal))

/-- Row `n`, column `c` of the last convolution's output, the log-softmax's operand. -/
def cR (n : Fin 50000) (c : Fin 32) : EReal := val_main_v189 (F := Ideal) x0 x1 x2 x3 x4 x5 x6 x7 x8 x9 x10 x11 (ix2 n c)

/-- Row `n`'s maximum of that output, folded from the initial value. -/
def MR (n : Fin 50000) : EReal :=
  (Finset.univ : Finset (Fin 32)).fold max (Ideal.ofBits .f32 0xFF800000#32) (fun c => cR x0 x1 x2 x3 x4 x5 x6 x7 x8 x9 x10 x11 n c)

/-- The row maximum the log-softmax subtracts, at row `n`: the maximum of the initial value and the fold from the
same initial value is the fold. -/
theorem call2_v2_at (n : Fin 50000) : val_main_call2_v2 (F := Ideal) x0 x1 x2 x3 x4 x5 x6 x7 x8 x9 x10 x11 (ix1 n) = MR x0 x1 x2 x3 x4 x5 x6 x7 x8 x9 x10 x11 n := by
  rw [val_main_call2_v2_apply, val_main_call2_v1_apply, val_main_call2_cst_0_apply]
  have h0 : val_main_call2_v0 (F := Ideal) x0 x1 x2 x3 x4 x5 x6 x7 x8 x9 x10 x11 (ix1 n) = MR x0 x1 x2 x3 x4 x5 x6 x7 x8 x9 x10 x11 n :=
    hostRowMax_at (val_main_v189 (F := Ideal) x0 x1 x2 x3 x4 x5 x6 x7 x8 x9 x10 x11) (val_main_call2_cst (F := Ideal)) n
  rw [h0]
  exact max_eq_right ((Finset.le_fold_max _).mpr (Or.inl le_rfl))

/-- The shifted operand at row `n`, column `c`: the entry minus the row's maximum. -/
theorem call2_v5_at (n : Fin 50000) (c : Fin 32) :
    val_main_call2_v5 (F := Ideal) x0 x1 x2 x3 x4 x5 x6 x7 x8 x9 x10 x11 (ix2 n c) = cR x0 x1 x2 x3 x4 x5 x6 x7 x8 x9 x10 x11 n c - MR x0 x1 x2 x3 x4 x5 x6 x7 x8 x9 x10 x11 n := by
  have hI : idx_main_call2_v3 (idx_main_call2_v4 (ix2 n c)) = ix1 n := funext fun a => by
    match a with
    | ⟨0, _⟩ => rfl
  rw [val_main_call2_v5_apply, val_main_call2_v4_apply, val_main_call2_v3_apply, hI, call2_v2_at]
  rfl

/-- The reference's log-softmax at row `n`, column `j`: the entry minus the row's maximum, minus the logarithm of the
row's sum of the exponentials of those differences. -/
theorem v190_at (n : Fin 50000) (j : Fin 32) :
    val_main_v190 (F := Ideal) x0 x1 x2 x3 x4 x5 x6 x7 x8 x9 x10 x11 (ix2 n j)
      = (cR x0 x1 x2 x3 x4 x5 x6 x7 x8 x9 x10 x11 n j - MR x0 x1 x2 x3 x4 x5 x6 x7 x8 x9 x10 x11 n)
          - Ideal.log (∑ c : Fin 32, Ideal.exp (cR x0 x1 x2 x3 x4 x5 x6 x7 x8 x9 x10 x11 n c - MR x0 x1 x2 x3 x4 x5 x6 x7 x8 x9 x10 x11 n)) := by
  have hI : idx_main_call2_v8 (idx_main_call2_v10 (ix2 n j)) = ix1 n := funext fun a => by
    match a with
    | ⟨0, _⟩ => rfl
  have h6 : ∀ k : Fin 32, val_main_call2_v6 (F := Ideal) x0 x1 x2 x3 x4 x5 x6 x7 x8 x9 x10 x11 (idx_main_call2_v7 (ix1 n) k)
      = Ideal.exp (cR x0 x1 x2 x3 x4 x5 x6 x7 x8 x9 x10 x11 n k - MR x0 x1 x2 x3 x4 x5 x6 x7 x8 x9 x10 x11 n) := fun k => by
    have hk : idx_main_call2_v7 (ix1 n) k = ix2 n k := funext fun a => by
      match a with
      | ⟨0, _⟩ => rfl
      | ⟨1, _⟩ => rfl
    rewrite [hk, val_main_call2_v6_apply, Ideal.hostUnary_exp_def]
    exact congrArg Ideal.exp (call2_v5_at x0 x1 x2 x3 x4 x5 x6 x7 x8 x9 x10 x11 n k)
  rw [val_main_v190_apply, call2_v5_at, val_main_call2_v10_apply, val_main_call2_v9_apply, val_main_call2_v8_apply, hI,
    val_main_call2_v7_apply, val_main_call2_cst_1_apply]
  simp only [h6]
  generalize (∑ k : Fin 32, Ideal.exp (cR x0 x1 x2 x3 x4 x5 x6 x7 x8 x9 x10 x11 n k - MR x0 x1 x2 x3 x4 x5 x6 x7 x8 x9 x10 x11 n)) = S
  generalize cR x0 x1 x2 x3 x4 x5 x6 x7 x8 x9 x10 x11 n j - MR x0 x1 x2 x3 x4 x5 x6 x7 x8 x9 x10 x11 n = A
  show A - Ideal.log (Ideal.ofBits .f32 0x00000000#32 + S) = A - Ideal.log S
  rw [Ideal.ofBits_zero_f32, zero_add]

end Cert.ReferenceIdeal.RefValue

end
-- ==== Proof.Bridge3.lean ====
import proofs.«182147_j31610959298973_2_alg».proof.Proof.KI.StageDefs
import proofs.«182147_j31610959298973_2_alg».proof.Proof.KI.StageAt
import proofs.«182147_j31610959298973_2_alg».proof.Proof.BridgeForms
import proofs.«182147_j31610959298973_2_alg».proof.Proof.RefSoftmax
import proofs.«182147_j31610959298973_2_alg».proof.Proof.RefLayers
import proofs.«182147_j31610959298973_2_alg».proof.Proof.RefConv
import proofs.«182147_j31610959298973_2_alg».proof.Proof.RefConv3

/-! The third layer of the network, kernel program against reference: the last convolution (32 output columns) followed
by the row-wise log-softmax. Both programs take the log-softmax of the same row: the kernel program's row, with
every feature row scaled at its source and the total scaled at the node, equals entry by entry the reference's row,
with one weight per edge, once the second layer's outputs and the degree scales agree and are finite. -/

noncomputable section

namespace Cert.Bridge

open Cert.KernelIdeal Cert.KernelIdeal.Hand
open Idealize.ShloMosaic Idealize.ShloMosaic.ValueIdx
open Cert.LibGcnEReal Cert.LibGcnLayer
open scoped BigOperators

/-- The log-softmax of a row depends only on the row's entries. -/
theorem logSoftmaxRow_congr {row row' : Fin 32 → EReal} (h : ∀ c, row c = row' c) (j : Fin 32) :
    logSoftmaxRow row j = logSoftmaxRow row' j := by
  obtain rfl : row = row' := funext h
  rfl

section
variable (X0 : S50000x128.Idx → EReal) (X1 : (⟨S2x800000, .i32⟩ : BufTy).Contents (Elt Ideal)) (X2 : S128x128.Idx → EReal) (X3 X4 X5 : S128.Idx → EReal) (X6 : S128x128.Idx → EReal) (X7 X8 X9 : S128.Idx → EReal) (X10 : S128x32.Idx → EReal) (X11 : S32.Idx → EReal)

/-- The reference's last stage at row `n`, column `j` is the log-softmax of the row of its last convolution. -/
theorem ref_last_stage (n : Fin 50000) (j : Fin 32) :
    Cert.ReferenceIdeal.Read.val_main_v190 (F := Ideal) X0 X1 X2 X3 X4 X5 X6 X7 X8 X9 X10 X11 (ix2 n j) = logSoftmaxRow (Cert.ReferenceIdeal.RefValue.cR X0 X1 X2 X3 X4 X5 X6 X7 X8 X9 X10 X11 n) j := by
  have hMR : Cert.ReferenceIdeal.RefValue.MR X0 X1 X2 X3 X4 X5 X6 X7 X8 X9 X10 X11 n
      = (Finset.univ : Finset (Fin 32)).fold max (Ideal.ofBits .f32 0xFF800000#32) (Cert.ReferenceIdeal.RefValue.cR X0 X1 X2 X3 X4 X5 X6 X7 X8 X9 X10 X11 n) := rfl
  rw [Cert.ReferenceIdeal.RefValue.v190_at X0 X1 X2 X3 X4 X5 X6 X7 X8 X9 X10 X11 n j, hMR]
  unfold logSoftmaxRow
  rfl

/-- Layer 3 from the reference's last convolution read with one weight per edge: if the second layer's outputs and
the degree scales of the two programs agree and are finite, and the last weight matrix and bias are finite, the two
programs' outputs agree at every entry. -/
theorem layer3_of (h10 : ∀ i, ∃ r : ℝ, X10 i = (r : EReal)) (h11 : ∀ i, ∃ r : ℝ, X11 i = (r : EReal))
    (hdis : ∀ n : Fin 50000, disK X1 (ix2 n 0) = Cert.ReferenceIdeal.Read.val_main_v11 (F := Ideal) X1 (ix1 n)
      ∧ ∃ r : ℝ, disK X1 (ix2 n 0) = (r : EReal))
    (hx2 : ∀ (n : Fin 50000) (k : Fin 128), x2K X0 X1 X2 X3 X4 X5 X6 X7 X8 X9 (ix2 n k) = Cert.ReferenceIdeal.Read.val_main_v145 (F := Ideal) X0 X1 X2 X3 X4 X5 X6 X7 X8 X9 (ix2 n k)
      ∧ ∃ r : ℝ, x2K X0 X1 X2 X3 X4 X5 X6 X7 X8 X9 (ix2 n k) = (r : EReal))
    (h189 : ∀ (n : Fin 50000) (c : Fin 32), Cert.ReferenceIdeal.Read.val_main_v189 (F := Ideal) X0 X1 X2 X3 X4 X5 X6 X7 X8 X9 X10 X11 (ix2 n c)
      = ((0 + ∑ e ∈ landing (fun e => X1 (ix2 1 e)) n,
            (∑ k : Fin 128, Cert.ReferenceIdeal.Read.val_main_v145 (F := Ideal) X0 X1 X2 X3 X4 X5 X6 X7 X8 X9 (ix2 (nodeOf X1 0 e) k) * X10 (ix2 k c))
              * (Cert.ReferenceIdeal.Read.val_main_v11 (F := Ideal) X1 (ix1 (nodeOf X1 0 e)) * Cert.ReferenceIdeal.Read.val_main_v11 (F := Ideal) X1 (ix1 (nodeOf X1 1 e))))
          + (∑ k : Fin 128, Cert.ReferenceIdeal.Read.val_main_v145 (F := Ideal) X0 X1 X2 X3 X4 X5 X6 X7 X8 X9 (ix2 n k) * X10 (ix2 k c)) * (Cert.ReferenceIdeal.Read.val_main_v11 (F := Ideal) X1 (ix1 n) * Cert.ReferenceIdeal.Read.val_main_v11 (F := Ideal) X1 (ix1 n)))
        + X11 (ix1 c))
    (n : Fin 50000) (j : Fin 32) :
    outK X0 X1 X2 X3 X4 X5 X6 X7 X8 X9 X10 X11 (ix2 n j) = Cert.ReferenceIdeal.Read.val_main_v190 (F := Ideal) X0 X1 X2 X3 X4 X5 X6 X7 X8 X9 X10 X11 (ix2 n j) := by
  have hx : ∀ i, ∃ r : ℝ, x2K X0 X1 X2 X3 X4 X5 X6 X7 X8 X9 i = (r : EReal) := fun i => by
    obtain ⟨p, q, rfl⟩ : ∃ (p : Fin 50000) (q : Fin 128), i = ix2 p q := ⟨i 0, i 1, eq_ix2 i⟩
    exact (hx2 p q).2
  have hx2' : ∀ (m : Fin 50000) (k : Fin 128), x2K X0 X1 X2 X3 X4 X5 X6 X7 X8 X9 (ix2 m k) = Cert.ReferenceIdeal.Read.val_main_v145 (F := Ideal) X0 X1 X2 X3 X4 X5 X6 X7 X8 X9 (ix2 m k) :=
    fun m k => (hx2 m k).1
  have hdis' : ∀ m : Fin 50000, disK X1 (ix2 m 0) = Cert.ReferenceIdeal.Read.val_main_v11 (F := Ideal) X1 (ix1 m) := fun m => (hdis m).1
  rw [ref_last_stage]
  unfold outK hs2K
  rw [last_stage_apply]
  refine logSoftmaxRow_congr (fun c => ?_) j
  beta_reduce
  refine ((conv_form_two_ways X1 (x2K X0 X1 X2 X3 X4 X5 X6 X7 X8 X9) X10 X11 hx h10 h11 n c).1).trans ?_
  simp only [hx2', hdis']
  exact (h189 n c).symm

/-! ### The reference's edge words, rows and degree scale in the kernel program's terms -/

/-- The edges whose target word reads `n`: the reference filters on its own copy of the target words. -/
theorem ref_landing (n : Fin 50000) :
    Finset.univ.filter (fun e : Fin 800000 => (Cert.ReferenceIdeal.Read.val_main_v3 (F := Ideal) X1 (ix1 e)).toInt = (n.val : ℤ))
      = landing (fun e => X1 (ix2 1 e)) n :=
  Finset.filter_congr fun e _ => by rw [Cert.ReferenceIdeal.RefValue.v3_at]

/-- The reference's source node of an edge is the kernel program's. -/
theorem ref_srcRow (e : Fin 800000) : Cert.ReferenceIdeal.RefValue.refSrcRow X1 e = nodeOf X1 0 e := Cert.ReferenceIdeal.RefValue.refSrcRow_eq X1 e

/-- The reference's target node of an edge is the kernel program's. -/
theorem ref_dstRow (e : Fin 800000) : Cert.ReferenceIdeal.RefValue.refDstRow X1 e = nodeOf X1 1 e := Cert.ReferenceIdeal.RefValue.refDstRow_eq X1 e

/-- The two programs' degree scales agree at every node, and the scale is a real. -/
theorem dis_agree (n : Fin 50000) :
    disK X1 (ix2 n 0) = Cert.ReferenceIdeal.Read.val_main_v11 (F := Ideal) X1 (ix1 n) ∧ ∃ r : ℝ, disK X1 (ix2 n 0) = (r : EReal) := by
  refine ⟨?_, disK_real X1 n⟩
  rw [disK_apply, Cert.ReferenceIdeal.RefValue.v11_at, ref_landing]

/-! ### The reference's last convolution with one weight per edge, and the layer -/

/-- The reference's last convolution at row `n`, column `c`, over the edges whose target word reads `n`: every edge
weighted by the product of its two ends' degree scales, the node's own row by the square of its own, plus the bias. -/
theorem ref_v189_form (n : Fin 50000) (c : Fin 32) :
    Cert.ReferenceIdeal.Read.val_main_v189 (F := Ideal) X0 X1 X2 X3 X4 X5 X6 X7 X8 X9 X10 X11 (ix2 n c)
      = ((0 + ∑ e ∈ landing (fun e => X1 (ix2 1 e)) n,
            (∑ k : Fin 128, Cert.ReferenceIdeal.Read.val_main_v145 (F := Ideal) X0 X1 X2 X3 X4 X5 X6 X7 X8 X9 (ix2 (nodeOf X1 0 e) k) * X10 (ix2 k c))
              * (Cert.ReferenceIdeal.Read.val_main_v11 (F := Ideal) X1 (ix1 (nodeOf X1 0 e)) * Cert.ReferenceIdeal.Read.val_main_v11 (F := Ideal) X1 (ix1 (nodeOf X1 1 e))))
          + (∑ k : Fin 128, Cert.ReferenceIdeal.Read.val_main_v145 (F := Ideal) X0 X1 X2 X3 X4 X5 X6 X7 X8 X9 (ix2 n k) * X10 (ix2 k c)) * (Cert.ReferenceIdeal.Read.val_main_v11 (F := Ideal) X1 (ix1 n) * Cert.ReferenceIdeal.Read.val_main_v11 (F := Ideal) X1 (ix1 n)))
        + X11 (ix1 c) := by
  have h146 : ∀ m : Fin 50000, Cert.ReferenceIdeal.Read.val_main_v146 (F := Ideal) X0 X1 X2 X3 X4 X5 X6 X7 X8 X9 X10 (ix2 m c)
      = ∑ k : Fin 128, Cert.ReferenceIdeal.Read.val_main_v145 (F := Ideal) X0 X1 X2 X3 X4 X5 X6 X7 X8 X9 (ix2 m k) * X10 (ix2 k c) :=
    fun m => Cert.ReferenceIdeal.RefValue.v146_at X0 X1 X2 X3 X4 X5 X6 X7 X8 X9 X10 m c
  rw [Cert.ReferenceIdeal.RefValue.c3_v189_at' X0 X1 X2 X3 X4 X5 X6 X7 X8 X9 X10 X11 n c]
  simp only [h146]

/-- LAYER 3: with the last weight matrix and bias finite, and the second layer's outputs and the degree scales of the
two programs in agreement and finite, the kernel program's output equals the reference's at every entry. -/
theorem layer3 (h10 : ∀ i, ∃ r : ℝ, X10 i = (r : EReal)) (h11 : ∀ i, ∃ r : ℝ, X11 i = (r : EReal))
    (hdis : ∀ n : Fin 50000, disK X1 (ix2 n 0) = Cert.ReferenceIdeal.Read.val_main_v11 (F := Ideal) X1 (ix1 n)
      ∧ ∃ r : ℝ, disK X1 (ix2 n 0) = (r : EReal))
    (hx2 : ∀ (n : Fin 50000) (k : Fin 128), x2K X0 X1 X2 X3 X4 X5 X6 X7 X8 X9 (ix2 n k) = Cert.ReferenceIdeal.Read.val_main_v145 (F := Ideal) X0 X1 X2 X3 X4 X5 X6 X7 X8 X9 (ix2 n k)
      ∧ ∃ r : ℝ, x2K X0 X1 X2 X3 X4 X5 X6 X7 X8 X9 (ix2 n k) = (r : EReal)) :
    ∀ (n : Fin 50000) (j : Fin 32), outK X0 X1 X2 X3 X4 X5 X6 X7 X8 X9 X10 X11 (ix2 n j) = Cert.ReferenceIdeal.Read.val_main_v190 (F := Ideal) X0 X1 X2 X3 X4 X5 X6 X7 X8 X9 X10 X11 (ix2 n j) :=
  fun n j => layer3_of X0 X1 X2 X3 X4 X5 X6 X7 X8 X9 X10 X11 h10 h11 hdis hx2 (ref_v189_form X0 X1 X2 X3 X4 X5 X6 X7 X8 X9 X10 X11) n j

/-- The same with the degree scales' agreement supplied. -/
theorem layer3' (h10 : ∀ i, ∃ r : ℝ, X10 i = (r : EReal)) (h11 : ∀ i, ∃ r : ℝ, X11 i = (r : EReal))
    (hx2 : ∀ (n : Fin 50000) (k : Fin 128), x2K X0 X1 X2 X3 X4 X5 X6 X7 X8 X9 (ix2 n k) = Cert.ReferenceIdeal.Read.val_main_v145 (F := Ideal) X0 X1 X2 X3 X4 X5 X6 X7 X8 X9 (ix2 n k)
      ∧ ∃ r : ℝ, x2K X0 X1 X2 X3 X4 X5 X6 X7 X8 X9 (ix2 n k) = (r : EReal)) :
    ∀ (n : Fin 50000) (j : Fin 32), outK X0 X1 X2 X3 X4 X5 X6 X7 X8 X9 X10 X11 (ix2 n j) = Cert.ReferenceIdeal.Read.val_main_v190 (F := Ideal) X0 X1 X2 X3 X4 X5 X6 X7 X8 X9 X10 X11 (ix2 n j) :=
  layer3 X0 X1 X2 X3 X4 X5 X6 X7 X8 X9 X10 X11 h10 h11 (dis_agree X1) hx2

end

end Cert.Bridge

end
-- ==== Proof.BridgeAll.lean ====
/-
  The whole network, kernel program against reference: for finite inputs the two programs' outputs are the same
  array.  Layer 1 (degree scale, convolution, batch normalisation), layer 2 (the same over layer 1's output) and
  layer 3 (the last convolution and the row-wise log-softmax) are chained: each layer takes the previous layer's
  agreement and finiteness and hands on its own.
-/
import proofs.«182147_j31610959298973_2_alg».proof.Proof.Bridge1
import proofs.«182147_j31610959298973_2_alg».proof.Proof.Bridge2
import proofs.«182147_j31610959298973_2_alg».proof.Proof.Bridge3

noncomputable section

namespace Cert.Bridge

open Cert.KernelIdeal Cert.KernelIdeal.Hand
open Idealize.ShloMosaic Idealize.ShloMosaic.ValueIdx

section
variable (X0 : S50000x128.Idx → EReal) (X1 : (⟨S2x800000, .i32⟩ : BufTy).Contents (Elt Ideal)) (X2 : S128x128.Idx → EReal) (X3 X4 X5 : S128.Idx → EReal) (X6 : S128x128.Idx → EReal) (X7 X8 X9 : S128.Idx → EReal) (X10 : S128x32.Idx → EReal) (X11 : S32.Idx → EReal)

/-- THE OUTPUT of the kernel program is the reference's, entry by entry, when all eleven float inputs are finite. -/
theorem out_eq (h0 : ∀ i, ∃ r : ℝ, X0 i = (r : EReal)) (h2 : ∀ i, ∃ r : ℝ, X2 i = (r : EReal))
    (h3 : ∀ i, ∃ r : ℝ, X3 i = (r : EReal)) (h4 : ∀ i, ∃ r : ℝ, X4 i = (r : EReal))
    (h5 : ∀ i, ∃ r : ℝ, X5 i = (r : EReal)) (h6 : ∀ i, ∃ r : ℝ, X6 i = (r : EReal))
    (h7 : ∀ i, ∃ r : ℝ, X7 i = (r : EReal)) (h8 : ∀ i, ∃ r : ℝ, X8 i = (r : EReal))
    (h9 : ∀ i, ∃ r : ℝ, X9 i = (r : EReal)) (h10 : ∀ i, ∃ r : ℝ, X10 i = (r : EReal))
    (h11 : ∀ i, ∃ r : ℝ, X11 i = (r : EReal)) (n : Fin 50000) (j : Fin 32) :
    outK X0 X1 X2 X3 X4 X5 X6 X7 X8 X9 X10 X11 (ix2 n j)
      = Cert.ReferenceIdeal.Read.val_main_v190 (F := Ideal) X0 X1 X2 X3 X4 X5 X6 X7 X8 X9 X10 X11 (ix2 n j) :=
  layer3 X0 X1 X2 X3 X4 X5 X6 X7 X8 X9 X10 X11 h10 h11 (dis_eq X1)
    (layer2 X0 X1 X2 X3 X4 X5 X6 X7 X8 X9 h6 h7 h8 h9 (dis_eq X1) (x1_eq X0 X1 X2 X3 X4 X5 h0 h2 h3 h4 h5)).2 n j

/-- THE OUTPUT ARRAYS of the two programs are equal when all eleven float inputs are finite. -/
theorem out_eq_arr (h0 : ∀ i, ∃ r : ℝ, X0 i = (r : EReal)) (h2 : ∀ i, ∃ r : ℝ, X2 i = (r : EReal))
    (h3 : ∀ i, ∃ r : ℝ, X3 i = (r : EReal)) (h4 : ∀ i, ∃ r : ℝ, X4 i = (r : EReal))
    (h5 : ∀ i, ∃ r : ℝ, X5 i = (r : EReal)) (h6 : ∀ i, ∃ r : ℝ, X6 i = (r : EReal))
    (h7 : ∀ i, ∃ r : ℝ, X7 i = (r : EReal)) (h8 : ∀ i, ∃ r : ℝ, X8 i = (r : EReal))
    (h9 : ∀ i, ∃ r : ℝ, X9 i = (r : EReal)) (h10 : ∀ i, ∃ r : ℝ, X10 i = (r : EReal))
    (h11 : ∀ i, ∃ r : ℝ, X11 i = (r : EReal)) :
    outK X0 X1 X2 X3 X4 X5 X6 X7 X8 X9 X10 X11
      = Cert.ReferenceIdeal.Read.val_main_v190 (F := Ideal) X0 X1 X2 X3 X4 X5 X6 X7 X8 X9 X10 X11 :=
  funext fun i => by
    obtain ⟨a, b, rfl⟩ : ∃ (a : Fin 50000) (b : Fin 32), i = ix2 a b := ⟨i 0, i 1, eq_ix2 i⟩
    exact out_eq X0 X1 X2 X3 X4 X5 X6 X7 X8 X9 X10 X11 h0 h2 h3 h4 h5 h6 h7 h8 h9 h10 h11 a b

end

end Cert.Bridge

end
-- ==== Proof.LibAllFinite.lean ====
/-
  Finiteness read back from an "all entries finite" test.

  A single-precision array x is tested for finiteness by comparing |x| with +∞, entry by entry, and
  folding the resulting truth values with "and" from the value true. Over the extended reals |x| is
  max x (-x), the word 0x7F800000 denotes +∞, and the comparison is the strict order. If the fold
  comes out true, every comparison was true, so every entry x i has max (x i) (-(x i)) < +∞; neither
  +∞ nor -∞ satisfies that, so x i is a real number.
-/
import Idealize.ShloMosaic.Lib.ReduceAll
import Idealize.ShloMosaic.PureOps
import Idealize.ShloMosaic.PureOps.Ideal

namespace Cert.LibAllFinite

open Idealize.ShloMosaic

/-- The single-precision word 0x7F800000 (sign 0, exponent all ones, fraction 0) denotes +∞. -/
theorem ofBits_inf_f32 : Ideal.ofBits .f32 0x7F800000#32 = (⊤ : EReal) := by
  simp [Ideal.ofBits, Ideal.ieee]

/-- An extended real x with max x (-x) < +∞ is a real number: at x = +∞ the maximum is +∞, and at
    x = -∞ it is -(-∞) = +∞ as well. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The strict comparison of two extended reals, as a one-bit word, is 1 exactly when x < y. -/
theorem cmp_olt_eq_one (x y : EReal) : Ideal.cmp .olt x y = 1#1 ↔ x < y := by
  unfold Ideal.cmp
  by_cases hxy : x < y <;> simp [hxy]

/-- One entry: if the test |x| < +∞ (against the word 0x7F800000) is true at an entry, that entry is real. -/
theorem real_of_entry_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32, cmp_olt_eq_one] at h'
  exact real_of_abs_lt_top x h'

/-- ALL ENTRIES FINITE. For an array x of any shape s: if the "and"-fold (a reduction over all axes,
    into a result with a single index) of the entrywise tests |x i| < +∞ is the bit 1, then every
    entry of x is a real number. The constant +∞ may be broadcast from any shape c along any axes,
    and the fold may start from any initial array. -/
theorem real_of_allFinite {s t u c : Shape} {axes : List (Fin s.rank)} [Subsingleton t.Idx]
    (x : FVec Ideal s .f32) (dims : Fin c.rank → Fin s.rank) (hb : c.BroadcastsInDim s dims)
    (init : IVec u 1) (hr : s.ReducesTo axes t) (hu : 0 < u.numel) (j : t.Idx)
    (h : Host.reduce IntOp.andi
          (cmpf .olt (Host.absf x) (broadcastInDim s dims hb (constant (F := Ideal) c .f32 0x7F800000#32)))
          init hr hu j = 1#1) :
    ∀ i, ∃ r : ℝ, x i = (r : EReal) := fun i =>
  real_of_entry_test (x i) (Host.reduce_andi_all _ init hr hu j h i)

end Cert.LibAllFinite
-- ==== Proof.PreFinite.lean ====
/-
  Finiteness of the float arguments, read back from the precondition.

  The precondition is the conjunction, over the eleven single-precision arguments, of the test
  "every entry x i has |x i| < +∞": each test is the "and"-fold, from the value true, of the entrywise
  comparisons of |x| with the word 0x7F800000 (which denotes +∞), and the eleven one-bit results are
  joined by "and". If the whole conjunction is the bit 1, each of the eleven folds is the bit 1, so by
  the all-entries-finite lemma every entry of every float argument is a real number. The integer
  argument takes no part in the test.
-/
import proofs.«182147_j31610959298973_2_alg».proof.Pre_finite_inputs
import proofs.«182147_j31610959298973_2_alg».proof.Proof.LibAllFinite
import Idealize.ShloMosaic.Lib.ReduceAll

noncomputable section

namespace Cert.PreFinite

open Idealize.ShloMosaic Cert.Pre_finite_inputs

/-- The shape with no axes has exactly one index. -/
instance subsingleton_S_Idx : Subsingleton S_.Idx := ⟨fun a b => funext fun d => d.elim0⟩

variable [Cert.Pre_finite_inputs.Facts]

/-- EVERY FLOAT ARGUMENT IS REAL. If the finiteness test of the twelve arguments is the bit 1, every
    entry of each of the eleven single-precision arguments is a real number. -/
theorem reals_of_pre (a0 : FVec Ideal S50000x128 .f32) (a1 : IVec S2x800000 32) (a2 : FVec Ideal S128x128 .f32)
    (a3 a4 a5 : FVec Ideal S128 .f32) (a6 : FVec Ideal S128x128 .f32) (a7 a8 a9 : FVec Ideal S128 .f32)
    (a10 : FVec Ideal S128x32 .f32) (a11 : FVec Ideal S32 .f32)
    (h : Cert.Pre_finite_inputs.fn (F := Ideal) a0 a1 a2 a3 a4 a5 a6 a7 a8 a9 a10 a11 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal))
      ∧ (∀ i, ∃ r : ℝ, a10 i = (r : EReal)) ∧ (∀ i, ∃ r : ℝ, a11 i = (r : EReal)) := by
  -- the test's value at the one index of the axis-free shape
  have e := congrFun h (fun d => d.elim0)
  -- open the test: a left-nested "and" of eleven folds
  dsimp only [fn, fn_part1, fn_part2, fn_part3, andi] at e
  simp only [IntOp.andi_eq_one] at e
  obtain ⟨⟨⟨⟨⟨⟨⟨⟨⟨⟨h0, h2⟩, h3⟩, h4⟩, h5⟩, h6⟩, h7⟩, h8⟩, h9⟩, h10⟩, h11⟩ := e
  exact ⟨Cert.LibAllFinite.real_of_allFinite a0 _ _ _ _ _ _ h0,
    Cert.LibAllFinite.real_of_allFinite a2 _ _ _ _ _ _ h2,
    Cert.LibAllFinite.real_of_allFinite a3 _ _ _ _ _ _ h3,
    Cert.LibAllFinite.real_of_allFinite a4 _ _ _ _ _ _ h4,
    Cert.LibAllFinite.real_of_allFinite a5 _ _ _ _ _ _ h5,
    Cert.LibAllFinite.real_of_allFinite a6 _ _ _ _ _ _ h6,
    Cert.LibAllFinite.real_of_allFinite a7 _ _ _ _ _ _ h7,
    Cert.LibAllFinite.real_of_allFinite a8 _ _ _ _ _ _ h8,
    Cert.LibAllFinite.real_of_allFinite a9 _ _ _ _ _ _ h9,
    Cert.LibAllFinite.real_of_allFinite a10 _ _ _ _ _ _ h10,
    Cert.LibAllFinite.real_of_allFinite a11 _ _ _ _ _ _ h11⟩

end Cert.PreFinite

end
-- ==== Proof.lean ====
/- The three-layer graph convolution. The three frames: each program's every fair run ends, nothing faulting, with its arguments
   as launched (the kernel's by its run over the six pipelined regions, the reference's by its run over the host operations).
   The preservation claim is trivial: the idealized kernel is the kernel's own text. And at exact arithmetic, with every float
   argument finite, the idealized kernel's result and the reference's are the same function of the arguments: the row-wise
   log-softmax of the third layer's convolution. -/
import proofs.«182147_j31610959298973_2_alg».proof.Defs
import proofs.«182147_j31610959298973_2_alg».proof.Proof.Gen.Kernel
import proofs.«182147_j31610959298973_2_alg».proof.Proof.Gen.Kernel.Skeleton
import proofs.«182147_j31610959298973_2_alg».proof.Proof.Gen.Kernel.Launch
import proofs.«182147_j31610959298973_2_alg».proof.Proof.Gen.Kernel.Regions
import proofs.«182147_j31610959298973_2_alg».proof.Proof.Gen.Kernel.Points
import proofs.«182147_j31610959298973_2_alg».proof.Proof.Gen.KernelIdeal
import proofs.«182147_j31610959298973_2_alg».proof.Proof.Gen.KernelIdeal.Skeleton
import proofs.«182147_j31610959298973_2_alg».proof.Proof.Gen.KernelIdeal.Launch
import proofs.«182147_j31610959298973_2_alg».proof.Proof.Gen.KernelIdeal.Regions
import proofs.«182147_j31610959298973_2_alg».proof.Proof.Gen.KernelIdeal.Points
import proofs.«182147_j31610959298973_2_alg».proof.Proof.Gen.ReferenceIdeal
import proofs.«182147_j31610959298973_2_alg».proof.Proof.Gen.Pre_finite_inputs
import Idealize.ShloMosaic.Adequacy
import Idealize.ShloMosaic.Init
import proofs.«182147_j31610959298973_2_alg».proof.Proof.K.Run
import proofs.«182147_j31610959298973_2_alg».proof.Proof.K.Carry
import proofs.«182147_j31610959298973_2_alg».proof.Proof.KI.Run
import proofs.«182147_j31610959298973_2_alg».proof.Proof.KI.Carry
import proofs.«182147_j31610959298973_2_alg».proof.Proof.KI.Stages
import proofs.«182147_j31610959298973_2_alg».proof.Proof.RefRunHand
import proofs.«182147_j31610959298973_2_alg».proof.Proof.BridgeAll
import proofs.«182147_j31610959298973_2_alg».proof.Proof.PreFinite

noncomputable section

namespace Cert.Proof

open Idealize.ShloMosaic Idealize.ShloMosaic.TcCoe Idealize.SL.Sem

/-- The kernel as printed: its run leaves every unscoped buffer at the last boundary's contents, which at each
    argument are the launch contents. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W12_main_arg0 m ρ c),
     (h c _ (Cert.Kernel.Hand.mem_uc Cert.Kernel.main_arg1 (by decide))).trans (Cert.Kernel.Hand.W12_main_arg1 m ρ c),
     (h c _ (Cert.Kernel.Hand.mem_uc Cert.Kernel.main_arg2 (by decide))).trans (Cert.Kernel.Hand.W12_main_arg2 m ρ c),
     (h c _ (Cert.Kernel.Hand.mem_uc Cert.Kernel.main_arg3 (by decide))).trans (Cert.Kernel.Hand.W12_main_arg3 m ρ c),
     (h c _ (Cert.Kernel.Hand.mem_uc Cert.Kernel.main_arg4 (by decide))).trans (Cert.Kernel.Hand.W12_main_arg4 m ρ c),
     (h c _ (Cert.Kernel.Hand.mem_uc Cert.Kernel.main_arg5 (by decide))).trans (Cert.Kernel.Hand.W12_main_arg5 m ρ c),
     (h c _ (Cert.Kernel.Hand.mem_uc Cert.Kernel.main_arg6 (by decide))).trans (Cert.Kernel.Hand.W12_main_arg6 m ρ c),
     (h c _ (Cert.Kernel.Hand.mem_uc Cert.Kernel.main_arg7 (by decide))).trans (Cert.Kernel.Hand.W12_main_arg7 m ρ c),
     (h c _ (Cert.Kernel.Hand.mem_uc Cert.Kernel.main_arg8 (by decide))).trans (Cert.Kernel.Hand.W12_main_arg8 m ρ c),
     (h c _ (Cert.Kernel.Hand.mem_uc Cert.Kernel.main_arg9 (by decide))).trans (Cert.Kernel.Hand.W12_main_arg9 m ρ c),
     (h c _ (Cert.Kernel.Hand.mem_uc Cert.Kernel.main_arg10 (by decide))).trans (Cert.Kernel.Hand.W12_main_arg10 m ρ c),
     (h c _ (Cert.Kernel.Hand.mem_uc Cert.Kernel.main_arg11 (by decide))).trans (Cert.Kernel.Hand.W12_main_arg11 m ρ c)⟩)
    (Cert.Kernel.Hand.run_all (F := Bits) m ρ)

/-- The same of the kernel read at exact arithmetic. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W12_main_arg0 m ρ c),
     (h c _ (Cert.KernelIdeal.Hand.mem_uc Cert.KernelIdeal.main_arg1 (by decide))).trans (Cert.KernelIdeal.Hand.W12_main_arg1 m ρ c),
     (h c _ (Cert.KernelIdeal.Hand.mem_uc Cert.KernelIdeal.main_arg2 (by decide))).trans (Cert.KernelIdeal.Hand.W12_main_arg2 m ρ c),
     (h c _ (Cert.KernelIdeal.Hand.mem_uc Cert.KernelIdeal.main_arg3 (by decide))).trans (Cert.KernelIdeal.Hand.W12_main_arg3 m ρ c),
     (h c _ (Cert.KernelIdeal.Hand.mem_uc Cert.KernelIdeal.main_arg4 (by decide))).trans (Cert.KernelIdeal.Hand.W12_main_arg4 m ρ c),
     (h c _ (Cert.KernelIdeal.Hand.mem_uc Cert.KernelIdeal.main_arg5 (by decide))).trans (Cert.KernelIdeal.Hand.W12_main_arg5 m ρ c),
     (h c _ (Cert.KernelIdeal.Hand.mem_uc Cert.KernelIdeal.main_arg6 (by decide))).trans (Cert.KernelIdeal.Hand.W12_main_arg6 m ρ c),
     (h c _ (Cert.KernelIdeal.Hand.mem_uc Cert.KernelIdeal.main_arg7 (by decide))).trans (Cert.KernelIdeal.Hand.W12_main_arg7 m ρ c),
     (h c _ (Cert.KernelIdeal.Hand.mem_uc Cert.KernelIdeal.main_arg8 (by decide))).trans (Cert.KernelIdeal.Hand.W12_main_arg8 m ρ c),
     (h c _ (Cert.KernelIdeal.Hand.mem_uc Cert.KernelIdeal.main_arg9 (by decide))).trans (Cert.KernelIdeal.Hand.W12_main_arg9 m ρ c),
     (h c _ (Cert.KernelIdeal.Hand.mem_uc Cert.KernelIdeal.main_arg10 (by decide))).trans (Cert.KernelIdeal.Hand.W12_main_arg10 m ρ c),
     (h c _ (Cert.KernelIdeal.Hand.mem_uc Cert.KernelIdeal.main_arg11 (by decide))).trans (Cert.KernelIdeal.Hand.W12_main_arg11 m ρ c)⟩)
    (Cert.KernelIdeal.Hand.run_all (F := Ideal) m ρ)

/-- The reference's run keeps its arguments. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- At exact arithmetic the kernel's result array ends at the composition of its stages at the arguments' launch
    contents, the reference's at its own term of arguments that agree; for finite arguments the two are one function. -/
theorem algebraic : Cert.algebraic_KernelIdeal_ReferenceIdeal := by
  intro m ρ m' ρ' hpre hagree
  refine ⟨fun c => Cert.KernelIdeal.Hand.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c =>
      ⟨(h c _ (Cert.KernelIdeal.Hand.mem_uc Cert.KernelIdeal.main_v66 (by decide))).trans (Cert.KernelIdeal.Hand.W12_v66 m ρ c),
       (h c _ (Cert.KernelIdeal.Hand.mem_uc Cert.KernelIdeal.main_arg0 (by decide))).trans (Cert.KernelIdeal.Hand.W12_main_arg0 m ρ c),
       (h c _ (Cert.KernelIdeal.Hand.mem_uc Cert.KernelIdeal.main_arg1 (by decide))).trans (Cert.KernelIdeal.Hand.W12_main_arg1 m ρ c),
       (h c _ (Cert.KernelIdeal.Hand.mem_uc Cert.KernelIdeal.main_arg2 (by decide))).trans (Cert.KernelIdeal.Hand.W12_main_arg2 m ρ c),
       (h c _ (Cert.KernelIdeal.Hand.mem_uc Cert.KernelIdeal.main_arg3 (by decide))).trans (Cert.KernelIdeal.Hand.W12_main_arg3 m ρ c),
       (h c _ (Cert.KernelIdeal.Hand.mem_uc Cert.KernelIdeal.main_arg4 (by decide))).trans (Cert.KernelIdeal.Hand.W12_main_arg4 m ρ c),
       (h c _ (Cert.KernelIdeal.Hand.mem_uc Cert.KernelIdeal.main_arg5 (by decide))).trans (Cert.KernelIdeal.Hand.W12_main_arg5 m ρ c),
       (h c _ (Cert.KernelIdeal.Hand.mem_uc Cert.KernelIdeal.main_arg6 (by decide))).trans (Cert.KernelIdeal.Hand.W12_main_arg6 m ρ c),
       (h c _ (Cert.KernelIdeal.Hand.mem_uc Cert.KernelIdeal.main_arg7 (by decide))).trans (Cert.KernelIdeal.Hand.W12_main_arg7 m ρ c),
       (h c _ (Cert.KernelIdeal.Hand.mem_uc Cert.KernelIdeal.main_arg8 (by decide))).trans (Cert.KernelIdeal.Hand.W12_main_arg8 m ρ c),
       (h c _ (Cert.KernelIdeal.Hand.mem_uc Cert.KernelIdeal.main_arg9 (by decide))).trans (Cert.KernelIdeal.Hand.W12_main_arg9 m ρ c),
       (h c _ (Cert.KernelIdeal.Hand.mem_uc Cert.KernelIdeal.main_arg10 (by decide))).trans (Cert.KernelIdeal.Hand.W12_main_arg10 m ρ c),
       (h c _ (Cert.KernelIdeal.Hand.mem_uc Cert.KernelIdeal.main_arg11 (by decide))).trans (Cert.KernelIdeal.Hand.W12_main_arg11 m ρ c)⟩)
      (Cert.KernelIdeal.Hand.run_all (F := Ideal) m ρ)
  · refine (θ_run Cert.ReferenceIdeal.defs _ _).mono (fun r h c => ⟨(h c).1.trans ?_, (h c).2⟩) (Cert.ReferenceIdeal.RefRun.run (F := Ideal) m' ρ')
    obtain ⟨a0, a1, a2, a3, a4, a5, a6, a7, a8, a9, a10, a11⟩ := hagree c
    rw [a0, a1, a2, a3, a4, a5, a6, a7, a8, a9, a10, a11]
    obtain ⟨h0, h2, h3, h4, h5, h6, h7, h8, h9, h10, h11⟩ := Cert.PreFinite.reals_of_pre _ _ _ _ _ _ _ _ _ _ _ _ (hpre c)
    exact (Cert.Bridge.out_eq_arr _ _ _ _ _ _ _ _ _ _ _ _ h0 h2 h3 h4 h5 h6 h7 h8 h9 h10 h11).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
